-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v117)) (v2 : (c : Dev Cert.KernelIdeal.nD) → Buf (Elt Ideal) ((c.tc : Thread Cert.KernelIdeal.nD Cert.KernelIdeal.τ).loc Cert.KernelIdeal.main_v132_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v117) = v1 c
          ∧ r.2.mem ((c.tc : Thread Cert.KernelIdeal.nD Cert.KernelIdeal.τ).loc Cert.KernelIdeal.main_v132_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S32x64 : Shape := ⟨2, ![32, 64]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg22 : FVec F S2x32 .f32) (main_arg23 : FVec F S2 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S2x32 .f32 := Host.absf main_arg22
  let main_cst_40 : FVec F S_ .f32 := constant S_ .f32 0x7F800000#32
  let main_v105 : FVec F S2x32 .f32 := broadcastInDim S2x32 ![] bcast_S_S2x32 main_cst_40
  let main_v106 : IVec S2x32 1 := cmpf .olt main_v104 main_v105
  let main_c_41 : IVec S_ 1 := constantI S_ 1 1#1
  let main_v107 : IVec S_ 1 := (fun x v => Host.reduce IntOp.andi x v reducesTo_S2x32_S_d0_1 h_S_) main_v106 main_c_41
  let main_v108 : IVec S_ 1 := andi main_v103 main_v107
  let main_v109 : FVec F S2 .f32 := Host.absf main_arg23
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg19 : FVec F S32x64 .f32) (main_arg20 : FVec F S32 .f32) (main_arg21 : FVec F S32 .f32) (main_arg22 : FVec F S2x32 .f32) (main_arg23 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x64 .f32 := Host.absf main_arg19
  let main_cst_34 : FVec F S_ .f32 := constant S_ .f32 0x7F800000#32
  let main_v90 : FVec F S32x64 .f32 := broadcastInDim S32x64 ![] bcast_S_S32x64 main_cst_34
  let main_v91 : IVec S32x64 1 := cmpf .olt main_v89 main_v90
  let main_c_35 : IVec S_ 1 := constantI S_ 1 1#1
  let main_v92 : IVec S_ 1 := (fun x v => Host.reduce IntOp.andi x v reducesTo_S32x64_S_d0_1 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S64 .f32) (main_arg16 : FVec F S64 .f32) (main_arg17 : FVec F S32x64 .f32) (main_arg18 : FVec F S32 .f32) (main_arg19 : FVec F S32x64 .f32) (main_arg20 : FVec F S32 .f32) (main_arg21 : FVec F S32 .f32) (main_arg22 : FVec F S2x32 .f32) (main_arg23 : FVec F S2 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S32x64 .f32 := Host.absf main_arg17
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S32x64 .f32) (main_arg20 : FVec F S32 .f32) (main_arg21 : FVec F S32 .f32) (main_arg22 : FVec F S2x32 .f32) (main_arg23 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128 .f32) (main_arg9 : FVec F S128x64 .f32) (main_arg10 : FVec F S128 .f32) (main_arg11 : FVec F S128 .f32) (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S32x64 .f32) (main_arg20 : FVec F S32 .f32) (main_arg21 : FVec F S32 .f32) (main_arg22 : FVec F S2x32 .f32) (main_arg23 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S64 .f32) (main_arg6 : FVec F S64 .f32) (main_arg7 : FVec F S128x64 .f32) (main_arg8 : FVec F S128 .f32) (main_arg9 : FVec F S128x64 .f32) (main_arg10 : FVec F S128 .f32) (main_arg11 : FVec F S128 .f32) (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S32x64 .f32) (main_arg20 : FVec F S32 .f32) (main_arg21 : FVec F S32 .f32) (main_arg22 : FVec F S2x32 .f32) (main_arg23 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S64 .f32) (main_arg6 : FVec F S64 .f32) (main_arg7 : FVec F S128x64 .f32) (main_arg8 : FVec F S128 .f32) (main_arg9 : FVec F S128x64 .f32) (main_arg10 : FVec F S128 .f32) (main_arg11 : FVec F S128 .f32) (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S32x64 .f32) (main_arg20 : FVec F S32 .f32) (main_arg21 : FVec F S32 .f32) (main_arg22 : FVec F S2x32 .f32) (main_arg23 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x128 : Shape := ⟨2, ![1, 128]⟩
abbrev S1x32 : Shape := ⟨2, ![1, 32]⟩
abbrev S100000x32 : Shape := ⟨2, ![100000, 32]⟩
abbrev S10000x32 : Shape := ⟨2, ![10000, 32]⟩
abbrev S64x32 : Shape := ⟨2, ![64, 32]⟩
abbrev S1x2 : Shape := ⟨2, ![1, 2]⟩
abbrev S100000x2 : Shape := ⟨2, ![100000, 2]⟩
abbrev S10000x2 : Shape := ⟨2, ![10000, 2]⟩
abbrev S32x2 : Shape := ⟨2, ![32, 2]⟩

abbrev nBuf : Space → Nat
  | .hbm => 195
  | .vmem => 82
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64x128, .f32⟩
  | 5 => ⟨S64, .f32⟩
  | 6 => ⟨S64, .f32⟩
  | 7 => ⟨S128x64, .f32⟩
  | 8 => ⟨S128, .f32⟩
  | 9 => ⟨S128x64, .f32⟩
  | 10 => ⟨S128, .f32⟩
  | 11 => ⟨S128, .f32⟩
  | 12 => ⟨S64x128, .f32⟩
  | 13 => ⟨S64, .f32⟩
  | 14 => ⟨S64x128, .f32⟩
  | 15 => ⟨S64, .f32⟩
  | 16 => ⟨S64, .f32⟩
  | 17 => ⟨S32x64, .f32⟩
  | 18 => ⟨S32, .f32⟩
  | 19 => ⟨S32x64, .f32⟩
  | 20 => ⟨S32, .f32⟩
  | 21 => ⟨S32, .f32⟩
  | 22 => ⟨S2x32, .f32⟩
  | 23 => ⟨S2, .f32⟩
  | 24 => ⟨S1x1600000, .i32⟩
  | 25 => ⟨S1600000, .i32⟩
  | 26 => ⟨S1x1600000, .i32⟩
  | 27 => ⟨S1600000, .i32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x1, .f32⟩
  | 54 => ⟨S100000x128, .f32⟩
  | 55 => ⟨S100000x128, .f32⟩
  | 56 => ⟨S1x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S1x64, .f32⟩
  | 74 => ⟨S1x64, .f32⟩
  | 75 => ⟨S1x64, .f32⟩
  | 76 => ⟨S100000x64, .f32⟩
  | 77 => ⟨S100000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S100000x1, .f32⟩
  | 92 => ⟨S100000x64, .f32⟩
  | 93 => ⟨S100000x64, .f32⟩
  | 94 => ⟨S1x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S100000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S100000x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S1x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S1x64, .f32⟩
  | 22 => ⟨S1x64, .f32⟩
  | 23 => ⟨S1x64, .f32⟩
  | 24 => ⟨S100000x64, .f32⟩
  | 25 => ⟨S100000x64, .f32⟩
  | 26 => ⟨S100000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x1, .f32⟩
  | 41 => ⟨S100000x64, .f32⟩
  | 42 => ⟨S100000x64, .f32⟩
  | 43 => ⟨S1x32, .f32⟩
  | 44 => ⟨S100000x32, .f32⟩
  | 45 => ⟨S_, .f32⟩
  | 46 => ⟨S32, .f32⟩
  | 47 => ⟨S_, .f32⟩
  | 48 => ⟨S32, .f32⟩
  | 49 => ⟨S32, .f32⟩
  | 50 => ⟨S1x32, .f32⟩
  | 51 => ⟨S100000x32, .f32⟩
  | 52 => ⟨S100000x32, .f32⟩
  | 53 => ⟨S100000x32, .f32⟩
  | 54 => ⟨S_, .f32⟩
  | 55 => ⟨S32, .f32⟩
  | 56 => ⟨S_, .f32⟩
  | 57 => ⟨S32, .f32⟩
  | 58 => ⟨S32, .f32⟩
  | 59 => ⟨S1x32, .f32⟩
  | 60 => ⟨S1x32, .f32⟩
  | 61 => ⟨S1x32, .f32⟩
  | 62 => ⟨S1x32, .f32⟩
  | 63 => ⟨S100000x32, .f32⟩
  | 64 => ⟨S100000x32, .f32⟩
  | 65 => ⟨S1x2, .f32⟩
  | 66 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S64x128, .f32⟩
  | .local _ .vmem, ⟨5, _⟩ => ⟨S1x64, .f32⟩
  | .local _ .vmem, ⟨6, _⟩ => ⟨S64x128, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S128x64, .f32⟩
  | .local _ .vmem, ⟨24, _⟩ => ⟨S1x128, .f32⟩
  | .local _ .vmem, ⟨25, _⟩ => ⟨S128x64, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S64x128, .f32⟩
  | .local _ .vmem, ⟨43, _⟩ => ⟨S1x64, .f32⟩
  | .local _ .vmem, ⟨44, _⟩ => ⟨S64x128, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S32x64, .f32⟩
  | .local _ .vmem, ⟨62, _⟩ => ⟨S1x32, .f32⟩
  | .local _ .vmem, ⟨63, _⟩ => ⟨S32x64, .f32⟩
  | .local _ .vmem, ⟨64, _⟩ => ⟨S10000x32, .f32⟩
  | .local _ .vmem, ⟨65, _⟩ => ⟨S10000x32, .f32⟩
  | .local _ .vmem, ⟨66, _⟩ => ⟨S10000x32, .f32⟩
  | .local _ .vmem, ⟨67, _⟩ => ⟨S10000x32, .f32⟩
  | .local _ .vmem, ⟨68, _⟩ => ⟨S1x32, .f32⟩
  | .local _ .vmem, ⟨69, _⟩ => ⟨S1x32, .f32⟩
  | .local _ .vmem, ⟨70, _⟩ => ⟨S1x32, .f32⟩
  | .local _ .vmem, ⟨71, _⟩ => ⟨S1x32, .f32⟩
  | .local _ .vmem, ⟨72, _⟩ => ⟨S10000x32, .f32⟩
  | .local _ .vmem, ⟨73, _⟩ => ⟨S10000x32, .f32⟩
  | .local _ .vmem, ⟨74, _⟩ => ⟨S10000x32, .f32⟩
  | .local _ .vmem, ⟨75, _⟩ => ⟨S10000x32, .f32⟩
  | .local _ .vmem, ⟨76, _⟩ => ⟨S10000x32, .f32⟩
  | .local _ .vmem, ⟨77, _⟩ => ⟨S10000x32, .f32⟩
  | .local _ .vmem, ⟨78, _⟩ => ⟨S2x32, .f32⟩
  | .local _ .vmem, ⟨79, _⟩ => ⟨S1x2, .f32⟩
  | .local _ .vmem, ⟨80, _⟩ => ⟨S10000x2, .f32⟩
  | .local _ .vmem, ⟨81, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_5 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41_0 : Ref sig .tc := ⟨.hbm, 76, rfl⟩
abbrev main_v41_1 : Ref sig .tc := ⟨.hbm, 77, rfl⟩
abbrev main_c_9 : Ref sig .tc := ⟨.hbm, 78, rfl⟩
abbrev main_v42 : Ref sig .tc := ⟨.hbm, 79, rfl⟩
abbrev main_v43 : Ref sig .tc := ⟨.hbm, 80, rfl⟩
abbrev main_c_10 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_cst_13 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71_0 : Ref sig .tc := ⟨.hbm, 114, rfl⟩
abbrev main_v71_1 : Ref sig .tc := ⟨.hbm, 115, rfl⟩
abbrev main_c_16 : Ref sig .tc := ⟨.hbm, 116, rfl⟩
abbrev main_v72 : Ref sig .tc := ⟨.hbm, 117, rfl⟩
abbrev main_v73 : Ref sig .tc := ⟨.hbm, 118, rfl⟩
abbrev main_c_17 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_18 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_19 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_21 : Ref sig .tc := ⟨.hbm, 143, rfl⟩
abbrev main_v94 : Ref sig .tc := ⟨.hbm, 144, rfl⟩
abbrev main_cst_22 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101_0 : Ref sig .tc := ⟨.hbm, 152, rfl⟩
abbrev main_v101_1 : Ref sig .tc := ⟨.hbm, 153, rfl⟩
abbrev main_v102 : Ref sig .tc := ⟨.hbm, 154, rfl⟩
abbrev main_c_23 : Ref sig .tc := ⟨.hbm, 155, rfl⟩
abbrev main_v103 : Ref sig .tc := ⟨.hbm, 156, rfl⟩
abbrev main_v104 : Ref sig .tc := ⟨.hbm, 157, rfl⟩
abbrev main_c_24 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_25 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_26 : Ref sig .tc := ⟨.hbm, 173, rfl⟩
abbrev main_v118 : Ref sig .tc := ⟨.hbm, 174, rfl⟩
abbrev main_cst_27 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_28 : Ref sig .tc := ⟨.hbm, 182, rfl⟩
abbrev main_v125 : Ref sig .tc := ⟨.hbm, 183, rfl⟩
abbrev main_cst_29 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132_0 : Ref sig .tc := ⟨.hbm, 191, rfl⟩
abbrev main_v132_1 : Ref sig .tc := ⟨.hbm, 192, rfl⟩
abbrev main_v133 : Ref sig .tc := ⟨.hbm, 193, rfl⟩
abbrev main_v134 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_stg6_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg5_1 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg3_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem5_1 : DmaSem sig := 54
abbrev cc5_sem6_0 : DmaSem sig := 55
abbrev cc5_sem6_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem5_1 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem3_1 : DmaSem sig := 81

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S10000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x2 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x2 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S32_S1x32 : S32.ShapeCasts S1x32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  reducesTo_S100000x32_S32_d0 : S100000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  shapeCasts_S2_S1x2 : S2.ShapeCasts S1x2
  inb_S2x32_S2x32_0_0 : ∀ a, (![0, 0] : Fin 2 → Nat) a + S2x32.size a ≤ S2x32.size a
  h_S2x32 : 0 < S2x32.numel
  transposes_S2x32_p1_0_S32x2 : S2x32.Transposes [1, 0] S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  dot_S10000x64_S64x32_S10000x32_1_0_0_1_n_n_wf : DotDims.WF S10000x64 S64x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x64.size a ≤ S32x64.size a
  hwx6_2 : ∀ i : grid6.Coords, EltTy.bits .f32 = 32 ∨ (Rect.block (s := S32x64) S32x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x64.size a ≤ S32x64.size a
  hwx6_4 : ∀ i : grid6.Coords, EltTy.bits .f32 = 32 ∨ (Rect.block (s := S32x64) S32x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x32.size a ≤ S100000x32.size a
  hwx6_5 : ∀ i : grid6.Coords, EltTy.bits .f32 = 32 ∨ (Rect.block (s := S100000x32) S10000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x32.size a ≤ S100000x32.size a
  hwx7_5 : ∀ i : grid7.Coords, EltTy.bits .f32 = 32 ∨ (Rect.block (s := S100000x32) S10000x32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x32.size a ≤ S100000x32.size a
  hwx7_6 : ∀ i : grid7.Coords, EltTy.bits .f32 = 32 ∨ (Rect.block (s := S100000x32) S10000x32.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2x32.size a ≤ S2x32.size a
  hwx8_1 : ∀ i : grid8.Coords, EltTy.bits .f32 = 32 ∨ (Rect.block (s := S2x32) S2x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x2.size a ≤ S1x2.size a
  hwx8_2 : ∀ i : grid8.Coords, EltTy.bits .f32 = 32 ∨ (Rect.block (s := S1x2) S1x2.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x2.size a ≤ S100000x2.size a
  hwx8_3 : ∀ i : grid8.Coords, EltTy.bits .f32 = 32 ∨ (Rect.block (s := S100000x2) S10000x2.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41_0) S10000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v41_1) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41_1) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71_0) S10000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v71_1) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v71_1) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S64x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v86) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101_0) S10000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v101_1) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v102) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg17) S32x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg19) S32x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v117) S10000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v117) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v128) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v129) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v130) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v131) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v132_0) S10000x32.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v132_1) S10000x32.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v132_1) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg22) S2x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v133) S1x2.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v134) S10000x2.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩
abbrev S64x32 : Shape := ⟨2, ![64, 32]⟩
abbrev S100000x32 : Shape := ⟨2, ![100000, 32]⟩
abbrev S1x32 : Shape := ⟨2, ![1, 32]⟩
abbrev S32x2 : Shape := ⟨2, ![32, 2]⟩
abbrev S100000x2 : Shape := ⟨2, ![100000, 2]⟩
abbrev S1x2 : Shape := ⟨2, ![1, 2]⟩

abbrev nBuf : Space → Nat
  | .hbm => 346
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64x128, .f32⟩
  | 5 => ⟨S64, .f32⟩
  | 6 => ⟨S64, .f32⟩
  | 7 => ⟨S128x64, .f32⟩
  | 8 => ⟨S128, .f32⟩
  | 9 => ⟨S128x64, .f32⟩
  | 10 => ⟨S128, .f32⟩
  | 11 => ⟨S128, .f32⟩
  | 12 => ⟨S64x128, .f32⟩
  | 13 => ⟨S64, .f32⟩
  | 14 => ⟨S64x128, .f32⟩
  | 15 => ⟨S64, .f32⟩
  | 16 => ⟨S64, .f32⟩
  | 17 => ⟨S32x64, .f32⟩
  | 18 => ⟨S32, .f32⟩
  | 19 => ⟨S32x64, .f32⟩
  | 20 => ⟨S32, .f32⟩
  | 21 => ⟨S32, .f32⟩
  | 22 => ⟨S2x32, .f32⟩
  | 23 => ⟨S2, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S_, .f32⟩
  | 42 => ⟨S1600000, .f32⟩
  | 43 => ⟨S_, .f32⟩
  | 44 => ⟨S100000, .f32⟩
  | 45 => ⟨S1600000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S128x64, .f32⟩
  | 54 => ⟨S100000x64, .f32⟩
  | 55 => ⟨S1x64, .f32⟩
  | 56 => ⟨S100000x64, .f32⟩
  | 57 => ⟨S100000x64, .f32⟩
  | 58 => ⟨S128x64, .f32⟩
  | 59 => ⟨S100000x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S100000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .i1⟩
  | 94 => ⟨S_, .f32⟩
  | 95 => ⟨S100000x64, .f32⟩
  | 96 => ⟨S100000x64, .i1⟩
  | 97 => ⟨S_, .f32⟩
  | 98 => ⟨S_, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S_, .f32⟩
  | 120 => ⟨S1600000, .f32⟩
  | 121 => ⟨S_, .f32⟩
  | 122 => ⟨S100000, .f32⟩
  | 123 => ⟨S1600000x1, .i32⟩
  | 124 => ⟨S100000, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000x1, .f32⟩
  | 1 => ⟨S100000x64, .f32⟩
  | 2 => ⟨S100000x64, .f32⟩
  | 3 => ⟨S64x128, .f32⟩
  | 4 => ⟨S100000x128, .f32⟩
  | 5 => ⟨S1x128, .f32⟩
  | 6 => ⟨S100000x128, .f32⟩
  | 7 => ⟨S100000x128, .f32⟩
  | 8 => ⟨S64x128, .f32⟩
  | 9 => ⟨S100000x128, .f32⟩
  | 10 => ⟨S100000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S100000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S128, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .i1⟩
  | 44 => ⟨S_, .f32⟩
  | 45 => ⟨S100000x128, .f32⟩
  | 46 => ⟨S100000x128, .i1⟩
  | 47 => ⟨S_, .f32⟩
  | 48 => ⟨S_, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S128x64, .f32⟩
  | 82 => ⟨S100000x64, .f32⟩
  | 83 => ⟨S1x64, .f32⟩
  | 84 => ⟨S100000x64, .f32⟩
  | 85 => ⟨S100000x64, .f32⟩
  | 86 => ⟨S128x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .i1⟩
  | 122 => ⟨S_, .f32⟩
  | 123 => ⟨S100000x64, .f32⟩
  | 124 => ⟨S100000x64, .i1⟩
  | 125 => ⟨S_, .f32⟩
  | 126 => ⟨S_, .f32⟩
  | 127 => ⟨S100000x64, .f32⟩
  | _ => ⟨S100000x128, .f32⟩

abbrev hbmTy0_2 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S100000x64, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x64, .f32⟩
  | 31 => ⟨S100000x64, .f32⟩
  | 32 => ⟨S64x32, .f32⟩
  | 33 => ⟨S100000x32, .f32⟩
  | 34 => ⟨S1x32, .f32⟩
  | 35 => ⟨S100000x32, .f32⟩
  | 36 => ⟨S100000x32, .f32⟩
  | 37 => ⟨S64x32, .f32⟩
  | 38 => ⟨S100000x32, .f32⟩
  | 39 => ⟨S100000x32, .f32⟩
  | 40 => ⟨S_, .f32⟩
  | 41 => ⟨S32, .f32⟩
  | 42 => ⟨S_, .f32⟩
  | 43 => ⟨S32, .f32⟩
  | 44 => ⟨S32, .f32⟩
  | 45 => ⟨S1x32, .f32⟩
  | 46 => ⟨S100000x32, .f32⟩
  | 47 => ⟨S100000x32, .f32⟩
  | 48 => ⟨S100000x32, .f32⟩
  | 49 => ⟨S_, .f32⟩
  | 50 => ⟨S32, .f32⟩
  | 51 => ⟨S_, .f32⟩
  | 52 => ⟨S32, .f32⟩
  | 53 => ⟨S32, .f32⟩
  | 54 => ⟨S1x32, .f32⟩
  | 55 => ⟨S100000x32, .f32⟩
  | 56 => ⟨S100000x32, .f32⟩
  | 57 => ⟨S_, .f32⟩
  | 58 => ⟨S32, .f32⟩
  | 59 => ⟨S32, .f32⟩
  | 60 => ⟨S32, .f32⟩
  | 61 => ⟨S1x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .i1⟩
  | 73 => ⟨S_, .f32⟩
  | 74 => ⟨S100000x32, .f32⟩
  | 75 => ⟨S100000x32, .i1⟩
  | 76 => ⟨S_, .f32⟩
  | 77 => ⟨S_, .f32⟩
  | 78 => ⟨S100000x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x32, .f32⟩
  | 85 => ⟨S32x2, .f32⟩
  | 86 => ⟨S100000x2, .f32⟩
  | 87 => ⟨S1x2, .f32⟩
  | 88 => ⟨S100000x2, .f32⟩
  | 89 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_cst_0 : Ref sig .tc := ⟨.hbm, 94, rfl⟩
abbrev main_call0_v2 : Ref sig .tc := ⟨.hbm, 95, rfl⟩
abbrev main_call0_v3 : Ref sig .tc := ⟨.hbm, 96, rfl⟩
abbrev main_call0_cst_1 : Ref sig .tc := ⟨.hbm, 97, rfl⟩
abbrev main_call0_call0_v0 : Ref sig .tc := ⟨.hbm, 98, rfl⟩
abbrev main_call0_call0_v1 : Ref sig .tc := ⟨.hbm, 99, rfl⟩
abbrev main_call0_v4 : Ref sig .tc := ⟨.hbm, 100, rfl⟩
abbrev main_call0_v5 : Ref sig .tc := ⟨.hbm, 101, rfl⟩
abbrev main_call0_cst_2 : Ref sig .tc := ⟨.hbm, 102, rfl⟩
abbrev main_call0_v6 : Ref sig .tc := ⟨.hbm, 103, rfl⟩
abbrev main_call0_v7 : Ref sig .tc := ⟨.hbm, 104, rfl⟩
abbrev main_v56 : Ref sig .tc := ⟨.hbm, 105, rfl⟩
abbrev main_c_9 : Ref sig .tc := ⟨.hbm, 106, rfl⟩
abbrev main_v57 : Ref sig .tc := ⟨.hbm, 107, rfl⟩
abbrev main_v58 : Ref sig .tc := ⟨.hbm, 108, rfl⟩
abbrev main_c_10 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_11 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_12 : Ref sig .tc := ⟨.hbm, 119, rfl⟩
abbrev main_v67 : Ref sig .tc := ⟨.hbm, 120, rfl⟩
abbrev main_cst_13 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_14 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_15 : Ref sig .tc := ⟨.hbm, 139, rfl⟩
abbrev main_v84 : Ref sig .tc := ⟨.hbm, 140, rfl⟩
abbrev main_cst_16 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_17 : Ref sig .tc := ⟨.hbm, 148, rfl⟩
abbrev main_v91 : Ref sig .tc := ⟨.hbm, 149, rfl⟩
abbrev main_cst_18 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_19 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call1_cst : Ref sig .tc := ⟨.hbm, 169, rfl⟩
abbrev main_call1_v0 : Ref sig .tc := ⟨.hbm, 170, rfl⟩
abbrev main_call1_v1 : Ref sig .tc := ⟨.hbm, 171, rfl⟩
abbrev main_call1_cst_0 : Ref sig .tc := ⟨.hbm, 172, rfl⟩
abbrev main_call1_v2 : Ref sig .tc := ⟨.hbm, 173, rfl⟩
abbrev main_call1_v3 : Ref sig .tc := ⟨.hbm, 174, rfl⟩
abbrev main_call1_cst_1 : Ref sig .tc := ⟨.hbm, 175, rfl⟩
abbrev main_call1_call0_v0 : Ref sig .tc := ⟨.hbm, 176, rfl⟩
abbrev main_call1_call0_v1 : Ref sig .tc := ⟨.hbm, 177, rfl⟩
abbrev main_call1_v4 : Ref sig .tc := ⟨.hbm, 178, rfl⟩
abbrev main_call1_v5 : Ref sig .tc := ⟨.hbm, 179, rfl⟩
abbrev main_call1_cst_2 : Ref sig .tc := ⟨.hbm, 180, rfl⟩
abbrev main_call1_v6 : Ref sig .tc := ⟨.hbm, 181, rfl⟩
abbrev main_call1_v7 : Ref sig .tc := ⟨.hbm, 182, rfl⟩
abbrev main_v109 : Ref sig .tc := ⟨.hbm, 183, rfl⟩
abbrev main_c_20 : Ref sig .tc := ⟨.hbm, 184, rfl⟩
abbrev main_v110 : Ref sig .tc := ⟨.hbm, 185, rfl⟩
abbrev main_v111 : Ref sig .tc := ⟨.hbm, 186, rfl⟩
abbrev main_c_21 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_22 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_cst_23 : Ref sig .tc := ⟨.hbm, 197, rfl⟩
abbrev main_v120 : Ref sig .tc := ⟨.hbm, 198, rfl⟩
abbrev main_cst_24 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_cst_25 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_26 : Ref sig .tc := ⟨.hbm, 217, rfl⟩
abbrev main_v137 : Ref sig .tc := ⟨.hbm, 218, rfl⟩
abbrev main_cst_27 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_28 : Ref sig .tc := ⟨.hbm, 226, rfl⟩
abbrev main_v144 : Ref sig .tc := ⟨.hbm, 227, rfl⟩
abbrev main_cst_29 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_cst_30 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_call2_cst : Ref sig .tc := ⟨.hbm, 247, rfl⟩
abbrev main_call2_v0 : Ref sig .tc := ⟨.hbm, 248, rfl⟩
abbrev main_call2_v1 : Ref sig .tc := ⟨.hbm, 249, rfl⟩
abbrev main_call2_cst_0 : Ref sig .tc := ⟨.hbm, 250, rfl⟩
abbrev main_call2_v2 : Ref sig .tc := ⟨.hbm, 251, rfl⟩
abbrev main_call2_v3 : Ref sig .tc := ⟨.hbm, 252, rfl⟩
abbrev main_call2_cst_1 : Ref sig .tc := ⟨.hbm, 253, rfl⟩
abbrev main_call2_call0_v0 : Ref sig .tc := ⟨.hbm, 254, rfl⟩
abbrev main_call2_call0_v1 : Ref sig .tc := ⟨.hbm, 255, rfl⟩
abbrev main_call2_v4 : Ref sig .tc := ⟨.hbm, 256, rfl⟩
abbrev main_call2_v5 : Ref sig .tc := ⟨.hbm, 257, rfl⟩
abbrev main_call2_cst_2 : Ref sig .tc := ⟨.hbm, 258, rfl⟩
abbrev main_call2_v6 : Ref sig .tc := ⟨.hbm, 259, rfl⟩
abbrev main_call2_v7 : Ref sig .tc := ⟨.hbm, 260, rfl⟩
abbrev main_v162 : Ref sig .tc := ⟨.hbm, 261, rfl⟩
abbrev main_v163 : Ref sig .tc := ⟨.hbm, 262, rfl⟩
abbrev main_c_31 : Ref sig .tc := ⟨.hbm, 263, rfl⟩
abbrev main_v164 : Ref sig .tc := ⟨.hbm, 264, rfl⟩
abbrev main_v165 : Ref sig .tc := ⟨.hbm, 265, rfl⟩
abbrev main_c_32 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_cst_33 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_cst_34 : Ref sig .tc := ⟨.hbm, 276, rfl⟩
abbrev main_v174 : Ref sig .tc := ⟨.hbm, 277, rfl⟩
abbrev main_cst_35 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_cst_36 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_cst_37 : Ref sig .tc := ⟨.hbm, 296, rfl⟩
abbrev main_v191 : Ref sig .tc := ⟨.hbm, 297, rfl⟩
abbrev main_cst_38 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_cst_39 : Ref sig .tc := ⟨.hbm, 305, rfl⟩
abbrev main_v198 : Ref sig .tc := ⟨.hbm, 306, rfl⟩
abbrev main_cst_40 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_cst_41 : Ref sig .tc := ⟨.hbm, 313, rfl⟩
abbrev main_v204 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩
abbrev main_call3_cst : Ref sig .tc := ⟨.hbm, 326, rfl⟩
abbrev main_call3_v0 : Ref sig .tc := ⟨.hbm, 327, rfl⟩
abbrev main_call3_v1 : Ref sig .tc := ⟨.hbm, 328, rfl⟩
abbrev main_call3_cst_0 : Ref sig .tc := ⟨.hbm, 329, rfl⟩
abbrev main_call3_v2 : Ref sig .tc := ⟨.hbm, 330, rfl⟩
abbrev main_call3_v3 : Ref sig .tc := ⟨.hbm, 331, rfl⟩
abbrev main_call3_cst_1 : Ref sig .tc := ⟨.hbm, 332, rfl⟩
abbrev main_call3_call0_v0 : Ref sig .tc := ⟨.hbm, 333, rfl⟩
abbrev main_call3_call0_v1 : Ref sig .tc := ⟨.hbm, 334, rfl⟩
abbrev main_call3_v4 : Ref sig .tc := ⟨.hbm, 335, rfl⟩
abbrev main_call3_v5 : Ref sig .tc := ⟨.hbm, 336, rfl⟩
abbrev main_call3_cst_2 : Ref sig .tc := ⟨.hbm, 337, rfl⟩
abbrev main_call3_v6 : Ref sig .tc := ⟨.hbm, 338, rfl⟩
abbrev main_call3_v7 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S_S100000x32 : S_.BroadcastsInDim S100000x32 (![] : Fin 0 → Fin S100000x32.rank)
  transposes_S2x32_S32x2_1_0 : S2x32.Transposes [1, 0] S32x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KernelRun.lean ====
/-
  The idealized kernel's run with every buffer named.  The program is nine pipelined regions among stretches of
  host operations; the generated frame certificate folds the buffer contents boundary by boundary (W0 the launch
  memory, W1 after the first stretch, W2 after the first region, ... W18 after the last region) and proves that every
  weakly fair execution terminates without a fault.  Its stated post keeps only the arguments; here the same run is
  stated with the post it actually establishes: every unscoped buffer of every TensorCore ends at the last
  boundary's contents W18.  The value of the results is then a matter of reading W18 back through the fold.
-/
import proofs.«150843_j12429635355189_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's main terminates, nothing faulting, with every unscoped
    buffer of every core at the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- The same run read at the TensorCore references that are not scoped: the buffer of b ends at W18. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W18 m ρ c (Proc.devRef .tc b)) :=
  (θ_run defs _ _).mono (fun r h c b hb => h c _ (mem_uc b hb)) (run_all m ρ)

end Cert.KernelIdeal.KernelRun

end
-- ==== Proof.KFinal.lean ====
/-
  The idealized kernel's run in the form the equivalence claim asks for: its three results end at the last boundary's
  contents, its twenty-four arguments end as launched.
-/
import proofs.«150843_j12429635355189_1_alg».proof.Proof.KernelRun

set_option maxRecDepth 16384

noncomputable section

namespace Cert.KernelIdeal.KFinal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Every weakly fair execution of the idealized kernel terminates without a fault; the logits, the last layer's
    affine output and its normalised output end at the fold's last boundary, and the arguments are unchanged. -/
theorem run : θ_run defs (onTc (τ := τ) (main (F := F))) ⟨m, fun _ => 0, ρ⟩ (fun r => ∀ c : Dev nD,
      r.2.mem ((c.tc : Thread nD τ).loc main_v134) = W18 m ρ c (Proc.devRef .tc main_v134)
      ∧ r.2.mem ((c.tc : Thread nD τ).loc main_v117) = W18 m ρ c (Proc.devRef .tc main_v117)
      ∧ r.2.mem ((c.tc : Thread nD τ).loc main_v132_0) = W18 m ρ c (Proc.devRef .tc main_v132_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨h c main_v134 (by decide), h c main_v117 (by decide), h c main_v132_0 (by decide),
     (h c main_arg0 (by decide)).trans (W18_main_arg0 m ρ c),
     (h c main_arg1 (by decide)).trans (W18_main_arg1 m ρ c),
     (h c main_arg2 (by decide)).trans (W18_main_arg2 m ρ c),
     (h c main_arg3 (by decide)).trans (W18_main_arg3 m ρ c),
     (h c main_arg4 (by decide)).trans (W18_main_arg4 m ρ c),
     (h c main_arg5 (by decide)).trans (W18_main_arg5 m ρ c),
     (h c main_arg6 (by decide)).trans (W18_main_arg6 m ρ c),
     (h c main_arg7 (by decide)).trans (W18_main_arg7 m ρ c),
     (h c main_arg8 (by decide)).trans (W18_main_arg8 m ρ c),
     (h c main_arg9 (by decide)).trans (W18_main_arg9 m ρ c),
     (h c main_arg10 (by decide)).trans (W18_main_arg10 m ρ c),
     (h c main_arg11 (by decide)).trans (W18_main_arg11 m ρ c),
     (h c main_arg12 (by decide)).trans (W18_main_arg12 m ρ c),
     (h c main_arg13 (by decide)).trans (W18_main_arg13 m ρ c),
     (h c main_arg14 (by decide)).trans (W18_main_arg14 m ρ c),
     (h c main_arg15 (by decide)).trans (W18_main_arg15 m ρ c),
     (h c main_arg16 (by decide)).trans (W18_main_arg16 m ρ c),
     (h c main_arg17 (by decide)).trans (W18_main_arg17 m ρ c),
     (h c main_arg18 (by decide)).trans (W18_main_arg18 m ρ c),
     (h c main_arg19 (by decide)).trans (W18_main_arg19 m ρ c),
     (h c main_arg20 (by decide)).trans (W18_main_arg20 m ρ c),
     (h c main_arg21 (by decide)).trans (W18_main_arg21 m ρ c),
     (h c main_arg22 (by decide)).trans (W18_main_arg22 m ρ c),
     (h c main_arg23 (by decide)).trans (W18_main_arg23 m ρ c)⟩) (Cert.KernelIdeal.KernelRun.run_at m ρ)

end Cert.KernelIdeal.KFinal

end
-- ==== Proof.RefTerms.lean ====
/-
  The reference's operations, named layer by layer, at the ideal instance (every float an extended real).

  A layer of the network takes the node features h (one row per node), sums over every node's in-neighbours the
  rows of h (a gather along the edge sources followed by a scatter-add along the edge targets), divides by the
  in-degree clipped below at one, applies the affine map agg · Wlᵀ + bl + h · Wrᵀ, normalises every column by its
  mean and variance over the nodes, and applies the exponential linear unit.  Each definition below is one such
  piece, spelled with exactly the host operations of the reference program, so that the reference's run unfolds to
  them and nothing in them is ever evaluated.  aggK is the one piece that is the kernel program's spelling and not the
  reference's: it multiplies by the reciprocal of the clipped in-degree where the reference divides by it.
-/
import proofs.«150843_j12429635355189_1_alg».proof.ReferenceIdeal
import Idealize.ShloMosaic.PureOps.Ideal

noncomputable section

namespace Cert.ReferenceIdeal.Terms

open Cert.ReferenceIdeal Idealize.ShloMosaic

variable [Cert.ReferenceIdeal.Facts]
open Cert.ReferenceIdeal.Facts₀ Cert.ReferenceIdeal.Facts

/-- The edge sources: row 0 of the edge list. -/
def srcV (ei : IVec S2x1600000 32) : IVec S1600000 32 :=
  shapeCast S1600000 (extractStridedSlice S1x1600000 ![0, 0] ei slices_S2x1600000_S1x1600000_0_0) shapeCasts_S1x1600000_S1600000

/-- The edge targets: row 1 of the edge list. -/
def dstV (ei : IVec S2x1600000 32) : IVec S1600000 32 :=
  shapeCast S1600000 (extractStridedSlice S1x1600000 ![1, 0] ei slices_S2x1600000_S1x1600000_1_0) shapeCasts_S1x1600000_S1600000

/-- The gather's start indices: a negative source counts from the end. -/
def gidx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The scatter's indices: the targets as a column. -/
def sidx (dst : IVec S1600000 32) : IVec S1600000x1 32 :=
  broadcastInDim S1600000x1 ![0] bcast_S1600000_S1600000x1_0 dst

/-- The all-ones vector over the nodes. -/
def onesN : FVec Ideal S100000 .f32 := broadcastInDim S100000 ![] bcast_S_S100000 (constant (F := Ideal) S_ .f32 0x3F800000#32)

/-- The in-degree of every node: a one for every edge, added at its target. -/
def degV (dst : IVec S1600000 32) : FVec Ideal S100000 .f32 :=
  Host.scatterAdd scatter_S100000_S1600000x1_S1600000_n_0_0_1
    (broadcastInDim S100000 ![] bcast_S_S100000 (constant (F := Ideal) S_ .f32 0x00000000#32)) (sidx dst)
    (broadcastInDim S1600000 ![] bcast_S_S1600000 (constant (F := Ideal) S_ .f32 0x3F800000#32))

/-- The in-degree clipped below at one. -/
def clipdeg (dst : IVec S1600000 32) : FVec Ideal S100000 .f32 := maximumf (degV dst) onesN

/-- The reciprocal of the clipped in-degree. -/
def invdeg (dst : IVec S1600000 32) : FVec Ideal S100000 .f32 := Host.divf onesN (clipdeg dst)

/-- The neighbourhood sums of an array of width 128: every edge sends its source row to its target row. -/
def sum128 (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (sidx dst)
    (Host.gather gather_S100000x128_S1600000x1_S1600000x128_1_0_n_n_0_1_1128 h (gidx src))

/-- The mean over the neighbourhood as the kernel's program computes it: the sums times the reciprocal clipped in-degree. -/
def aggK128 (h : FVec Ideal S100000x128 .f32) (src dst : IVec S1600000 32) : FVec Ideal S100000x128 .f32 :=
  mulf (sum128 h src dst)
    (broadcastInDim S100000x128 ![0, 1] bcast_S100000x1_S100000x128_0_1 (broadcastInDim S100000x1 ![0] bcast_S100000_S100000x1_0 (invdeg dst)))

/-- The mean over the neighbourhood as the reference computes it: the sums divided by the clipped in-degree. -/
def aggR128 (h : FVec Ideal S100000x128 .f32) (src dst : IVec S1600000 32) : FVec Ideal S100000x128 .f32 :=
  Host.divf (sum128 h src dst)
    (broadcastInDim S100000x128 ![0, 1] bcast_S100000x1_S100000x128_0_1 (broadcastInDim S100000x1 ![0] bcast_S100000_S100000x1_0 (clipdeg dst)))

/-- The neighbourhood sums of an array of width 64: every edge sends its source row to its target row. -/
def sum64 (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (sidx dst)
    (Host.gather gather_S100000x64_S1600000x1_S1600000x64_1_0_n_n_0_1_164 h (gidx src))

/-- The mean over the neighbourhood as the kernel's program computes it: the sums times the reciprocal clipped in-degree. -/
def aggK64 (h : FVec Ideal S100000x64 .f32) (src dst : IVec S1600000 32) : FVec Ideal S100000x64 .f32 :=
  mulf (sum64 h src dst)
    (broadcastInDim S100000x64 ![0, 1] bcast_S100000x1_S100000x64_0_1 (broadcastInDim S100000x1 ![0] bcast_S100000_S100000x1_0 (invdeg dst)))

/-- The mean over the neighbourhood as the reference computes it: the sums divided by the clipped in-degree. -/
def aggR64 (h : FVec Ideal S100000x64 .f32) (src dst : IVec S1600000 32) : FVec Ideal S100000x64 .f32 :=
  Host.divf (sum64 h src dst)
    (broadcastInDim S100000x64 ![0, 1] bcast_S100000x1_S100000x64_0_1 (broadcastInDim S100000x1 ![0] bcast_S100000_S100000x1_0 (clipdeg dst)))

/-- The layer's affine map from width 128 to width 64: agg · Wlᵀ + bl + x · Wrᵀ, in the reference's order. -/
def lin128_64 (x agg : FVec Ideal S100000x128 .f32) (Wl : FVec Ideal S64x128 .f32) (bl : FVec Ideal S64 .f32)
    (Wr : FVec Ideal S64x128 .f32) : FVec Ideal S100000x64 .f32 :=
  addf (addf (Host.dotGeneral dot_S100000x128_S128x64_S100000x64_1_0_0_1_n_n none agg (transpose S128x64 [1, 0] Wl transposes_S64x128_S128x64_1_0))
          (broadcastInDim S100000x64 ![0, 1] bcast_S1x64_S100000x64_0_1 (broadcastInDim S1x64 ![1] bcast_S64_S1x64_1 bl)))
    (Host.dotGeneral dot_S100000x128_S128x64_S100000x64_1_0_0_1_n_n none x (transpose S128x64 [1, 0] Wr transposes_S64x128_S128x64_1_0))

/-- The layer's affine map from width 64 to width 128: agg · Wlᵀ + bl + x · Wrᵀ, in the reference's order. -/
def lin64_128 (x agg : FVec Ideal S100000x64 .f32) (Wl : FVec Ideal S128x64 .f32) (bl : FVec Ideal S128 .f32)
    (Wr : FVec Ideal S128x64 .f32) : FVec Ideal S100000x128 .f32 :=
  addf (addf (Host.dotGeneral dot_S100000x64_S64x128_S100000x128_1_0_0_1_n_n none agg (transpose S64x128 [1, 0] Wl transposes_S128x64_S64x128_1_0))
          (broadcastInDim S100000x128 ![0, 1] bcast_S1x128_S100000x128_0_1 (broadcastInDim S1x128 ![1] bcast_S128_S1x128_1 bl)))
    (Host.dotGeneral dot_S100000x64_S64x128_S100000x128_1_0_0_1_n_n none x (transpose S64x128 [1, 0] Wr transposes_S128x64_S64x128_1_0))

/-- The layer's affine map from width 64 to width 32: agg · Wlᵀ + bl + x · Wrᵀ, in the reference's order. -/
def lin64_32 (x agg : FVec Ideal S100000x64 .f32) (Wl : FVec Ideal S32x64 .f32) (bl : FVec Ideal S32 .f32)
    (Wr : FVec Ideal S32x64 .f32) : FVec Ideal S100000x32 .f32 :=
  addf (addf (Host.dotGeneral dot_S100000x64_S64x32_S100000x32_1_0_0_1_n_n none agg (transpose S64x32 [1, 0] Wl transposes_S32x64_S64x32_1_0))
          (broadcastInDim S100000x32 ![0, 1] bcast_S1x32_S100000x32_0_1 (broadcastInDim S1x32 ![1] bcast_S32_S1x32_1 bl)))
    (Host.dotGeneral dot_S100000x64_S64x32_S100000x32_1_0_0_1_n_n none x (transpose S64x32 [1, 0] Wr transposes_S32x64_S64x32_1_0))

/-- A vector of width 64 laid along every row. -/
def row64 (v : FVec Ideal S64 .f32) : FVec Ideal S100000x64 .f32 :=
  broadcastInDim S100000x64 ![0, 1] bcast_S1x64_S100000x64_0_1 (broadcastInDim S1x64 ![1] bcast_S64_S1x64_1 v)

/-- The column means of an array of width 64. -/
def mu64 (h : FVec Ideal S100000x64 .f32) : FVec Ideal S64 .f32 :=
  Host.divf (Host.reduceAdd h (constant (F := Ideal) S_ .f32 0x00000000#32) reducesTo_S100000x64_S64_d0 h_S_) (broadcastInDim S64 ![] bcast_S_S64 (constant (F := Ideal) S_ .f32 0x47C35000#32))

/-- The array centred by its column means. -/
def cen64 (h : FVec Ideal S100000x64 .f32) : FVec Ideal S100000x64 .f32 := subf h (row64 (mu64 h))

/-- The (biased) column variances. -/
def var64 (h : FVec Ideal S100000x64 .f32) : FVec Ideal S64 .f32 :=
  Host.divf (Host.reduceAdd (mulf (cen64 h) (cen64 h)) (constant (F := Ideal) S_ .f32 0x00000000#32) reducesTo_S100000x64_S64_d0 h_S_) (broadcastInDim S64 ![] bcast_S_S64 (constant (F := Ideal) S_ .f32 0x47C35000#32))

/-- The reciprocal standard deviations, stabilised. -/
def rstd64 (h : FVec Ideal S100000x64 .f32) : FVec Ideal S64 .f32 :=
  Host.rsqrt (addf (var64 h) (broadcastInDim S64 ![] bcast_S_S64 (constant (F := Ideal) S_ .f32 0x3727C5AC#32)))

/-- Batch normalisation with learned scale g and shift be. -/
def bn64 (h : FVec Ideal S100000x64 .f32) (g be : FVec Ideal S64 .f32) : FVec Ideal S100000x64 .f32 :=
  addf (mulf (mulf (cen64 h) (row64 (rstd64 h))) (row64 g)) (row64 be)

/-- The exponential linear unit as the reference spells it: a guarded exponent, a scale by one, a selection. -/
def elu64 (x : FVec Ideal S100000x64 .f32) : FVec Ideal S100000x64 .f32 :=
  select (cmpf .ogt x (broadcastInDim S100000x64 ![] bcast_S_S100000x64 (constant (F := Ideal) S_ .f32 0x00000000#32))) x
    (mulf (broadcastInDim S100000x64 ![] bcast_S_S100000x64 (constant (F := Ideal) S_ .f32 0x3F800000#32))
      (Host.expm1 (select (cmpf .ogt x (broadcastInDim S100000x64 ![] bcast_S_S100000x64 (constant (F := Ideal) S_ .f32 0x00000000#32)))
        (broadcastInDim S100000x64 ![] bcast_S_S100000x64 (constant (F := Ideal) S_ .f32 0x00000000#32)) x)))

/-- A vector of width 128 laid along every row. -/
def row128 (v : FVec Ideal S128 .f32) : FVec Ideal S100000x128 .f32 :=
  broadcastInDim S100000x128 ![0, 1] bcast_S1x128_S100000x128_0_1 (broadcastInDim S1x128 ![1] bcast_S128_S1x128_1 v)

/-- The column means of an array of width 128. -/
def mu128 (h : FVec Ideal S100000x128 .f32) : FVec Ideal S128 .f32 :=
  Host.divf (Host.reduceAdd h (constant (F := Ideal) S_ .f32 0x00000000#32) reducesTo_S100000x128_S128_d0 h_S_) (broadcastInDim S128 ![] bcast_S_S128 (constant (F := Ideal) S_ .f32 0x47C35000#32))

/-- The array centred by its column means. -/
def cen128 (h : FVec Ideal S100000x128 .f32) : FVec Ideal S100000x128 .f32 := subf h (row128 (mu128 h))

/-- The (biased) column variances. -/
def var128 (h : FVec Ideal S100000x128 .f32) : FVec Ideal S128 .f32 :=
  Host.divf (Host.reduceAdd (mulf (cen128 h) (cen128 h)) (constant (F := Ideal) S_ .f32 0x00000000#32) reducesTo_S100000x128_S128_d0 h_S_) (broadcastInDim S128 ![] bcast_S_S128 (constant (F := Ideal) S_ .f32 0x47C35000#32))

/-- The reciprocal standard deviations, stabilised. -/
def rstd128 (h : FVec Ideal S100000x128 .f32) : FVec Ideal S128 .f32 :=
  Host.rsqrt (addf (var128 h) (broadcastInDim S128 ![] bcast_S_S128 (constant (F := Ideal) S_ .f32 0x3727C5AC#32)))

/-- Batch normalisation with learned scale g and shift be. -/
def bn128 (h : FVec Ideal S100000x128 .f32) (g be : FVec Ideal S128 .f32) : FVec Ideal S100000x128 .f32 :=
  addf (mulf (mulf (cen128 h) (row128 (rstd128 h))) (row128 g)) (row128 be)

/-- The exponential linear unit as the reference spells it: a guarded exponent, a scale by one, a selection. -/
def elu128 (x : FVec Ideal S100000x128 .f32) : FVec Ideal S100000x128 .f32 :=
  select (cmpf .ogt x (broadcastInDim S100000x128 ![] bcast_S_S100000x128 (constant (F := Ideal) S_ .f32 0x00000000#32))) x
    (mulf (broadcastInDim S100000x128 ![] bcast_S_S100000x128 (constant (F := Ideal) S_ .f32 0x3F800000#32))
      (Host.expm1 (select (cmpf .ogt x (broadcastInDim S100000x128 ![] bcast_S_S100000x128 (constant (F := Ideal) S_ .f32 0x00000000#32)))
        (broadcastInDim S100000x128 ![] bcast_S_S100000x128 (constant (F := Ideal) S_ .f32 0x00000000#32)) x)))

/-- A vector of width 32 laid along every row. -/
def row32 (v : FVec Ideal S32 .f32) : FVec Ideal S100000x32 .f32 :=
  broadcastInDim S100000x32 ![0, 1] bcast_S1x32_S100000x32_0_1 (broadcastInDim S1x32 ![1] bcast_S32_S1x32_1 v)

/-- The column means of an array of width 32. -/
def mu32 (h : FVec Ideal S100000x32 .f32) : FVec Ideal S32 .f32 :=
  Host.divf (Host.reduceAdd h (constant (F := Ideal) S_ .f32 0x00000000#32) reducesTo_S100000x32_S32_d0 h_S_) (broadcastInDim S32 ![] bcast_S_S32 (constant (F := Ideal) S_ .f32 0x47C35000#32))

/-- The array centred by its column means. -/
def cen32 (h : FVec Ideal S100000x32 .f32) : FVec Ideal S100000x32 .f32 := subf h (row32 (mu32 h))

/-- The (biased) column variances. -/
def var32 (h : FVec Ideal S100000x32 .f32) : FVec Ideal S32 .f32 :=
  Host.divf (Host.reduceAdd (mulf (cen32 h) (cen32 h)) (constant (F := Ideal) S_ .f32 0x00000000#32) reducesTo_S100000x32_S32_d0 h_S_) (broadcastInDim S32 ![] bcast_S_S32 (constant (F := Ideal) S_ .f32 0x47C35000#32))

/-- The reciprocal standard deviations, stabilised. -/
def rstd32 (h : FVec Ideal S100000x32 .f32) : FVec Ideal S32 .f32 :=
  Host.rsqrt (addf (var32 h) (broadcastInDim S32 ![] bcast_S_S32 (constant (F := Ideal) S_ .f32 0x3727C5AC#32)))

/-- Batch normalisation with learned scale g and shift be. -/
def bn32 (h : FVec Ideal S100000x32 .f32) (g be : FVec Ideal S32 .f32) : FVec Ideal S100000x32 .f32 :=
  addf (mulf (mulf (cen32 h) (row32 (rstd32 h))) (row32 g)) (row32 be)

/-- The exponential linear unit as the reference spells it: a guarded exponent, a scale by one, a selection. -/
def elu32 (x : FVec Ideal S100000x32 .f32) : FVec Ideal S100000x32 .f32 :=
  select (cmpf .ogt x (broadcastInDim S100000x32 ![] bcast_S_S100000x32 (constant (F := Ideal) S_ .f32 0x00000000#32))) x
    (mulf (broadcastInDim S100000x32 ![] bcast_S_S100000x32 (constant (F := Ideal) S_ .f32 0x3F800000#32))
      (Host.expm1 (select (cmpf .ogt x (broadcastInDim S100000x32 ![] bcast_S_S100000x32 (constant (F := Ideal) S_ .f32 0x00000000#32)))
        (broadcastInDim S100000x32 ![] bcast_S_S100000x32 (constant (F := Ideal) S_ .f32 0x00000000#32)) x)))

/-- The classifier: h · Wcᵀ + bc. -/
def dense (h : FVec Ideal S100000x32 .f32) (Wc : FVec Ideal S2x32 .f32) (bc : FVec Ideal S2 .f32) : FVec Ideal S100000x2 .f32 :=
  addf (Host.dotGeneral dot_S100000x32_S32x2_S100000x2_1_0_0_1_n_n none h (transpose S32x2 [1, 0] Wc transposes_S2x32_S32x2_1_0))
    (broadcastInDim S100000x2 ![0, 1] bcast_S1x2_S100000x2_0_1 (broadcastInDim S1x2 ![1] bcast_S2_S1x2_1 bc))

end Cert.ReferenceIdeal.Terms

end
-- ==== Proof.KChain.lean ====
/- The idealized kernel program's host-side bookkeeping, boundary by boundary: what each host stretch between two kernel
   regions leaves in the buffers the next region reads, and that the buffers carried across stretches and regions
   (the edge sources and targets, the reciprocal clipped in-degree, the arguments, each layer's output) are unchanged.
   A host stretch changes only the buffers its operations write; a region changes only its output windows' arrays. -/
import proofs.«150843_j12429635355189_1_alg».proof.Proof.Gen.KernelIdeal.Frame
import proofs.«150843_j12429635355189_1_alg».proof.Proof.Gen.ReferenceIdeal
import proofs.«150843_j12429635355189_1_alg».proof.Proof.RefTerms
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.ShloMosaic.StableHlo Idealize.SL.Sem
open Cert.ReferenceIdeal.Terms

variable (m : (ℓ : Loc nD τ sig) → Buf (Elt Ideal) ℓ) (ρ : Dev nD → PrngReg)

/-! ## A host stretch leaves every buffer it does not write -/

/-- The buffers that host stretch 0 writes. -/
abbrev hostOps0_W : List (Ref sig .tc) :=
  [ main_v0, main_v1, main_v2, main_v3, main_cst, main_v4, main_cst_0, main_v5, main_v6, main_v7,
    main_cst_1, main_v8, main_v9, main_cst_2, main_v10, main_v11, main_c, main_v12, main_v13, main_c_3,
    main_v14, main_v15, main_v16, main_v17, main_v18, main_cst_4, main_v19, main_v20, main_v21, main_v22,
    main_v23, main_v24, main_v25 ]
theorem hostOps0_writes : (hostOps0 : List (HloOp τ sig (Elt Ideal))).Forall fun op => op.writes ⊆ (hostOps0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 0 leaves a buffer it does not write as it was. -/
theorem host0_keep (c : Dev nD) (r : Ref sig .tc) (h : r ∉ hostOps0_W) :
    W1 m ρ c (Proc.devRef .tc r) = W0 m ρ c (Proc.devRef .tc r) :=
  after_of_writes_sub hostOps0 _ hostOps0_writes h

/-- The buffers that host stretch 1 writes. -/
abbrev hostOps1_W : List (Ref sig .tc) :=
  [ main_cst_5, main_v27, main_cst_6, main_v28, main_v29, main_v30, main_v31, main_v32, main_v33, main_cst_7,
    main_v34, main_cst_8, main_v35, main_v36, main_v37, main_v38, main_v39, main_v40 ]
theorem hostOps1_writes : (hostOps1 : List (HloOp τ sig (Elt Ideal))).Forall fun op => op.writes ⊆ (hostOps1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 1 leaves a buffer it does not write as it was. -/
theorem host1_keep (c : Dev nD) (r : Ref sig .tc) (h : r ∉ hostOps1_W) :
    W3 m ρ c (Proc.devRef .tc r) = W2 m ρ c (Proc.devRef .tc r) :=
  after_of_writes_sub hostOps1 _ hostOps1_writes h

/-- The buffers that host stretch 2 writes. -/
abbrev hostOps2_W : List (Ref sig .tc) :=
  [ main_c_9, main_v42, main_v43, main_c_10, main_v44, main_v45, main_v46, main_v47, main_v48, main_cst_11,
    main_v49, main_v50, main_v51, main_v52, main_v53, main_v54, main_v55 ]
theorem hostOps2_writes : (hostOps2 : List (HloOp τ sig (Elt Ideal))).Forall fun op => op.writes ⊆ (hostOps2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 2 leaves a buffer it does not write as it was. -/
theorem host2_keep (c : Dev nD) (r : Ref sig .tc) (h : r ∉ hostOps2_W) :
    W5 m ρ c (Proc.devRef .tc r) = W4 m ρ c (Proc.devRef .tc r) :=
  after_of_writes_sub hostOps2 _ hostOps2_writes h

/-- The buffers that host stretch 3 writes. -/
abbrev hostOps3_W : List (Ref sig .tc) :=
  [ main_cst_12, main_v57, main_cst_13, main_v58, main_v59, main_v60, main_v61, main_v62, main_v63, main_cst_14,
    main_v64, main_cst_15, main_v65, main_v66, main_v67, main_v68, main_v69, main_v70 ]
theorem hostOps3_writes : (hostOps3 : List (HloOp τ sig (Elt Ideal))).Forall fun op => op.writes ⊆ (hostOps3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 3 leaves a buffer it does not write as it was. -/
theorem host3_keep (c : Dev nD) (r : Ref sig .tc) (h : r ∉ hostOps3_W) :
    W7 m ρ c (Proc.devRef .tc r) = W6 m ρ c (Proc.devRef .tc r) :=
  after_of_writes_sub hostOps3 _ hostOps3_writes h

/-- The buffers that host stretch 4 writes. -/
abbrev hostOps4_W : List (Ref sig .tc) :=
  [ main_c_16, main_v72, main_v73, main_c_17, main_v74, main_v75, main_v76, main_v77, main_v78, main_cst_18,
    main_v79, main_v80, main_v81, main_v82, main_v83, main_v84, main_v85 ]
theorem hostOps4_writes : (hostOps4 : List (HloOp τ sig (Elt Ideal))).Forall fun op => op.writes ⊆ (hostOps4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 4 leaves a buffer it does not write as it was. -/
theorem host4_keep (c : Dev nD) (r : Ref sig .tc) (h : r ∉ hostOps4_W) :
    W9 m ρ c (Proc.devRef .tc r) = W8 m ρ c (Proc.devRef .tc r) :=
  after_of_writes_sub hostOps4 _ hostOps4_writes h

/-- The buffers that host stretch 5 writes. -/
abbrev hostOps5_W : List (Ref sig .tc) :=
  [ main_cst_19, main_v87, main_cst_20, main_v88, main_v89, main_v90, main_v91, main_v92, main_v93, main_cst_21,
    main_v94, main_cst_22, main_v95, main_v96, main_v97, main_v98, main_v99, main_v100 ]
theorem hostOps5_writes : (hostOps5 : List (HloOp τ sig (Elt Ideal))).Forall fun op => op.writes ⊆ (hostOps5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 5 leaves a buffer it does not write as it was. -/
theorem host5_keep (c : Dev nD) (r : Ref sig .tc) (h : r ∉ hostOps5_W) :
    W11 m ρ c (Proc.devRef .tc r) = W10 m ρ c (Proc.devRef .tc r) :=
  after_of_writes_sub hostOps5 _ hostOps5_writes h

/-- The buffers that host stretch 6 writes. -/
abbrev hostOps6_W : List (Ref sig .tc) :=
  [ main_v102, main_c_23, main_v103, main_v104, main_c_24, main_v105, main_v106, main_v107, main_v108, main_v109,
    main_cst_25, main_v110, main_v111, main_v112, main_v113, main_v114, main_v115, main_v116 ]
theorem hostOps6_writes : (hostOps6 : List (HloOp τ sig (Elt Ideal))).Forall fun op => op.writes ⊆ (hostOps6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 6 leaves a buffer it does not write as it was. -/
theorem host6_keep (c : Dev nD) (r : Ref sig .tc) (h : r ∉ hostOps6_W) :
    W13 m ρ c (Proc.devRef .tc r) = W12 m ρ c (Proc.devRef .tc r) :=
  after_of_writes_sub hostOps6 _ hostOps6_writes h

/-- The buffers that host stretch 7 writes. -/
abbrev hostOps7_W : List (Ref sig .tc) :=
  [ main_cst_26, main_v118, main_cst_27, main_v119, main_v120, main_v121, main_v122, main_v123, main_v124, main_cst_28,
    main_v125, main_cst_29, main_v126, main_v127, main_v128, main_v129, main_v130, main_v131 ]
theorem hostOps7_writes : (hostOps7 : List (HloOp τ sig (Elt Ideal))).Forall fun op => op.writes ⊆ (hostOps7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- Host stretch 7 leaves a buffer it does not write as it was. -/
theorem host7_keep (c : Dev nD) (r : Ref sig .tc) (h : r ∉ hostOps7_W) :
    W15 m ρ c (Proc.devRef .tc r) = W14 m ρ c (Proc.devRef .tc r) :=
  after_of_writes_sub hostOps7 _ hostOps7_writes h

/-- The buffers that host stretch 8 writes. -/
abbrev hostOps8_W : List (Ref sig .tc) :=
  [ main_v133 ]
theorem hostOps8_writes : (hostOps8 : List (HloOp τ sig (Elt Ideal))).Forall fun op => op.writes ⊆ (hostOps8_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- Host stretch 8 leaves a buffer it does not write as it was. -/
theorem host8_keep (c : Dev nD) (r : Ref sig .tc) (h : r ∉ hostOps8_W) :
    W17 m ρ c (Proc.devRef .tc r) = W16 m ρ c (Proc.devRef .tc r) :=
  after_of_writes_sub hostOps8 _ hostOps8_writes h

/-! ## A region leaves the array of each of its input windows -/

/-- Region 0 leaves an input window's array as it was. -/
theorem region0_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- Region 1 leaves an input window's array as it was. -/
theorem region1_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- Region 2 leaves an input window's array as it was. -/
theorem region2_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- Region 3 leaves an input window's array as it was. -/
theorem region3_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- Region 4 leaves an input window's array as it was. -/
theorem region4_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- Region 5 leaves an input window's array as it was. -/
theorem region5_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))

/-- Region 6 leaves an input window's array as it was. -/
theorem region6_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))

/-- Region 7 leaves an input window's array as it was. -/
theorem region7_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hin _).trans (A_eq7 (V15 m ρ) c w))

/-- Region 8 leaves an input window's array as it was. -/
theorem region8_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (V17 m ρ) c).arrAt_in w hin _).trans (A_eq8 (V17 m ρ) c w))

/-! ## Stretch 0: the edge sources and targets, the reciprocal clipped in-degree, the first layer's neighbourhood mean and bias row -/

set_option maxHeartbeats 2000000 in
/-- The edge sources. -/
theorem W1_v1 (c : Dev nD) :
    (W1 m ρ c (Proc.devRef .tc main_v1) : IVec S1600000 32)
      = srcV (m ((c : Thread nD τ).loc main_arg1)) := by
  show StableHlo.after hostOps0 (W0 m ρ c) (Proc.devRef .tc main_v1) = _
  after_results_simp
  rfl

set_option maxHeartbeats 2000000 in
/-- The edge targets. -/
theorem W1_v3 (c : Dev nD) :
    (W1 m ρ c (Proc.devRef .tc main_v3) : IVec S1600000 32)
      = dstV (m ((c : Thread nD τ).loc main_arg1)) := by
  show StableHlo.after hostOps0 (W0 m ρ c) (Proc.devRef .tc main_v3) = _
  after_results_simp
  rfl

set_option maxHeartbeats 2000000 in
/-- The reciprocal of the clipped in-degree. -/
theorem W1_v11 (c : Dev nD) :
    (W1 m ρ c (Proc.devRef .tc main_v11) : FVec Ideal S100000 .f32)
      = invdeg (dstV (m ((c : Thread nD τ).loc main_arg1))) := by
  show StableHlo.after hostOps0 (W0 m ρ c) (Proc.devRef .tc main_v11) = _
  after_results_simp
  rfl

set_option maxHeartbeats 2000000 in
/-- The first layer's neighbourhood mean: the sums times the reciprocal clipped in-degree. -/
theorem W1_v24 (c : Dev nD) :
    (W1 m ρ c (Proc.devRef .tc main_v24) : FVec Ideal S100000x128 .f32)
      = aggK128 (m ((c : Thread nD τ).loc main_arg0)) (srcV (m ((c : Thread nD τ).loc main_arg1))) (dstV (m ((c : Thread nD τ).loc main_arg1))) := by
  show StableHlo.after hostOps0 (W0 m ρ c) (Proc.devRef .tc main_v24) = _
  after_results_simp
  rfl

set_option maxHeartbeats 2000000 in
/-- The first layer's bias as a row. -/
theorem W1_v25 (c : Dev nD) :
    (W1 m ρ c (Proc.devRef .tc main_v25) : FVec Ideal S1x64 .f32)
      = shapeCast S1x64 (m ((c : Thread nD τ).loc main_arg3)) shapeCasts_S64_S1x64 := by
  show StableHlo.after hostOps0 (W0 m ρ c) (Proc.devRef .tc main_v25) = _
  after_results_simp
  rfl

theorem W1_arg0 (c : Dev nD) : W1 m ρ c (Proc.devRef .tc main_arg0) = m ((c : Thread nD τ).loc main_arg0) :=
  (host0_keep m ρ c main_arg0 (by decide))

theorem W1_arg2 (c : Dev nD) : W1 m ρ c (Proc.devRef .tc main_arg2) = m ((c : Thread nD τ).loc main_arg2) :=
  (host0_keep m ρ c main_arg2 (by decide))

theorem W1_arg4 (c : Dev nD) : W1 m ρ c (Proc.devRef .tc main_arg4) = m ((c : Thread nD τ).loc main_arg4) :=
  (host0_keep m ρ c main_arg4 (by decide))

/-! ## The edge sources and targets and the reciprocal clipped in-degree, carried to the later layers -/

theorem W4_v1 (c : Dev nD) : (W4 m ρ c (Proc.devRef .tc main_v1) : IVec S1600000 32) = srcV (m ((c : Thread nD τ).loc main_arg1)) :=
  ((W4_of_ne m ρ c main_v1 (by decide)).trans ((host1_keep m ρ c main_v1 (by decide)).trans (W2_of_ne m ρ c main_v1 (by decide)))).trans (W1_v1 m ρ c)

theorem W4_v3 (c : Dev nD) : (W4 m ρ c (Proc.devRef .tc main_v3) : IVec S1600000 32) = dstV (m ((c : Thread nD τ).loc main_arg1)) :=
  ((W4_of_ne m ρ c main_v3 (by decide)).trans ((host1_keep m ρ c main_v3 (by decide)).trans (W2_of_ne m ρ c main_v3 (by decide)))).trans (W1_v3 m ρ c)

theorem W4_v11 (c : Dev nD) : (W4 m ρ c (Proc.devRef .tc main_v11) : FVec Ideal S100000 .f32) = invdeg (dstV (m ((c : Thread nD τ).loc main_arg1))) :=
  ((W4_of_ne m ρ c main_v11 (by decide)).trans ((host1_keep m ρ c main_v11 (by decide)).trans (W2_of_ne m ρ c main_v11 (by decide)))).trans (W1_v11 m ρ c)

theorem W8_v1 (c : Dev nD) : (W8 m ρ c (Proc.devRef .tc main_v1) : IVec S1600000 32) = srcV (m ((c : Thread nD τ).loc main_arg1)) :=
  ((W8_of_ne m ρ c main_v1 (by decide)).trans ((host3_keep m ρ c main_v1 (by decide)).trans ((W6_of_ne m ρ c main_v1 (by decide)).trans ((host2_keep m ρ c main_v1 (by decide)).trans ((W4_of_ne m ρ c main_v1 (by decide)).trans ((host1_keep m ρ c main_v1 (by decide)).trans (W2_of_ne m ρ c main_v1 (by decide)))))))).trans (W1_v1 m ρ c)

theorem W8_v3 (c : Dev nD) : (W8 m ρ c (Proc.devRef .tc main_v3) : IVec S1600000 32) = dstV (m ((c : Thread nD τ).loc main_arg1)) :=
  ((W8_of_ne m ρ c main_v3 (by decide)).trans ((host3_keep m ρ c main_v3 (by decide)).trans ((W6_of_ne m ρ c main_v3 (by decide)).trans ((host2_keep m ρ c main_v3 (by decide)).trans ((W4_of_ne m ρ c main_v3 (by decide)).trans ((host1_keep m ρ c main_v3 (by decide)).trans (W2_of_ne m ρ c main_v3 (by decide)))))))).trans (W1_v3 m ρ c)

theorem W8_v11 (c : Dev nD) : (W8 m ρ c (Proc.devRef .tc main_v11) : FVec Ideal S100000 .f32) = invdeg (dstV (m ((c : Thread nD τ).loc main_arg1))) :=
  ((W8_of_ne m ρ c main_v11 (by decide)).trans ((host3_keep m ρ c main_v11 (by decide)).trans ((W6_of_ne m ρ c main_v11 (by decide)).trans ((host2_keep m ρ c main_v11 (by decide)).trans ((W4_of_ne m ρ c main_v11 (by decide)).trans ((host1_keep m ρ c main_v11 (by decide)).trans (W2_of_ne m ρ c main_v11 (by decide)))))))).trans (W1_v11 m ρ c)

theorem W12_v1 (c : Dev nD) : (W12 m ρ c (Proc.devRef .tc main_v1) : IVec S1600000 32) = srcV (m ((c : Thread nD τ).loc main_arg1)) :=
  ((W12_of_ne m ρ c main_v1 (by decide)).trans ((host5_keep m ρ c main_v1 (by decide)).trans ((W10_of_ne m ρ c main_v1 (by decide)).trans ((host4_keep m ρ c main_v1 (by decide)).trans ((W8_of_ne m ρ c main_v1 (by decide)).trans ((host3_keep m ρ c main_v1 (by decide)).trans ((W6_of_ne m ρ c main_v1 (by decide)).trans ((host2_keep m ρ c main_v1 (by decide)).trans ((W4_of_ne m ρ c main_v1 (by decide)).trans ((host1_keep m ρ c main_v1 (by decide)).trans (W2_of_ne m ρ c main_v1 (by decide)))))))))))).trans (W1_v1 m ρ c)

theorem W12_v3 (c : Dev nD) : (W12 m ρ c (Proc.devRef .tc main_v3) : IVec S1600000 32) = dstV (m ((c : Thread nD τ).loc main_arg1)) :=
  ((W12_of_ne m ρ c main_v3 (by decide)).trans ((host5_keep m ρ c main_v3 (by decide)).trans ((W10_of_ne m ρ c main_v3 (by decide)).trans ((host4_keep m ρ c main_v3 (by decide)).trans ((W8_of_ne m ρ c main_v3 (by decide)).trans ((host3_keep m ρ c main_v3 (by decide)).trans ((W6_of_ne m ρ c main_v3 (by decide)).trans ((host2_keep m ρ c main_v3 (by decide)).trans ((W4_of_ne m ρ c main_v3 (by decide)).trans ((host1_keep m ρ c main_v3 (by decide)).trans (W2_of_ne m ρ c main_v3 (by decide)))))))))))).trans (W1_v3 m ρ c)

theorem W12_v11 (c : Dev nD) : (W12 m ρ c (Proc.devRef .tc main_v11) : FVec Ideal S100000 .f32) = invdeg (dstV (m ((c : Thread nD τ).loc main_arg1))) :=
  ((W12_of_ne m ρ c main_v11 (by decide)).trans ((host5_keep m ρ c main_v11 (by decide)).trans ((W10_of_ne m ρ c main_v11 (by decide)).trans ((host4_keep m ρ c main_v11 (by decide)).trans ((W8_of_ne m ρ c main_v11 (by decide)).trans ((host3_keep m ρ c main_v11 (by decide)).trans ((W6_of_ne m ρ c main_v11 (by decide)).trans ((host2_keep m ρ c main_v11 (by decide)).trans ((W4_of_ne m ρ c main_v11 (by decide)).trans ((host1_keep m ρ c main_v11 (by decide)).trans (W2_of_ne m ρ c main_v11 (by decide)))))))))))).trans (W1_v11 m ρ c)

/-! ## The arguments where they are read: no host operation and no region writes one -/

theorem W2_arg5 (c : Dev nD) : W2 m ρ c (Proc.devRef .tc main_arg5) = m ((c : Thread nD τ).loc main_arg5) :=
  ((W2_of_ne m ρ c main_arg5 (by decide)).trans (host0_keep m ρ c main_arg5 (by decide)))

theorem W2_arg6 (c : Dev nD) : W2 m ρ c (Proc.devRef .tc main_arg6) = m ((c : Thread nD τ).loc main_arg6) :=
  ((W2_of_ne m ρ c main_arg6 (by decide)).trans (host0_keep m ρ c main_arg6 (by decide)))

theorem W4_arg8 (c : Dev nD) : W4 m ρ c (Proc.devRef .tc main_arg8) = m ((c : Thread nD τ).loc main_arg8) :=
  ((W4_of_ne m ρ c main_arg8 (by decide)).trans ((host1_keep m ρ c main_arg8 (by decide)).trans ((W2_of_ne m ρ c main_arg8 (by decide)).trans (host0_keep m ρ c main_arg8 (by decide)))))

theorem W5_arg7 (c : Dev nD) : W5 m ρ c (Proc.devRef .tc main_arg7) = m ((c : Thread nD τ).loc main_arg7) :=
  ((host2_keep m ρ c main_arg7 (by decide)).trans ((W4_of_ne m ρ c main_arg7 (by decide)).trans ((host1_keep m ρ c main_arg7 (by decide)).trans ((W2_of_ne m ρ c main_arg7 (by decide)).trans (host0_keep m ρ c main_arg7 (by decide))))))

theorem W5_arg9 (c : Dev nD) : W5 m ρ c (Proc.devRef .tc main_arg9) = m ((c : Thread nD τ).loc main_arg9) :=
  ((host2_keep m ρ c main_arg9 (by decide)).trans ((W4_of_ne m ρ c main_arg9 (by decide)).trans ((host1_keep m ρ c main_arg9 (by decide)).trans ((W2_of_ne m ρ c main_arg9 (by decide)).trans (host0_keep m ρ c main_arg9 (by decide))))))

theorem W6_arg10 (c : Dev nD) : W6 m ρ c (Proc.devRef .tc main_arg10) = m ((c : Thread nD τ).loc main_arg10) :=
  ((W6_of_ne m ρ c main_arg10 (by decide)).trans ((host2_keep m ρ c main_arg10 (by decide)).trans ((W4_of_ne m ρ c main_arg10 (by decide)).trans ((host1_keep m ρ c main_arg10 (by decide)).trans ((W2_of_ne m ρ c main_arg10 (by decide)).trans (host0_keep m ρ c main_arg10 (by decide)))))))

theorem W6_arg11 (c : Dev nD) : W6 m ρ c (Proc.devRef .tc main_arg11) = m ((c : Thread nD τ).loc main_arg11) :=
  ((W6_of_ne m ρ c main_arg11 (by decide)).trans ((host2_keep m ρ c main_arg11 (by decide)).trans ((W4_of_ne m ρ c main_arg11 (by decide)).trans ((host1_keep m ρ c main_arg11 (by decide)).trans ((W2_of_ne m ρ c main_arg11 (by decide)).trans (host0_keep m ρ c main_arg11 (by decide)))))))

theorem W8_arg13 (c : Dev nD) : W8 m ρ c (Proc.devRef .tc main_arg13) = m ((c : Thread nD τ).loc main_arg13) :=
  ((W8_of_ne m ρ c main_arg13 (by decide)).trans ((host3_keep m ρ c main_arg13 (by decide)).trans ((W6_of_ne m ρ c main_arg13 (by decide)).trans ((host2_keep m ρ c main_arg13 (by decide)).trans ((W4_of_ne m ρ c main_arg13 (by decide)).trans ((host1_keep m ρ c main_arg13 (by decide)).trans ((W2_of_ne m ρ c main_arg13 (by decide)).trans (host0_keep m ρ c main_arg13 (by decide)))))))))

theorem W9_arg12 (c : Dev nD) : W9 m ρ c (Proc.devRef .tc main_arg12) = m ((c : Thread nD τ).loc main_arg12) :=
  ((host4_keep m ρ c main_arg12 (by decide)).trans ((W8_of_ne m ρ c main_arg12 (by decide)).trans ((host3_keep m ρ c main_arg12 (by decide)).trans ((W6_of_ne m ρ c main_arg12 (by decide)).trans ((host2_keep m ρ c main_arg12 (by decide)).trans ((W4_of_ne m ρ c main_arg12 (by decide)).trans ((host1_keep m ρ c main_arg12 (by decide)).trans ((W2_of_ne m ρ c main_arg12 (by decide)).trans (host0_keep m ρ c main_arg12 (by decide))))))))))

theorem W9_arg14 (c : Dev nD) : W9 m ρ c (Proc.devRef .tc main_arg14) = m ((c : Thread nD τ).loc main_arg14) :=
  ((host4_keep m ρ c main_arg14 (by decide)).trans ((W8_of_ne m ρ c main_arg14 (by decide)).trans ((host3_keep m ρ c main_arg14 (by decide)).trans ((W6_of_ne m ρ c main_arg14 (by decide)).trans ((host2_keep m ρ c main_arg14 (by decide)).trans ((W4_of_ne m ρ c main_arg14 (by decide)).trans ((host1_keep m ρ c main_arg14 (by decide)).trans ((W2_of_ne m ρ c main_arg14 (by decide)).trans (host0_keep m ρ c main_arg14 (by decide))))))))))

theorem W10_arg15 (c : Dev nD) : W10 m ρ c (Proc.devRef .tc main_arg15) = m ((c : Thread nD τ).loc main_arg15) :=
  ((W10_of_ne m ρ c main_arg15 (by decide)).trans ((host4_keep m ρ c main_arg15 (by decide)).trans ((W8_of_ne m ρ c main_arg15 (by decide)).trans ((host3_keep m ρ c main_arg15 (by decide)).trans ((W6_of_ne m ρ c main_arg15 (by decide)).trans ((host2_keep m ρ c main_arg15 (by decide)).trans ((W4_of_ne m ρ c main_arg15 (by decide)).trans ((host1_keep m ρ c main_arg15 (by decide)).trans ((W2_of_ne m ρ c main_arg15 (by decide)).trans (host0_keep m ρ c main_arg15 (by decide)))))))))))

theorem W10_arg16 (c : Dev nD) : W10 m ρ c (Proc.devRef .tc main_arg16) = m ((c : Thread nD τ).loc main_arg16) :=
  ((W10_of_ne m ρ c main_arg16 (by decide)).trans ((host4_keep m ρ c main_arg16 (by decide)).trans ((W8_of_ne m ρ c main_arg16 (by decide)).trans ((host3_keep m ρ c main_arg16 (by decide)).trans ((W6_of_ne m ρ c main_arg16 (by decide)).trans ((host2_keep m ρ c main_arg16 (by decide)).trans ((W4_of_ne m ρ c main_arg16 (by decide)).trans ((host1_keep m ρ c main_arg16 (by decide)).trans ((W2_of_ne m ρ c main_arg16 (by decide)).trans (host0_keep m ρ c main_arg16 (by decide)))))))))))

theorem W12_arg18 (c : Dev nD) : W12 m ρ c (Proc.devRef .tc main_arg18) = m ((c : Thread nD τ).loc main_arg18) :=
  ((W12_of_ne m ρ c main_arg18 (by decide)).trans ((host5_keep m ρ c main_arg18 (by decide)).trans ((W10_of_ne m ρ c main_arg18 (by decide)).trans ((host4_keep m ρ c main_arg18 (by decide)).trans ((W8_of_ne m ρ c main_arg18 (by decide)).trans ((host3_keep m ρ c main_arg18 (by decide)).trans ((W6_of_ne m ρ c main_arg18 (by decide)).trans ((host2_keep m ρ c main_arg18 (by decide)).trans ((W4_of_ne m ρ c main_arg18 (by decide)).trans ((host1_keep m ρ c main_arg18 (by decide)).trans ((W2_of_ne m ρ c main_arg18 (by decide)).trans (host0_keep m ρ c main_arg18 (by decide)))))))))))))

theorem W13_arg17 (c : Dev nD) : W13 m ρ c (Proc.devRef .tc main_arg17) = m ((c : Thread nD τ).loc main_arg17) :=
  ((host6_keep m ρ c main_arg17 (by decide)).trans ((W12_of_ne m ρ c main_arg17 (by decide)).trans ((host5_keep m ρ c main_arg17 (by decide)).trans ((W10_of_ne m ρ c main_arg17 (by decide)).trans ((host4_keep m ρ c main_arg17 (by decide)).trans ((W8_of_ne m ρ c main_arg17 (by decide)).trans ((host3_keep m ρ c main_arg17 (by decide)).trans ((W6_of_ne m ρ c main_arg17 (by decide)).trans ((host2_keep m ρ c main_arg17 (by decide)).trans ((W4_of_ne m ρ c main_arg17 (by decide)).trans ((host1_keep m ρ c main_arg17 (by decide)).trans ((W2_of_ne m ρ c main_arg17 (by decide)).trans (host0_keep m ρ c main_arg17 (by decide))))))))))))))

theorem W13_arg19 (c : Dev nD) : W13 m ρ c (Proc.devRef .tc main_arg19) = m ((c : Thread nD τ).loc main_arg19) :=
  ((host6_keep m ρ c main_arg19 (by decide)).trans ((W12_of_ne m ρ c main_arg19 (by decide)).trans ((host5_keep m ρ c main_arg19 (by decide)).trans ((W10_of_ne m ρ c main_arg19 (by decide)).trans ((host4_keep m ρ c main_arg19 (by decide)).trans ((W8_of_ne m ρ c main_arg19 (by decide)).trans ((host3_keep m ρ c main_arg19 (by decide)).trans ((W6_of_ne m ρ c main_arg19 (by decide)).trans ((host2_keep m ρ c main_arg19 (by decide)).trans ((W4_of_ne m ρ c main_arg19 (by decide)).trans ((host1_keep m ρ c main_arg19 (by decide)).trans ((W2_of_ne m ρ c main_arg19 (by decide)).trans (host0_keep m ρ c main_arg19 (by decide))))))))))))))

theorem W14_arg20 (c : Dev nD) : W14 m ρ c (Proc.devRef .tc main_arg20) = m ((c : Thread nD τ).loc main_arg20) :=
  ((W14_of_ne m ρ c main_arg20 (by decide)).trans ((host6_keep m ρ c main_arg20 (by decide)).trans ((W12_of_ne m ρ c main_arg20 (by decide)).trans ((host5_keep m ρ c main_arg20 (by decide)).trans ((W10_of_ne m ρ c main_arg20 (by decide)).trans ((host4_keep m ρ c main_arg20 (by decide)).trans ((W8_of_ne m ρ c main_arg20 (by decide)).trans ((host3_keep m ρ c main_arg20 (by decide)).trans ((W6_of_ne m ρ c main_arg20 (by decide)).trans ((host2_keep m ρ c main_arg20 (by decide)).trans ((W4_of_ne m ρ c main_arg20 (by decide)).trans ((host1_keep m ρ c main_arg20 (by decide)).trans ((W2_of_ne m ρ c main_arg20 (by decide)).trans (host0_keep m ρ c main_arg20 (by decide)))))))))))))))

theorem W14_arg21 (c : Dev nD) : W14 m ρ c (Proc.devRef .tc main_arg21) = m ((c : Thread nD τ).loc main_arg21) :=
  ((W14_of_ne m ρ c main_arg21 (by decide)).trans ((host6_keep m ρ c main_arg21 (by decide)).trans ((W12_of_ne m ρ c main_arg21 (by decide)).trans ((host5_keep m ρ c main_arg21 (by decide)).trans ((W10_of_ne m ρ c main_arg21 (by decide)).trans ((host4_keep m ρ c main_arg21 (by decide)).trans ((W8_of_ne m ρ c main_arg21 (by decide)).trans ((host3_keep m ρ c main_arg21 (by decide)).trans ((W6_of_ne m ρ c main_arg21 (by decide)).trans ((host2_keep m ρ c main_arg21 (by decide)).trans ((W4_of_ne m ρ c main_arg21 (by decide)).trans ((host1_keep m ρ c main_arg21 (by decide)).trans ((W2_of_ne m ρ c main_arg21 (by decide)).trans (host0_keep m ρ c main_arg21 (by decide)))))))))))))))

theorem W16_arg23 (c : Dev nD) : W16 m ρ c (Proc.devRef .tc main_arg23) = m ((c : Thread nD τ).loc main_arg23) :=
  ((W16_of_ne m ρ c main_arg23 (by decide)).trans ((host7_keep m ρ c main_arg23 (by decide)).trans ((W14_of_ne m ρ c main_arg23 (by decide)).trans ((host6_keep m ρ c main_arg23 (by decide)).trans ((W12_of_ne m ρ c main_arg23 (by decide)).trans ((host5_keep m ρ c main_arg23 (by decide)).trans ((W10_of_ne m ρ c main_arg23 (by decide)).trans ((host4_keep m ρ c main_arg23 (by decide)).trans ((W8_of_ne m ρ c main_arg23 (by decide)).trans ((host3_keep m ρ c main_arg23 (by decide)).trans ((W6_of_ne m ρ c main_arg23 (by decide)).trans ((host2_keep m ρ c main_arg23 (by decide)).trans ((W4_of_ne m ρ c main_arg23 (by decide)).trans ((host1_keep m ρ c main_arg23 (by decide)).trans ((W2_of_ne m ρ c main_arg23 (by decide)).trans (host0_keep m ρ c main_arg23 (by decide)))))))))))))))))

theorem W17_arg22 (c : Dev nD) : W17 m ρ c (Proc.devRef .tc main_arg22) = m ((c : Thread nD τ).loc main_arg22) :=
  ((host8_keep m ρ c main_arg22 (by decide)).trans ((W16_of_ne m ρ c main_arg22 (by decide)).trans ((host7_keep m ρ c main_arg22 (by decide)).trans ((W14_of_ne m ρ c main_arg22 (by decide)).trans ((host6_keep m ρ c main_arg22 (by decide)).trans ((W12_of_ne m ρ c main_arg22 (by decide)).trans ((host5_keep m ρ c main_arg22 (by decide)).trans ((W10_of_ne m ρ c main_arg22 (by decide)).trans ((host4_keep m ρ c main_arg22 (by decide)).trans ((W8_of_ne m ρ c main_arg22 (by decide)).trans ((host3_keep m ρ c main_arg22 (by decide)).trans ((W6_of_ne m ρ c main_arg22 (by decide)).trans ((host2_keep m ρ c main_arg22 (by decide)).trans ((W4_of_ne m ρ c main_arg22 (by decide)).trans ((host1_keep m ρ c main_arg22 (by decide)).trans ((W2_of_ne m ρ c main_arg22 (by decide)).trans (host0_keep m ρ c main_arg22 (by decide))))))))))))))))))

/-! ## Each layer's output, carried to where it is read next -/

theorem W3_v26 (c : Dev nD) : W3 m ρ c (Proc.devRef .tc main_v26) = W2 m ρ c (Proc.devRef .tc main_v26) :=
  (host1_keep m ρ c main_v26 (by decide))

theorem W5_v41_1 (c : Dev nD) : W5 m ρ c (Proc.devRef .tc main_v41_1) = W4 m ρ c (Proc.devRef .tc main_v41_1) :=
  (host2_keep m ρ c main_v41_1 (by decide))

theorem W12_v41_1 (c : Dev nD) : W12 m ρ c (Proc.devRef .tc main_v41_1) = W4 m ρ c (Proc.devRef .tc main_v41_1) :=
  ((W12_of_ne m ρ c main_v41_1 (by decide)).trans ((host5_keep m ρ c main_v41_1 (by decide)).trans ((W10_of_ne m ρ c main_v41_1 (by decide)).trans ((host4_keep m ρ c main_v41_1 (by decide)).trans ((W8_of_ne m ρ c main_v41_1 (by decide)).trans ((host3_keep m ρ c main_v41_1 (by decide)).trans ((region2_in m ρ c 0 rfl).trans (host2_keep m ρ c main_v41_1 (by decide)))))))))

theorem W7_v56 (c : Dev nD) : W7 m ρ c (Proc.devRef .tc main_v56) = W6 m ρ c (Proc.devRef .tc main_v56) :=
  (host3_keep m ρ c main_v56 (by decide))

theorem W9_v71_1 (c : Dev nD) : W9 m ρ c (Proc.devRef .tc main_v71_1) = W8 m ρ c (Proc.devRef .tc main_v71_1) :=
  (host4_keep m ρ c main_v71_1 (by decide))

theorem W11_v86 (c : Dev nD) : W11 m ρ c (Proc.devRef .tc main_v86) = W10 m ρ c (Proc.devRef .tc main_v86) :=
  (host5_keep m ρ c main_v86 (by decide))

theorem W15_v117 (c : Dev nD) : W15 m ρ c (Proc.devRef .tc main_v117) = W14 m ρ c (Proc.devRef .tc main_v117) :=
  (host7_keep m ρ c main_v117 (by decide))

theorem W18_v117 (c : Dev nD) : W18 m ρ c (Proc.devRef .tc main_v117) = W14 m ρ c (Proc.devRef .tc main_v117) :=
  ((W18_of_ne m ρ c main_v117 (by decide)).trans ((host8_keep m ρ c main_v117 (by decide)).trans ((region7_in m ρ c 0 rfl).trans (host7_keep m ρ c main_v117 (by decide)))))

theorem W17_v132_1 (c : Dev nD) : W17 m ρ c (Proc.devRef .tc main_v132_1) = W16 m ρ c (Proc.devRef .tc main_v132_1) :=
  (host8_keep m ρ c main_v132_1 (by decide))

theorem W18_v132_0 (c : Dev nD) : W18 m ρ c (Proc.devRef .tc main_v132_0) = W16 m ρ c (Proc.devRef .tc main_v132_0) :=
  ((W18_of_ne m ρ c main_v132_0 (by decide)).trans (host8_keep m ρ c main_v132_0 (by decide)))

/-! ## Stretch 1: the column means and variances of the layer's affine output, and the scale and shift, as rows -/

set_option maxHeartbeats 2000000 in
/-- The column means as a row. -/
theorem W3_v37 (c : Dev nD) :
    (W3 m ρ c (Proc.devRef .tc main_v37) : FVec Ideal S1x64 .f32)
      = shapeCast S1x64 (mu64 (W2 m ρ c (Proc.devRef .tc main_v26) : FVec Ideal S100000x64 .f32)) shapeCasts_S64_S1x64 := by
  show StableHlo.after hostOps1 (W2 m ρ c) (Proc.devRef .tc main_v37) = _
  after_results_simp
  rfl

set_option maxHeartbeats 2000000 in
/-- The column variances as a row. -/
theorem W3_v38 (c : Dev nD) :
    (W3 m ρ c (Proc.devRef .tc main_v38) : FVec Ideal S1x64 .f32)
      = shapeCast S1x64 (var64 (W2 m ρ c (Proc.devRef .tc main_v26) : FVec Ideal S100000x64 .f32)) shapeCasts_S64_S1x64 := by
  show StableHlo.after hostOps1 (W2 m ρ c) (Proc.devRef .tc main_v38) = _
  after_results_simp
  rfl

set_option maxHeartbeats 2000000 in
/-- The scale as a row. -/
theorem W3_v39 (c : Dev nD) :
    (W3 m ρ c (Proc.devRef .tc main_v39) : FVec Ideal S1x64 .f32)
      = shapeCast S1x64 (m ((c : Thread nD τ).loc main_arg5)) shapeCasts_S64_S1x64 := by
  show StableHlo.after hostOps1 (W2 m ρ c) (Proc.devRef .tc main_v39) = _
  after_results_simp
  rw [W2_arg5 m ρ c]
  rfl

set_option maxHeartbeats 2000000 in
/-- The shift as a row. -/
theorem W3_v40 (c : Dev nD) :
    (W3 m ρ c (Proc.devRef .tc main_v40) : FVec Ideal S1x64 .f32)
      = shapeCast S1x64 (m ((c : Thread nD τ).loc main_arg6)) shapeCasts_S64_S1x64 := by
  show StableHlo.after hostOps1 (W2 m ρ c) (Proc.devRef .tc main_v40) = _
  after_results_simp
  rw [W2_arg6 m ρ c]
  rfl

/-! ## Stretch 2: the layer's neighbourhood mean and its bias as a row -/

set_option maxHeartbeats 2000000 in
/-- The neighbourhood mean: the sums times the reciprocal clipped in-degree. -/
theorem W5_v54 (c : Dev nD) :
    (W5 m ρ c (Proc.devRef .tc main_v54) : FVec Ideal S100000x64 .f32)
      = aggK64 (W4 m ρ c (Proc.devRef .tc main_v41_1) : FVec Ideal S100000x64 .f32) (srcV (m ((c : Thread nD τ).loc main_arg1))) (dstV (m ((c : Thread nD τ).loc main_arg1))) := by
  show StableHlo.after hostOps2 (W4 m ρ c) (Proc.devRef .tc main_v54) = _
  after_results_simp
  rw [W4_v1 m ρ c, W4_v3 m ρ c, W4_v11 m ρ c]
  rfl

set_option maxHeartbeats 2000000 in
/-- The bias as a row. -/
theorem W5_v55 (c : Dev nD) :
    (W5 m ρ c (Proc.devRef .tc main_v55) : FVec Ideal S1x128 .f32)
      = shapeCast S1x128 (m ((c : Thread nD τ).loc main_arg8)) shapeCasts_S128_S1x128 := by
  show StableHlo.after hostOps2 (W4 m ρ c) (Proc.devRef .tc main_v55) = _
  after_results_simp
  rw [W4_arg8 m ρ c]
  rfl

/-! ## Stretch 3: the column means and variances of the layer's affine output, and the scale and shift, as rows -/

set_option maxHeartbeats 2000000 in
/-- The column means as a row. -/
theorem W7_v67 (c : Dev nD) :
    (W7 m ρ c (Proc.devRef .tc main_v67) : FVec Ideal S1x128 .f32)
      = shapeCast S1x128 (mu128 (W6 m ρ c (Proc.devRef .tc main_v56) : FVec Ideal S100000x128 .f32)) shapeCasts_S128_S1x128 := by
  show StableHlo.after hostOps3 (W6 m ρ c) (Proc.devRef .tc main_v67) = _
  after_results_simp
  rfl

set_option maxHeartbeats 2000000 in
/-- The column variances as a row. -/
theorem W7_v68 (c : Dev nD) :
    (W7 m ρ c (Proc.devRef .tc main_v68) : FVec Ideal S1x128 .f32)
      = shapeCast S1x128 (var128 (W6 m ρ c (Proc.devRef .tc main_v56) : FVec Ideal S100000x128 .f32)) shapeCasts_S128_S1x128 := by
  show StableHlo.after hostOps3 (W6 m ρ c) (Proc.devRef .tc main_v68) = _
  after_results_simp
  rfl

set_option maxHeartbeats 2000000 in
/-- The scale as a row. -/
theorem W7_v69 (c : Dev nD) :
    (W7 m ρ c (Proc.devRef .tc main_v69) : FVec Ideal S1x128 .f32)
      = shapeCast S1x128 (m ((c : Thread nD τ).loc main_arg10)) shapeCasts_S128_S1x128 := by
  show StableHlo.after hostOps3 (W6 m ρ c) (Proc.devRef .tc main_v69) = _
  after_results_simp
  rw [W6_arg10 m ρ c]
  rfl

set_option maxHeartbeats 2000000 in
/-- The shift as a row. -/
theorem W7_v70 (c : Dev nD) :
    (W7 m ρ c (Proc.devRef .tc main_v70) : FVec Ideal S1x128 .f32)
      = shapeCast S1x128 (m ((c : Thread nD τ).loc main_arg11)) shapeCasts_S128_S1x128 := by
  show StableHlo.after hostOps3 (W6 m ρ c) (Proc.devRef .tc main_v70) = _
  after_results_simp
  rw [W6_arg11 m ρ c]
  rfl

/-! ## Stretch 4: the layer's neighbourhood mean and its bias as a row -/

set_option maxHeartbeats 2000000 in
/-- The neighbourhood mean: the sums times the reciprocal clipped in-degree. -/
theorem W9_v84 (c : Dev nD) :
    (W9 m ρ c (Proc.devRef .tc main_v84) : FVec Ideal S100000x128 .f32)
      = aggK128 (W8 m ρ c (Proc.devRef .tc main_v71_1) : FVec Ideal S100000x128 .f32) (srcV (m ((c : Thread nD τ).loc main_arg1))) (dstV (m ((c : Thread nD τ).loc main_arg1))) := by
  show StableHlo.after hostOps4 (W8 m ρ c) (Proc.devRef .tc main_v84) = _
  after_results_simp
  rw [W8_v1 m ρ c, W8_v3 m ρ c, W8_v11 m ρ c]
  rfl

set_option maxHeartbeats 2000000 in
/-- The bias as a row. -/
theorem W9_v85 (c : Dev nD) :
    (W9 m ρ c (Proc.devRef .tc main_v85) : FVec Ideal S1x64 .f32)
      = shapeCast S1x64 (m ((c : Thread nD τ).loc main_arg13)) shapeCasts_S64_S1x64 := by
  show StableHlo.after hostOps4 (W8 m ρ c) (Proc.devRef .tc main_v85) = _
  after_results_simp
  rw [W8_arg13 m ρ c]
  rfl

/-! ## Stretch 5: the column means and variances of the layer's affine output, and the scale and shift, as rows -/

set_option maxHeartbeats 2000000 in
/-- The column means as a row. -/
theorem W11_v97 (c : Dev nD) :
    (W11 m ρ c (Proc.devRef .tc main_v97) : FVec Ideal S1x64 .f32)
      = shapeCast S1x64 (mu64 (W10 m ρ c (Proc.devRef .tc main_v86) : FVec Ideal S100000x64 .f32)) shapeCasts_S64_S1x64 := by
  show StableHlo.after hostOps5 (W10 m ρ c) (Proc.devRef .tc main_v97) = _
  after_results_simp
  rfl

set_option maxHeartbeats 2000000 in
/-- The column variances as a row. -/
theorem W11_v98 (c : Dev nD) :
    (W11 m ρ c (Proc.devRef .tc main_v98) : FVec Ideal S1x64 .f32)
      = shapeCast S1x64 (var64 (W10 m ρ c (Proc.devRef .tc main_v86) : FVec Ideal S100000x64 .f32)) shapeCasts_S64_S1x64 := by
  show StableHlo.after hostOps5 (W10 m ρ c) (Proc.devRef .tc main_v98) = _
  after_results_simp
  rfl

set_option maxHeartbeats 2000000 in
/-- The scale as a row. -/
theorem W11_v99 (c : Dev nD) :
    (W11 m ρ c (Proc.devRef .tc main_v99) : FVec Ideal S1x64 .f32)
      = shapeCast S1x64 (m ((c : Thread nD τ).loc main_arg15)) shapeCasts_S64_S1x64 := by
  show StableHlo.after hostOps5 (W10 m ρ c) (Proc.devRef .tc main_v99) = _
  after_results_simp
  rw [W10_arg15 m ρ c]
  rfl

set_option maxHeartbeats 2000000 in
/-- The shift as a row. -/
theorem W11_v100 (c : Dev nD) :
    (W11 m ρ c (Proc.devRef .tc main_v100) : FVec Ideal S1x64 .f32)
      = shapeCast S1x64 (m ((c : Thread nD τ).loc main_arg16)) shapeCasts_S64_S1x64 := by
  show StableHlo.after hostOps5 (W10 m ρ c) (Proc.devRef .tc main_v100) = _
  after_results_simp
  rw [W10_arg16 m ρ c]
  rfl

/-! ## Stretch 6: the layer's neighbourhood mean and its bias as a row -/

set_option maxHeartbeats 2000000 in
/-- The residual sum: the third layer's output plus the first layer's. -/
theorem W13_v102 (c : Dev nD) :
    (W13 m ρ c (Proc.devRef .tc main_v102) : FVec Ideal S100000x64 .f32)
      = (addf (W12 m ρ c (Proc.devRef .tc main_v101_1) : FVec Ideal S100000x64 .f32) (W4 m ρ c (Proc.devRef .tc main_v41_1) : FVec Ideal S100000x64 .f32) : FVec Ideal S100000x64 .f32) := by
  show StableHlo.after hostOps6 (W12 m ρ c) (Proc.devRef .tc main_v102) = _
  after_results_simp
  rw [W12_v41_1 m ρ c]

set_option maxHeartbeats 2000000 in
/-- The neighbourhood mean: the sums times the reciprocal clipped in-degree. -/
theorem W13_v115 (c : Dev nD) :
    (W13 m ρ c (Proc.devRef .tc main_v115) : FVec Ideal S100000x64 .f32)
      = aggK64 (addf (W12 m ρ c (Proc.devRef .tc main_v101_1) : FVec Ideal S100000x64 .f32) (W4 m ρ c (Proc.devRef .tc main_v41_1) : FVec Ideal S100000x64 .f32)) (srcV (m ((c : Thread nD τ).loc main_arg1))) (dstV (m ((c : Thread nD τ).loc main_arg1))) := by
  show StableHlo.after hostOps6 (W12 m ρ c) (Proc.devRef .tc main_v115) = _
  after_results_simp
  rw [W12_v41_1 m ρ c, W12_v1 m ρ c, W12_v3 m ρ c, W12_v11 m ρ c]
  rfl

set_option maxHeartbeats 2000000 in
/-- The bias as a row. -/
theorem W13_v116 (c : Dev nD) :
    (W13 m ρ c (Proc.devRef .tc main_v116) : FVec Ideal S1x32 .f32)
      = shapeCast S1x32 (m ((c : Thread nD τ).loc main_arg18)) shapeCasts_S32_S1x32 := by
  show StableHlo.after hostOps6 (W12 m ρ c) (Proc.devRef .tc main_v116) = _
  after_results_simp
  rw [W12_arg18 m ρ c]
  rfl

/-! ## Stretch 7: the column means and variances of the layer's affine output, and the scale and shift, as rows -/

set_option maxHeartbeats 2000000 in
/-- The column means as a row. -/
theorem W15_v128 (c : Dev nD) :
    (W15 m ρ c (Proc.devRef .tc main_v128) : FVec Ideal S1x32 .f32)
      = shapeCast S1x32 (mu32 (W14 m ρ c (Proc.devRef .tc main_v117) : FVec Ideal S100000x32 .f32)) shapeCasts_S32_S1x32 := by
  show StableHlo.after hostOps7 (W14 m ρ c) (Proc.devRef .tc main_v128) = _
  after_results_simp
  rfl

set_option maxHeartbeats 2000000 in
/-- The column variances as a row. -/
theorem W15_v129 (c : Dev nD) :
    (W15 m ρ c (Proc.devRef .tc main_v129) : FVec Ideal S1x32 .f32)
      = shapeCast S1x32 (var32 (W14 m ρ c (Proc.devRef .tc main_v117) : FVec Ideal S100000x32 .f32)) shapeCasts_S32_S1x32 := by
  show StableHlo.after hostOps7 (W14 m ρ c) (Proc.devRef .tc main_v129) = _
  after_results_simp
  rfl

set_option maxHeartbeats 2000000 in
/-- The scale as a row. -/
theorem W15_v130 (c : Dev nD) :
    (W15 m ρ c (Proc.devRef .tc main_v130) : FVec Ideal S1x32 .f32)
      = shapeCast S1x32 (m ((c : Thread nD τ).loc main_arg20)) shapeCasts_S32_S1x32 := by
  show StableHlo.after hostOps7 (W14 m ρ c) (Proc.devRef .tc main_v130) = _
  after_results_simp
  rw [W14_arg20 m ρ c]
  rfl

set_option maxHeartbeats 2000000 in
/-- The shift as a row. -/
theorem W15_v131 (c : Dev nD) :
    (W15 m ρ c (Proc.devRef .tc main_v131) : FVec Ideal S1x32 .f32)
      = shapeCast S1x32 (m ((c : Thread nD τ).loc main_arg21)) shapeCasts_S32_S1x32 := by
  show StableHlo.after hostOps7 (W14 m ρ c) (Proc.devRef .tc main_v131) = _
  after_results_simp
  rw [W14_arg21 m ρ c]
  rfl

/-! ## Stretch 8: the classifier's bias as a row -/

set_option maxHeartbeats 2000000 in
/-- The classifier's bias as a row. -/
theorem W17_v133 (c : Dev nD) :
    (W17 m ρ c (Proc.devRef .tc main_v133) : FVec Ideal S1x2 .f32)
      = shapeCast S1x2 (m ((c : Thread nD τ).loc main_arg23)) shapeCasts_S2_S1x2 := by
  show StableHlo.after hostOps8 (W16 m ρ c) (Proc.devRef .tc main_v133) = _
  after_results_simp
  rw [W16_arg23 m ρ c]
  rfl

end Cert.KernelIdeal.KChain

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KReg0.lean ====
/-
  The first linear layer of the network, read off its pipelined region.

  The region tiles the 100000 rows into ten tiles of 10000. At each tile the body multiplies the tile's aggregated rows
  by the transposed first weight matrix, the tile's own rows by the transposed second weight matrix, adds the two
  products and then the bias row. At the ideal instance the format changes are identities and a product into the zero
  accumulator is the plain sum over the 128 features, so entry `(r, j)` of the output array is

      (∑ k, agg (r, k) · Wl (j, k)  +  ∑ k, x (r, k) · Wr (j, k))  +  bl (0, j),

  in exactly that grouping. The proof reads the body's arithmetic at an entry of a tile, identifies each input block with
  the rows of its array that the tile names, and covers the array by the ten tiles.
-/
import proofs.«150843_j12429635355189_1_alg».proof.Proof.Gen.KernelIdeal.Frame
import proofs.«150843_j12429635355189_1_alg».proof.Proof.LibMatmulNN
import Idealize.ShloMosaic.Lib.Pipeline.Value
import Idealize.ShloMosaic.Lib.ValueLayout

set_option maxRecDepth 16384

noncomputable section

open scoped BigOperators

namespace Cert.KernelIdeal.KReg0

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer load or store, as a constant function. -/
theorem offs_zero : (![0, 0] : Fin 2 → Nat) = fun _ => 0 := funext fun a => by fin_cases a <;> rfl

/-- Entry `(r, j)` of the layer on whole arrays: the aggregated rows against the first weight matrix, plus the rows
    themselves against the second, plus the bias; each product contracts the feature axis. -/
def entry (x agg : S100000x128.Idx → EReal) (wl wr : S64x128.Idx → EReal) (bl : S1x64.Idx → EReal)
    (r : Fin 100000) (j : Fin 64) : EReal :=
  ((∑ k : Fin 128, agg (ix2 r k) * wl (ix2 j k)) + (∑ k : Fin 128, x (ix2 r k) * wr (ix2 j k))) + bl (ix2 0 j)

/-- The layer's whole output array. -/
def layer (x agg : S100000x128.Idx → EReal) (wl wr : S64x128.Idx → EReal) (bl : S1x64.Idx → EReal) :
    S100000x64.Idx → EReal :=
  fun i => entry x agg wl wr bl (i 0) (i 1)

/-- The body's arithmetic at an entry of one row tile: the format changes and the same-shape casts are identities,
    each transposed weight matrix is read at the swapped index, each product into the zero accumulator is the plain
    sum over the feature axis, and the one-row bias is read at its column. -/
theorem pay_apply (x agg : Vec Ideal S10000x128 .f32) (wl wr : Vec Ideal S64x128 .f32) (bl : Vec Ideal S1x64 .f32)
    (p : Fin 10000) (q : Fin 64) :
    k0_pay1 (F := Ideal) x agg wl wr bl (ix2 p q)
      = ((∑ k : Fin 128, (agg (ix2 p k) : EReal) * wl (ix2 q k)) + (∑ k : Fin 128, (x (ix2 p k) : EReal) * wr (ix2 q k)))
        + bl (ix2 0 q) := by
  unfold k0_pay1
  dsimp only
  rw [addf_apply, addf_apply, shapeCast_self, shapeCast_self]
  refine congrArg₂ (· + ·) (congrArg₂ (· + ·) ?_ ?_) ?_
  · refine (Cert.LibMatmulNN.matmul_zero_apply' (M := 10000) (K := 128) (N := 64)
      dot_S10000x128_S128x64_S10000x64_1_0_0_1_n_n rfl rfl rfl rfl rfl rfl none _ _ p q).trans ?_
    refine Finset.sum_congr rfl fun k _ => ?_
    refine congrArg₂ (· * ·) rfl ?_
    exact transpose_ix2_apply (a := 64) (b := 128) _ _ k q
  · refine (Cert.LibMatmulNN.matmul_zero_apply' (M := 10000) (K := 128) (N := 64)
      dot_S10000x128_S128x64_S10000x64_1_0_0_1_n_n rfl rfl rfl rfl rfl rfl none _ _ p q).trans ?_
    refine Finset.sum_congr rfl fun k _ => ?_
    refine congrArg₂ (· * ·) rfl ?_
    exact transpose_ix2_apply (a := 64) (b := 128) _ _ k q
  · exact broadcastTo_1b_ab_apply (a := 10000) (b := 64) _ _ p q

/-- The printed index maps, decided over the ten grid points: the two row-tiled inputs and the output sit at row
    tile `t`, column block 0; the two weight matrices and the bias row are their arrays' one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- The rows' block at point `t` is rows `10000 t … 10000 t + 9999` of the rows' array. -/
theorem rows_blk (c : Dev nD) (t : Fin cfg0.N) (a : S10000x128.Idx) (b : S100000x128.Idx)
    (h0 : (b 0).val = t.val * 10000 + (a 0).val) (h1 : (b 1).val = (a 1).val) :
    (iblk0 (F := Ideal) V c 0 t : Vec Ideal S10000x128 .f32) a = (V c main_arg0 : S100000x128.Idx → EReal) b := by
  obtain ⟨e0, e1, -⟩ := idx_facts t
  unfold iblk0
  rw [View.read_apply]
  show V c main_arg0 _ = V c main_arg0 _
  congr 1
  funext ax
  apply Fin.ext
  match ax with
  | ⟨0, _⟩ => show win0_0.index t 0 * 10000 + 1 * (a 0).val = (b 0).val; omega
  | ⟨1, _⟩ => show win0_0.index t 1 * 128 + 1 * (a 1).val = (b 1).val; omega

/-- The aggregated rows' block at point `t` is the same rows of the aggregated array. -/
theorem agg_blk (c : Dev nD) (t : Fin cfg0.N) (a : S10000x128.Idx) (b : S100000x128.Idx)
    (h0 : (b 0).val = t.val * 10000 + (a 0).val) (h1 : (b 1).val = (a 1).val) :
    (iblk0 (F := Ideal) V c 1 t : Vec Ideal S10000x128 .f32) a = (V c main_v24 : S100000x128.Idx → EReal) b := by
  obtain ⟨-, -, e0, e1, -⟩ := idx_facts t
  unfold iblk0
  rw [View.read_apply]
  show V c main_v24 _ = V c main_v24 _
  congr 1
  funext ax
  apply Fin.ext
  match ax with
  | ⟨0, _⟩ => show win0_1.index t 0 * 10000 + 1 * (a 0).val = (b 0).val; omega
  | ⟨1, _⟩ => show win0_1.index t 1 * 128 + 1 * (a 1).val = (b 1).val; omega

/-- The first weight matrix's block is the matrix at every point. -/
theorem wl_blk (c : Dev nD) (t : Fin cfg0.N) (a : S64x128.Idx) :
    (iblk0 (F := Ideal) V c 2 t : Vec Ideal S64x128 .f32) a = (V c main_arg2 : S64x128.Idx → EReal) a := by
  obtain ⟨-, -, -, -, e0, e1, -⟩ := idx_facts t
  unfold iblk0
  rw [View.read_apply]
  show V c main_arg2 _ = V c main_arg2 _
  congr 1
  funext ax
  apply Fin.ext
  match ax with
  | ⟨0, _⟩ => show win0_2.index t 0 * 64 + 1 * (a 0).val = (a 0).val; omega
  | ⟨1, _⟩ => show win0_2.index t 1 * 128 + 1 * (a 1).val = (a 1).val; omega

/-- The bias row's block is the row at every point. -/
theorem bl_blk (c : Dev nD) (t : Fin cfg0.N) (a : S1x64.Idx) :
    (iblk0 (F := Ideal) V c 3 t : Vec Ideal S1x64 .f32) a = (V c main_v25 : S1x64.Idx → EReal) a := by
  obtain ⟨-, -, -, -, -, -, e0, e1, -⟩ := idx_facts t
  unfold iblk0
  rw [View.read_apply]
  show V c main_v25 _ = V c main_v25 _
  congr 1
  funext ax
  apply Fin.ext
  match ax with
  | ⟨0, _⟩ => show win0_3.index t 0 * 1 + 1 * (a 0).val = (a 0).val; omega
  | ⟨1, _⟩ => show win0_3.index t 1 * 64 + 1 * (a 1).val = (a 1).val; omega

/-- The second weight matrix's block is the matrix at every point. -/
theorem wr_blk (c : Dev nD) (t : Fin cfg0.N) (a : S64x128.Idx) :
    (iblk0 (F := Ideal) V c 4 t : Vec Ideal S64x128 .f32) a = (V c main_arg4 : S64x128.Idx → EReal) a := by
  obtain ⟨-, -, -, -, -, -, -, -, e0, e1, -⟩ := idx_facts t
  unfold iblk0
  rw [View.read_apply]
  show V c main_arg4 _ = V c main_arg4 _
  congr 1
  funext ax
  apply Fin.ext
  match ax with
  | ⟨0, _⟩ => show win0_4.index t 0 * 64 + 1 * (a 0).val = (a 0).val; omega
  | ⟨1, _⟩ => show win0_4.index t 1 * 128 + 1 * (a 1).val = (a 1).val; omega

end Blocks

/-- One row tile of the layer from the tile's blocks: when the two row-tiled blocks are rows `10000 n + p` of their
    arrays and the other three blocks are their whole arrays, the body's stored tile at `(p, q)` is the layer's
    entry at row `10000 n + p`, column `q`. -/
theorem tile_apply (X AGG : S100000x128.Idx → EReal) (WL WR : S64x128.Idx → EReal) (BL : S1x64.Idx → EReal)
    (x0 x1 : Vec Ideal S10000x128 .f32) (x2 : Vec Ideal S64x128 .f32) (x3 : Vec Ideal S1x64 .f32)
    (x4 : Vec Ideal S64x128 .f32) (n : Nat)
    (h0 : ∀ (a : S10000x128.Idx) (b : S100000x128.Idx), (b 0).val = n * 10000 + (a 0).val → (b 1).val = (a 1).val → x0 a = X b)
    (h1 : ∀ (a : S10000x128.Idx) (b : S100000x128.Idx), (b 0).val = n * 10000 + (a 0).val → (b 1).val = (a 1).val → x1 a = AGG b)
    (h2 : ∀ a, x2 a = WL a) (h3 : ∀ a, x3 a = BL a) (h4 : ∀ a, x4 a = WR a)
    (p : Fin 10000) (q : Fin 64) (r : Fin 100000) (hr : r.val = n * 10000 + p.val) :
    out0_5 (F := Ideal) x0 x1 x2 x3 x4 (ix2 p q) = entry X AGG WL WR BL r q := by
  unfold out0_5
  rw [View.canon_unit_zero offs_zero]
  simp only [View.ld_unit_zero (S := S10000x128) offs_zero, View.ld_unit_zero (S := S64x128) offs_zero,
    View.ld_unit_zero (S := S1x64) offs_zero]
  rw [pay_apply]
  unfold entry
  have e0 : ∀ k : Fin 128, x0 (ix2 p k) = X (ix2 r k) := fun k => h0 _ _ hr rfl
  have e1 : ∀ k : Fin 128, x1 (ix2 p k) = AGG (ix2 r k) := fun k => h1 _ _ hr rfl
  simp only [e0, e1, h2, h3, h4]

section Array
variable (V : (c : Dev nD) → (b : Ref sig .tc) → Buf (Elt Ideal) ((c : Thread nD τ).loc b))

/-- What point `t` writes back is row tile `t` of the layer of the arrays as the region finds them. -/
theorem flushed_eq (c : Dev nD) (t : Fin cfg0.N) :
    (dat0 (F := Ideal) V c).flushed 5 t
      = ((cfg0.win 5).blk t).view.read (Elt Ideal)
          (layer (V c main_arg0) (V c main_v24) (V c main_arg2) (V c main_arg4) (V c main_v25)) := by
  show (cfg0.win 5).cut (grid0.coords t) ((dat0 V c).after 5 t) = _
  rw [after0_5]
  obtain ⟨-, -, -, -, -, -, -, -, -, -, e0, e1⟩ := idx_facts t
  funext y
  have hp : (y 0).val < 10000 := (y 0).isLt
  have hq : (y 1).val < 64 := (y 1).isLt
  have hy : (cfg0.win 5).xinj (grid0.coords t) y = ix2 (⟨(y 0).val, hp⟩ : Fin 10000) (⟨(y 1).val, hq⟩ : Fin 64) :=
    funext fun a => by match a with | ⟨0, _⟩ => rfl | ⟨1, _⟩ => rfl
  show out0_5 (iblk0 V c 0 t) (iblk0 V c 1 t) (iblk0 V c 2 t) (iblk0 V c 3 t) (iblk0 V c 4 t) ((cfg0.win 5).xinj (grid0.coords t) y)
    = layer (V c main_arg0) (V c main_v24) (V c main_arg2) (V c main_arg4) (V c main_v25) (((cfg0.win 5).blk t).view.emb y)
  rw [hy]
  have hr : (((cfg0.win 5).blk t).view.emb y (0 : Fin 2)).val = t.val * 10000 + (y 0).val := by
    show win0_5.index t 0 * 10000 + 1 * (y 0).val = _
    omega
  have hc : (((cfg0.win 5).blk t).view.emb y (1 : Fin 2)).val = (y 1).val := by
    show win0_5.index t 1 * 64 + 1 * (y 1).val = _
    omega
  refine (tile_apply (V c main_arg0) (V c main_v24) (V c main_arg2) (V c main_arg4) (V c main_v25)
    (iblk0 V c 0 t) (iblk0 V c 1 t) (iblk0 V c 2 t) (iblk0 V c 3 t) (iblk0 V c 4 t) t.val
    (rows_blk V c t) (agg_blk V c t) (wl_blk V c t) (bl_blk V c t) (wr_blk V c t)
    ⟨(y 0).val, hp⟩ ⟨(y 1).val, hq⟩ (((cfg0.win 5).blk t).view.emb y 0) hr).trans ?_
  show entry _ _ _ _ _ _ _ = entry _ _ _ _ _ _ _
  congr 1
  exact Fin.ext hc.symm

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v26).slice (win0_5.rect t)).set ↔ _
  rw [View.set_slice_whole, Rect.mem_set_unit]
  exact Iff.rfl

/-- The ten row tiles cover the output array: row `r` lies in the tile of point `r / 10000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 10000 ≤ (i 0).val ∧ (i 0).val < win0_5.index t 0 * 10000 + 10000
    omega
  | ⟨1, _⟩ =>
    show win0_5.index t 1 * 64 ≤ (i 1).val ∧ (i 1).val < win0_5.index t 1 * 64 + 64
    omega

/-- The output array after the region is the layer of the arrays as the region finds them. -/
theorem whole (c : Dev nD) :
    (dat0 (F := Ideal) V c).arrAt 5 cfg0.N
      = layer (V c main_arg0) (V c main_v24) (V c main_arg2) (V c main_arg4) (V c main_v25) :=
  (dat0 V c).arrAt_eq_of_cover 5 (layer (V c main_arg0) (V c main_v24) (V c main_arg2) (V c main_arg4) (V c main_v25))
    (fun t _ => flushed_eq V c t) cover

/-- The layer's entry, written out. -/
theorem entry_eq (x agg : S100000x128.Idx → EReal) (wl wr : S64x128.Idx → EReal) (bl : S1x64.Idx → EReal)
    (r : Fin 100000) (j : Fin 64) :
    entry x agg wl wr bl r j
      = ((∑ k : Fin 128, agg (ix2 r k) * wl (ix2 j k)) + (∑ k : Fin 128, x (ix2 r k) * wr (ix2 j k))) + bl (ix2 0 j) :=
  rfl

/-- The output array after the region, entry by entry. -/
theorem final (c : Dev nD) (r : Fin 100000) (j : Fin 64) :
    (dat0 (F := Ideal) V c).arrAt 5 cfg0.N (ix2 r j)
      = entry (V c main_arg0) (V c main_v24) (V c main_arg2) (V c main_arg4) (V c main_v25) r j :=
  congrFun (whole V c) (ix2 r j)

end Array

end Cert.KernelIdeal.KReg0

end
-- ==== Proof.Scalar.lean ====
/-
  The two entrywise functions of the network, on the extended reals.

  bnAt is batch normalisation of one entry: centre by the column mean, scale by the reciprocal square root of
  the column variance plus the stabiliser (the single-precision word nearest 1e-5, the same word in both programs,
  never evaluated), then the affine map by the learned scale and shift.  eluAt is the exponential linear unit:
  the identity on the positives and exp b - 1 elsewhere; its zero and one are kept as the programs' words.
-/
import Idealize.ShloMosaic.PureOps.Ideal

noncomputable section

namespace Cert.Spec

open Idealize.ShloMosaic

/-- Batch normalisation of one entry h with column mean mu, column variance var, scale g, shift be. -/
def bnAt (h mu var g be : EReal) : EReal :=
  ((h - mu) * Ideal.rsqrt (var + Ideal.ofBits .f32 0x3727C5AC#32)) * g + be

/-- The exponential linear unit of one entry. -/
def eluAt (b : EReal) : EReal :=
  if Ideal.ofBits .f32 0x00000000#32 < b then b else Ideal.exp b - Ideal.ofBits .f32 0x3F800000#32

end Cert.Spec

end
-- ==== Proof.KReg1.lean ====
/-
  Region 1 of the network: batch normalisation of a [100000, 64] array by per-column statistics, followed by the
  exponential linear unit, computed ten thousand rows at a time.

  Both output arrays in closed form, entry by entry, at the exact (extended real) reading of the floats:
  the first holds bnAt of the entry and of its column's mean, variance, scale and shift; the second holds
  eluAt of that value.  A row block of the output depends only on the same row block of the input and on the
  four [1, 64] rows, which every grid point reads whole; row r lies in the block of point r / 10000, and the
  ten blocks cover the array.
-/
import proofs.«150843_j12429635355189_1_alg».proof.Proof.Gen.KernelIdeal.Frame
import proofs.«150843_j12429635355189_1_alg».proof.Proof.Scalar
import Idealize.ShloMosaic.Lib.Pipeline.Value
import Idealize.ShloMosaic.Lib.ValueIdx
import Idealize.ShloMosaic.Lib.ValueLayout

noncomputable section

namespace Cert.KernelIdeal.KReg1

open Cert.KernelIdeal Cert.KernelIdeal.Gen Idealize.ShloMosaic Idealize.ShloMosaic.ValueIdx
open Idealize.ShloMosaic.TcCoe Idealize.SL.Sem
open Idealize.ShloMosaic.Pipeline (Dat)

/-! ## The two entrywise functions -/

/-- The comparison "x greater than z" selects between two values as the order on the extended reals says. -/
theorem select_gt (x z a b : EReal) :
    Scalar.select (Ideal.cmp .ogt x z) a b = if z < x then a else b := by
  unfold Scalar.select Ideal.cmp
  by_cases h : z < x <;> simp [h]

/-- bnAt respects equality of its five arguments. -/
theorem bnAt_congr {a a' b b' d d' e e' f f' : EReal} (h1 : a = a') (h2 : b = b') (h3 : d = d') (h4 : e = e')
    (h5 : f = f') : Cert.Spec.bnAt a b d e f = Cert.Spec.bnAt a' b' d' e' f' := by
  rw [h1, h2, h3, h4, h5]

/-- The normalised value of a block at row p, column q: the block's entry and the four rows' entries of column q.
    (The body reads the variance row before the mean row.) -/
theorem bn_at (x0 : Vec Ideal S10000x64 .f32) (xv xm xg xb : Vec Ideal S1x64 .f32) (p : Fin 10000) (q : Fin 64) :
    k1_pay1 x0 xv xm xg xb (ix2 p q)
      = Cert.Spec.bnAt (x0 (ix2 p q)) (xm (ix2 0 q)) (xv (ix2 0 q)) (xg (ix2 0 q)) (xb (ix2 0 q)) := by
  unfold k1_pay1 Cert.Spec.bnAt
  simp only [shapeCast_self]
  rw [addf_apply, mulf_apply, mulf_apply, subf_apply, broadcastTo_1b_ab_apply, broadcastTo_1b_ab_apply,
    broadcastTo_1b_ab_apply, broadcastTo_1b_ab_apply]
  rfl

/-- The activated value of a block at row p, column q is eluAt of the normalised value there. -/
theorem act_at (x0 : Vec Ideal S10000x64 .f32) (xv xm xg xb : Vec Ideal S1x64 .f32) (p : Fin 10000) (q : Fin 64) :
    k1_pay2 x0 xv xm xg xb (ix2 p q) = Cert.Spec.eluAt (k1_pay1 x0 xv xm xg xb (ix2 p q)) := by
  unfold k1_pay2 Cert.Spec.eluAt
  exact select_gt (k1_pay1 x0 xv xm xg xb (ix2 p q)) (Ideal.ofBits .f32 0x00000000#32) _ _

/-! ## The whole arrays -/

/-- Batch normalisation of a whole [100000, 64] array by four [1, 64] rows, entry by entry. -/
def bnArr (h : S100000x64.Idx → EReal) (mu var g be : S1x64.Idx → EReal) : S100000x64.Idx → EReal := fun i =>
  Cert.Spec.bnAt (h i) (mu (ix2 0 ⟨(i 1).val, idx2_lt1 i⟩)) (var (ix2 0 ⟨(i 1).val, idx2_lt1 i⟩))
    (g (ix2 0 ⟨(i 1).val, idx2_lt1 i⟩)) (be (ix2 0 ⟨(i 1).val, idx2_lt1 i⟩))

/-- The exponential linear unit of that array, entry by entry. -/
def actArr (h : S100000x64.Idx → EReal) (mu var g be : S1x64.Idx → EReal) : S100000x64.Idx → EReal := fun i =>
  Cert.Spec.eluAt (bnArr h mu var g be i)

theorem hz : (![0, 0] : Fin 2 → Nat) = fun _ => 0 := funext fun a => by fin_cases a <;> rfl

/-- The index maps, decided over the ten grid points: the input's and both outputs' row blocks are the point's own,
    at column block zero; each of the four rows is read whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-! ## The input blocks as entries of the arrays -/

/-- Row p, column q of the input's block at point t is row 10000 t + p, column q of the input array. -/
theorem blk_h (c : Dev nD) (t : Fin cfg1.N) (p : Fin 10000) (q : Fin 64) (k : S100000x64.Idx)
    (hk0 : (k 0).val = t.val * 10000 + p.val) (hk1 : (k 1).val = q.val) :
    (iblk1 V c 0 t : Vec Ideal S10000x64 .f32) (ix2 p q) = (V c main_v26 : S100000x64.Idx → EReal) k := by
  obtain ⟨e0, e1, -⟩ := idx_facts t
  unfold iblk1
  rw [View.read_apply]
  show (V c main_v26 : S100000x64.Idx → EReal) _ = (V c main_v26 : S100000x64.Idx → EReal) k
  congr 1
  funext a
  apply Fin.ext
  match a with
  | ⟨0, _⟩ => show win1_0.index t (0 : Fin 2) * 10000 + 1 * p.val = (k 0).val; omega
  | ⟨1, _⟩ => show win1_0.index t (1 : Fin 2) * 64 + 1 * q.val = (k 1).val; omega

/-- Column q of the mean row's block at any point is column q of the mean row. -/
theorem blk_mu (c : Dev nD) (t : Fin cfg1.N) (q : Fin 64) (k : S1x64.Idx) (hk1 : (k 1).val = q.val) :
    (iblk1 V c 1 t : Vec Ideal S1x64 .f32) (ix2 0 q) = (V c main_v37 : S1x64.Idx → EReal) k := by
  obtain ⟨-, -, e0, e1, -⟩ := idx_facts t
  have hk0 : (k 0).val = 0 := by have := idx2_lt0 k; omega
  unfold iblk1
  rw [View.read_apply]
  show (V c main_v37 : S1x64.Idx → EReal) _ = (V c main_v37 : S1x64.Idx → EReal) k
  congr 1
  funext a
  apply Fin.ext
  match a with
  | ⟨0, _⟩ => show win1_1.index t (0 : Fin 2) * 1 + 1 * 0 = (k 0).val; omega
  | ⟨1, _⟩ => show win1_1.index t (1 : Fin 2) * 64 + 1 * q.val = (k 1).val; omega

/-- Column q of the variance row's block at any point is column q of the variance row. -/
theorem blk_var (c : Dev nD) (t : Fin cfg1.N) (q : Fin 64) (k : S1x64.Idx) (hk1 : (k 1).val = q.val) :
    (iblk1 V c 2 t : Vec Ideal S1x64 .f32) (ix2 0 q) = (V c main_v38 : S1x64.Idx → EReal) k := by
  obtain ⟨-, -, -, -, e0, e1, -⟩ := idx_facts t
  have hk0 : (k 0).val = 0 := by have := idx2_lt0 k; omega
  unfold iblk1
  rw [View.read_apply]
  show (V c main_v38 : S1x64.Idx → EReal) _ = (V c main_v38 : S1x64.Idx → EReal) k
  congr 1
  funext a
  apply Fin.ext
  match a with
  | ⟨0, _⟩ => show win1_2.index t (0 : Fin 2) * 1 + 1 * 0 = (k 0).val; omega
  | ⟨1, _⟩ => show win1_2.index t (1 : Fin 2) * 64 + 1 * q.val = (k 1).val; omega

/-- Column q of the scale row's block at any point is column q of the scale row. -/
theorem blk_g (c : Dev nD) (t : Fin cfg1.N) (q : Fin 64) (k : S1x64.Idx) (hk1 : (k 1).val = q.val) :
    (iblk1 V c 3 t : Vec Ideal S1x64 .f32) (ix2 0 q) = (V c main_v39 : S1x64.Idx → EReal) k := by
  obtain ⟨-, -, -, -, -, -, e0, e1, -⟩ := idx_facts t
  have hk0 : (k 0).val = 0 := by have := idx2_lt0 k; omega
  unfold iblk1
  rw [View.read_apply]
  show (V c main_v39 : S1x64.Idx → EReal) _ = (V c main_v39 : S1x64.Idx → EReal) k
  congr 1
  funext a
  apply Fin.ext
  match a with
  | ⟨0, _⟩ => show win1_3.index t (0 : Fin 2) * 1 + 1 * 0 = (k 0).val; omega
  | ⟨1, _⟩ => show win1_3.index t (1 : Fin 2) * 64 + 1 * q.val = (k 1).val; omega

/-- Column q of the shift row's block at any point is column q of the shift row. -/
theorem blk_be (c : Dev nD) (t : Fin cfg1.N) (q : Fin 64) (k : S1x64.Idx) (hk1 : (k 1).val = q.val) :
    (iblk1 V c 4 t : Vec Ideal S1x64 .f32) (ix2 0 q) = (V c main_v40 : S1x64.Idx → EReal) k := by
  obtain ⟨-, -, -, -, -, -, -, -, e0, e1, -⟩ := idx_facts t
  have hk0 : (k 0).val = 0 := by have := idx2_lt0 k; omega
  unfold iblk1
  rw [View.read_apply]
  show (V c main_v40 : S1x64.Idx → EReal) _ = (V c main_v40 : S1x64.Idx → EReal) k
  congr 1
  funext a
  apply Fin.ext
  match a with
  | ⟨0, _⟩ => show win1_4.index t (0 : Fin 2) * 1 + 1 * 0 = (k 0).val; omega
  | ⟨1, _⟩ => show win1_4.index t (1 : Fin 2) * 64 + 1 * q.val = (k 1).val; omega

/-! ## What each point writes back -/

/-- The normalised block of point t, entry by entry: bnArr at row 10000 t + p. -/
theorem blk_bn (c : Dev nD) (t : Fin cfg1.N) (p : Fin 10000) (q : Fin 64) (k : S100000x64.Idx)
    (hk0 : (k 0).val = t.val * 10000 + p.val) (hk1 : (k 1).val = q.val) :
    k1_pay1 (iblk1 V c 0 t) (iblk1 V c 2 t) (iblk1 V c 1 t) (iblk1 V c 3 t) (iblk1 V c 4 t) (ix2 p q)
      = bnArr (V c main_v26) (V c main_v37) (V c main_v38) (V c main_v39) (V c main_v40) k := by
  refine (bn_at (iblk1 V c 0 t) (iblk1 V c 2 t) (iblk1 V c 1 t) (iblk1 V c 3 t) (iblk1 V c 4 t) p q).trans ?_
  exact bnAt_congr (blk_h V c t p q k hk0 hk1) (blk_mu V c t q (ix2 0 ⟨(k 1).val, idx2_lt1 k⟩) hk1) (blk_var V c t q (ix2 0 ⟨(k 1).val, idx2_lt1 k⟩) hk1)
    (blk_g V c t q (ix2 0 ⟨(k 1).val, idx2_lt1 k⟩) hk1) (blk_be V c t q (ix2 0 ⟨(k 1).val, idx2_lt1 k⟩) hk1)

/-- The activated block of point t, entry by entry: actArr at row 10000 t + p. -/
theorem blk_act (c : Dev nD) (t : Fin cfg1.N) (p : Fin 10000) (q : Fin 64) (k : S100000x64.Idx)
    (hk0 : (k 0).val = t.val * 10000 + p.val) (hk1 : (k 1).val = q.val) :
    k1_pay2 (iblk1 V c 0 t) (iblk1 V c 2 t) (iblk1 V c 1 t) (iblk1 V c 3 t) (iblk1 V c 4 t) (ix2 p q)
      = actArr (V c main_v26) (V c main_v37) (V c main_v38) (V c main_v39) (V c main_v40) k := by
  refine (act_at (iblk1 V c 0 t) (iblk1 V c 2 t) (iblk1 V c 1 t) (iblk1 V c 3 t) (iblk1 V c 4 t) p q).trans ?_
  exact congrArg Cert.Spec.eluAt (blk_bn V c t p q k hk0 hk1)

/-- Point t writes back to the first output the rows 10000 t … 10000 t + 9999 of bnArr. -/
theorem flushed_bn (c : Dev nD) (t : Fin cfg1.N) :
    (dat1 (F := Ideal) V c).flushed 5 t
      = ((cfg1.win 5).blk t).view.read (Elt Ideal) (bnArr (V c main_v26) (V c main_v37) (V c main_v38) (V c main_v39) (V c main_v40)) := by
  show (cfg1.win 5).cut (grid1.coords t) ((dat1 V c).after 5 t) = _
  rw [after1_5]
  unfold out1_5
  rw [View.canon_unit_zero hz]
  simp only [View.ld_unit_zero (S := S10000x64) hz, View.ld_unit_zero (S := S1x64) hz]
  obtain ⟨-, -, -, -, -, -, -, -, -, -, e0, e1, -⟩ := idx_facts t
  funext j
  obtain ⟨p, q, rfl⟩ : ∃ (p : Fin 10000) (q : Fin 64), j = ix2 p q := ⟨j 0, j 1, eq_ix2 j⟩
  show k1_pay1 (iblk1 V c 0 t) (iblk1 V c 2 t) (iblk1 V c 1 t) (iblk1 V c 3 t) (iblk1 V c 4 t) (ix2 p q)
    = bnArr (V c main_v26) (V c main_v37) (V c main_v38) (V c main_v39) (V c main_v40) (((cfg1.win 5).blk t).view.emb (ix2 p q))
  refine blk_bn V c t p q (((cfg1.win 5).blk t).view.emb (ix2 p q)) ?_ ?_
  · show win1_5.index t (0 : Fin 2) * 10000 + 1 * p.val = t.val * 10000 + p.val; omega
  · show win1_5.index t (1 : Fin 2) * 64 + 1 * q.val = q.val; omega

/-- Point t writes back to the second output the same rows of actArr. -/
theorem flushed_act (c : Dev nD) (t : Fin cfg1.N) :
    (dat1 (F := Ideal) V c).flushed 6 t
      = ((cfg1.win 6).blk t).view.read (Elt Ideal) (actArr (V c main_v26) (V c main_v37) (V c main_v38) (V c main_v39) (V c main_v40)) := by
  show (cfg1.win 6).cut (grid1.coords t) ((dat1 V c).after 6 t) = _
  rw [after1_6]
  unfold out1_6
  rw [View.canon_unit_zero hz]
  simp only [View.ld_unit_zero (S := S10000x64) hz, View.ld_unit_zero (S := S1x64) hz]
  obtain ⟨-, -, -, -, -, -, -, -, -, -, -, -, e0, e1⟩ := idx_facts t
  funext j
  obtain ⟨p, q, rfl⟩ : ∃ (p : Fin 10000) (q : Fin 64), j = ix2 p q := ⟨j 0, j 1, eq_ix2 j⟩
  show k1_pay2 (iblk1 V c 0 t) (iblk1 V c 2 t) (iblk1 V c 1 t) (iblk1 V c 3 t) (iblk1 V c 4 t) (ix2 p q)
    = actArr (V c main_v26) (V c main_v37) (V c main_v38) (V c main_v39) (V c main_v40) (((cfg1.win 6).blk t).view.emb (ix2 p q))
  refine blk_act V c t p q (((cfg1.win 6).blk t).view.emb (ix2 p q)) ?_ ?_
  · show win1_6.index t (0 : Fin 2) * 10000 + 1 * p.val = t.val * 10000 + p.val; omega
  · show win1_6.index t (1 : Fin 2) * 64 + 1 * q.val = q.val; omega

/-! ## The ten row blocks cover the array -/

/-- An index lies in point t's block of the first output iff each coordinate is in the block's range. -/
theorem mem_blk_bn (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v41_0).slice (win1_5.rect t)).set ↔ _
  rw [View.set_slice_whole, Rect.mem_set_unit]
  exact Iff.rfl

/-- Likewise for the second output. -/
theorem mem_blk_act (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v41_1).slice (win1_6.rect t)).set ↔ _
  rw [View.set_slice_whole, Rect.mem_set_unit]
  exact Iff.rfl

/-- Row r of the first output lies in the block of point r / 10000. -/
theorem cover_bn (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 10 := N_1
  obtain ⟨t, ht⟩ : ∃ t : Fin cfg1.N, t.val = (i 0).val / 10000 := ⟨⟨(i 0).val / 10000, by omega⟩, rfl⟩
  obtain ⟨-, -, -, -, -, -, -, -, -, -, e0, e1, -⟩ := idx_facts t
  refine ⟨t, flush1_5 t, ?_⟩
  rw [mem_blk_bn]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- Likewise for the second output. -/
theorem cover_act (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  have hN : cfg1.N = 10 := N_1
  obtain ⟨t, ht⟩ : ∃ t : Fin cfg1.N, t.val = (i 0).val / 10000 := ⟨⟨(i 0).val / 10000, by omega⟩, rfl⟩
  obtain ⟨-, -, -, -, -, -, -, -, -, -, -, -, e0, e1⟩ := idx_facts t
  refine ⟨t, flush1_6 t, ?_⟩
  rw [mem_blk_act]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-! ## The two arrays after the region -/

/-- The first output array after the region is bnArr of the arrays the region found. -/
theorem arr_bn (c : Dev nD) :
    (dat1 (F := Ideal) V c).arrAt 5 cfg1.N = bnArr (V c main_v26) (V c main_v37) (V c main_v38) (V c main_v39) (V c main_v40) :=
  (dat1 (F := Ideal) V c).arrAt_eq_of_cover 5 (bnArr (V c main_v26) (V c main_v37) (V c main_v38) (V c main_v39) (V c main_v40)) (fun t _ => flushed_bn V c t) cover_bn

/-- The second output array after the region is actArr of them. -/
theorem arr_act (c : Dev nD) :
    (dat1 (F := Ideal) V c).arrAt 6 cfg1.N = actArr (V c main_v26) (V c main_v37) (V c main_v38) (V c main_v39) (V c main_v40) :=
  (dat1 (F := Ideal) V c).arrAt_eq_of_cover 6 (actArr (V c main_v26) (V c main_v37) (V c main_v38) (V c main_v39) (V c main_v40)) (fun t _ => flushed_act V c t) cover_act

/-- Entry (r, j) of the first output: the batch normalisation of entry (r, j) by column j's statistics. -/
theorem final_bn (c : Dev nD) (r : Fin 100000) (j : Fin 64) :
    (dat1 (F := Ideal) V c).arrAt 5 cfg1.N (ix2 r j)
      = Cert.Spec.bnAt ((V c main_v26 : S100000x64.Idx → EReal) (ix2 r j)) ((V c main_v37 : S1x64.Idx → EReal) (ix2 0 j))
          ((V c main_v38 : S1x64.Idx → EReal) (ix2 0 j)) ((V c main_v39 : S1x64.Idx → EReal) (ix2 0 j))
          ((V c main_v40 : S1x64.Idx → EReal) (ix2 0 j)) :=
  (congrFun (arr_bn V c) (ix2 r j)).trans rfl

/-- Entry (r, j) of the second output: the exponential linear unit of that value. -/
theorem final_act (c : Dev nD) (r : Fin 100000) (j : Fin 64) :
    (dat1 (F := Ideal) V c).arrAt 6 cfg1.N (ix2 r j)
      = Cert.Spec.eluAt (Cert.Spec.bnAt ((V c main_v26 : S100000x64.Idx → EReal) (ix2 r j))
          ((V c main_v37 : S1x64.Idx → EReal) (ix2 0 j)) ((V c main_v38 : S1x64.Idx → EReal) (ix2 0 j))
          ((V c main_v39 : S1x64.Idx → EReal) (ix2 0 j)) ((V c main_v40 : S1x64.Idx → EReal) (ix2 0 j))) :=
  (congrFun (arr_act V c) (ix2 r j)).trans rfl

end Cert.KernelIdeal.KReg1

end
-- ==== Proof.KReg2.lean ====
/-
  The second linear layer of the network, read off its pipelined region.

  The region tiles the 100000 rows into ten tiles of 10000. At each tile the body multiplies the tile's aggregated rows
  by the transposed first weight matrix, the tile's own rows by the transposed second weight matrix, adds the two
  products and then the bias row. At the ideal instance the format changes are identities and a product into the zero
  accumulator is the plain sum over the 64 features, so entry `(r, j)` of the output array is

      (∑ k, agg (r, k) · Wl (j, k)  +  ∑ k, x (r, k) · Wr (j, k))  +  bl (0, j),

  in exactly that grouping. The proof reads the body's arithmetic at an entry of a tile, identifies each input block with
  the rows of its array that the tile names, and covers the array by the ten tiles.
-/
import proofs.«150843_j12429635355189_1_alg».proof.Proof.Gen.KernelIdeal.Frame
import proofs.«150843_j12429635355189_1_alg».proof.Proof.LibMatmulNN
import Idealize.ShloMosaic.Lib.Pipeline.Value
import Idealize.ShloMosaic.Lib.ValueLayout

set_option maxRecDepth 16384

noncomputable section

open scoped BigOperators

namespace Cert.KernelIdeal.KReg2

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer load or store, as a constant function. -/
theorem offs_zero : (![0, 0] : Fin 2 → Nat) = fun _ => 0 := funext fun a => by fin_cases a <;> rfl

/-- Entry `(r, j)` of the layer on whole arrays: the aggregated rows against the first weight matrix, plus the rows
    themselves against the second, plus the bias; each product contracts the feature axis. -/
def entry (x agg : S100000x64.Idx → EReal) (wl wr : S128x64.Idx → EReal) (bl : S1x128.Idx → EReal)
    (r : Fin 100000) (j : Fin 128) : EReal :=
  ((∑ k : Fin 64, agg (ix2 r k) * wl (ix2 j k)) + (∑ k : Fin 64, x (ix2 r k) * wr (ix2 j k))) + bl (ix2 0 j)

/-- The layer's whole output array. -/
def layer (x agg : S100000x64.Idx → EReal) (wl wr : S128x64.Idx → EReal) (bl : S1x128.Idx → EReal) :
    S100000x128.Idx → EReal :=
  fun i => entry x agg wl wr bl (i 0) (i 1)

/-- The body's arithmetic at an entry of one row tile: the format changes and the same-shape casts are identities,
    each transposed weight matrix is read at the swapped index, each product into the zero accumulator is the plain
    sum over the feature axis, and the one-row bias is read at its column. -/
theorem pay_apply (x agg : Vec Ideal S10000x64 .f32) (wl wr : Vec Ideal S128x64 .f32) (bl : Vec Ideal S1x128 .f32)
    (p : Fin 10000) (q : Fin 128) :
    k2_pay1 (F := Ideal) x agg wl wr bl (ix2 p q)
      = ((∑ k : Fin 64, (agg (ix2 p k) : EReal) * wl (ix2 q k)) + (∑ k : Fin 64, (x (ix2 p k) : EReal) * wr (ix2 q k)))
        + bl (ix2 0 q) := by
  unfold k2_pay1
  dsimp only
  rw [addf_apply, addf_apply]
  simp only [shapeCast_self]
  refine congrArg₂ (· + ·) (congrArg₂ (· + ·) ?_ ?_) ?_
  · refine (Cert.LibMatmulNN.matmul_zero_apply' (M := 10000) (K := 64) (N := 128)
      dot_S10000x64_S64x128_S10000x128_1_0_0_1_n_n rfl rfl rfl rfl rfl rfl none _ _ p q).trans ?_
    refine Finset.sum_congr rfl fun k _ => ?_
    refine congrArg₂ (· * ·) rfl ?_
    exact transpose_ix2_apply (a := 128) (b := 64) _ _ k q
  · refine (Cert.LibMatmulNN.matmul_zero_apply' (M := 10000) (K := 64) (N := 128)
      dot_S10000x64_S64x128_S10000x128_1_0_0_1_n_n rfl rfl rfl rfl rfl rfl none _ _ p q).trans ?_
    refine Finset.sum_congr rfl fun k _ => ?_
    refine congrArg₂ (· * ·) rfl ?_
    exact transpose_ix2_apply (a := 128) (b := 64) _ _ k q
  · exact broadcastTo_1b_ab_apply (a := 10000) (b := 128) _ _ p q

/-- The printed index maps, decided over the ten grid points: the two row-tiled inputs and the output sit at row
    tile `t`, column block 0; the two weight matrices and the bias row are their arrays' one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b))

/-- The rows' block at point `t` is rows `10000 t … 10000 t + 9999` of the rows' array. -/
theorem rows_blk (c : Dev nD) (t : Fin cfg2.N) (a : S10000x64.Idx) (b : S100000x64.Idx)
    (h0 : (b 0).val = t.val * 10000 + (a 0).val) (h1 : (b 1).val = (a 1).val) :
    (iblk2 (F := Ideal) V c 0 t : Vec Ideal S10000x64 .f32) a = (V c main_v41_1 : S100000x64.Idx → EReal) b := by
  obtain ⟨e0, e1, -⟩ := idx_facts t
  unfold iblk2
  rw [View.read_apply]
  show V c main_v41_1 _ = V c main_v41_1 _
  congr 1
  funext ax
  apply Fin.ext
  match ax with
  | ⟨0, _⟩ => show win2_0.index t 0 * 10000 + 1 * (a 0).val = (b 0).val; omega
  | ⟨1, _⟩ => show win2_0.index t 1 * 64 + 1 * (a 1).val = (b 1).val; omega

/-- The aggregated rows' block at point `t` is the same rows of the aggregated array. -/
theorem agg_blk (c : Dev nD) (t : Fin cfg2.N) (a : S10000x64.Idx) (b : S100000x64.Idx)
    (h0 : (b 0).val = t.val * 10000 + (a 0).val) (h1 : (b 1).val = (a 1).val) :
    (iblk2 (F := Ideal) V c 1 t : Vec Ideal S10000x64 .f32) a = (V c main_v54 : S100000x64.Idx → EReal) b := by
  obtain ⟨-, -, e0, e1, -⟩ := idx_facts t
  unfold iblk2
  rw [View.read_apply]
  show V c main_v54 _ = V c main_v54 _
  congr 1
  funext ax
  apply Fin.ext
  match ax with
  | ⟨0, _⟩ => show win2_1.index t 0 * 10000 + 1 * (a 0).val = (b 0).val; omega
  | ⟨1, _⟩ => show win2_1.index t 1 * 64 + 1 * (a 1).val = (b 1).val; omega

/-- The first weight matrix's block is the matrix at every point. -/
theorem wl_blk (c : Dev nD) (t : Fin cfg2.N) (a : S128x64.Idx) :
    (iblk2 (F := Ideal) V c 2 t : Vec Ideal S128x64 .f32) a = (V c main_arg7 : S128x64.Idx → EReal) a := by
  obtain ⟨-, -, -, -, e0, e1, -⟩ := idx_facts t
  unfold iblk2
  rw [View.read_apply]
  show V c main_arg7 _ = V c main_arg7 _
  congr 1
  funext ax
  apply Fin.ext
  match ax with
  | ⟨0, _⟩ => show win2_2.index t 0 * 128 + 1 * (a 0).val = (a 0).val; omega
  | ⟨1, _⟩ => show win2_2.index t 1 * 64 + 1 * (a 1).val = (a 1).val; omega

/-- The bias row's block is the row at every point. -/
theorem bl_blk (c : Dev nD) (t : Fin cfg2.N) (a : S1x128.Idx) :
    (iblk2 (F := Ideal) V c 3 t : Vec Ideal S1x128 .f32) a = (V c main_v55 : S1x128.Idx → EReal) a := by
  obtain ⟨-, -, -, -, -, -, e0, e1, -⟩ := idx_facts t
  unfold iblk2
  rw [View.read_apply]
  show V c main_v55 _ = V c main_v55 _
  congr 1
  funext ax
  apply Fin.ext
  match ax with
  | ⟨0, _⟩ => show win2_3.index t 0 * 1 + 1 * (a 0).val = (a 0).val; omega
  | ⟨1, _⟩ => show win2_3.index t 1 * 128 + 1 * (a 1).val = (a 1).val; omega

/-- The second weight matrix's block is the matrix at every point. -/
theorem wr_blk (c : Dev nD) (t : Fin cfg2.N) (a : S128x64.Idx) :
    (iblk2 (F := Ideal) V c 4 t : Vec Ideal S128x64 .f32) a = (V c main_arg9 : S128x64.Idx → EReal) a := by
  obtain ⟨-, -, -, -, -, -, -, -, e0, e1, -⟩ := idx_facts t
  unfold iblk2
  rw [View.read_apply]
  show V c main_arg9 _ = V c main_arg9 _
  congr 1
  funext ax
  apply Fin.ext
  match ax with
  | ⟨0, _⟩ => show win2_4.index t 0 * 128 + 1 * (a 0).val = (a 0).val; omega
  | ⟨1, _⟩ => show win2_4.index t 1 * 64 + 1 * (a 1).val = (a 1).val; omega

end Blocks

/-- One row tile of the layer from the tile's blocks: when the two row-tiled blocks are rows `10000 n + p` of their
    arrays and the other three blocks are their whole arrays, the body's stored tile at `(p, q)` is the layer's
    entry at row `10000 n + p`, column `q`. -/
theorem tile_apply (X AGG : S100000x64.Idx → EReal) (WL WR : S128x64.Idx → EReal) (BL : S1x128.Idx → EReal)
    (x0 x1 : Vec Ideal S10000x64 .f32) (x2 : Vec Ideal S128x64 .f32) (x3 : Vec Ideal S1x128 .f32)
    (x4 : Vec Ideal S128x64 .f32) (n : Nat)
    (h0 : ∀ (a : S10000x64.Idx) (b : S100000x64.Idx), (b 0).val = n * 10000 + (a 0).val → (b 1).val = (a 1).val → x0 a = X b)
    (h1 : ∀ (a : S10000x64.Idx) (b : S100000x64.Idx), (b 0).val = n * 10000 + (a 0).val → (b 1).val = (a 1).val → x1 a = AGG b)
    (h2 : ∀ a, x2 a = WL a) (h3 : ∀ a, x3 a = BL a) (h4 : ∀ a, x4 a = WR a)
    (p : Fin 10000) (q : Fin 128) (r : Fin 100000) (hr : r.val = n * 10000 + p.val) :
    out2_5 (F := Ideal) x0 x1 x2 x3 x4 (ix2 p q) = entry X AGG WL WR BL r q := by
  unfold out2_5
  rw [View.canon_unit_zero offs_zero]
  simp only [View.ld_unit_zero (S := S10000x64) offs_zero, View.ld_unit_zero (S := S128x64) offs_zero,
    View.ld_unit_zero (S := S1x128) offs_zero]
  rw [pay_apply]
  unfold entry
  have e0 : ∀ k : Fin 64, x0 (ix2 p k) = X (ix2 r k) := fun k => h0 _ _ hr rfl
  have e1 : ∀ k : Fin 64, x1 (ix2 p k) = AGG (ix2 r k) := fun k => h1 _ _ hr rfl
  simp only [e0, e1, h2, h3, h4]

section Array
variable (V : (c : Dev nD) → (b : Ref sig .tc) → Buf (Elt Ideal) ((c : Thread nD τ).loc b))

/-- What point `t` writes back is row tile `t` of the layer of the arrays as the region finds them. -/
theorem flushed_eq (c : Dev nD) (t : Fin cfg2.N) :
    (dat2 (F := Ideal) V c).flushed 5 t
      = ((cfg2.win 5).blk t).view.read (Elt Ideal)
          (layer (V c main_v41_1) (V c main_v54) (V c main_arg7) (V c main_arg9) (V c main_v55)) := by
  show (cfg2.win 5).cut (grid2.coords t) ((dat2 V c).after 5 t) = _
  rw [after2_5]
  obtain ⟨-, -, -, -, -, -, -, -, -, -, e0, e1⟩ := idx_facts t
  funext y
  have hp : (y 0).val < 10000 := (y 0).isLt
  have hq : (y 1).val < 128 := (y 1).isLt
  have hy : (cfg2.win 5).xinj (grid2.coords t) y = ix2 (⟨(y 0).val, hp⟩ : Fin 10000) (⟨(y 1).val, hq⟩ : Fin 128) :=
    funext fun a => by match a with | ⟨0, _⟩ => rfl | ⟨1, _⟩ => rfl
  show out2_5 (iblk2 V c 0 t) (iblk2 V c 1 t) (iblk2 V c 2 t) (iblk2 V c 3 t) (iblk2 V c 4 t) ((cfg2.win 5).xinj (grid2.coords t) y)
    = layer (V c main_v41_1) (V c main_v54) (V c main_arg7) (V c main_arg9) (V c main_v55) (((cfg2.win 5).blk t).view.emb y)
  rw [hy]
  have hr : (((cfg2.win 5).blk t).view.emb y (0 : Fin 2)).val = t.val * 10000 + (y 0).val := by
    show win2_5.index t 0 * 10000 + 1 * (y 0).val = _
    omega
  have hc : (((cfg2.win 5).blk t).view.emb y (1 : Fin 2)).val = (y 1).val := by
    show win2_5.index t 1 * 128 + 1 * (y 1).val = _
    omega
  refine (tile_apply (V c main_v41_1) (V c main_v54) (V c main_arg7) (V c main_arg9) (V c main_v55)
    (iblk2 V c 0 t) (iblk2 V c 1 t) (iblk2 V c 2 t) (iblk2 V c 3 t) (iblk2 V c 4 t) t.val
    (rows_blk V c t) (agg_blk V c t) (wl_blk V c t) (bl_blk V c t) (wr_blk V c t)
    ⟨(y 0).val, hp⟩ ⟨(y 1).val, hq⟩ (((cfg2.win 5).blk t).view.emb y 0) hr).trans ?_
  show entry _ _ _ _ _ _ _ = entry _ _ _ _ _ _ _
  congr 1
  exact Fin.ext hc.symm

/-- An index of the output array is in point `t`'s block iff each coordinate is in the block's range on its axis. -/
theorem mem_blk (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v56).slice (win2_5.rect t)).set ↔ _
  rw [View.set_slice_whole, Rect.mem_set_unit]
  exact Iff.rfl

/-- The ten row tiles cover the output array: row `r` lies in the tile of point `r / 10000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t 0 * 10000 ≤ (i 0).val ∧ (i 0).val < win2_5.index t 0 * 10000 + 10000
    omega
  | ⟨1, _⟩ =>
    show win2_5.index t 1 * 128 ≤ (i 1).val ∧ (i 1).val < win2_5.index t 1 * 128 + 128
    omega

/-- The output array after the region is the layer of the arrays as the region finds them. -/
theorem whole (c : Dev nD) :
    (dat2 (F := Ideal) V c).arrAt 5 cfg2.N
      = layer (V c main_v41_1) (V c main_v54) (V c main_arg7) (V c main_arg9) (V c main_v55) :=
  (dat2 V c).arrAt_eq_of_cover 5 (layer (V c main_v41_1) (V c main_v54) (V c main_arg7) (V c main_arg9) (V c main_v55))
    (fun t _ => flushed_eq V c t) cover

/-- The layer's entry, written out. -/
theorem entry_eq (x agg : S100000x64.Idx → EReal) (wl wr : S128x64.Idx → EReal) (bl : S1x128.Idx → EReal)
    (r : Fin 100000) (j : Fin 128) :
    entry x agg wl wr bl r j
      = ((∑ k : Fin 64, agg (ix2 r k) * wl (ix2 j k)) + (∑ k : Fin 64, x (ix2 r k) * wr (ix2 j k))) + bl (ix2 0 j) :=
  rfl

/-- The output array after the region, entry by entry. -/
theorem final (c : Dev nD) (r : Fin 100000) (j : Fin 128) :
    (dat2 (F := Ideal) V c).arrAt 5 cfg2.N (ix2 r j)
      = entry (V c main_v41_1) (V c main_v54) (V c main_arg7) (V c main_arg9) (V c main_v55) r j :=
  congrFun (whole V c) (ix2 r j)

end Array

end Cert.KernelIdeal.KReg2

end
-- ==== Proof.KReg3.lean ====
/-
  Region 3 of the network: batch normalisation of a [100000, 128] array by per-column statistics, followed by the
  exponential linear unit, computed ten thousand rows at a time.

  Both output arrays in closed form, entry by entry, at the exact (extended real) reading of the floats:
  the first holds bnAt of the entry and of its column's mean, variance, scale and shift; the second holds
  eluAt of that value.  A row block of the output depends only on the same row block of the input and on the
  four [1, 128] rows, which every grid point reads whole; row r lies in the block of point r / 10000, and the
  ten blocks cover the array.
-/
import proofs.«150843_j12429635355189_1_alg».proof.Proof.Gen.KernelIdeal.Frame
import proofs.«150843_j12429635355189_1_alg».proof.Proof.Scalar
import Idealize.ShloMosaic.Lib.Pipeline.Value
import Idealize.ShloMosaic.Lib.ValueIdx
import Idealize.ShloMosaic.Lib.ValueLayout

noncomputable section

namespace Cert.KernelIdeal.KReg3

open Cert.KernelIdeal Cert.KernelIdeal.Gen Idealize.ShloMosaic Idealize.ShloMosaic.ValueIdx
open Idealize.ShloMosaic.TcCoe Idealize.SL.Sem
open Idealize.ShloMosaic.Pipeline (Dat)

/-! ## The two entrywise functions -/

/-- The comparison "x greater than z" selects between two values as the order on the extended reals says. -/
theorem select_gt (x z a b : EReal) :
    Scalar.select (Ideal.cmp .ogt x z) a b = if z < x then a else b := by
  unfold Scalar.select Ideal.cmp
  by_cases h : z < x <;> simp [h]

/-- bnAt respects equality of its five arguments. -/
theorem bnAt_congr {a a' b b' d d' e e' f f' : EReal} (h1 : a = a') (h2 : b = b') (h3 : d = d') (h4 : e = e')
    (h5 : f = f') : Cert.Spec.bnAt a b d e f = Cert.Spec.bnAt a' b' d' e' f' := by
  rw [h1, h2, h3, h4, h5]

/-- The normalised value of a block at row p, column q: the block's entry and the four rows' entries of column q.
    (The body reads the variance row before the mean row.) -/
theorem bn_at (x0 : Vec Ideal S10000x128 .f32) (xv xm xg xb : Vec Ideal S1x128 .f32) (p : Fin 10000) (q : Fin 128) :
    k3_pay1 x0 xv xm xg xb (ix2 p q)
      = Cert.Spec.bnAt (x0 (ix2 p q)) (xm (ix2 0 q)) (xv (ix2 0 q)) (xg (ix2 0 q)) (xb (ix2 0 q)) := by
  unfold k3_pay1 Cert.Spec.bnAt
  simp only [shapeCast_self]
  rw [addf_apply, mulf_apply, mulf_apply, subf_apply, broadcastTo_1b_ab_apply, broadcastTo_1b_ab_apply,
    broadcastTo_1b_ab_apply, broadcastTo_1b_ab_apply]
  rfl

/-- The activated value of a block at row p, column q is eluAt of the normalised value there. -/
theorem act_at (x0 : Vec Ideal S10000x128 .f32) (xv xm xg xb : Vec Ideal S1x128 .f32) (p : Fin 10000) (q : Fin 128) :
    k3_pay2 x0 xv xm xg xb (ix2 p q) = Cert.Spec.eluAt (k3_pay1 x0 xv xm xg xb (ix2 p q)) := by
  unfold k3_pay2 Cert.Spec.eluAt
  exact select_gt (k3_pay1 x0 xv xm xg xb (ix2 p q)) (Ideal.ofBits .f32 0x00000000#32) _ _

/-! ## The whole arrays -/

/-- Batch normalisation of a whole [100000, 128] array by four [1, 128] rows, entry by entry. -/
def bnArr (h : S100000x128.Idx → EReal) (mu var g be : S1x128.Idx → EReal) : S100000x128.Idx → EReal := fun i =>
  Cert.Spec.bnAt (h i) (mu (ix2 0 ⟨(i 1).val, idx2_lt1 i⟩)) (var (ix2 0 ⟨(i 1).val, idx2_lt1 i⟩))
    (g (ix2 0 ⟨(i 1).val, idx2_lt1 i⟩)) (be (ix2 0 ⟨(i 1).val, idx2_lt1 i⟩))

/-- The exponential linear unit of that array, entry by entry. -/
def actArr (h : S100000x128.Idx → EReal) (mu var g be : S1x128.Idx → EReal) : S100000x128.Idx → EReal := fun i =>
  Cert.Spec.eluAt (bnArr h mu var g be i)

theorem hz : (![0, 0] : Fin 2 → Nat) = fun _ => 0 := funext fun a => by fin_cases a <;> rfl

/-- The index maps, decided over the ten grid points: the input's and both outputs' row blocks are the point's own,
    at column block zero; each of the four rows is read whole at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-! ## The input blocks as entries of the arrays -/

/-- Row p, column q of the input's block at point t is row 10000 t + p, column q of the input array. -/
theorem blk_h (c : Dev nD) (t : Fin cfg3.N) (p : Fin 10000) (q : Fin 128) (k : S100000x128.Idx)
    (hk0 : (k 0).val = t.val * 10000 + p.val) (hk1 : (k 1).val = q.val) :
    (iblk3 V c 0 t : Vec Ideal S10000x128 .f32) (ix2 p q) = (V c main_v56 : S100000x128.Idx → EReal) k := by
  obtain ⟨e0, e1, -⟩ := idx_facts t
  unfold iblk3
  rw [View.read_apply]
  show (V c main_v56 : S100000x128.Idx → EReal) _ = (V c main_v56 : S100000x128.Idx → EReal) k
  congr 1
  funext a
  apply Fin.ext
  match a with
  | ⟨0, _⟩ => show win3_0.index t (0 : Fin 2) * 10000 + 1 * p.val = (k 0).val; omega
  | ⟨1, _⟩ => show win3_0.index t (1 : Fin 2) * 128 + 1 * q.val = (k 1).val; omega

/-- Column q of the mean row's block at any point is column q of the mean row. -/
theorem blk_mu (c : Dev nD) (t : Fin cfg3.N) (q : Fin 128) (k : S1x128.Idx) (hk1 : (k 1).val = q.val) :
    (iblk3 V c 1 t : Vec Ideal S1x128 .f32) (ix2 0 q) = (V c main_v67 : S1x128.Idx → EReal) k := by
  obtain ⟨-, -, e0, e1, -⟩ := idx_facts t
  have hk0 : (k 0).val = 0 := by have := idx2_lt0 k; omega
  unfold iblk3
  rw [View.read_apply]
  show (V c main_v67 : S1x128.Idx → EReal) _ = (V c main_v67 : S1x128.Idx → EReal) k
  congr 1
  funext a
  apply Fin.ext
  match a with
  | ⟨0, _⟩ => show win3_1.index t (0 : Fin 2) * 1 + 1 * 0 = (k 0).val; omega
  | ⟨1, _⟩ => show win3_1.index t (1 : Fin 2) * 128 + 1 * q.val = (k 1).val; omega

/-- Column q of the variance row's block at any point is column q of the variance row. -/
theorem blk_var (c : Dev nD) (t : Fin cfg3.N) (q : Fin 128) (k : S1x128.Idx) (hk1 : (k 1).val = q.val) :
    (iblk3 V c 2 t : Vec Ideal S1x128 .f32) (ix2 0 q) = (V c main_v68 : S1x128.Idx → EReal) k := by
  obtain ⟨-, -, -, -, e0, e1, -⟩ := idx_facts t
  have hk0 : (k 0).val = 0 := by have := idx2_lt0 k; omega
  unfold iblk3
  rw [View.read_apply]
  show (V c main_v68 : S1x128.Idx → EReal) _ = (V c main_v68 : S1x128.Idx → EReal) k
  congr 1
  funext a
  apply Fin.ext
  match a with
  | ⟨0, _⟩ => show win3_2.index t (0 : Fin 2) * 1 + 1 * 0 = (k 0).val; omega
  | ⟨1, _⟩ => show win3_2.index t (1 : Fin 2) * 128 + 1 * q.val = (k 1).val; omega

/-- Column q of the scale row's block at any point is column q of the scale row. -/
theorem blk_g (c : Dev nD) (t : Fin cfg3.N) (q : Fin 128) (k : S1x128.Idx) (hk1 : (k 1).val = q.val) :
    (iblk3 V c 3 t : Vec Ideal S1x128 .f32) (ix2 0 q) = (V c main_v69 : S1x128.Idx → EReal) k := by
  obtain ⟨-, -, -, -, -, -, e0, e1, -⟩ := idx_facts t
  have hk0 : (k 0).val = 0 := by have := idx2_lt0 k; omega
  unfold iblk3
  rw [View.read_apply]
  show (V c main_v69 : S1x128.Idx → EReal) _ = (V c main_v69 : S1x128.Idx → EReal) k
  congr 1
  funext a
  apply Fin.ext
  match a with
  | ⟨0, _⟩ => show win3_3.index t (0 : Fin 2) * 1 + 1 * 0 = (k 0).val; omega
  | ⟨1, _⟩ => show win3_3.index t (1 : Fin 2) * 128 + 1 * q.val = (k 1).val; omega

/-- Column q of the shift row's block at any point is column q of the shift row. -/
theorem blk_be (c : Dev nD) (t : Fin cfg3.N) (q : Fin 128) (k : S1x128.Idx) (hk1 : (k 1).val = q.val) :
    (iblk3 V c 4 t : Vec Ideal S1x128 .f32) (ix2 0 q) = (V c main_v70 : S1x128.Idx → EReal) k := by
  obtain ⟨-, -, -, -, -, -, -, -, e0, e1, -⟩ := idx_facts t
  have hk0 : (k 0).val = 0 := by have := idx2_lt0 k; omega
  unfold iblk3
  rw [View.read_apply]
  show (V c main_v70 : S1x128.Idx → EReal) _ = (V c main_v70 : S1x128.Idx → EReal) k
  congr 1
  funext a
  apply Fin.ext
  match a with
  | ⟨0, _⟩ => show win3_4.index t (0 : Fin 2) * 1 + 1 * 0 = (k 0).val; omega
  | ⟨1, _⟩ => show win3_4.index t (1 : Fin 2) * 128 + 1 * q.val = (k 1).val; omega

/-! ## What each point writes back -/

/-- The normalised block of point t, entry by entry: bnArr at row 10000 t + p. -/
theorem blk_bn (c : Dev nD) (t : Fin cfg3.N) (p : Fin 10000) (q : Fin 128) (k : S100000x128.Idx)
    (hk0 : (k 0).val = t.val * 10000 + p.val) (hk1 : (k 1).val = q.val) :
    k3_pay1 (iblk3 V c 0 t) (iblk3 V c 2 t) (iblk3 V c 1 t) (iblk3 V c 3 t) (iblk3 V c 4 t) (ix2 p q)
      = bnArr (V c main_v56) (V c main_v67) (V c main_v68) (V c main_v69) (V c main_v70) k := by
  refine (bn_at (iblk3 V c 0 t) (iblk3 V c 2 t) (iblk3 V c 1 t) (iblk3 V c 3 t) (iblk3 V c 4 t) p q).trans ?_
  exact bnAt_congr (blk_h V c t p q k hk0 hk1) (blk_mu V c t q (ix2 0 ⟨(k 1).val, idx2_lt1 k⟩) hk1) (blk_var V c t q (ix2 0 ⟨(k 1).val, idx2_lt1 k⟩) hk1)
    (blk_g V c t q (ix2 0 ⟨(k 1).val, idx2_lt1 k⟩) hk1) (blk_be V c t q (ix2 0 ⟨(k 1).val, idx2_lt1 k⟩) hk1)

/-- The activated block of point t, entry by entry: actArr at row 10000 t + p. -/
theorem blk_act (c : Dev nD) (t : Fin cfg3.N) (p : Fin 10000) (q : Fin 128) (k : S100000x128.Idx)
    (hk0 : (k 0).val = t.val * 10000 + p.val) (hk1 : (k 1).val = q.val) :
    k3_pay2 (iblk3 V c 0 t) (iblk3 V c 2 t) (iblk3 V c 1 t) (iblk3 V c 3 t) (iblk3 V c 4 t) (ix2 p q)
      = actArr (V c main_v56) (V c main_v67) (V c main_v68) (V c main_v69) (V c main_v70) k := by
  refine (act_at (iblk3 V c 0 t) (iblk3 V c 2 t) (iblk3 V c 1 t) (iblk3 V c 3 t) (iblk3 V c 4 t) p q).trans ?_
  exact congrArg Cert.Spec.eluAt (blk_bn V c t p q k hk0 hk1)

/-- Point t writes back to the first output the rows 10000 t … 10000 t + 9999 of bnArr. -/
theorem flushed_bn (c : Dev nD) (t : Fin cfg3.N) :
    (dat3 (F := Ideal) V c).flushed 5 t
      = ((cfg3.win 5).blk t).view.read (Elt Ideal) (bnArr (V c main_v56) (V c main_v67) (V c main_v68) (V c main_v69) (V c main_v70)) := by
  show (cfg3.win 5).cut (grid3.coords t) ((dat3 V c).after 5 t) = _
  rw [after3_5]
  unfold out3_5
  rw [View.canon_unit_zero hz]
  simp only [View.ld_unit_zero (S := S10000x128) hz, View.ld_unit_zero (S := S1x128) hz]
  obtain ⟨-, -, -, -, -, -, -, -, -, -, e0, e1, -⟩ := idx_facts t
  funext j
  obtain ⟨p, q, rfl⟩ : ∃ (p : Fin 10000) (q : Fin 128), j = ix2 p q := ⟨j 0, j 1, eq_ix2 j⟩
  show k3_pay1 (iblk3 V c 0 t) (iblk3 V c 2 t) (iblk3 V c 1 t) (iblk3 V c 3 t) (iblk3 V c 4 t) (ix2 p q)
    = bnArr (V c main_v56) (V c main_v67) (V c main_v68) (V c main_v69) (V c main_v70) (((cfg3.win 5).blk t).view.emb (ix2 p q))
  refine blk_bn V c t p q (((cfg3.win 5).blk t).view.emb (ix2 p q)) ?_ ?_
  · show win3_5.index t (0 : Fin 2) * 10000 + 1 * p.val = t.val * 10000 + p.val; omega
  · show win3_5.index t (1 : Fin 2) * 128 + 1 * q.val = q.val; omega

/-- Point t writes back to the second output the same rows of actArr. -/
theorem flushed_act (c : Dev nD) (t : Fin cfg3.N) :
    (dat3 (F := Ideal) V c).flushed 6 t
      = ((cfg3.win 6).blk t).view.read (Elt Ideal) (actArr (V c main_v56) (V c main_v67) (V c main_v68) (V c main_v69) (V c main_v70)) := by
  show (cfg3.win 6).cut (grid3.coords t) ((dat3 V c).after 6 t) = _
  rw [after3_6]
  unfold out3_6
  rw [View.canon_unit_zero hz]
  simp only [View.ld_unit_zero (S := S10000x128) hz, View.ld_unit_zero (S := S1x128) hz]
  obtain ⟨-, -, -, -, -, -, -, -, -, -, -, -, e0, e1⟩ := idx_facts t
  funext j
  obtain ⟨p, q, rfl⟩ : ∃ (p : Fin 10000) (q : Fin 128), j = ix2 p q := ⟨j 0, j 1, eq_ix2 j⟩
  show k3_pay2 (iblk3 V c 0 t) (iblk3 V c 2 t) (iblk3 V c 1 t) (iblk3 V c 3 t) (iblk3 V c 4 t) (ix2 p q)
    = actArr (V c main_v56) (V c main_v67) (V c main_v68) (V c main_v69) (V c main_v70) (((cfg3.win 6).blk t).view.emb (ix2 p q))
  refine blk_act V c t p q (((cfg3.win 6).blk t).view.emb (ix2 p q)) ?_ ?_
  · show win3_6.index t (0 : Fin 2) * 10000 + 1 * p.val = t.val * 10000 + p.val; omega
  · show win3_6.index t (1 : Fin 2) * 128 + 1 * q.val = q.val; omega

/-! ## The ten row blocks cover the array -/

/-- An index lies in point t's block of the first output iff each coordinate is in the block's range. -/
theorem mem_blk_bn (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v71_0).slice (win3_5.rect t)).set ↔ _
  rw [View.set_slice_whole, Rect.mem_set_unit]
  exact Iff.rfl

/-- Likewise for the second output. -/
theorem mem_blk_act (t : Fin cfg3.N) (i : S100000x128.Idx) :
    i ∈ ((cfg3.win 6).blk t).view.set ↔ ∀ a : Fin 2, win3_6.index t a * S10000x128.size a ≤ (i a).val
      ∧ (i a).val < win3_6.index t a * S10000x128.size a + S10000x128.size a := by
  show i ∈ ((View.whole main_v71_1).slice (win3_6.rect t)).set ↔ _
  rw [View.set_slice_whole, Rect.mem_set_unit]
  exact Iff.rfl

/-- Row r of the first output lies in the block of point r / 10000. -/
theorem cover_bn (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 10 := N_3
  obtain ⟨t, ht⟩ : ∃ t : Fin cfg3.N, t.val = (i 0).val / 10000 := ⟨⟨(i 0).val / 10000, by omega⟩, rfl⟩
  obtain ⟨-, -, -, -, -, -, -, -, -, -, e0, e1, -⟩ := idx_facts t
  refine ⟨t, flush3_5 t, ?_⟩
  rw [mem_blk_bn]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 128 ≤ (i 1).val ∧ (i 1).val < win3_5.index t (1 : Fin 2) * 128 + 128
    omega

/-- Likewise for the second output. -/
theorem cover_act (i : S100000x128.Idx) :
    ∃ t : Fin cfg3.N, (cfg3.win 6).flush t = true ∧ i ∈ ((cfg3.win 6).blk t).view.set := by
  have hi0 : (i 0).val < 100000 := idx2_lt0 i
  have hi1 : (i 1).val < 128 := idx2_lt1 i
  have hN : cfg3.N = 10 := N_3
  obtain ⟨t, ht⟩ : ∃ t : Fin cfg3.N, t.val = (i 0).val / 10000 := ⟨⟨(i 0).val / 10000, by omega⟩, rfl⟩
  obtain ⟨-, -, -, -, -, -, -, -, -, -, -, -, e0, e1⟩ := idx_facts t
  refine ⟨t, flush3_6 t, ?_⟩
  rw [mem_blk_act]
  intro a
  match a with
  | ⟨0, _⟩ =>
    show win3_6.index t (0 : Fin 2) * 10000 ≤ (i 0).val ∧ (i 0).val < win3_6.index t (0 : Fin 2) * 10000 + 10000
    omega
  | ⟨1, _⟩ =>
    show win3_6.index t (1 : Fin 2) * 128 ≤ (i 1).val ∧ (i 1).val < win3_6.index t (1 : Fin 2) * 128 + 128
    omega

/-! ## The two arrays after the region -/

/-- The first output array after the region is bnArr of the arrays the region found. -/
theorem arr_bn (c : Dev nD) :
    (dat3 (F := Ideal) V c).arrAt 5 cfg3.N = bnArr (V c main_v56) (V c main_v67) (V c main_v68) (V c main_v69) (V c main_v70) :=
  (dat3 (F := Ideal) V c).arrAt_eq_of_cover 5 (bnArr (V c main_v56) (V c main_v67) (V c main_v68) (V c main_v69) (V c main_v70)) (fun t _ => flushed_bn V c t) cover_bn

/-- The second output array after the region is actArr of them. -/
theorem arr_act (c : Dev nD) :
    (dat3 (F := Ideal) V c).arrAt 6 cfg3.N = actArr (V c main_v56) (V c main_v67) (V c main_v68) (V c main_v69) (V c main_v70) :=
  (dat3 (F := Ideal) V c).arrAt_eq_of_cover 6 (actArr (V c main_v56) (V c main_v67) (V c main_v68) (V c main_v69) (V c main_v70)) (fun t _ => flushed_act V c t) cover_act

/-- Entry (r, j) of the first output: the batch normalisation of entry (r, j) by column j's statistics. -/
theorem final_bn (c : Dev nD) (r : Fin 100000) (j : Fin 128) :
    (dat3 (F := Ideal) V c).arrAt 5 cfg3.N (ix2 r j)
      = Cert.Spec.bnAt ((V c main_v56 : S100000x128.Idx → EReal) (ix2 r j)) ((V c main_v67 : S1x128.Idx → EReal) (ix2 0 j))
          ((V c main_v68 : S1x128.Idx → EReal) (ix2 0 j)) ((V c main_v69 : S1x128.Idx → EReal) (ix2 0 j))
          ((V c main_v70 : S1x128.Idx → EReal) (ix2 0 j)) :=
  (congrFun (arr_bn V c) (ix2 r j)).trans rfl

/-- Entry (r, j) of the second output: the exponential linear unit of that value. -/
theorem final_act (c : Dev nD) (r : Fin 100000) (j : Fin 128) :
    (dat3 (F := Ideal) V c).arrAt 6 cfg3.N (ix2 r j)
      = Cert.Spec.eluAt (Cert.Spec.bnAt ((V c main_v56 : S100000x128.Idx → EReal) (ix2 r j))
          ((V c main_v67 : S1x128.Idx → EReal) (ix2 0 j)) ((V c main_v68 : S1x128.Idx → EReal) (ix2 0 j))
          ((V c main_v69 : S1x128.Idx → EReal) (ix2 0 j)) ((V c main_v70 : S1x128.Idx → EReal) (ix2 0 j))) :=
  (congrFun (arr_act V c) (ix2 r j)).trans rfl

end Cert.KernelIdeal.KReg3

end
-- ==== Proof.KReg4.lean ====
/-
  The third linear layer of the network, read off its pipelined region.

  The region tiles the 100000 rows into ten tiles of 10000. At each tile the body multiplies the tile's aggregated rows
  by the transposed first weight matrix, the tile's own rows by the transposed second weight matrix, adds the two
  products and then the bias row. At the ideal instance the format changes are identities and a product into the zero
  accumulator is the plain sum over the 128 features, so entry `(r, j)` of the output array is

      (∑ k, agg (r, k) · Wl (j, k)  +  ∑ k, x (r, k) · Wr (j, k))  +  bl (0, j),

  in exactly that grouping. The proof reads the body's arithmetic at an entry of a tile, identifies each input block with
  the rows of its array that the tile names, and covers the array by the ten tiles.
-/
import proofs.«150843_j12429635355189_1_alg».proof.Proof.Gen.KernelIdeal.Frame
import proofs.«150843_j12429635355189_1_alg».proof.Proof.LibMatmulNN
import Idealize.ShloMosaic.Lib.Pipeline.Value
import Idealize.ShloMosaic.Lib.ValueLayout

set_option maxRecDepth 16384

noncomputable section

open scoped BigOperators

namespace Cert.KernelIdeal.KReg4

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer load or store, as a constant function. -/
theorem offs_zero : (![0, 0] : Fin 2 → Nat) = fun _ => 0 := funext fun a => by fin_cases a <;> rfl

/-- Entry `(r, j)` of the layer on whole arrays: the aggregated rows against the first weight matrix, plus the rows
    themselves against the second, plus the bias; each product contracts the feature axis. -/
def entry (x agg : S100000x128.Idx → EReal) (wl wr : S64x128.Idx → EReal) (bl : S1x64.Idx → EReal)
    (r : Fin 100000) (j : Fin 64) : EReal :=
  ((∑ k : Fin 128, agg (ix2 r k) * wl (ix2 j k)) + (∑ k : Fin 128, x (ix2 r k) * wr (ix2 j k))) + bl (ix2 0 j)

/-- The layer's whole output array. -/
def layer (x agg : S100000x128.Idx → EReal) (wl wr : S64x128.Idx → EReal) (bl : S1x64.Idx → EReal) :
    S100000x64.Idx → EReal :=
  fun i => entry x agg wl wr bl (i 0) (i 1)

/-- The body's arithmetic at an entry of one row tile: the format changes and the same-shape casts are identities,
    each transposed weight matrix is read at the swapped index, each product into the zero accumulator is the plain
    sum over the feature axis, and the one-row bias is read at its column. -/
theorem pay_apply (x agg : Vec Ideal S10000x128 .f32) (wl wr : Vec Ideal S64x128 .f32) (bl : Vec Ideal S1x64 .f32)
    (p : Fin 10000) (q : Fin 64) :
    k4_pay1 (F := Ideal) x agg wl wr bl (ix2 p q)
      = ((∑ k : Fin 128, (agg (ix2 p k) : EReal) * wl (ix2 q k)) + (∑ k : Fin 128, (x (ix2 p k) : EReal) * wr (ix2 q k)))
        + bl (ix2 0 q) := by
  unfold k4_pay1
  dsimp only
  rw [addf_apply, addf_apply]
  simp only [shapeCast_self]
  refine congrArg₂ (· + ·) (congrArg₂ (· + ·) ?_ ?_) ?_
  · refine (Cert.LibMatmulNN.matmul_zero_apply' (M := 10000) (K := 128) (N := 64)
      dot_S10000x128_S128x64_S10000x64_1_0_0_1_n_n rfl rfl rfl rfl rfl rfl none _ _ p q).trans ?_
    refine Finset.sum_congr rfl fun k _ => ?_
    refine congrArg₂ (· * ·) rfl ?_
    exact transpose_ix2_apply (a := 64) (b := 128) _ _ k q
  · refine (Cert.LibMatmulNN.matmul_zero_apply' (M := 10000) (K := 128) (N := 64)
      dot_S10000x128_S128x64_S10000x64_1_0_0_1_n_n rfl rfl rfl rfl rfl rfl none _ _ p q).trans ?_
    refine Finset.sum_congr rfl fun k _ => ?_
    refine congrArg₂ (· * ·) rfl ?_
    exact transpose_ix2_apply (a := 64) (b := 128) _ _ k q
  · exact broadcastTo_1b_ab_apply (a := 10000) (b := 64) _ _ p q

/-- The printed index maps, decided over the ten grid points: the two row-tiled inputs and the output sit at row
    tile `t`, column block 0; the two weight matrices and the bias row are their arrays' one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section Blocks
variable (V : (c : Dev nD) → (b : Ref sig .tc) → Buf (Elt Ideal) ((c : Thread nD τ).loc b))

/-- The rows' block at point `t` is rows `10000 t … 10000 t + 9999` of the rows' array. -/
theorem rows_blk (c : Dev nD) (t : Fin cfg4.N) (a : S10000x128.Idx) (b : S100000x128.Idx)
    (h0 : (b 0).val = t.val * 10000 + (a 0).val) (h1 : (b 1).val = (a 1).val) :
    (iblk4 (F := Ideal) V c 0 t : Vec Ideal S10000x128 .f32) a = (V c main_v71_1 : S100000x128.Idx → EReal) b := by
  obtain ⟨e0, e1, -⟩ := idx_facts t
  unfold iblk4
  rw [View.read_apply]
  show V c main_v71_1 _ = V c main_v71_1 _
  congr 1
  funext ax
  apply Fin.ext
  match ax with
  | ⟨0, _⟩ => show win4_0.index t 0 * 10000 + 1 * (a 0).val = (b 0).val; omega
  | ⟨1, _⟩ => show win4_0.index t 1 * 128 + 1 * (a 1).val = (b 1).val; omega

/-- The aggregated rows' block at point `t` is the same rows of the aggregated array. -/
theorem agg_blk (c : Dev nD) (t : Fin cfg4.N) (a : S10000x128.Idx) (b : S100000x128.Idx)
    (h0 : (b 0).val = t.val * 10000 + (a 0).val) (h1 : (b 1).val = (a 1).val) :
    (iblk4 (F := Ideal) V c 1 t : Vec Ideal S10000x128 .f32) a = (V c main_v84 : S100000x128.Idx → EReal) b := by
  obtain ⟨-, -, e0, e1, -⟩ := idx_facts t
  unfold iblk4
  rw [View.read_apply]
  show V c main_v84 _ = V c main_v84 _
  congr 1
  funext ax
  apply Fin.ext
  match ax with
  | ⟨0, _⟩ => show win4_1.index t 0 * 10000 + 1 * (a 0).val = (b 0).val; omega
  | ⟨1, _⟩ => show win4_1.index t 1 * 128 + 1 * (a 1).val = (b 1).val; omega

/-- The first weight matrix's block is the matrix at every point. -/
theorem wl_blk (c : Dev nD) (t : Fin cfg4.N) (a : S64x128.Idx) :
    (iblk4 (F := Ideal) V c 2 t : Vec Ideal S64x128 .f32) a = (V c main_arg12 : S64x128.Idx → EReal) a := by
  obtain ⟨-, -, -, -, e0, e1, -⟩ := idx_facts t
  unfold iblk4
  rw [View.read_apply]
  show V c main_arg12 _ = V c main_arg12 _
  congr 1
  funext ax
  apply Fin.ext
  match ax with
  | ⟨0, _⟩ => show win4_2.index t 0 * 64 + 1 * (a 0).val = (a 0).val; omega
  | ⟨1, _⟩ => show win4_2.index t 1 * 128 + 1 * (a 1).val = (a 1).val; omega

/-- The bias row's block is the row at every point. -/
theorem bl_blk (c : Dev nD) (t : Fin cfg4.N) (a : S1x64.Idx) :
    (iblk4 (F := Ideal) V c 3 t : Vec Ideal S1x64 .f32) a = (V c main_v85 : S1x64.Idx → EReal) a := by
  obtain ⟨-, -, -, -, -, -, e0, e1, -⟩ := idx_facts t
  unfold iblk4
  rw [View.read_apply]
  show V c main_v85 _ = V c main_v85 _
  congr 1
  funext ax
  apply Fin.ext
  match ax with
  | ⟨0, _⟩ => show win4_3.index t 0 * 1 + 1 * (a 0).val = (a 0).val; omega
  | ⟨1, _⟩ => show win4_3.index t 1 * 64 + 1 * (a 1).val = (a 1).val; omega

/-- The second weight matrix's block is the matrix at every point. -/
theorem wr_blk (c : Dev nD) (t : Fin cfg4.N) (a : S64x128.Idx) :
    (iblk4 (F := Ideal) V c 4 t : Vec Ideal S64x128 .f32) a = (V c main_arg14 : S64x128.Idx → EReal) a := by
  obtain ⟨-, -, -, -, -, -, -, -, e0, e1, -⟩ := idx_facts t
  unfold iblk4
  rw [View.read_apply]
  show V c main_arg14 _ = V c main_arg14 _
  congr 1
  funext ax
  apply Fin.ext
  match ax with
  | ⟨0, _⟩ => show win4_4.index t 0 * 64 + 1 * (a 0).val = (a 0).val; omega
  | ⟨1, _⟩ => show win4_4.index t 1 * 128 + 1 * (a 1).val = (a 1).val; omega

end Blocks

/-- One row tile of the layer from the tile's blocks: when the two row-tiled blocks are rows `10000 n + p` of their
    arrays and the other three blocks are their whole arrays, the body's stored tile at `(p, q)` is the layer's
    entry at row `10000 n + p`, column `q`. -/
theorem tile_apply (X AGG : S100000x128.Idx → EReal) (WL WR : S64x128.Idx → EReal) (BL : S1x64.Idx → EReal)
    (x0 x1 : Vec Ideal S10000x128 .f32) (x2 : Vec Ideal S64x128 .f32) (x3 : Vec Ideal S1x64 .f32)
    (x4 : Vec Ideal S64x128 .f32) (n : Nat)
    (h0 : ∀ (a : S10000x128.Idx) (b : S100000x128.Idx), (b 0).val = n * 10000 + (a 0).val → (b 1).val = (a 1).val → x0 a = X b)
    (h1 : ∀ (a : S10000x128.Idx) (b : S100000x128.Idx), (b 0).val = n * 10000 + (a 0).val → (b 1).val = (a 1).val → x1 a = AGG b)
    (h2 : ∀ a, x2 a = WL a) (h3 : ∀ a, x3 a = BL a) (h4 : ∀ a, x4 a = WR a)
    (p : Fin 10000) (q : Fin 64) (r : Fin 100000) (hr : r.val = n * 10000 + p.val) :
    out4_5 (F := Ideal) x0 x1 x2 x3 x4 (ix2 p q) = entry X AGG WL WR BL r q := by
  unfold out4_5
  rw [View.canon_unit_zero offs_zero]
  simp only [View.ld_unit_zero (S := S10000x128) offs_zero, View.ld_unit_zero (S := S64x128) offs_zero,
    View.ld_unit_zero (S := S1x64) offs_zero]
  rw [pay_apply]
  unfold entry
  have e0 : ∀ k : Fin 128, x0 (ix2 p k) = X (ix2 r k) := fun k => h0 _ _ hr rfl
  have e1 : ∀ k : Fin 128, x1 (ix2 p k) = AGG (ix2 r k) := fun k => h1 _ _ hr rfl
  simp only [e0, e1, h2, h3, h4]

section Array
variable (V : (c : Dev nD) → (b : Ref sig .tc) → Buf (Elt Ideal) ((c : Thread nD τ).loc b))

/-- What point `t` writes back is row tile `t` of the layer of the arrays as the region finds them. -/
theorem flushed_eq (c : Dev nD) (t : Fin cfg4.N) :
    (dat4 (F := Ideal) V c).flushed 5 t
      = ((cfg4.win 5).blk t).view.read (Elt Ideal)
          (layer (V c main_v71_1) (V c main_v84) (V c main_arg12) (V c main_arg14) (V c main_v85)) := by
  show (cfg4.win 5).cut (grid4.coords t) ((dat4 V c).after 5 t) = _
  rw [after4_5]
  obtain ⟨-, -, -, -, -, -, -, -, -, -, e0, e1⟩ := idx_facts t
  funext y
  have hp : (y 0).val < 10000 := (y 0).isLt
  have hq : (y 1).val < 64 := (y 1).isLt
  have hy : (cfg4.win 5).xinj (grid4.coords t) y = ix2 (⟨(y 0).val, hp⟩ : Fin 10000) (⟨(y 1).val, hq⟩ : Fin 64) :=
    funext fun a => by match a with | ⟨0, _⟩ => rfl | ⟨1, _⟩ => rfl
  show out4_5 (iblk4 V c 0 t) (iblk4 V c 1 t) (iblk4 V c 2 t) (iblk4 V c 3 t) (iblk4 V c 4 t) ((cfg4.win 5).xinj (grid4.coords t) y)
    = layer (V c main_v71_1) (V c main_v84) (V c main_arg12) (V c main_arg14) (V c main_v85) (((cfg4.win 5).blk t).view.emb y)
  rw [hy]
  have hr : (((cfg4.win 5).blk t).view.emb y (0 : Fin 2)).val = t.val * 10000 + (y 0).val := by
    show win4_5.index t 0 * 10000 + 1 * (y 0).val = _
    omega
  have hc : (((cfg4.win 5).blk t).view.emb y (1 : Fin 2)).val = (y 1).val := by
    show win4_5.index t 1 * 64 + 1 * (y 1).val = _
    omega
  refine (tile_apply (V c main_v71_1) (V c main_v84) (V c main_arg12) (V c main_arg14) (V c main_v85)
    (iblk4 V c 0 t) (iblk4 V c 1 t) (iblk4 V c 2 t) (iblk4 V c 3 t) (iblk4 V c 4 t) t.val
    (rows_blk V c t) (agg_blk V c t) (wl_blk V c t) (bl_blk V c t) (wr_blk V c t)
    ⟨(y 0).val, hp⟩ ⟨(y 1).val, hq⟩ (((cfg4.win 5).blk t).view.emb y 0) hr).trans ?_
  show entry _ _ _ _ _ _ _ = entry _ _ _ _ _ _ _
  congr 1
  exact Fin.ext hc.symm

/-- An index of the output array is in point `t`'s block iff each coordinate is in the block's range on its axis. -/
theorem mem_blk (t : Fin cfg4.N) (i : S100000x64.Idx) :
    i ∈ ((cfg4.win 5).blk t).view.set ↔ ∀ a : Fin 2, win4_5.index t a * S10000x64.size a ≤ (i a).val
      ∧ (i a).val < win4_5.index t a * S10000x64.size a + S10000x64.size a := by
  show i ∈ ((View.whole main_v86).slice (win4_5.rect t)).set ↔ _
  rw [View.set_slice_whole, Rect.mem_set_unit]
  exact Iff.rfl

/-- The ten row tiles cover the output array: row `r` lies in the tile of point `r / 10000`. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t 0 * 10000 ≤ (i 0).val ∧ (i 0).val < win4_5.index t 0 * 10000 + 10000
    omega
  | ⟨1, _⟩ =>
    show win4_5.index t 1 * 64 ≤ (i 1).val ∧ (i 1).val < win4_5.index t 1 * 64 + 64
    omega

/-- The output array after the region is the layer of the arrays as the region finds them. -/
theorem whole (c : Dev nD) :
    (dat4 (F := Ideal) V c).arrAt 5 cfg4.N
      = layer (V c main_v71_1) (V c main_v84) (V c main_arg12) (V c main_arg14) (V c main_v85) :=
  (dat4 V c).arrAt_eq_of_cover 5 (layer (V c main_v71_1) (V c main_v84) (V c main_arg12) (V c main_arg14) (V c main_v85))
    (fun t _ => flushed_eq V c t) cover

/-- The layer's entry, written out. -/
theorem entry_eq (x agg : S100000x128.Idx → EReal) (wl wr : S64x128.Idx → EReal) (bl : S1x64.Idx → EReal)
    (r : Fin 100000) (j : Fin 64) :
    entry x agg wl wr bl r j
      = ((∑ k : Fin 128, agg (ix2 r k) * wl (ix2 j k)) + (∑ k : Fin 128, x (ix2 r k) * wr (ix2 j k))) + bl (ix2 0 j) :=
  rfl

/-- The output array after the region, entry by entry. -/
theorem final (c : Dev nD) (r : Fin 100000) (j : Fin 64) :
    (dat4 (F := Ideal) V c).arrAt 5 cfg4.N (ix2 r j)
      = entry (V c main_v71_1) (V c main_v84) (V c main_arg12) (V c main_arg14) (V c main_v85) r j :=
  congrFun (whole V c) (ix2 r j)

end Array

end Cert.KernelIdeal.KReg4

end
-- ==== Proof.KReg5.lean ====
/-
  Region 5 of the network: batch normalisation of a [100000, 64] array by per-column statistics, followed by the
  exponential linear unit, computed ten thousand rows at a time.

  Both output arrays in closed form, entry by entry, at the exact (extended real) reading of the floats:
  the first holds bnAt of the entry and of its column's mean, variance, scale and shift; the second holds
  eluAt of that value.  A row block of the output depends only on the same row block of the input and on the
  four [1, 64] rows, which every grid point reads whole; row r lies in the block of point r / 10000, and the
  ten blocks cover the array.
-/
import proofs.«150843_j12429635355189_1_alg».proof.Proof.Gen.KernelIdeal.Frame
import proofs.«150843_j12429635355189_1_alg».proof.Proof.Scalar
import Idealize.ShloMosaic.Lib.Pipeline.Value
import Idealize.ShloMosaic.Lib.ValueIdx
import Idealize.ShloMosaic.Lib.ValueLayout

noncomputable section

namespace Cert.KernelIdeal.KReg5

open Cert.KernelIdeal Cert.KernelIdeal.Gen Idealize.ShloMosaic Idealize.ShloMosaic.ValueIdx
open Idealize.ShloMosaic.TcCoe Idealize.SL.Sem
open Idealize.ShloMosaic.Pipeline (Dat)

/-! ## The two entrywise functions -/

/-- The comparison "x greater than z" selects between two values as the order on the extended reals says. -/
theorem select_gt (x z a b : EReal) :
    Scalar.select (Ideal.cmp .ogt x z) a b = if z < x then a else b := by
  unfold Scalar.select Ideal.cmp
  by_cases h : z < x <;> simp [h]

/-- bnAt respects equality of its five arguments. -/
theorem bnAt_congr {a a' b b' d d' e e' f f' : EReal} (h1 : a = a') (h2 : b = b') (h3 : d = d') (h4 : e = e')
    (h5 : f = f') : Cert.Spec.bnAt a b d e f = Cert.Spec.bnAt a' b' d' e' f' := by
  rw [h1, h2, h3, h4, h5]

/-- The normalised value of a block at row p, column q: the block's entry and the four rows' entries of column q.
    (The body reads the variance row before the mean row.) -/
theorem bn_at (x0 : Vec Ideal S10000x64 .f32) (xv xm xg xb : Vec Ideal S1x64 .f32) (p : Fin 10000) (q : Fin 64) :
    k5_pay1 x0 xv xm xg xb (ix2 p q)
      = Cert.Spec.bnAt (x0 (ix2 p q)) (xm (ix2 0 q)) (xv (ix2 0 q)) (xg (ix2 0 q)) (xb (ix2 0 q)) := by
  unfold k5_pay1 Cert.Spec.bnAt
  simp only [shapeCast_self]
  rw [addf_apply, mulf_apply, mulf_apply, subf_apply, broadcastTo_1b_ab_apply, broadcastTo_1b_ab_apply,
    broadcastTo_1b_ab_apply, broadcastTo_1b_ab_apply]
  rfl

/-- The activated value of a block at row p, column q is eluAt of the normalised value there. -/
theorem act_at (x0 : Vec Ideal S10000x64 .f32) (xv xm xg xb : Vec Ideal S1x64 .f32) (p : Fin 10000) (q : Fin 64) :
    k5_pay2 x0 xv xm xg xb (ix2 p q) = Cert.Spec.eluAt (k5_pay1 x0 xv xm xg xb (ix2 p q)) := by
  unfold k5_pay2 Cert.Spec.eluAt
  exact select_gt (k5_pay1 x0 xv xm xg xb (ix2 p q)) (Ideal.ofBits .f32 0x00000000#32) _ _

/-! ## The whole arrays -/

/-- Batch normalisation of a whole [100000, 64] array by four [1, 64] rows, entry by entry. -/
def bnArr (h : S100000x64.Idx → EReal) (mu var g be : S1x64.Idx → EReal) : S100000x64.Idx → EReal := fun i =>
  Cert.Spec.bnAt (h i) (mu (ix2 0 ⟨(i 1).val, idx2_lt1 i⟩)) (var (ix2 0 ⟨(i 1).val, idx2_lt1 i⟩))
    (g (ix2 0 ⟨(i 1).val, idx2_lt1 i⟩)) (be (ix2 0 ⟨(i 1).val, idx2_lt1 i⟩))

/-- The exponential linear unit of that array, entry by entry. -/
def actArr (h : S100000x64.Idx → EReal) (mu var g be : S1x64.Idx → EReal) : S100000x64.Idx → EReal := fun i =>
  Cert.Spec.eluAt (bnArr h mu var g be i)

theorem hz : (![0, 0] : Fin 2 → Nat) = fun _ => 0 := funext fun a => by fin_cases a <;> rfl

/-- The index maps, decided over the ten grid points: the input's and both outputs' row blocks are the point's own,
    at column block zero; each of the four rows is read whole at every point. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

/-! ## The input blocks as entries of the arrays -/

/-- Row p, column q of the input's block at point t is row 10000 t + p, column q of the input array. -/
theorem blk_h (c : Dev nD) (t : Fin cfg5.N) (p : Fin 10000) (q : Fin 64) (k : S100000x64.Idx)
    (hk0 : (k 0).val = t.val * 10000 + p.val) (hk1 : (k 1).val = q.val) :
    (iblk5 V c 0 t : Vec Ideal S10000x64 .f32) (ix2 p q) = (V c main_v86 : S100000x64.Idx → EReal) k := by
  obtain ⟨e0, e1, -⟩ := idx_facts t
  unfold iblk5
  rw [View.read_apply]
  show (V c main_v86 : S100000x64.Idx → EReal) _ = (V c main_v86 : S100000x64.Idx → EReal) k
  congr 1
  funext a
  apply Fin.ext
  match a with
  | ⟨0, _⟩ => show win5_0.index t (0 : Fin 2) * 10000 + 1 * p.val = (k 0).val; omega
  | ⟨1, _⟩ => show win5_0.index t (1 : Fin 2) * 64 + 1 * q.val = (k 1).val; omega

/-- Column q of the mean row's block at any point is column q of the mean row. -/
theorem blk_mu (c : Dev nD) (t : Fin cfg5.N) (q : Fin 64) (k : S1x64.Idx) (hk1 : (k 1).val = q.val) :
    (iblk5 V c 1 t : Vec Ideal S1x64 .f32) (ix2 0 q) = (V c main_v97 : S1x64.Idx → EReal) k := by
  obtain ⟨-, -, e0, e1, -⟩ := idx_facts t
  have hk0 : (k 0).val = 0 := by have := idx2_lt0 k; omega
  unfold iblk5
  rw [View.read_apply]
  show (V c main_v97 : S1x64.Idx → EReal) _ = (V c main_v97 : S1x64.Idx → EReal) k
  congr 1
  funext a
  apply Fin.ext
  match a with
  | ⟨0, _⟩ => show win5_1.index t (0 : Fin 2) * 1 + 1 * 0 = (k 0).val; omega
  | ⟨1, _⟩ => show win5_1.index t (1 : Fin 2) * 64 + 1 * q.val = (k 1).val; omega

/-- Column q of the variance row's block at any point is column q of the variance row. -/
theorem blk_var (c : Dev nD) (t : Fin cfg5.N) (q : Fin 64) (k : S1x64.Idx) (hk1 : (k 1).val = q.val) :
    (iblk5 V c 2 t : Vec Ideal S1x64 .f32) (ix2 0 q) = (V c main_v98 : S1x64.Idx → EReal) k := by
  obtain ⟨-, -, -, -, e0, e1, -⟩ := idx_facts t
  have hk0 : (k 0).val = 0 := by have := idx2_lt0 k; omega
  unfold iblk5
  rw [View.read_apply]
  show (V c main_v98 : S1x64.Idx → EReal) _ = (V c main_v98 : S1x64.Idx → EReal) k
  congr 1
  funext a
  apply Fin.ext
  match a with
  | ⟨0, _⟩ => show win5_2.index t (0 : Fin 2) * 1 + 1 * 0 = (k 0).val; omega
  | ⟨1, _⟩ => show win5_2.index t (1 : Fin 2) * 64 + 1 * q.val = (k 1).val; omega

/-- Column q of the scale row's block at any point is column q of the scale row. -/
theorem blk_g (c : Dev nD) (t : Fin cfg5.N) (q : Fin 64) (k : S1x64.Idx) (hk1 : (k 1).val = q.val) :
    (iblk5 V c 3 t : Vec Ideal S1x64 .f32) (ix2 0 q) = (V c main_v99 : S1x64.Idx → EReal) k := by
  obtain ⟨-, -, -, -, -, -, e0, e1, -⟩ := idx_facts t
  have hk0 : (k 0).val = 0 := by have := idx2_lt0 k; omega
  unfold iblk5
  rw [View.read_apply]
  show (V c main_v99 : S1x64.Idx → EReal) _ = (V c main_v99 : S1x64.Idx → EReal) k
  congr 1
  funext a
  apply Fin.ext
  match a with
  | ⟨0, _⟩ => show win5_3.index t (0 : Fin 2) * 1 + 1 * 0 = (k 0).val; omega
  | ⟨1, _⟩ => show win5_3.index t (1 : Fin 2) * 64 + 1 * q.val = (k 1).val; omega

/-- Column q of the shift row's block at any point is column q of the shift row. -/
theorem blk_be (c : Dev nD) (t : Fin cfg5.N) (q : Fin 64) (k : S1x64.Idx) (hk1 : (k 1).val = q.val) :
    (iblk5 V c 4 t : Vec Ideal S1x64 .f32) (ix2 0 q) = (V c main_v100 : S1x64.Idx → EReal) k := by
  obtain ⟨-, -, -, -, -, -, -, -, e0, e1, -⟩ := idx_facts t
  have hk0 : (k 0).val = 0 := by have := idx2_lt0 k; omega
  unfold iblk5
  rw [View.read_apply]
  show (V c main_v100 : S1x64.Idx → EReal) _ = (V c main_v100 : S1x64.Idx → EReal) k
  congr 1
  funext a
  apply Fin.ext
  match a with
  | ⟨0, _⟩ => show win5_4.index t (0 : Fin 2) * 1 + 1 * 0 = (k 0).val; omega
  | ⟨1, _⟩ => show win5_4.index t (1 : Fin 2) * 64 + 1 * q.val = (k 1).val; omega

/-! ## What each point writes back -/

/-- The normalised block of point t, entry by entry: bnArr at row 10000 t + p. -/
theorem blk_bn (c : Dev nD) (t : Fin cfg5.N) (p : Fin 10000) (q : Fin 64) (k : S100000x64.Idx)
    (hk0 : (k 0).val = t.val * 10000 + p.val) (hk1 : (k 1).val = q.val) :
    k5_pay1 (iblk5 V c 0 t) (iblk5 V c 2 t) (iblk5 V c 1 t) (iblk5 V c 3 t) (iblk5 V c 4 t) (ix2 p q)
      = bnArr (V c main_v86) (V c main_v97) (V c main_v98) (V c main_v99) (V c main_v100) k := by
  refine (bn_at (iblk5 V c 0 t) (iblk5 V c 2 t) (iblk5 V c 1 t) (iblk5 V c 3 t) (iblk5 V c 4 t) p q).trans ?_
  exact bnAt_congr (blk_h V c t p q k hk0 hk1) (blk_mu V c t q (ix2 0 ⟨(k 1).val, idx2_lt1 k⟩) hk1) (blk_var V c t q (ix2 0 ⟨(k 1).val, idx2_lt1 k⟩) hk1)
    (blk_g V c t q (ix2 0 ⟨(k 1).val, idx2_lt1 k⟩) hk1) (blk_be V c t q (ix2 0 ⟨(k 1).val, idx2_lt1 k⟩) hk1)

/-- The activated block of point t, entry by entry: actArr at row 10000 t + p. -/
theorem blk_act (c : Dev nD) (t : Fin cfg5.N) (p : Fin 10000) (q : Fin 64) (k : S100000x64.Idx)
    (hk0 : (k 0).val = t.val * 10000 + p.val) (hk1 : (k 1).val = q.val) :
    k5_pay2 (iblk5 V c 0 t) (iblk5 V c 2 t) (iblk5 V c 1 t) (iblk5 V c 3 t) (iblk5 V c 4 t) (ix2 p q)
      = actArr (V c main_v86) (V c main_v97) (V c main_v98) (V c main_v99) (V c main_v100) k := by
  refine (act_at (iblk5 V c 0 t) (iblk5 V c 2 t) (iblk5 V c 1 t) (iblk5 V c 3 t) (iblk5 V c 4 t) p q).trans ?_
  exact congrArg Cert.Spec.eluAt (blk_bn V c t p q k hk0 hk1)

/-- Point t writes back to the first output the rows 10000 t … 10000 t + 9999 of bnArr. -/
theorem flushed_bn (c : Dev nD) (t : Fin cfg5.N) :
    (dat5 (F := Ideal) V c).flushed 5 t
      = ((cfg5.win 5).blk t).view.read (Elt Ideal) (bnArr (V c main_v86) (V c main_v97) (V c main_v98) (V c main_v99) (V c main_v100)) := by
  show (cfg5.win 5).cut (grid5.coords t) ((dat5 V c).after 5 t) = _
  rw [after5_5]
  unfold out5_5
  rw [View.canon_unit_zero hz]
  simp only [View.ld_unit_zero (S := S10000x64) hz, View.ld_unit_zero (S := S1x64) hz]
  obtain ⟨-, -, -, -, -, -, -, -, -, -, e0, e1, -⟩ := idx_facts t
  funext j
  obtain ⟨p, q, rfl⟩ : ∃ (p : Fin 10000) (q : Fin 64), j = ix2 p q := ⟨j 0, j 1, eq_ix2 j⟩
  show k5_pay1 (iblk5 V c 0 t) (iblk5 V c 2 t) (iblk5 V c 1 t) (iblk5 V c 3 t) (iblk5 V c 4 t) (ix2 p q)
    = bnArr (V c main_v86) (V c main_v97) (V c main_v98) (V c main_v99) (V c main_v100) (((cfg5.win 5).blk t).view.emb (ix2 p q))
  refine blk_bn V c t p q (((cfg5.win 5).blk t).view.emb (ix2 p q)) ?_ ?_
  · show win5_5.index t (0 : Fin 2) * 10000 + 1 * p.val = t.val * 10000 + p.val; omega
  · show win5_5.index t (1 : Fin 2) * 64 + 1 * q.val = q.val; omega

/-- Point t writes back to the second output the same rows of actArr. -/
theorem flushed_act (c : Dev nD) (t : Fin cfg5.N) :
    (dat5 (F := Ideal) V c).flushed 6 t
      = ((cfg5.win 6).blk t).view.read (Elt Ideal) (actArr (V c main_v86) (V c main_v97) (V c main_v98) (V c main_v99) (V c main_v100)) := by
  show (cfg5.win 6).cut (grid5.coords t) ((dat5 V c).after 6 t) = _
  rw [after5_6]
  unfold out5_6
  rw [View.canon_unit_zero hz]
  simp only [View.ld_unit_zero (S := S10000x64) hz, View.ld_unit_zero (S := S1x64) hz]
  obtain ⟨-, -, -, -, -, -, -, -, -, -, -, -, e0, e1⟩ := idx_facts t
  funext j
  obtain ⟨p, q, rfl⟩ : ∃ (p : Fin 10000) (q : Fin 64), j = ix2 p q := ⟨j 0, j 1, eq_ix2 j⟩
  show k5_pay2 (iblk5 V c 0 t) (iblk5 V c 2 t) (iblk5 V c 1 t) (iblk5 V c 3 t) (iblk5 V c 4 t) (ix2 p q)
    = actArr (V c main_v86) (V c main_v97) (V c main_v98) (V c main_v99) (V c main_v100) (((cfg5.win 6).blk t).view.emb (ix2 p q))
  refine blk_act V c t p q (((cfg5.win 6).blk t).view.emb (ix2 p q)) ?_ ?_
  · show win5_6.index t (0 : Fin 2) * 10000 + 1 * p.val = t.val * 10000 + p.val; omega
  · show win5_6.index t (1 : Fin 2) * 64 + 1 * q.val = q.val; omega

/-! ## The ten row blocks cover the array -/

/-- An index lies in point t's block of the first output iff each coordinate is in the block's range. -/
theorem mem_blk_bn (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v101_0).slice (win5_5.rect t)).set ↔ _
  rw [View.set_slice_whole, Rect.mem_set_unit]
  exact Iff.rfl

/-- Likewise for the second output. -/
theorem mem_blk_act (t : Fin cfg5.N) (i : S100000x64.Idx) :
    i ∈ ((cfg5.win 6).blk t).view.set ↔ ∀ a : Fin 2, win5_6.index t a * S10000x64.size a ≤ (i a).val
      ∧ (i a).val < win5_6.index t a * S10000x64.size a + S10000x64.size a := by
  show i ∈ ((View.whole main_v101_1).slice (win5_6.rect t)).set ↔ _
  rw [View.set_slice_whole, Rect.mem_set_unit]
  exact Iff.rfl

/-- Row r of the first output lies in the block of point r / 10000. -/
theorem cover_bn (i : S100000x64.Idx) :
    ∃ t : Fin cfg5.N, (cfg5.win 5).flush t = true ∧ i ∈ ((cfg5.win 5).blk t).view.set := by
  have hi0 : (i 0).val < 100000 := idx2_lt0 i
  have hi1 : (i 1).val < 64 := idx2_lt1 i
  have hN : cfg5.N = 10 := N_5
  obtain ⟨t, ht⟩ : ∃ t : Fin cfg5.N, t.val = (i 0).val / 10000 := ⟨⟨(i 0).val / 10000, by omega⟩, rfl⟩
  obtain ⟨-, -, -, -, -, -, -, -, -, -, e0, e1, -⟩ := idx_facts t
  refine ⟨t, flush5_5 t, ?_⟩
  rw [mem_blk_bn]
  intro a
  match a with
  | ⟨0, _⟩ =>
    show win5_5.index t (0 : Fin 2) * 10000 ≤ (i 0).val ∧ (i 0).val < win5_5.index t (0 : Fin 2) * 10000 + 10000
    omega
  | ⟨1, _⟩ =>
    show win5_5.index t (1 : Fin 2) * 64 ≤ (i 1).val ∧ (i 1).val < win5_5.index t (1 : Fin 2) * 64 + 64
    omega

/-- Likewise for the second output. -/
theorem cover_act (i : S100000x64.Idx) :
    ∃ t : Fin cfg5.N, (cfg5.win 6).flush t = true ∧ i ∈ ((cfg5.win 6).blk t).view.set := by
  have hi0 : (i 0).val < 100000 := idx2_lt0 i
  have hi1 : (i 1).val < 64 := idx2_lt1 i
  have hN : cfg5.N = 10 := N_5
  obtain ⟨t, ht⟩ : ∃ t : Fin cfg5.N, t.val = (i 0).val / 10000 := ⟨⟨(i 0).val / 10000, by omega⟩, rfl⟩
  obtain ⟨-, -, -, -, -, -, -, -, -, -, -, -, e0, e1⟩ := idx_facts t
  refine ⟨t, flush5_6 t, ?_⟩
  rw [mem_blk_act]
  intro a
  match a with
  | ⟨0, _⟩ =>
    show win5_6.index t (0 : Fin 2) * 10000 ≤ (i 0).val ∧ (i 0).val < win5_6.index t (0 : Fin 2) * 10000 + 10000
    omega
  | ⟨1, _⟩ =>
    show win5_6.index t (1 : Fin 2) * 64 ≤ (i 1).val ∧ (i 1).val < win5_6.index t (1 : Fin 2) * 64 + 64
    omega

/-! ## The two arrays after the region -/

/-- The first output array after the region is bnArr of the arrays the region found. -/
theorem arr_bn (c : Dev nD) :
    (dat5 (F := Ideal) V c).arrAt 5 cfg5.N = bnArr (V c main_v86) (V c main_v97) (V c main_v98) (V c main_v99) (V c main_v100) :=
  (dat5 (F := Ideal) V c).arrAt_eq_of_cover 5 (bnArr (V c main_v86) (V c main_v97) (V c main_v98) (V c main_v99) (V c main_v100)) (fun t _ => flushed_bn V c t) cover_bn

/-- The second output array after the region is actArr of them. -/
theorem arr_act (c : Dev nD) :
    (dat5 (F := Ideal) V c).arrAt 6 cfg5.N = actArr (V c main_v86) (V c main_v97) (V c main_v98) (V c main_v99) (V c main_v100) :=
  (dat5 (F := Ideal) V c).arrAt_eq_of_cover 6 (actArr (V c main_v86) (V c main_v97) (V c main_v98) (V c main_v99) (V c main_v100)) (fun t _ => flushed_act V c t) cover_act

/-- Entry (r, j) of the first output: the batch normalisation of entry (r, j) by column j's statistics. -/
theorem final_bn (c : Dev nD) (r : Fin 100000) (j : Fin 64) :
    (dat5 (F := Ideal) V c).arrAt 5 cfg5.N (ix2 r j)
      = Cert.Spec.bnAt ((V c main_v86 : S100000x64.Idx → EReal) (ix2 r j)) ((V c main_v97 : S1x64.Idx → EReal) (ix2 0 j))
          ((V c main_v98 : S1x64.Idx → EReal) (ix2 0 j)) ((V c main_v99 : S1x64.Idx → EReal) (ix2 0 j))
          ((V c main_v100 : S1x64.Idx → EReal) (ix2 0 j)) :=
  (congrFun (arr_bn V c) (ix2 r j)).trans rfl

/-- Entry (r, j) of the second output: the exponential linear unit of that value. -/
theorem final_act (c : Dev nD) (r : Fin 100000) (j : Fin 64) :
    (dat5 (F := Ideal) V c).arrAt 6 cfg5.N (ix2 r j)
      = Cert.Spec.eluAt (Cert.Spec.bnAt ((V c main_v86 : S100000x64.Idx → EReal) (ix2 r j))
          ((V c main_v97 : S1x64.Idx → EReal) (ix2 0 j)) ((V c main_v98 : S1x64.Idx → EReal) (ix2 0 j))
          ((V c main_v99 : S1x64.Idx → EReal) (ix2 0 j)) ((V c main_v100 : S1x64.Idx → EReal) (ix2 0 j))) :=
  (congrFun (arr_act V c) (ix2 r j)).trans rfl

end Cert.KernelIdeal.KReg5

end
-- ==== Proof.KReg6.lean ====
/-
  The fourth linear layer of the network, read off its pipelined region.

  The region tiles the 100000 rows into ten tiles of 10000. At each tile the body multiplies the tile's aggregated rows
  by the transposed first weight matrix, the tile's own rows by the transposed second weight matrix, adds the two
  products and then the bias row. At the ideal instance the format changes are identities and a product into the zero
  accumulator is the plain sum over the 64 features, so entry `(r, j)` of the output array is

      (∑ k, agg (r, k) · Wl (j, k)  +  ∑ k, x (r, k) · Wr (j, k))  +  bl (0, j),

  in exactly that grouping. The proof reads the body's arithmetic at an entry of a tile, identifies each input block with
  the rows of its array that the tile names, and covers the array by the ten tiles.
-/
import proofs.«150843_j12429635355189_1_alg».proof.Proof.Gen.KernelIdeal.Frame
import proofs.«150843_j12429635355189_1_alg».proof.Proof.LibMatmulNN
import Idealize.ShloMosaic.Lib.Pipeline.Value
import Idealize.ShloMosaic.Lib.ValueLayout

set_option maxRecDepth 16384

noncomputable section

open scoped BigOperators

namespace Cert.KernelIdeal.KReg6

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer load or store, as a constant function. -/
theorem offs_zero : (![0, 0] : Fin 2 → Nat) = fun _ => 0 := funext fun a => by fin_cases a <;> rfl

/-- Entry `(r, j)` of the layer on whole arrays: the aggregated rows against the first weight matrix, plus the rows
    themselves against the second, plus the bias; each product contracts the feature axis. -/
def entry (x agg : S100000x64.Idx → EReal) (wl wr : S32x64.Idx → EReal) (bl : S1x32.Idx → EReal)
    (r : Fin 100000) (j : Fin 32) : EReal :=
  ((∑ k : Fin 64, agg (ix2 r k) * wl (ix2 j k)) + (∑ k : Fin 64, x (ix2 r k) * wr (ix2 j k))) + bl (ix2 0 j)

/-- The layer's whole output array. -/
def layer (x agg : S100000x64.Idx → EReal) (wl wr : S32x64.Idx → EReal) (bl : S1x32.Idx → EReal) :
    S100000x32.Idx → EReal :=
  fun i => entry x agg wl wr bl (i 0) (i 1)

/-- The body's arithmetic at an entry of one row tile: the format changes and the same-shape casts are identities,
    each transposed weight matrix is read at the swapped index, each product into the zero accumulator is the plain
    sum over the feature axis, and the one-row bias is read at its column. -/
theorem pay_apply (x agg : Vec Ideal S10000x64 .f32) (wl wr : Vec Ideal S32x64 .f32) (bl : Vec Ideal S1x32 .f32)
    (p : Fin 10000) (q : Fin 32) :
    k6_pay1 (F := Ideal) x agg wl wr bl (ix2 p q)
      = ((∑ k : Fin 64, (agg (ix2 p k) : EReal) * wl (ix2 q k)) + (∑ k : Fin 64, (x (ix2 p k) : EReal) * wr (ix2 q k)))
        + bl (ix2 0 q) := by
  unfold k6_pay1
  dsimp only
  rw [addf_apply, addf_apply]
  simp only [shapeCast_self]
  refine congrArg₂ (· + ·) (congrArg₂ (· + ·) ?_ ?_) ?_
  · refine (Cert.LibMatmulNN.matmul_zero_apply' (M := 10000) (K := 64) (N := 32)
      dot_S10000x64_S64x32_S10000x32_1_0_0_1_n_n rfl rfl rfl rfl rfl rfl none _ _ p q).trans ?_
    refine Finset.sum_congr rfl fun k _ => ?_
    refine congrArg₂ (· * ·) rfl ?_
    exact transpose_ix2_apply (a := 32) (b := 64) _ _ k q
  · refine (Cert.LibMatmulNN.matmul_zero_apply' (M := 10000) (K := 64) (N := 32)
      dot_S10000x64_S64x32_S10000x32_1_0_0_1_n_n rfl rfl rfl rfl rfl rfl none _ _ p q).trans ?_
    refine Finset.sum_congr rfl fun k _ => ?_
    refine congrArg₂ (· * ·) rfl ?_
    exact transpose_ix2_apply (a := 32) (b := 64) _ _ k q
  · exact broadcastTo_1b_ab_apply (a := 10000) (b := 32) _ _ p q

/-- The printed index maps, decided over the ten grid points: the two row-tiled inputs and the output sit at row
    tile `t`, column block 0; the two weight matrices and the bias row are their arrays' one block. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

section Blocks
variable (V : (c : Dev nD) → (b : Ref sig .tc) → Buf (Elt Ideal) ((c : Thread nD τ).loc b))

/-- The rows' block at point `t` is rows `10000 t … 10000 t + 9999` of the rows' array. -/
theorem rows_blk (c : Dev nD) (t : Fin cfg6.N) (a : S10000x64.Idx) (b : S100000x64.Idx)
    (h0 : (b 0).val = t.val * 10000 + (a 0).val) (h1 : (b 1).val = (a 1).val) :
    (iblk6 (F := Ideal) V c 0 t : Vec Ideal S10000x64 .f32) a = (V c main_v102 : S100000x64.Idx → EReal) b := by
  obtain ⟨e0, e1, -⟩ := idx_facts t
  unfold iblk6
  rw [View.read_apply]
  show V c main_v102 _ = V c main_v102 _
  congr 1
  funext ax
  apply Fin.ext
  match ax with
  | ⟨0, _⟩ => show win6_0.index t 0 * 10000 + 1 * (a 0).val = (b 0).val; omega
  | ⟨1, _⟩ => show win6_0.index t 1 * 64 + 1 * (a 1).val = (b 1).val; omega

/-- The aggregated rows' block at point `t` is the same rows of the aggregated array. -/
theorem agg_blk (c : Dev nD) (t : Fin cfg6.N) (a : S10000x64.Idx) (b : S100000x64.Idx)
    (h0 : (b 0).val = t.val * 10000 + (a 0).val) (h1 : (b 1).val = (a 1).val) :
    (iblk6 (F := Ideal) V c 1 t : Vec Ideal S10000x64 .f32) a = (V c main_v115 : S100000x64.Idx → EReal) b := by
  obtain ⟨-, -, e0, e1, -⟩ := idx_facts t
  unfold iblk6
  rw [View.read_apply]
  show V c main_v115 _ = V c main_v115 _
  congr 1
  funext ax
  apply Fin.ext
  match ax with
  | ⟨0, _⟩ => show win6_1.index t 0 * 10000 + 1 * (a 0).val = (b 0).val; omega
  | ⟨1, _⟩ => show win6_1.index t 1 * 64 + 1 * (a 1).val = (b 1).val; omega

/-- The first weight matrix's block is the matrix at every point. -/
theorem wl_blk (c : Dev nD) (t : Fin cfg6.N) (a : S32x64.Idx) :
    (iblk6 (F := Ideal) V c 2 t : Vec Ideal S32x64 .f32) a = (V c main_arg17 : S32x64.Idx → EReal) a := by
  obtain ⟨-, -, -, -, e0, e1, -⟩ := idx_facts t
  unfold iblk6
  rw [View.read_apply]
  show V c main_arg17 _ = V c main_arg17 _
  congr 1
  funext ax
  apply Fin.ext
  match ax with
  | ⟨0, _⟩ => show win6_2.index t 0 * 32 + 1 * (a 0).val = (a 0).val; omega
  | ⟨1, _⟩ => show win6_2.index t 1 * 64 + 1 * (a 1).val = (a 1).val; omega

/-- The bias row's block is the row at every point. -/
theorem bl_blk (c : Dev nD) (t : Fin cfg6.N) (a : S1x32.Idx) :
    (iblk6 (F := Ideal) V c 3 t : Vec Ideal S1x32 .f32) a = (V c main_v116 : S1x32.Idx → EReal) a := by
  obtain ⟨-, -, -, -, -, -, e0, e1, -⟩ := idx_facts t
  unfold iblk6
  rw [View.read_apply]
  show V c main_v116 _ = V c main_v116 _
  congr 1
  funext ax
  apply Fin.ext
  match ax with
  | ⟨0, _⟩ => show win6_3.index t 0 * 1 + 1 * (a 0).val = (a 0).val; omega
  | ⟨1, _⟩ => show win6_3.index t 1 * 32 + 1 * (a 1).val = (a 1).val; omega

/-- The second weight matrix's block is the matrix at every point. -/
theorem wr_blk (c : Dev nD) (t : Fin cfg6.N) (a : S32x64.Idx) :
    (iblk6 (F := Ideal) V c 4 t : Vec Ideal S32x64 .f32) a = (V c main_arg19 : S32x64.Idx → EReal) a := by
  obtain ⟨-, -, -, -, -, -, -, -, e0, e1, -⟩ := idx_facts t
  unfold iblk6
  rw [View.read_apply]
  show V c main_arg19 _ = V c main_arg19 _
  congr 1
  funext ax
  apply Fin.ext
  match ax with
  | ⟨0, _⟩ => show win6_4.index t 0 * 32 + 1 * (a 0).val = (a 0).val; omega
  | ⟨1, _⟩ => show win6_4.index t 1 * 64 + 1 * (a 1).val = (a 1).val; omega

end Blocks

/-- One row tile of the layer from the tile's blocks: when the two row-tiled blocks are rows `10000 n + p` of their
    arrays and the other three blocks are their whole arrays, the body's stored tile at `(p, q)` is the layer's
    entry at row `10000 n + p`, column `q`. -/
theorem tile_apply (X AGG : S100000x64.Idx → EReal) (WL WR : S32x64.Idx → EReal) (BL : S1x32.Idx → EReal)
    (x0 x1 : Vec Ideal S10000x64 .f32) (x2 : Vec Ideal S32x64 .f32) (x3 : Vec Ideal S1x32 .f32)
    (x4 : Vec Ideal S32x64 .f32) (n : Nat)
    (h0 : ∀ (a : S10000x64.Idx) (b : S100000x64.Idx), (b 0).val = n * 10000 + (a 0).val → (b 1).val = (a 1).val → x0 a = X b)
    (h1 : ∀ (a : S10000x64.Idx) (b : S100000x64.Idx), (b 0).val = n * 10000 + (a 0).val → (b 1).val = (a 1).val → x1 a = AGG b)
    (h2 : ∀ a, x2 a = WL a) (h3 : ∀ a, x3 a = BL a) (h4 : ∀ a, x4 a = WR a)
    (p : Fin 10000) (q : Fin 32) (r : Fin 100000) (hr : r.val = n * 10000 + p.val) :
    out6_5 (F := Ideal) x0 x1 x2 x3 x4 (ix2 p q) = entry X AGG WL WR BL r q := by
  unfold out6_5
  rw [View.canon_unit_zero offs_zero]
  simp only [View.ld_unit_zero (S := S10000x64) offs_zero, View.ld_unit_zero (S := S32x64) offs_zero,
    View.ld_unit_zero (S := S1x32) offs_zero]
  rw [pay_apply]
  unfold entry
  have e0 : ∀ k : Fin 64, x0 (ix2 p k) = X (ix2 r k) := fun k => h0 _ _ hr rfl
  have e1 : ∀ k : Fin 64, x1 (ix2 p k) = AGG (ix2 r k) := fun k => h1 _ _ hr rfl
  simp only [e0, e1, h2, h3, h4]

section Array
variable (V : (c : Dev nD) → (b : Ref sig .tc) → Buf (Elt Ideal) ((c : Thread nD τ).loc b))

/-- What point `t` writes back is row tile `t` of the layer of the arrays as the region finds them. -/
theorem flushed_eq (c : Dev nD) (t : Fin cfg6.N) :
    (dat6 (F := Ideal) V c).flushed 5 t
      = ((cfg6.win 5).blk t).view.read (Elt Ideal)
          (layer (V c main_v102) (V c main_v115) (V c main_arg17) (V c main_arg19) (V c main_v116)) := by
  show (cfg6.win 5).cut (grid6.coords t) ((dat6 V c).after 5 t) = _
  rw [after6_5]
  obtain ⟨-, -, -, -, -, -, -, -, -, -, e0, e1⟩ := idx_facts t
  funext y
  have hp : (y 0).val < 10000 := (y 0).isLt
  have hq : (y 1).val < 32 := (y 1).isLt
  have hy : (cfg6.win 5).xinj (grid6.coords t) y = ix2 (⟨(y 0).val, hp⟩ : Fin 10000) (⟨(y 1).val, hq⟩ : Fin 32) :=
    funext fun a => by match a with | ⟨0, _⟩ => rfl | ⟨1, _⟩ => rfl
  show out6_5 (iblk6 V c 0 t) (iblk6 V c 1 t) (iblk6 V c 2 t) (iblk6 V c 3 t) (iblk6 V c 4 t) ((cfg6.win 5).xinj (grid6.coords t) y)
    = layer (V c main_v102) (V c main_v115) (V c main_arg17) (V c main_arg19) (V c main_v116) (((cfg6.win 5).blk t).view.emb y)
  rw [hy]
  have hr : (((cfg6.win 5).blk t).view.emb y (0 : Fin 2)).val = t.val * 10000 + (y 0).val := by
    show win6_5.index t 0 * 10000 + 1 * (y 0).val = _
    omega
  have hc : (((cfg6.win 5).blk t).view.emb y (1 : Fin 2)).val = (y 1).val := by
    show win6_5.index t 1 * 32 + 1 * (y 1).val = _
    omega
  refine (tile_apply (V c main_v102) (V c main_v115) (V c main_arg17) (V c main_arg19) (V c main_v116)
    (iblk6 V c 0 t) (iblk6 V c 1 t) (iblk6 V c 2 t) (iblk6 V c 3 t) (iblk6 V c 4 t) t.val
    (rows_blk V c t) (agg_blk V c t) (wl_blk V c t) (bl_blk V c t) (wr_blk V c t)
    ⟨(y 0).val, hp⟩ ⟨(y 1).val, hq⟩ (((cfg6.win 5).blk t).view.emb y 0) hr).trans ?_
  show entry _ _ _ _ _ _ _ = entry _ _ _ _ _ _ _
  congr 1
  exact Fin.ext hc.symm

/-- An index of the output array is in point `t`'s block iff each coordinate is in the block's range on its axis. -/
theorem mem_blk (t : Fin cfg6.N) (i : S100000x32.Idx) :
    i ∈ ((cfg6.win 5).blk t).view.set ↔ ∀ a : Fin 2, win6_5.index t a * S10000x32.size a ≤ (i a).val
      ∧ (i a).val < win6_5.index t a * S10000x32.size a + S10000x32.size a := by
  show i ∈ ((View.whole main_v117).slice (win6_5.rect t)).set ↔ _
  rw [View.set_slice_whole, Rect.mem_set_unit]
  exact Iff.rfl

/-- The ten row tiles cover the output array: row `r` lies in the tile of point `r / 10000`. -/
theorem cover (i : S100000x32.Idx) :
    ∃ t : Fin cfg6.N, (cfg6.win 5).flush t = true ∧ i ∈ ((cfg6.win 5).blk t).view.set := by
  have hi0 : (i 0).val < 100000 := (i 0).isLt
  have hi1 : (i 1).val < 32 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨-, -, -, -, -, -, -, -, -, -, e0, e1⟩ := idx_facts t
  refine ⟨t, flush6_5 t, ?_⟩
  rw [mem_blk]
  intro a
  match a with
  | ⟨0, _⟩ =>
    show win6_5.index t 0 * 10000 ≤ (i 0).val ∧ (i 0).val < win6_5.index t 0 * 10000 + 10000
    omega
  | ⟨1, _⟩ =>
    show win6_5.index t 1 * 32 ≤ (i 1).val ∧ (i 1).val < win6_5.index t 1 * 32 + 32
    omega

/-- The output array after the region is the layer of the arrays as the region finds them. -/
theorem whole (c : Dev nD) :
    (dat6 (F := Ideal) V c).arrAt 5 cfg6.N
      = layer (V c main_v102) (V c main_v115) (V c main_arg17) (V c main_arg19) (V c main_v116) :=
  (dat6 V c).arrAt_eq_of_cover 5 (layer (V c main_v102) (V c main_v115) (V c main_arg17) (V c main_arg19) (V c main_v116))
    (fun t _ => flushed_eq V c t) cover

/-- The layer's entry, written out. -/
theorem entry_eq (x agg : S100000x64.Idx → EReal) (wl wr : S32x64.Idx → EReal) (bl : S1x32.Idx → EReal)
    (r : Fin 100000) (j : Fin 32) :
    entry x agg wl wr bl r j
      = ((∑ k : Fin 64, agg (ix2 r k) * wl (ix2 j k)) + (∑ k : Fin 64, x (ix2 r k) * wr (ix2 j k))) + bl (ix2 0 j) :=
  rfl

/-- The output array after the region, entry by entry. -/
theorem final (c : Dev nD) (r : Fin 100000) (j : Fin 32) :
    (dat6 (F := Ideal) V c).arrAt 5 cfg6.N (ix2 r j)
      = entry (V c main_v102) (V c main_v115) (V c main_arg17) (V c main_arg19) (V c main_v116) r j :=
  congrFun (whole V c) (ix2 r j)

end Array

end Cert.KernelIdeal.KReg6

end
-- ==== Proof.KReg7.lean ====
/-
  Region 7 of the network: batch normalisation of a [100000, 32] array by per-column statistics, followed by the
  exponential linear unit, computed ten thousand rows at a time.

  Both output arrays in closed form, entry by entry, at the exact (extended real) reading of the floats:
  the first holds bnAt of the entry and of its column's mean, variance, scale and shift; the second holds
  eluAt of that value.  A row block of the output depends only on the same row block of the input and on the
  four [1, 32] rows, which every grid point reads whole; row r lies in the block of point r / 10000, and the
  ten blocks cover the array.
-/
import proofs.«150843_j12429635355189_1_alg».proof.Proof.Gen.KernelIdeal.Frame
import proofs.«150843_j12429635355189_1_alg».proof.Proof.Scalar
import Idealize.ShloMosaic.Lib.Pipeline.Value
import Idealize.ShloMosaic.Lib.ValueIdx
import Idealize.ShloMosaic.Lib.ValueLayout

noncomputable section

namespace Cert.KernelIdeal.KReg7

open Cert.KernelIdeal Cert.KernelIdeal.Gen Idealize.ShloMosaic Idealize.ShloMosaic.ValueIdx
open Idealize.ShloMosaic.TcCoe Idealize.SL.Sem
open Idealize.ShloMosaic.Pipeline (Dat)

/-! ## The two entrywise functions -/

/-- The comparison "x greater than z" selects between two values as the order on the extended reals says. -/
theorem select_gt (x z a b : EReal) :
    Scalar.select (Ideal.cmp .ogt x z) a b = if z < x then a else b := by
  unfold Scalar.select Ideal.cmp
  by_cases h : z < x <;> simp [h]

/-- bnAt respects equality of its five arguments. -/
theorem bnAt_congr {a a' b b' d d' e e' f f' : EReal} (h1 : a = a') (h2 : b = b') (h3 : d = d') (h4 : e = e')
    (h5 : f = f') : Cert.Spec.bnAt a b d e f = Cert.Spec.bnAt a' b' d' e' f' := by
  rw [h1, h2, h3, h4, h5]

/-- The normalised value of a block at row p, column q: the block's entry and the four rows' entries of column q.
    (The body reads the variance row before the mean row.) -/
theorem bn_at (x0 : Vec Ideal S10000x32 .f32) (xv xm xg xb : Vec Ideal S1x32 .f32) (p : Fin 10000) (q : Fin 32) :
    k7_pay1 x0 xv xm xg xb (ix2 p q)
      = Cert.Spec.bnAt (x0 (ix2 p q)) (xm (ix2 0 q)) (xv (ix2 0 q)) (xg (ix2 0 q)) (xb (ix2 0 q)) := by
  unfold k7_pay1 Cert.Spec.bnAt
  simp only [shapeCast_self]
  rw [addf_apply, mulf_apply, mulf_apply, subf_apply, broadcastTo_1b_ab_apply, broadcastTo_1b_ab_apply,
    broadcastTo_1b_ab_apply, broadcastTo_1b_ab_apply]
  rfl

/-- The activated value of a block at row p, column q is eluAt of the normalised value there. -/
theorem act_at (x0 : Vec Ideal S10000x32 .f32) (xv xm xg xb : Vec Ideal S1x32 .f32) (p : Fin 10000) (q : Fin 32) :
    k7_pay2 x0 xv xm xg xb (ix2 p q) = Cert.Spec.eluAt (k7_pay1 x0 xv xm xg xb (ix2 p q)) := by
  unfold k7_pay2 Cert.Spec.eluAt
  exact select_gt (k7_pay1 x0 xv xm xg xb (ix2 p q)) (Ideal.ofBits .f32 0x00000000#32) _ _

/-! ## The whole arrays -/

/-- Batch normalisation of a whole [100000, 32] array by four [1, 32] rows, entry by entry. -/
def bnArr (h : S100000x32.Idx → EReal) (mu var g be : S1x32.Idx → EReal) : S100000x32.Idx → EReal := fun i =>
  Cert.Spec.bnAt (h i) (mu (ix2 0 ⟨(i 1).val, idx2_lt1 i⟩)) (var (ix2 0 ⟨(i 1).val, idx2_lt1 i⟩))
    (g (ix2 0 ⟨(i 1).val, idx2_lt1 i⟩)) (be (ix2 0 ⟨(i 1).val, idx2_lt1 i⟩))

/-- The exponential linear unit of that array, entry by entry. -/
def actArr (h : S100000x32.Idx → EReal) (mu var g be : S1x32.Idx → EReal) : S100000x32.Idx → EReal := fun i =>
  Cert.Spec.eluAt (bnArr h mu var g be i)

theorem hz : (![0, 0] : Fin 2 → Nat) = fun _ => 0 := funext fun a => by fin_cases a <;> rfl

/-- The index maps, decided over the ten grid points: the input's and both outputs' row blocks are the point's own,
    at column block zero; each of the four rows is read whole at every point. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

variable (V : (c : Dev nD) → (b : Ref sig .tc) → Buf (Elt Ideal) ((c : Thread nD τ).loc b))

/-! ## The input blocks as entries of the arrays -/

/-- Row p, column q of the input's block at point t is row 10000 t + p, column q of the input array. -/
theorem blk_h (c : Dev nD) (t : Fin cfg7.N) (p : Fin 10000) (q : Fin 32) (k : S100000x32.Idx)
    (hk0 : (k 0).val = t.val * 10000 + p.val) (hk1 : (k 1).val = q.val) :
    (iblk7 V c 0 t : Vec Ideal S10000x32 .f32) (ix2 p q) = (V c main_v117 : S100000x32.Idx → EReal) k := by
  obtain ⟨e0, e1, -⟩ := idx_facts t
  unfold iblk7
  rw [View.read_apply]
  show (V c main_v117 : S100000x32.Idx → EReal) _ = (V c main_v117 : S100000x32.Idx → EReal) k
  congr 1
  funext a
  apply Fin.ext
  match a with
  | ⟨0, _⟩ => show win7_0.index t (0 : Fin 2) * 10000 + 1 * p.val = (k 0).val; omega
  | ⟨1, _⟩ => show win7_0.index t (1 : Fin 2) * 32 + 1 * q.val = (k 1).val; omega

/-- Column q of the mean row's block at any point is column q of the mean row. -/
theorem blk_mu (c : Dev nD) (t : Fin cfg7.N) (q : Fin 32) (k : S1x32.Idx) (hk1 : (k 1).val = q.val) :
    (iblk7 V c 1 t : Vec Ideal S1x32 .f32) (ix2 0 q) = (V c main_v128 : S1x32.Idx → EReal) k := by
  obtain ⟨-, -, e0, e1, -⟩ := idx_facts t
  have hk0 : (k 0).val = 0 := by have := idx2_lt0 k; omega
  unfold iblk7
  rw [View.read_apply]
  show (V c main_v128 : S1x32.Idx → EReal) _ = (V c main_v128 : S1x32.Idx → EReal) k
  congr 1
  funext a
  apply Fin.ext
  match a with
  | ⟨0, _⟩ => show win7_1.index t (0 : Fin 2) * 1 + 1 * 0 = (k 0).val; omega
  | ⟨1, _⟩ => show win7_1.index t (1 : Fin 2) * 32 + 1 * q.val = (k 1).val; omega

/-- Column q of the variance row's block at any point is column q of the variance row. -/
theorem blk_var (c : Dev nD) (t : Fin cfg7.N) (q : Fin 32) (k : S1x32.Idx) (hk1 : (k 1).val = q.val) :
    (iblk7 V c 2 t : Vec Ideal S1x32 .f32) (ix2 0 q) = (V c main_v129 : S1x32.Idx → EReal) k := by
  obtain ⟨-, -, -, -, e0, e1, -⟩ := idx_facts t
  have hk0 : (k 0).val = 0 := by have := idx2_lt0 k; omega
  unfold iblk7
  rw [View.read_apply]
  show (V c main_v129 : S1x32.Idx → EReal) _ = (V c main_v129 : S1x32.Idx → EReal) k
  congr 1
  funext a
  apply Fin.ext
  match a with
  | ⟨0, _⟩ => show win7_2.index t (0 : Fin 2) * 1 + 1 * 0 = (k 0).val; omega
  | ⟨1, _⟩ => show win7_2.index t (1 : Fin 2) * 32 + 1 * q.val = (k 1).val; omega

/-- Column q of the scale row's block at any point is column q of the scale row. -/
theorem blk_g (c : Dev nD) (t : Fin cfg7.N) (q : Fin 32) (k : S1x32.Idx) (hk1 : (k 1).val = q.val) :
    (iblk7 V c 3 t : Vec Ideal S1x32 .f32) (ix2 0 q) = (V c main_v130 : S1x32.Idx → EReal) k := by
  obtain ⟨-, -, -, -, -, -, e0, e1, -⟩ := idx_facts t
  have hk0 : (k 0).val = 0 := by have := idx2_lt0 k; omega
  unfold iblk7
  rw [View.read_apply]
  show (V c main_v130 : S1x32.Idx → EReal) _ = (V c main_v130 : S1x32.Idx → EReal) k
  congr 1
  funext a
  apply Fin.ext
  match a with
  | ⟨0, _⟩ => show win7_3.index t (0 : Fin 2) * 1 + 1 * 0 = (k 0).val; omega
  | ⟨1, _⟩ => show win7_3.index t (1 : Fin 2) * 32 + 1 * q.val = (k 1).val; omega

/-- Column q of the shift row's block at any point is column q of the shift row. -/
theorem blk_be (c : Dev nD) (t : Fin cfg7.N) (q : Fin 32) (k : S1x32.Idx) (hk1 : (k 1).val = q.val) :
    (iblk7 V c 4 t : Vec Ideal S1x32 .f32) (ix2 0 q) = (V c main_v131 : S1x32.Idx → EReal) k := by
  obtain ⟨-, -, -, -, -, -, -, -, e0, e1, -⟩ := idx_facts t
  have hk0 : (k 0).val = 0 := by have := idx2_lt0 k; omega
  unfold iblk7
  rw [View.read_apply]
  show (V c main_v131 : S1x32.Idx → EReal) _ = (V c main_v131 : S1x32.Idx → EReal) k
  congr 1
  funext a
  apply Fin.ext
  match a with
  | ⟨0, _⟩ => show win7_4.index t (0 : Fin 2) * 1 + 1 * 0 = (k 0).val; omega
  | ⟨1, _⟩ => show win7_4.index t (1 : Fin 2) * 32 + 1 * q.val = (k 1).val; omega

/-! ## What each point writes back -/

/-- The normalised block of point t, entry by entry: bnArr at row 10000 t + p. -/
theorem blk_bn (c : Dev nD) (t : Fin cfg7.N) (p : Fin 10000) (q : Fin 32) (k : S100000x32.Idx)
    (hk0 : (k 0).val = t.val * 10000 + p.val) (hk1 : (k 1).val = q.val) :
    k7_pay1 (iblk7 V c 0 t) (iblk7 V c 2 t) (iblk7 V c 1 t) (iblk7 V c 3 t) (iblk7 V c 4 t) (ix2 p q)
      = bnArr (V c main_v117) (V c main_v128) (V c main_v129) (V c main_v130) (V c main_v131) k := by
  refine (bn_at (iblk7 V c 0 t) (iblk7 V c 2 t) (iblk7 V c 1 t) (iblk7 V c 3 t) (iblk7 V c 4 t) p q).trans ?_
  exact bnAt_congr (blk_h V c t p q k hk0 hk1) (blk_mu V c t q (ix2 0 ⟨(k 1).val, idx2_lt1 k⟩) hk1) (blk_var V c t q (ix2 0 ⟨(k 1).val, idx2_lt1 k⟩) hk1)
    (blk_g V c t q (ix2 0 ⟨(k 1).val, idx2_lt1 k⟩) hk1) (blk_be V c t q (ix2 0 ⟨(k 1).val, idx2_lt1 k⟩) hk1)

/-- The activated block of point t, entry by entry: actArr at row 10000 t + p. -/
theorem blk_act (c : Dev nD) (t : Fin cfg7.N) (p : Fin 10000) (q : Fin 32) (k : S100000x32.Idx)
    (hk0 : (k 0).val = t.val * 10000 + p.val) (hk1 : (k 1).val = q.val) :
    k7_pay2 (iblk7 V c 0 t) (iblk7 V c 2 t) (iblk7 V c 1 t) (iblk7 V c 3 t) (iblk7 V c 4 t) (ix2 p q)
      = actArr (V c main_v117) (V c main_v128) (V c main_v129) (V c main_v130) (V c main_v131) k := by
  refine (act_at (iblk7 V c 0 t) (iblk7 V c 2 t) (iblk7 V c 1 t) (iblk7 V c 3 t) (iblk7 V c 4 t) p q).trans ?_
  exact congrArg Cert.Spec.eluAt (blk_bn V c t p q k hk0 hk1)

/-- Point t writes back to the first output the rows 10000 t … 10000 t + 9999 of bnArr. -/
theorem flushed_bn (c : Dev nD) (t : Fin cfg7.N) :
    (dat7 (F := Ideal) V c).flushed 5 t
      = ((cfg7.win 5).blk t).view.read (Elt Ideal) (bnArr (V c main_v117) (V c main_v128) (V c main_v129) (V c main_v130) (V c main_v131)) := by
  show (cfg7.win 5).cut (grid7.coords t) ((dat7 V c).after 5 t) = _
  rw [after7_5]
  unfold out7_5
  rw [View.canon_unit_zero hz]
  simp only [View.ld_unit_zero (S := S10000x32) hz, View.ld_unit_zero (S := S1x32) hz]
  obtain ⟨-, -, -, -, -, -, -, -, -, -, e0, e1, -⟩ := idx_facts t
  funext j
  obtain ⟨p, q, rfl⟩ : ∃ (p : Fin 10000) (q : Fin 32), j = ix2 p q := ⟨j 0, j 1, eq_ix2 j⟩
  show k7_pay1 (iblk7 V c 0 t) (iblk7 V c 2 t) (iblk7 V c 1 t) (iblk7 V c 3 t) (iblk7 V c 4 t) (ix2 p q)
    = bnArr (V c main_v117) (V c main_v128) (V c main_v129) (V c main_v130) (V c main_v131) (((cfg7.win 5).blk t).view.emb (ix2 p q))
  refine blk_bn V c t p q (((cfg7.win 5).blk t).view.emb (ix2 p q)) ?_ ?_
  · show win7_5.index t (0 : Fin 2) * 10000 + 1 * p.val = t.val * 10000 + p.val; omega
  · show win7_5.index t (1 : Fin 2) * 32 + 1 * q.val = q.val; omega

/-- Point t writes back to the second output the same rows of actArr. -/
theorem flushed_act (c : Dev nD) (t : Fin cfg7.N) :
    (dat7 (F := Ideal) V c).flushed 6 t
      = ((cfg7.win 6).blk t).view.read (Elt Ideal) (actArr (V c main_v117) (V c main_v128) (V c main_v129) (V c main_v130) (V c main_v131)) := by
  show (cfg7.win 6).cut (grid7.coords t) ((dat7 V c).after 6 t) = _
  rw [after7_6]
  unfold out7_6
  rw [View.canon_unit_zero hz]
  simp only [View.ld_unit_zero (S := S10000x32) hz, View.ld_unit_zero (S := S1x32) hz]
  obtain ⟨-, -, -, -, -, -, -, -, -, -, -, -, e0, e1⟩ := idx_facts t
  funext j
  obtain ⟨p, q, rfl⟩ : ∃ (p : Fin 10000) (q : Fin 32), j = ix2 p q := ⟨j 0, j 1, eq_ix2 j⟩
  show k7_pay2 (iblk7 V c 0 t) (iblk7 V c 2 t) (iblk7 V c 1 t) (iblk7 V c 3 t) (iblk7 V c 4 t) (ix2 p q)
    = actArr (V c main_v117) (V c main_v128) (V c main_v129) (V c main_v130) (V c main_v131) (((cfg7.win 6).blk t).view.emb (ix2 p q))
  refine blk_act V c t p q (((cfg7.win 6).blk t).view.emb (ix2 p q)) ?_ ?_
  · show win7_6.index t (0 : Fin 2) * 10000 + 1 * p.val = t.val * 10000 + p.val; omega
  · show win7_6.index t (1 : Fin 2) * 32 + 1 * q.val = q.val; omega

/-! ## The ten row blocks cover the array -/

/-- An index lies in point t's block of the first output iff each coordinate is in the block's range. -/
theorem mem_blk_bn (t : Fin cfg7.N) (i : S100000x32.Idx) :
    i ∈ ((cfg7.win 5).blk t).view.set ↔ ∀ a : Fin 2, win7_5.index t a * S10000x32.size a ≤ (i a).val
      ∧ (i a).val < win7_5.index t a * S10000x32.size a + S10000x32.size a := by
  show i ∈ ((View.whole main_v132_0).slice (win7_5.rect t)).set ↔ _
  rw [View.set_slice_whole, Rect.mem_set_unit]
  exact Iff.rfl

/-- Likewise for the second output. -/
theorem mem_blk_act (t : Fin cfg7.N) (i : S100000x32.Idx) :
    i ∈ ((cfg7.win 6).blk t).view.set ↔ ∀ a : Fin 2, win7_6.index t a * S10000x32.size a ≤ (i a).val
      ∧ (i a).val < win7_6.index t a * S10000x32.size a + S10000x32.size a := by
  show i ∈ ((View.whole main_v132_1).slice (win7_6.rect t)).set ↔ _
  rw [View.set_slice_whole, Rect.mem_set_unit]
  exact Iff.rfl

/-- Row r of the first output lies in the block of point r / 10000. -/
theorem cover_bn (i : S100000x32.Idx) :
    ∃ t : Fin cfg7.N, (cfg7.win 5).flush t = true ∧ i ∈ ((cfg7.win 5).blk t).view.set := by
  have hi0 : (i 0).val < 100000 := idx2_lt0 i
  have hi1 : (i 1).val < 32 := idx2_lt1 i
  have hN : cfg7.N = 10 := N_7
  obtain ⟨t, ht⟩ : ∃ t : Fin cfg7.N, t.val = (i 0).val / 10000 := ⟨⟨(i 0).val / 10000, by omega⟩, rfl⟩
  obtain ⟨-, -, -, -, -, -, -, -, -, -, e0, e1, -⟩ := idx_facts t
  refine ⟨t, flush7_5 t, ?_⟩
  rw [mem_blk_bn]
  intro a
  match a with
  | ⟨0, _⟩ =>
    show win7_5.index t (0 : Fin 2) * 10000 ≤ (i 0).val ∧ (i 0).val < win7_5.index t (0 : Fin 2) * 10000 + 10000
    omega
  | ⟨1, _⟩ =>
    show win7_5.index t (1 : Fin 2) * 32 ≤ (i 1).val ∧ (i 1).val < win7_5.index t (1 : Fin 2) * 32 + 32
    omega

/-- Likewise for the second output. -/
theorem cover_act (i : S100000x32.Idx) :
    ∃ t : Fin cfg7.N, (cfg7.win 6).flush t = true ∧ i ∈ ((cfg7.win 6).blk t).view.set := by
  have hi0 : (i 0).val < 100000 := idx2_lt0 i
  have hi1 : (i 1).val < 32 := idx2_lt1 i
  have hN : cfg7.N = 10 := N_7
  obtain ⟨t, ht⟩ : ∃ t : Fin cfg7.N, t.val = (i 0).val / 10000 := ⟨⟨(i 0).val / 10000, by omega⟩, rfl⟩
  obtain ⟨-, -, -, -, -, -, -, -, -, -, -, -, e0, e1⟩ := idx_facts t
  refine ⟨t, flush7_6 t, ?_⟩
  rw [mem_blk_act]
  intro a
  match a with
  | ⟨0, _⟩ =>
    show win7_6.index t (0 : Fin 2) * 10000 ≤ (i 0).val ∧ (i 0).val < win7_6.index t (0 : Fin 2) * 10000 + 10000
    omega
  | ⟨1, _⟩ =>
    show win7_6.index t (1 : Fin 2) * 32 ≤ (i 1).val ∧ (i 1).val < win7_6.index t (1 : Fin 2) * 32 + 32
    omega

/-! ## The two arrays after the region -/

/-- The first output array after the region is bnArr of the arrays the region found. -/
theorem arr_bn (c : Dev nD) :
    (dat7 (F := Ideal) V c).arrAt 5 cfg7.N = bnArr (V c main_v117) (V c main_v128) (V c main_v129) (V c main_v130) (V c main_v131) :=
  (dat7 (F := Ideal) V c).arrAt_eq_of_cover 5 (bnArr (V c main_v117) (V c main_v128) (V c main_v129) (V c main_v130) (V c main_v131)) (fun t _ => flushed_bn V c t) cover_bn

/-- The second output array after the region is actArr of them. -/
theorem arr_act (c : Dev nD) :
    (dat7 (F := Ideal) V c).arrAt 6 cfg7.N = actArr (V c main_v117) (V c main_v128) (V c main_v129) (V c main_v130) (V c main_v131) :=
  (dat7 (F := Ideal) V c).arrAt_eq_of_cover 6 (actArr (V c main_v117) (V c main_v128) (V c main_v129) (V c main_v130) (V c main_v131)) (fun t _ => flushed_act V c t) cover_act

/-- Entry (r, j) of the first output: the batch normalisation of entry (r, j) by column j's statistics. -/
theorem final_bn (c : Dev nD) (r : Fin 100000) (j : Fin 32) :
    (dat7 (F := Ideal) V c).arrAt 5 cfg7.N (ix2 r j)
      = Cert.Spec.bnAt ((V c main_v117 : S100000x32.Idx → EReal) (ix2 r j)) ((V c main_v128 : S1x32.Idx → EReal) (ix2 0 j))
          ((V c main_v129 : S1x32.Idx → EReal) (ix2 0 j)) ((V c main_v130 : S1x32.Idx → EReal) (ix2 0 j))
          ((V c main_v131 : S1x32.Idx → EReal) (ix2 0 j)) :=
  (congrFun (arr_bn V c) (ix2 r j)).trans rfl

/-- Entry (r, j) of the second output: the exponential linear unit of that value. -/
theorem final_act (c : Dev nD) (r : Fin 100000) (j : Fin 32) :
    (dat7 (F := Ideal) V c).arrAt 6 cfg7.N (ix2 r j)
      = Cert.Spec.eluAt (Cert.Spec.bnAt ((V c main_v117 : S100000x32.Idx → EReal) (ix2 r j))
          ((V c main_v128 : S1x32.Idx → EReal) (ix2 0 j)) ((V c main_v129 : S1x32.Idx → EReal) (ix2 0 j))
          ((V c main_v130 : S1x32.Idx → EReal) (ix2 0 j)) ((V c main_v131 : S1x32.Idx → EReal) (ix2 0 j))) :=
  (congrFun (arr_act V c) (ix2 r j)).trans rfl

end Cert.KernelIdeal.KReg7

end
-- ==== Proof.KReg8.lean ====
/-
  The final dense layer of the network, read off its pipelined region.

  The region tiles the 100000 rows into ten tiles of 10000. At each tile the body multiplies the tile's rows by the
  transposed weight matrix and adds the bias row. At the ideal instance the format changes are identities and a product
  into the zero accumulator is the plain sum over the 32 features, so entry `(r, j)` of the output array is

      ∑ k, x (r, k) · W (j, k)  +  b (0, j).

  The proof reads the body's arithmetic at an entry of a tile, identifies each input block with the rows of its array
  that the tile names, and covers the array by the ten tiles.
-/
import proofs.«150843_j12429635355189_1_alg».proof.Proof.Gen.KernelIdeal.Frame
import proofs.«150843_j12429635355189_1_alg».proof.Proof.LibMatmulNN
import Idealize.ShloMosaic.Lib.Pipeline.Value
import Idealize.ShloMosaic.Lib.ValueLayout

set_option maxRecDepth 16384

noncomputable section

open scoped BigOperators

namespace Cert.KernelIdeal.KReg8

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer load or store, as a constant function. -/
theorem offs_zero : (![0, 0] : Fin 2 → Nat) = fun _ => 0 := funext fun a => by fin_cases a <;> rfl

/-- Entry `(r, j)` of the layer on whole arrays: the rows against the weight matrix, contracting the feature axis,
    plus the bias. -/
def entry (x : S100000x32.Idx → EReal) (w : S2x32.Idx → EReal) (b : S1x2.Idx → EReal)
    (r : Fin 100000) (j : Fin 2) : EReal :=
  (∑ k : Fin 32, x (ix2 r k) * w (ix2 j k)) + b (ix2 0 j)

/-- The layer's whole output array. -/
def layer (x : S100000x32.Idx → EReal) (w : S2x32.Idx → EReal) (b : S1x2.Idx → EReal) : S100000x2.Idx → EReal :=
  fun i => entry x w b (i 0) (i 1)

/-- The body's arithmetic at an entry of one row tile: the format changes and the same-shape casts are identities,
    the transposed weight matrix is read at the swapped index, the product into the zero accumulator is the plain
    sum over the feature axis, and the one-row bias is read at its column. -/
theorem pay_apply (x : Vec Ideal S10000x32 .f32) (w : Vec Ideal S2x32 .f32) (b : Vec Ideal S1x2 .f32)
    (p : Fin 10000) (q : Fin 2) :
    k8_pay1 (F := Ideal) x w b (ix2 p q)
      = (∑ k : Fin 32, (x (ix2 p k) : EReal) * w (ix2 q k)) + b (ix2 0 q) := by
  unfold k8_pay1
  dsimp only
  rw [addf_apply]
  simp only [shapeCast_self]
  refine congrArg₂ (· + ·) ?_ ?_
  · refine (Cert.LibMatmulNN.matmul_zero_apply' (M := 10000) (K := 32) (N := 2)
      dot_S10000x32_S32x2_S10000x2_1_0_0_1_n_n rfl rfl rfl rfl rfl rfl none _ _ p q).trans ?_
    refine Finset.sum_congr rfl fun k _ => ?_
    refine congrArg₂ (· * ·) rfl ?_
    exact transpose_ix2_apply (a := 2) (b := 32) _ _ k q
  · exact broadcastTo_1b_ab_apply (a := 10000) (b := 2) _ _ p q

/-- The printed index maps, decided over the ten grid points: the row-tiled input and the output sit at row tile
    `t`, column block 0; the weight matrix and the bias row are their arrays' one block. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

section Blocks
variable (V : (c : Dev nD) → (b : Ref sig .tc) → Buf (Elt Ideal) ((c : Thread nD τ).loc b))

/-- The rows' block at point `t` is rows `10000 t … 10000 t + 9999` of the rows' array. -/
theorem rows_blk (c : Dev nD) (t : Fin cfg8.N) (a : S10000x32.Idx) (b : S100000x32.Idx)
    (h0 : (b 0).val = t.val * 10000 + (a 0).val) (h1 : (b 1).val = (a 1).val) :
    (iblk8 (F := Ideal) V c 0 t : Vec Ideal S10000x32 .f32) a = (V c main_v132_1 : S100000x32.Idx → EReal) b := by
  obtain ⟨e0, e1, -⟩ := idx_facts t
  unfold iblk8
  rw [View.read_apply]
  show V c main_v132_1 _ = V c main_v132_1 _
  congr 1
  funext ax
  apply Fin.ext
  match ax with
  | ⟨0, _⟩ => show win8_0.index t 0 * 10000 + 1 * (a 0).val = (b 0).val; omega
  | ⟨1, _⟩ => show win8_0.index t 1 * 32 + 1 * (a 1).val = (b 1).val; omega

/-- The weight matrix's block is the matrix at every point. -/
theorem w_blk (c : Dev nD) (t : Fin cfg8.N) (a : S2x32.Idx) :
    (iblk8 (F := Ideal) V c 1 t : Vec Ideal S2x32 .f32) a = (V c main_arg22 : S2x32.Idx → EReal) a := by
  obtain ⟨-, -, e0, e1, -⟩ := idx_facts t
  unfold iblk8
  rw [View.read_apply]
  show V c main_arg22 _ = V c main_arg22 _
  congr 1
  funext ax
  apply Fin.ext
  match ax with
  | ⟨0, _⟩ => show win8_1.index t 0 * 2 + 1 * (a 0).val = (a 0).val; omega
  | ⟨1, _⟩ => show win8_1.index t 1 * 32 + 1 * (a 1).val = (a 1).val; omega

/-- The bias row's block is the row at every point. -/
theorem b_blk (c : Dev nD) (t : Fin cfg8.N) (a : S1x2.Idx) :
    (iblk8 (F := Ideal) V c 2 t : Vec Ideal S1x2 .f32) a = (V c main_v133 : S1x2.Idx → EReal) a := by
  obtain ⟨-, -, -, -, e0, e1, -⟩ := idx_facts t
  unfold iblk8
  rw [View.read_apply]
  show V c main_v133 _ = V c main_v133 _
  congr 1
  funext ax
  apply Fin.ext
  match ax with
  | ⟨0, _⟩ => show win8_2.index t 0 * 1 + 1 * (a 0).val = (a 0).val; omega
  | ⟨1, _⟩ => show win8_2.index t 1 * 2 + 1 * (a 1).val = (a 1).val; omega

end Blocks

/-- One row tile of the layer from the tile's blocks: when the row-tiled block is rows `10000 n + p` of its array
    and the other two blocks are their whole arrays, the body's stored tile at `(p, q)` is the layer's entry at row
    `10000 n + p`, column `q`. -/
theorem tile_apply (X : S100000x32.Idx → EReal) (W : S2x32.Idx → EReal) (B : S1x2.Idx → EReal)
    (x0 : Vec Ideal S10000x32 .f32) (x1 : Vec Ideal S2x32 .f32) (x2 : Vec Ideal S1x2 .f32) (n : Nat)
    (h0 : ∀ (a : S10000x32.Idx) (b : S100000x32.Idx), (b 0).val = n * 10000 + (a 0).val → (b 1).val = (a 1).val → x0 a = X b)
    (h1 : ∀ a, x1 a = W a) (h2 : ∀ a, x2 a = B a)
    (p : Fin 10000) (q : Fin 2) (r : Fin 100000) (hr : r.val = n * 10000 + p.val) :
    out8_3 (F := Ideal) x0 x1 x2 (ix2 p q) = entry X W B r q := by
  unfold out8_3
  rw [View.canon_unit_zero offs_zero]
  simp only [View.ld_unit_zero (S := S10000x32) offs_zero, View.ld_unit_zero (S := S2x32) offs_zero,
    View.ld_unit_zero (S := S1x2) offs_zero]
  rw [pay_apply]
  unfold entry
  have e0 : ∀ k : Fin 32, x0 (ix2 p k) = X (ix2 r k) := fun k => h0 _ _ hr rfl
  simp only [e0, h1, h2]

section Array
variable (V : (c : Dev nD) → (b : Ref sig .tc) → Buf (Elt Ideal) ((c : Thread nD τ).loc b))

/-- What point `t` writes back is row tile `t` of the layer of the arrays as the region finds them. -/
theorem flushed_eq (c : Dev nD) (t : Fin cfg8.N) :
    (dat8 (F := Ideal) V c).flushed 3 t
      = ((cfg8.win 3).blk t).view.read (Elt Ideal) (layer (V c main_v132_1) (V c main_arg22) (V c main_v133)) := by
  show (cfg8.win 3).cut (grid8.coords t) ((dat8 V c).after 3 t) = _
  rw [after8_3]
  obtain ⟨-, -, -, -, -, -, e0, e1⟩ := idx_facts t
  funext y
  have hp : (y 0).val < 10000 := (y 0).isLt
  have hq : (y 1).val < 2 := (y 1).isLt
  have hy : (cfg8.win 3).xinj (grid8.coords t) y = ix2 (⟨(y 0).val, hp⟩ : Fin 10000) (⟨(y 1).val, hq⟩ : Fin 2) :=
    funext fun a => by match a with | ⟨0, _⟩ => rfl | ⟨1, _⟩ => rfl
  show out8_3 (iblk8 V c 0 t) (iblk8 V c 1 t) (iblk8 V c 2 t) ((cfg8.win 3).xinj (grid8.coords t) y)
    = layer (V c main_v132_1) (V c main_arg22) (V c main_v133) (((cfg8.win 3).blk t).view.emb y)
  rw [hy]
  have hr : (((cfg8.win 3).blk t).view.emb y (0 : Fin 2)).val = t.val * 10000 + (y 0).val := by
    show win8_3.index t 0 * 10000 + 1 * (y 0).val = _
    omega
  have hc : (((cfg8.win 3).blk t).view.emb y (1 : Fin 2)).val = (y 1).val := by
    show win8_3.index t 1 * 2 + 1 * (y 1).val = _
    omega
  refine (tile_apply (V c main_v132_1) (V c main_arg22) (V c main_v133)
    (iblk8 V c 0 t) (iblk8 V c 1 t) (iblk8 V c 2 t) t.val
    (rows_blk V c t) (w_blk V c t) (b_blk V c t)
    ⟨(y 0).val, hp⟩ ⟨(y 1).val, hq⟩ (((cfg8.win 3).blk t).view.emb y 0) hr).trans ?_
  show entry _ _ _ _ _ = entry _ _ _ _ _
  congr 1
  exact Fin.ext hc.symm

/-- An index of the output array is in point `t`'s block iff each coordinate is in the block's range on its axis. -/
theorem mem_blk (t : Fin cfg8.N) (i : S100000x2.Idx) :
    i ∈ ((cfg8.win 3).blk t).view.set ↔ ∀ a : Fin 2, win8_3.index t a * S10000x2.size a ≤ (i a).val
      ∧ (i a).val < win8_3.index t a * S10000x2.size a + S10000x2.size a := by
  show i ∈ ((View.whole main_v134).slice (win8_3.rect t)).set ↔ _
  rw [View.set_slice_whole, Rect.mem_set_unit]
  exact Iff.rfl

/-- The ten row tiles cover the output array: row `r` lies in the tile of point `r / 10000`. -/
theorem cover (i : S100000x2.Idx) :
    ∃ t : Fin cfg8.N, (cfg8.win 3).flush t = true ∧ i ∈ ((cfg8.win 3).blk t).view.set := by
  have hi0 : (i 0).val < 100000 := (i 0).isLt
  have hi1 : (i 1).val < 2 := (i 1).isLt
  have hN : cfg8.N = 10 := N_8
  obtain ⟨t, ht⟩ : ∃ t : Fin cfg8.N, t.val = (i 0).val / 10000 := ⟨⟨(i 0).val / 10000, by rw [hN]; omega⟩, rfl⟩
  obtain ⟨-, -, -, -, -, -, e0, e1⟩ := idx_facts t
  refine ⟨t, flush8_3 t, ?_⟩
  rw [mem_blk]
  intro a
  match a with
  | ⟨0, _⟩ =>
    show win8_3.index t 0 * 10000 ≤ (i 0).val ∧ (i 0).val < win8_3.index t 0 * 10000 + 10000
    omega
  | ⟨1, _⟩ =>
    show win8_3.index t 1 * 2 ≤ (i 1).val ∧ (i 1).val < win8_3.index t 1 * 2 + 2
    omega

/-- The output array after the region is the layer of the arrays as the region finds them. -/
theorem whole (c : Dev nD) :
    (dat8 (F := Ideal) V c).arrAt 3 cfg8.N = layer (V c main_v132_1) (V c main_arg22) (V c main_v133) :=
  (dat8 V c).arrAt_eq_of_cover 3 (layer (V c main_v132_1) (V c main_arg22) (V c main_v133))
    (fun t _ => flushed_eq V c t) cover

/-- The layer's entry, written out. -/
theorem entry_eq (x : S100000x32.Idx → EReal) (w : S2x32.Idx → EReal) (b : S1x2.Idx → EReal)
    (r : Fin 100000) (j : Fin 2) :
    entry x w b r j = (∑ k : Fin 32, x (ix2 r k) * w (ix2 j k)) + b (ix2 0 j) :=
  rfl

/-- The output array after the region, entry by entry. -/
theorem final (c : Dev nD) (r : Fin 100000) (j : Fin 2) :
    (dat8 (F := Ideal) V c).arrAt 3 cfg8.N (ix2 r j) = entry (V c main_v132_1) (V c main_arg22) (V c main_v133) r j :=
  congrFun (whole V c) (ix2 r j)

end Array

end Cert.KernelIdeal.KReg8

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«150843_j12429635355189_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibVecScatter.lean ====
/-
  A scatter-add into a vector read at an entry.

  Counting how many times each of `N` bins is named by `E` bin numbers is written as: add entry `e` of an `[E]`
  vector of updates into entry `dst[e]` of an `[N]` accumulator. In StableHLO this is a `scatter` with an `add` body
  whose windows are single numbers (operand `[N]`, scatter indices `[E, 1]`, updates `[E]`; no update window axis,
  inserted window axis 0, scatter-dims-to-operand-dims `[0]`, index vector on axis 1 of the scatter indices). This file
  reads it at one entry, for all extents `N`, `E`:

  * `scatterAdd_vec_apply`: at the ideal instance (the extended reals), entry `n` of the scatter-add is the operand's
    entry `n` plus the sum over `e : Fin E` of the update's entry `e` for those `e` whose scatter index `idx (e, 0)`,
    read as a signed integer, is `n`. An update whose bin number is negative or at least `N` lands nowhere: it equals
    no `n : Fin N`.

  It is stated twice: for the record `vecScatterDims` built from the extents, and, `…_of_eq`, for ANY record whose four
  lists are the ones above (each hypothesis closes by `rfl` on a literal record), the form to rewrite with.
-/
import Idealize.ShloMosaic.PureOps.Ideal.Laws
import Idealize.ShloMosaic.Lib.ValueIdx

noncomputable section

open scoped BigOperators

namespace Cert.LibVecScatter

open Idealize.ShloMosaic Idealize.ShloMosaic.ValueIdx

variable {N E w : Nat}

/-- The one axis of the operand is inserted: it is not among the kept ones. -/
private theorem zero_not_mem_kept : (0 : Fin 1) ∉ (List.finRange 1).filter (fun a => a ∉ ([0] : List (Fin 1))) := by decide

/-- The dimension numbers of a scatter of single numbers into a vector: operand `[N]`, scatter indices `[E, 1]`,
    updates `[E]`; the updates have no window axis, the operand's one axis is inserted and is the one the scatter
    index names, and the index vector lies along axis 1 of the scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the scatter index `idx (e, 0)`, read signed. -/
theorem scatter_start_zero (wf) (idx : IVec ⟨2, ![E, 1]⟩ w) (e : Fin E) :
    (vecScatterDims N E wf).start (ix1 e) idx 0 = (idx (ix2 e ⟨0, Nat.one_pos⟩)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's axis is inserted: the window coordinate there is `0`. -/
theorem scatter_window_zero (wf) (j : (⟨1, ![E]⟩ : Shape).Idx) :
    (vecScatterDims N E wf).window j 0 = 0 := by
  unfold ScatterDims.window
  rw [dif_neg (show (0 : Fin 1) ∉ (vecScatterDims N E wf).sKept from zero_not_mem_kept)]

/-- WHERE AN UPDATE LANDS: update `e` lands at operand entry `n` exactly when its scatter index `idx (e, 0)`, read
    signed, is `n`. (A bin number outside `[0, N)` is dropped, and is no `n : Fin N`.) -/
theorem scatter_resultIdx?_iff (wf) (idx : IVec ⟨2, ![E, 1]⟩ w) (e : Fin E) (n : Fin N) :
    (vecScatterDims N E wf).resultIdx? (ix1 e) idx = some (ix1 n)
      ↔ (idx (ix2 e ⟨0, Nat.one_pos⟩)).toInt = (n.val : Int) := by
  have h0 := scatter_start_zero (N := N) wf idx e
  have w0 := scatter_window_zero (N := N) wf (ix1 e)
  unfold ScatterDims.resultIdx?
  split
  · rename_i h
    have g0 := h 0
    rw [h0, w0] at g0
    rw [Option.some.injEq]
    constructor
    · intro hf
      have e0 : ((vecScatterDims N E wf).start (ix1 e) idx 0
          + (vecScatterDims N E wf).window (ix1 e) 0).toNat = n.val := congrArg (fun f => (f 0).val) hf
      rw [h0, w0] at e0
      omega
    · intro hz
      funext a
      refine Fin.ext ?_
      match a with
      | ⟨0, _⟩ =>
        show ((vecScatterDims N E wf).start (ix1 e) idx 0
          + (vecScatterDims N E wf).window (ix1 e) 0).toNat = n.val
        rw [h0, w0]; omega
  · rename_i h
    constructor
    · intro hf; exact absurd hf (by simp)
    · intro hz
      exfalso; apply h; intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [h0, w0]; have := n.isLt; omega

/-- A sum over the indices of a vector is the sum over its one coordinate. -/
theorem sum_idx1 {M : Type*} [AddCommMonoid M] {n : Nat} (f : (⟨1, ![n]⟩ : Shape).Idx → M) :
    ∑ j, f j = ∑ a : Fin n, f (ix1 a) := by
  refine Fintype.sum_equiv ⟨fun j => (j 0 : Fin n), fun a => ix1 a, fun j => (eq_ix1 j).symm, fun _ => rfl⟩ _ _ fun j => ?_
  exact congrArg f (eq_ix1 j)

/-- THE VECTOR SCATTER-ADD READ AT `n`, at the ideal instance: the operand's entry plus the sum, over the updates
    `e`, of the update's entry `e` when the scatter index `idx (e, 0)`, read signed, is `n`, and `0` otherwise. -/
theorem scatterAdd_vec_apply {φ : FTy} (wf) (x : FVec Ideal ⟨1, ![N]⟩ φ) (idx : IVec ⟨2, ![E, 1]⟩ w)
    (upd : FVec Ideal ⟨1, ![E]⟩ φ) (n : Fin N) :
    Host.scatterAdd (F := Ideal) (vecScatterDims N E wf) x idx upd (ix1 n)
      = x (ix1 n)
        + ∑ e : Fin E, if (idx (ix2 e ⟨0, Nat.one_pos⟩)).toInt = (n.val : Int) then upd (ix1 e) else 0 := by
  show x (ix1 n) + ∑ j ∈ Finset.univ.filter
    (fun j => (vecScatterDims N E wf).resultIdx? j idx = some (ix1 n)), upd j = _
  congr 1
  rw [Finset.sum_filter, sum_idx1]
  refine Finset.sum_congr rfl fun e _ => ?_
  simp only [scatter_resultIdx?_iff]

/-- A record with the vector scatter's four lists IS `vecScatterDims`. -/
theorem eq_vecScatterDims (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) : ∃ wf, d = vecScatterDims N E wf := by
  obtain ⟨uw, iw, sd, iv, wf⟩ := d
  simp only at huw hiw hsd hiv
  subst huw hiw hsd hiv
  exact ⟨wf, rfl⟩

/-- The vector scatter-add read at `n`, for ANY record with the vector scatter's four lists. -/
theorem scatterAdd_vec_apply_of_eq {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n)
        + ∑ e : Fin E, if (idx (ix2 e ⟨0, Nat.one_pos⟩)).toInt = (n.val : Int) then upd (ix1 e) else 0 := by
  obtain ⟨wf, rfl⟩ := eq_vecScatterDims d huw hiw hsd hiv
  exact scatterAdd_vec_apply wf x idx upd n

end Cert.LibVecScatter

end
-- ==== Proof.LibRowLayouts.lean ====
/-
  Two layout facts about a one-row array, for any row length and any element type.

  (1) A one-row array `[1, N]` broadcast over `M` rows reads, at `(r, j)`, its entry `(0, j)`.
  (2) Giving a vector `[N]` a leading unit axis by a reshape is the same array as broadcasting it into `[1, N]` along
  the second axis: both read, at `(0, j)`, the vector's entry `j`.
-/
import Idealize.ShloMosaic.Lib.Pipeline.Value
import Idealize.ShloMosaic.Lib.ValueIdx

noncomputable section

namespace Cert.LibRowLayouts

open Idealize.ShloMosaic Idealize.ShloMosaic.ValueIdx

variable {M N : Nat} {α : Type}

/-- A one-row array broadcast over `M` rows reads its one row. -/
theorem rowBroadcast_apply (B : (⟨2, ![1, N]⟩ : Shape).Idx → α)
    (h : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h B (ix2 r j) = B (ix2 (0 : Fin 1) j) :=
  broadcastInDim_apply (![0, 1] : Fin 2 → Fin 2) h B (ix2 r j) (ix2 (0 : Fin 1) j) (fun a => by
    match a with
    | ⟨0, _⟩ => rfl
    | ⟨1, _⟩ =>
      show j.val = if N = 1 then 0 else j.val
      split
      · have := j.isLt; omega
      · rfl)

/-- The reshape of a vector to one row is its broadcast into one row along the second axis. -/
theorem rowCast_eq (b : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    shapeCast ⟨2, ![1, N]⟩ b h = broadcastInDim ⟨2, ![1, N]⟩ (![1] : Fin 1 → Fin 2) h' b := by
  funext i
  have hi : i = ix2 (i 0) (i 1) := eq_ix2 i
  have h0 : (i 0).val = 0 := by have h := (i 0).isLt; show (i 0).val = 0; change (i 0).val < 1 at h; omega
  rw [shapeCast_apply b h i (ix1 (i 1)) (by
    rw [Shape.rowMajor_val_one, Shape.rowMajor_val_two]
    show (i 1).val = (i 0).val * N + (i 1).val
    rw [h0]; omega)]
  exact (broadcastInDim_apply (![1] : Fin 1 → Fin 2) h' b i (ix1 (i 1)) (fun a => by
    match a with
    | ⟨0, _⟩ =>
      show (i 1).val = if N = 1 then 0 else (i 1).val
      split
      · rename_i hN; have h := (i 1).isLt; change (i 1).val < N at h; omega
      · rfl)).symm

end Cert.LibRowLayouts

end
-- ==== Proof.Algebra.lean ====
/-
  Three facts on the extended reals that join the two programs.

  The kernel scales a neighbourhood sum by the reciprocal of the clipped in-degree, the reference divides by the
  clipped in-degree.  The in-degree is a count: a finite sum of zeros and ones, hence a nonnegative real, and the
  clipped value max(q, 1) is a real number that is not zero, so the quotient by it is the product with its
  reciprocal for every extended real numerator, the infinities included.
-/
import Idealize.ShloMosaic.PureOps.Ideal.Laws
import Idealize.ShloMosaic.Lib.IdealHost

noncomputable section

namespace Cert.Algebra

open Idealize.ShloMosaic

/-- A finite sum of zeros and ones is a nonnegative real. -/
theorem sum_indicator_real {ι : Type*} (s : Finset ι) (p : ι → Prop) [DecidablePred p] :
    ∃ q : ℝ, 0 ≤ q ∧ (∑ e ∈ s, (if p e then (1 : EReal) else 0)) = (q : EReal) := by
  classical
  induction s using Finset.induction_on with
  | empty => exact ⟨0, le_refl _, by simp⟩
  | insert a s ha ih =>
    obtain ⟨q, hq, h⟩ := ih
    rw [Finset.sum_insert ha, h]
    by_cases hp : p a
    · exact ⟨1 + q, by linarith, by rw [if_pos hp, EReal.coe_add, EReal.coe_one]⟩
    · exact ⟨q, hq, by rw [if_neg hp, zero_add]⟩

/-- The product with the reciprocal of max(q, 1) is the quotient by max(q, 1), for every extended real. -/
theorem mul_recip_eq_div (S : EReal) (q : ℝ) :
    S * Ideal.div 1 (max (q : EReal) 1) = Ideal.div S (max (q : EReal) 1) := by
  have h1 : max (q : EReal) 1 = ((max q 1 : ℝ) : EReal) := by
    rcases le_total q 1 with h | h
    · rw [max_eq_right h, max_eq_right (by exact_mod_cast h), EReal.coe_one]
    · rw [max_eq_left h, max_eq_left (by exact_mod_cast h)]
  have hne : (max q 1 : ℝ) ≠ 0 := ne_of_gt (lt_of_lt_of_le one_pos (le_max_right q 1))
  rw [h1, Ideal.div_coe hne, Ideal.div_coe hne, one_mul]

/-- The exponential linear unit as jax writes it (the exponent guarded by a second selection, the result scaled
    by one) is the plain one. -/
theorem elu_guarded (z o x : EReal) (hz : z = 0) (ho : o = 1) :
    (if z < x then x else o * (Ideal.exp (if z < x then z else x) - o))
      = (if z < x then x else Ideal.exp x - o) := by
  subst hz ho
  by_cases h : (0 : EReal) < x
  · rw [if_pos h, if_pos h]
  · rw [if_neg h, if_neg h, if_neg h, one_mul]

end Cert.Algebra

end
-- ==== Proof.LayerMath.lean ====
/-
  The reference's layer pieces read at an entry, and the mean over a neighbourhood in its two spellings.

  Reading a piece at an entry (r, j) turns the host operations into plain arithmetic on the extended reals: a matrix
  product into the sum over the contracted index, a vector laid along the rows into its entry j, a vector laid along
  the columns into its entry r.  The one place where the two programs differ by more than the order of two additions
  is the mean over the in-neighbours: the in-degree of a node is a finite sum of ones, so a real number, and clipped
  below at one it is a nonzero real; multiplying by its reciprocal and dividing by it then agree on every extended
  real.
-/
import proofs.«150843_j12429635355189_1_alg».proof.Proof.RefTerms
import proofs.«150843_j12429635355189_1_alg».proof.Proof.LibDotGeneralNN
import proofs.«150843_j12429635355189_1_alg».proof.Proof.LibVecScatter
import proofs.«150843_j12429635355189_1_alg».proof.Proof.LibRowLayouts
import proofs.«150843_j12429635355189_1_alg».proof.Proof.Algebra
import proofs.«150843_j12429635355189_1_alg».proof.Proof.Scalar
import Idealize.ShloMosaic.Lib.Pipeline.Value
import Idealize.ShloMosaic.Lib.ValueIdx
import Idealize.ShloMosaic.Lib.IdealHost

set_option maxRecDepth 16384

noncomputable section

namespace Cert.LayerMath

open Idealize.ShloMosaic Idealize.ShloMosaic.ValueIdx Cert.ReferenceIdeal Cert.ReferenceIdeal.Terms

variable [Cert.ReferenceIdeal.Facts]
open Cert.ReferenceIdeal.Facts₀ Cert.ReferenceIdeal.Facts

section Reads

variable {M N : Nat} {α : Type}

/-- A vector laid out as one row reads its entry j at (0, j). -/
theorem vecRow_apply (v : (⟨1, ![N]⟩ : Shape).Idx → α)
    (h : (⟨1, ![N]⟩ : Shape).BroadcastsInDim ⟨2, ![1, N]⟩ (![1] : Fin 1 → Fin 2)) (j : Fin N) :
    broadcastInDim ⟨2, ![1, N]⟩ (![1] : Fin 1 → Fin 2) h v (ix2 (0 : Fin 1) j) = v (ix1 j) :=
  broadcastInDim_apply (![1] : Fin 1 → Fin 2) h v (ix2 (0 : Fin 1) j) (ix1 j) (fun a => by
    match a with
    | ⟨0, _⟩ =>
      show j.val = if N = 1 then 0 else j.val
      split
      · have := j.isLt; omega
      · rfl)

/-- A vector laid along every row reads its entry j at (r, j). -/
theorem row_read (v : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 v) (ix2 r j)
      = v (ix1 j) := by
  rw [Cert.LibRowLayouts.rowBroadcast_apply, vecRow_apply]

/-- A vector laid out as one column reads its entry r at (r, 0). -/
theorem vecCol_apply (v : (⟨1, ![M]⟩ : Shape).Idx → α)
    (h : (⟨1, ![M]⟩ : Shape).BroadcastsInDim ⟨2, ![M, 1]⟩ (![0] : Fin 1 → Fin 2)) (r : Fin M) :
    broadcastInDim ⟨2, ![M, 1]⟩ (![0] : Fin 1 → Fin 2) h v (ix2 r (0 : Fin 1)) = v (ix1 r) :=
  broadcastInDim_apply (![0] : Fin 1 → Fin 2) h v (ix2 r (0 : Fin 1)) (ix1 r) (fun a => by
    match a with
    | ⟨0, _⟩ =>
      show r.val = if M = 1 then 0 else r.val
      split
      · have := r.isLt; omega
      · rfl)

/-- A vector laid along every column reads its entry r at (r, j). -/
theorem col_read (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![M, 1]⟩ (![0] : Fin 1 → Fin 2) h1 v) (ix2 r j)
      = v (ix1 r) := by
  rw [broadcastInDim_apply (![0, 1] : Fin 2 → Fin 2) h2 _ (ix2 r j) (ix2 r (0 : Fin 1)) (fun a => by
    match a with
    | ⟨0, _⟩ =>
      show r.val = if M = 1 then 0 else r.val
      split
      · have := r.isLt; omega
      · rfl
    | ⟨1, _⟩ => rfl), vecCol_apply]

/-- A transposed matrix read at (k, j) is the matrix at (j, k). -/
theorem transpose_read {A B : Nat} (W : (⟨2, ![B, A]⟩ : Shape).Idx → α)
    (h : (⟨2, ![B, A]⟩ : Shape).Transposes [1, 0] ⟨2, ![A, B]⟩) (k : Fin A) (j : Fin B) :
    transpose ⟨2, ![A, B]⟩ [1, 0] W h (ix2 k j) = W (ix2 j k) :=
  transpose_apply [1, 0] W h (ix2 k j) (ix2 j k) (fun b => by
    match b with
    | ⟨0, _⟩ => rfl
    | ⟨1, _⟩ => rfl)

end Reads

/-- The scatter of single numbers into the vector over the nodes, read at a node: the operand's entry plus the updates
    of the edges whose target is that node. -/
theorem nodeScatter_apply (x : FVec Ideal S100000 .f32) (idx : IVec S1600000x1 32) (upd : FVec Ideal S1600000 .f32) (n : Fin 100000) :
    Host.scatterAdd (F := Ideal) scatter_S100000_S1600000x1_S1600000_n_0_0_1 x idx upd (ix1 n)
      = x (ix1 n) + ∑ e : Fin 1600000, if (idx (ix2 e ⟨0, Nat.one_pos⟩)).toInt = (n.val : Int) then upd (ix1 e) else 0 :=
  Cert.LibVecScatter.scatterAdd_vec_apply_of_eq _ rfl rfl rfl rfl x idx upd n

/-- The in-degree of a node is a real number. -/
theorem deg_real (dst : IVec S1600000 32) (n : Fin 100000) : ∃ q : ℝ, degV dst (ix1 n) = (q : EReal) := by
  unfold degV
  rw [nodeScatter_apply]
  have hz : ∀ j, broadcastInDim S100000 ![] bcast_S_S100000 (constant (F := Ideal) S_ .f32 0x00000000#32) j = 0 := fun j => by
    rw [broadcastInDim_scalar_apply, constant_apply, Ideal.ofBits_zero_f32]
  have ho : ∀ j, broadcastInDim S1600000 ![] bcast_S_S1600000 (constant (F := Ideal) S_ .f32 0x3F800000#32) j = 1 := fun j => by
    rw [broadcastInDim_scalar_apply, constant_apply, Ideal.ofBits_one_f32]
  simp only [hz, ho, zero_add]
  obtain ⟨q, _, hq⟩ := Cert.Algebra.sum_indicator_real Finset.univ
    (fun e : Fin 1600000 => (sidx dst (ix2 e ⟨0, Nat.one_pos⟩)).toInt = (n.val : Int))
  exact ⟨q, hq⟩

/-- The two spellings of the mean over the in-neighbours are one array (width 128). -/
theorem agg_eq128 (h : FVec Ideal S100000x128 .f32) (src dst : IVec S1600000 32) : aggK128 h src dst = aggR128 h src dst := by
  funext i
  obtain ⟨r, k, rfl⟩ : ∃ (r : Fin 100000) (k : Fin 128), i = ix2 r k := ⟨i 0, i 1, eq_ix2 i⟩
  unfold aggK128 aggR128
  rw [mulf_apply, hostDivf_apply, col_read, col_read]
  unfold invdeg clipdeg onesN
  rw [hostDivf_apply, maximumf_apply, broadcastInDim_scalar_apply, constant_apply, Ideal.ofBits_one_f32]
  obtain ⟨q, hq⟩ := deg_real dst r
  rw [hq]
  exact Cert.Algebra.mul_recip_eq_div _ q

/-- The two spellings of the mean over the in-neighbours are one array (width 64). -/
theorem agg_eq64 (h : FVec Ideal S100000x64 .f32) (src dst : IVec S1600000 32) : aggK64 h src dst = aggR64 h src dst := by
  funext i
  obtain ⟨r, k, rfl⟩ : ∃ (r : Fin 100000) (k : Fin 64), i = ix2 r k := ⟨i 0, i 1, eq_ix2 i⟩
  unfold aggK64 aggR64
  rw [mulf_apply, hostDivf_apply, col_read, col_read]
  unfold invdeg clipdeg onesN
  rw [hostDivf_apply, maximumf_apply, broadcastInDim_scalar_apply, constant_apply, Ideal.ofBits_one_f32]
  obtain ⟨q, hq⟩ := deg_real dst r
  rw [hq]
  exact Cert.Algebra.mul_recip_eq_div _ q

/-- The affine map from width 128 to width 64 read at an entry. -/
theorem lin128_64_apply (x agg : FVec Ideal S100000x128 .f32) (Wl : FVec Ideal S64x128 .f32) (bl : FVec Ideal S64 .f32)
    (Wr : FVec Ideal S64x128 .f32) (r : Fin 100000) (j : Fin 64) :
    lin128_64 x agg Wl bl Wr (ix2 r j)
      = ((∑ k : Fin 128, agg (ix2 r k) * Wl (ix2 j k)) + bl (ix1 j)) + ∑ k : Fin 128, x (ix2 r k) * Wr (ix2 j k) := by
  have e1 : ∀ (W : FVec Ideal S64x128 .f32) (k : Fin 128),
      transpose S128x64 [1, 0] W transposes_S64x128_S128x64_1_0 (ix2 k j) = W (ix2 j k) := fun W k => transpose_read W _ k j
  unfold lin128_64 Host.dotGeneral
  rw [addf_apply, addf_apply, row_read]
  rw [Cert.LibDotGeneralNN.dotGeneral_apply dot_S100000x128_S128x64_S100000x64_1_0_0_1_n_n rfl rfl rfl rfl rfl rfl,
    Cert.LibDotGeneralNN.dotGeneral_apply dot_S100000x128_S128x64_S100000x64_1_0_0_1_n_n rfl rfl rfl rfl rfl rfl]
  simp only [e1]

/-- The affine map from width 64 to width 128 read at an entry. -/
theorem lin64_128_apply (x agg : FVec Ideal S100000x64 .f32) (Wl : FVec Ideal S128x64 .f32) (bl : FVec Ideal S128 .f32)
    (Wr : FVec Ideal S128x64 .f32) (r : Fin 100000) (j : Fin 128) :
    lin64_128 x agg Wl bl Wr (ix2 r j)
      = ((∑ k : Fin 64, agg (ix2 r k) * Wl (ix2 j k)) + bl (ix1 j)) + ∑ k : Fin 64, x (ix2 r k) * Wr (ix2 j k) := by
  have e1 : ∀ (W : FVec Ideal S128x64 .f32) (k : Fin 64),
      transpose S64x128 [1, 0] W transposes_S128x64_S64x128_1_0 (ix2 k j) = W (ix2 j k) := fun W k => transpose_read W _ k j
  unfold lin64_128 Host.dotGeneral
  rw [addf_apply, addf_apply, row_read]
  rw [Cert.LibDotGeneralNN.dotGeneral_apply dot_S100000x64_S64x128_S100000x128_1_0_0_1_n_n rfl rfl rfl rfl rfl rfl,
    Cert.LibDotGeneralNN.dotGeneral_apply dot_S100000x64_S64x128_S100000x128_1_0_0_1_n_n rfl rfl rfl rfl rfl rfl]
  simp only [e1]

/-- The affine map from width 64 to width 32 read at an entry. -/
theorem lin64_32_apply (x agg : FVec Ideal S100000x64 .f32) (Wl : FVec Ideal S32x64 .f32) (bl : FVec Ideal S32 .f32)
    (Wr : FVec Ideal S32x64 .f32) (r : Fin 100000) (j : Fin 32) :
    lin64_32 x agg Wl bl Wr (ix2 r j)
      = ((∑ k : Fin 64, agg (ix2 r k) * Wl (ix2 j k)) + bl (ix1 j)) + ∑ k : Fin 64, x (ix2 r k) * Wr (ix2 j k) := by
  have e1 : ∀ (W : FVec Ideal S32x64 .f32) (k : Fin 64),
      transpose S64x32 [1, 0] W transposes_S32x64_S64x32_1_0 (ix2 k j) = W (ix2 j k) := fun W k => transpose_read W _ k j
  unfold lin64_32 Host.dotGeneral
  rw [addf_apply, addf_apply, row_read]
  rw [Cert.LibDotGeneralNN.dotGeneral_apply dot_S100000x64_S64x32_S100000x32_1_0_0_1_n_n rfl rfl rfl rfl rfl rfl,
    Cert.LibDotGeneralNN.dotGeneral_apply dot_S100000x64_S64x32_S100000x32_1_0_0_1_n_n rfl rfl rfl rfl rfl rfl]
  simp only [e1]

/-- A selection by the comparison "greater than" is a case split on the order. -/
theorem select_ogt (z x a b : EReal) :
    Scalar.select (FloatOps.cmpf (F := Ideal) (φ := .f32) .ogt x z) a b = if z < x then a else b := by
  rw [Ideal.cmpf_def]
  unfold Scalar.select Ideal.cmp
  by_cases h : z < x
  · simp [h]
  · simp [h]

/-- The exponential linear unit with its exponent guarded by a second selection and its result scaled by one is the
    plain one. -/
theorem elu_guarded (z o x : EReal) (hz : z = 0) (ho : o = 1) :
    (if z < x then x else o * (Ideal.exp (if z < x then z else x) - 1))
      = (if z < x then x else Ideal.exp x - o) := by
  subst hz ho
  by_cases h : (0 : EReal) < x
  · rw [if_pos h, if_pos h]
  · rw [if_neg h, if_neg h, if_neg h, one_mul]

/-- Batch normalisation (width 64) read at an entry: the entrywise function of the entry, its column's mean and variance, scale and shift. -/
theorem bn64_apply (h : FVec Ideal S100000x64 .f32) (g be : FVec Ideal S64 .f32) (r : Fin 100000) (j : Fin 64) :
    bn64 h g be (ix2 r j)
      = Cert.Spec.bnAt (h (ix2 r j)) (mu64 h (ix1 j)) (var64 h (ix1 j)) (g (ix1 j)) (be (ix1 j)) := by
  unfold bn64 cen64 rstd64 row64 Cert.Spec.bnAt
  rw [addf_apply, mulf_apply, mulf_apply, subf_apply, row_read, row_read, row_read, row_read]
  simp only [Host.rsqrt, addf_apply, Ideal.hostUnary_rsqrt_def]
  rw [broadcastInDim_scalar_apply, constant_apply]

/-- The reference's exponential linear unit (width 64) read at an entry is the plain one. -/
theorem elu64_apply (x : FVec Ideal S100000x64 .f32) (i : S100000x64.Idx) : elu64 x i = Cert.Spec.eluAt (x i) := by
  unfold elu64 Cert.Spec.eluAt
  simp only [select_apply, cmpf_apply, mulf_apply, broadcastInDim_scalar_apply, constant_apply, Host.expm1,
    Ideal.hostUnary_expm1_def, select_ogt]
  exact elu_guarded _ _ _ Ideal.ofBits_zero_f32 Ideal.ofBits_one_f32

/-- Batch normalisation (width 128) read at an entry: the entrywise function of the entry, its column's mean and variance, scale and shift. -/
theorem bn128_apply (h : FVec Ideal S100000x128 .f32) (g be : FVec Ideal S128 .f32) (r : Fin 100000) (j : Fin 128) :
    bn128 h g be (ix2 r j)
      = Cert.Spec.bnAt (h (ix2 r j)) (mu128 h (ix1 j)) (var128 h (ix1 j)) (g (ix1 j)) (be (ix1 j)) := by
  unfold bn128 cen128 rstd128 row128 Cert.Spec.bnAt
  rw [addf_apply, mulf_apply, mulf_apply, subf_apply, row_read, row_read, row_read, row_read]
  simp only [Host.rsqrt, addf_apply, Ideal.hostUnary_rsqrt_def]
  rw [broadcastInDim_scalar_apply, constant_apply]

/-- The reference's exponential linear unit (width 128) read at an entry is the plain one. -/
theorem elu128_apply (x : FVec Ideal S100000x128 .f32) (i : S100000x128.Idx) : elu128 x i = Cert.Spec.eluAt (x i) := by
  unfold elu128 Cert.Spec.eluAt
  simp only [select_apply, cmpf_apply, mulf_apply, broadcastInDim_scalar_apply, constant_apply, Host.expm1,
    Ideal.hostUnary_expm1_def, select_ogt]
  exact elu_guarded _ _ _ Ideal.ofBits_zero_f32 Ideal.ofBits_one_f32

/-- Batch normalisation (width 32) read at an entry: the entrywise function of the entry, its column's mean and variance, scale and shift. -/
theorem bn32_apply (h : FVec Ideal S100000x32 .f32) (g be : FVec Ideal S32 .f32) (r : Fin 100000) (j : Fin 32) :
    bn32 h g be (ix2 r j)
      = Cert.Spec.bnAt (h (ix2 r j)) (mu32 h (ix1 j)) (var32 h (ix1 j)) (g (ix1 j)) (be (ix1 j)) := by
  unfold bn32 cen32 rstd32 row32 Cert.Spec.bnAt
  rw [addf_apply, mulf_apply, mulf_apply, subf_apply, row_read, row_read, row_read, row_read]
  simp only [Host.rsqrt, addf_apply, Ideal.hostUnary_rsqrt_def]
  rw [broadcastInDim_scalar_apply, constant_apply]

/-- The reference's exponential linear unit (width 32) read at an entry is the plain one. -/
theorem elu32_apply (x : FVec Ideal S100000x32 .f32) (i : S100000x32.Idx) : elu32 x i = Cert.Spec.eluAt (x i) := by
  unfold elu32 Cert.Spec.eluAt
  simp only [select_apply, cmpf_apply, mulf_apply, broadcastInDim_scalar_apply, constant_apply, Host.expm1,
    Ideal.hostUnary_expm1_def, select_ogt]
  exact elu_guarded _ _ _ Ideal.ofBits_zero_f32 Ideal.ofBits_one_f32

/-- The classifier read at an entry. -/
theorem dense_apply (h : FVec Ideal S100000x32 .f32) (Wc : FVec Ideal S2x32 .f32) (bc : FVec Ideal S2 .f32)
    (r : Fin 100000) (j : Fin 2) :
    dense h Wc bc (ix2 r j) = (∑ k : Fin 32, h (ix2 r k) * Wc (ix2 j k)) + bc (ix1 j) := by
  have e1 : ∀ (W : FVec Ideal S2x32 .f32) (k : Fin 32),
      transpose S32x2 [1, 0] W transposes_S2x32_S32x2_1_0 (ix2 k j) = W (ix2 j k) := fun W k => transpose_read W _ k j
  unfold dense Host.dotGeneral
  rw [addf_apply, row_read]
  rw [Cert.LibDotGeneralNN.dotGeneral_apply dot_S100000x32_S32x2_S100000x2_1_0_0_1_n_n rfl rfl rfl rfl rfl rfl]
  simp only [e1]

end Cert.LayerMath

end
-- ==== Proof.RegionMath.lean ====
/-
  Each region's closed form joined to the reference's layer terms.

  A region of the kernel program leaves, entry by entry, a plain function of the arrays it reads; the reference spells
  the same layer with host operations. Read at an entry (r, j) the two sides are the same extended real: for an affine
  layer the same three terms, the bias added second by the reference and last by the kernel, which commutativity and
  associativity of addition reconcile with no finiteness assumption; for a normalisation the same entrywise function of
  the entry and of its column's mean, variance, scale and shift, the kernel reading each of the four from a one-row array
  that is the reshaped vector; for the activation the same entrywise function of the normalised entry.
-/
import proofs.«150843_j12429635355189_1_alg».proof.Proof.KReg0
import proofs.«150843_j12429635355189_1_alg».proof.Proof.KReg1
import proofs.«150843_j12429635355189_1_alg».proof.Proof.KReg2
import proofs.«150843_j12429635355189_1_alg».proof.Proof.KReg3
import proofs.«150843_j12429635355189_1_alg».proof.Proof.KReg4
import proofs.«150843_j12429635355189_1_alg».proof.Proof.KReg5
import proofs.«150843_j12429635355189_1_alg».proof.Proof.KReg6
import proofs.«150843_j12429635355189_1_alg».proof.Proof.KReg7
import proofs.«150843_j12429635355189_1_alg».proof.Proof.KReg8
import proofs.«150843_j12429635355189_1_alg».proof.Proof.LayerMath
import proofs.«150843_j12429635355189_1_alg».proof.Proof.RefTerms
import Idealize.ShloMosaic.Lib.ValueLayout

set_option maxRecDepth 16384

noncomputable section

open scoped BigOperators

namespace Cert.RegionMath

open Idealize.ShloMosaic Idealize.ShloMosaic.ValueIdx Cert.ReferenceIdeal Cert.ReferenceIdeal.Terms Cert.LayerMath

variable [Cert.ReferenceIdeal.Facts]
open Cert.ReferenceIdeal.Facts₀ Cert.ReferenceIdeal.Facts

/-- Region 0: the kernel's layer, fed the mean over the in-neighbours in the kernel's spelling and the bias as one
    row, is the reference's affine map fed the mean in the reference's spelling. The two programs add the bias at
    different places in the sum of three terms; addition on the extended reals is commutative and associative. -/
theorem reg0 (x : FVec Ideal S100000x128 .f32) (src dst : IVec S1600000 32) (Wl Wr : FVec Ideal S64x128 .f32)
    (bl : FVec Ideal S64 .f32) (hc : Cert.KernelIdeal.S64.ShapeCasts Cert.KernelIdeal.S1x64) :
    Cert.KernelIdeal.KReg0.layer x (aggK128 x src dst) Wl Wr (shapeCast Cert.KernelIdeal.S1x64 bl hc)
      = lin128_64 x (aggR128 x src dst) Wl bl Wr := by
  funext i
  obtain ⟨r, j, rfl⟩ : ∃ (r : Fin 100000) (j : Fin 64), i = ix2 r j := ⟨i 0, i 1, eq_ix2 i⟩
  show Cert.KernelIdeal.KReg0.entry x (aggK128 x src dst) Wl Wr (shapeCast Cert.KernelIdeal.S1x64 bl hc) r j = _
  rw [Cert.KernelIdeal.KReg0.entry_eq, lin128_64_apply, agg_eq128, shapeCast_a_1a_apply]
  exact add_right_comm _ _ _

/-- Region 1, first output: the kernel's normalisation by the four statistics and parameters given as rows is the
    reference's batch normalisation. -/
theorem reg1_bn (h : FVec Ideal S100000x64 .f32) (g be : FVec Ideal S64 .f32)
    (hc : Cert.KernelIdeal.S64.ShapeCasts Cert.KernelIdeal.S1x64) :
    Cert.KernelIdeal.KReg1.bnArr h (shapeCast Cert.KernelIdeal.S1x64 (mu64 h) hc) (shapeCast Cert.KernelIdeal.S1x64 (var64 h) hc)
        (shapeCast Cert.KernelIdeal.S1x64 g hc) (shapeCast Cert.KernelIdeal.S1x64 be hc)
      = bn64 h g be := by
  funext i
  obtain ⟨r, j, rfl⟩ : ∃ (r : Fin 100000) (j : Fin 64), i = ix2 r j := ⟨i 0, i 1, eq_ix2 i⟩
  rw [bn64_apply]
  show Cert.Spec.bnAt (h (ix2 r j)) (shapeCast Cert.KernelIdeal.S1x64 (mu64 h) hc (ix2 0 j))
    (shapeCast Cert.KernelIdeal.S1x64 (var64 h) hc (ix2 0 j)) (shapeCast Cert.KernelIdeal.S1x64 g hc (ix2 0 j))
    (shapeCast Cert.KernelIdeal.S1x64 be hc (ix2 0 j)) = _
  rw [shapeCast_a_1a_apply, shapeCast_a_1a_apply, shapeCast_a_1a_apply, shapeCast_a_1a_apply]

/-- Region 1, second output: the kernel's activation of that array is the reference's exponential linear unit of its
    batch normalisation. -/
theorem reg1_act (h : FVec Ideal S100000x64 .f32) (g be : FVec Ideal S64 .f32)
    (hc : Cert.KernelIdeal.S64.ShapeCasts Cert.KernelIdeal.S1x64) :
    Cert.KernelIdeal.KReg1.actArr h (shapeCast Cert.KernelIdeal.S1x64 (mu64 h) hc) (shapeCast Cert.KernelIdeal.S1x64 (var64 h) hc)
        (shapeCast Cert.KernelIdeal.S1x64 g hc) (shapeCast Cert.KernelIdeal.S1x64 be hc)
      = elu64 (bn64 h g be) := by
  funext i
  rw [elu64_apply]
  exact congrArg Cert.Spec.eluAt (congrFun (reg1_bn h g be hc) i)

/-- Region 2: the kernel's layer, fed the mean over the in-neighbours in the kernel's spelling and the bias as one
    row, is the reference's affine map fed the mean in the reference's spelling. The two programs add the bias at
    different places in the sum of three terms; addition on the extended reals is commutative and associative. -/
theorem reg2 (x : FVec Ideal S100000x64 .f32) (src dst : IVec S1600000 32) (Wl Wr : FVec Ideal S128x64 .f32)
    (bl : FVec Ideal S128 .f32) (hc : Cert.KernelIdeal.S128.ShapeCasts Cert.KernelIdeal.S1x128) :
    Cert.KernelIdeal.KReg2.layer x (aggK64 x src dst) Wl Wr (shapeCast Cert.KernelIdeal.S1x128 bl hc)
      = lin64_128 x (aggR64 x src dst) Wl bl Wr := by
  funext i
  obtain ⟨r, j, rfl⟩ : ∃ (r : Fin 100000) (j : Fin 128), i = ix2 r j := ⟨i 0, i 1, eq_ix2 i⟩
  show Cert.KernelIdeal.KReg2.entry x (aggK64 x src dst) Wl Wr (shapeCast Cert.KernelIdeal.S1x128 bl hc) r j = _
  rw [Cert.KernelIdeal.KReg2.entry_eq, lin64_128_apply, agg_eq64, shapeCast_a_1a_apply]
  exact add_right_comm _ _ _

/-- Region 3, first output: the kernel's normalisation by the four statistics and parameters given as rows is the
    reference's batch normalisation. -/
theorem reg3_bn (h : FVec Ideal S100000x128 .f32) (g be : FVec Ideal S128 .f32)
    (hc : Cert.KernelIdeal.S128.ShapeCasts Cert.KernelIdeal.S1x128) :
    Cert.KernelIdeal.KReg3.bnArr h (shapeCast Cert.KernelIdeal.S1x128 (mu128 h) hc) (shapeCast Cert.KernelIdeal.S1x128 (var128 h) hc)
        (shapeCast Cert.KernelIdeal.S1x128 g hc) (shapeCast Cert.KernelIdeal.S1x128 be hc)
      = bn128 h g be := by
  funext i
  obtain ⟨r, j, rfl⟩ : ∃ (r : Fin 100000) (j : Fin 128), i = ix2 r j := ⟨i 0, i 1, eq_ix2 i⟩
  rw [bn128_apply]
  show Cert.Spec.bnAt (h (ix2 r j)) (shapeCast Cert.KernelIdeal.S1x128 (mu128 h) hc (ix2 0 j))
    (shapeCast Cert.KernelIdeal.S1x128 (var128 h) hc (ix2 0 j)) (shapeCast Cert.KernelIdeal.S1x128 g hc (ix2 0 j))
    (shapeCast Cert.KernelIdeal.S1x128 be hc (ix2 0 j)) = _
  rw [shapeCast_a_1a_apply, shapeCast_a_1a_apply, shapeCast_a_1a_apply, shapeCast_a_1a_apply]

/-- Region 3, second output: the kernel's activation of that array is the reference's exponential linear unit of its
    batch normalisation. -/
theorem reg3_act (h : FVec Ideal S100000x128 .f32) (g be : FVec Ideal S128 .f32)
    (hc : Cert.KernelIdeal.S128.ShapeCasts Cert.KernelIdeal.S1x128) :
    Cert.KernelIdeal.KReg3.actArr h (shapeCast Cert.KernelIdeal.S1x128 (mu128 h) hc) (shapeCast Cert.KernelIdeal.S1x128 (var128 h) hc)
        (shapeCast Cert.KernelIdeal.S1x128 g hc) (shapeCast Cert.KernelIdeal.S1x128 be hc)
      = elu128 (bn128 h g be) := by
  funext i
  rw [elu128_apply]
  exact congrArg Cert.Spec.eluAt (congrFun (reg3_bn h g be hc) i)

/-- Region 4: the kernel's layer, fed the mean over the in-neighbours in the kernel's spelling and the bias as one
    row, is the reference's affine map fed the mean in the reference's spelling. The two programs add the bias at
    different places in the sum of three terms; addition on the extended reals is commutative and associative. -/
theorem reg4 (x : FVec Ideal S100000x128 .f32) (src dst : IVec S1600000 32) (Wl Wr : FVec Ideal S64x128 .f32)
    (bl : FVec Ideal S64 .f32) (hc : Cert.KernelIdeal.S64.ShapeCasts Cert.KernelIdeal.S1x64) :
    Cert.KernelIdeal.KReg4.layer x (aggK128 x src dst) Wl Wr (shapeCast Cert.KernelIdeal.S1x64 bl hc)
      = lin128_64 x (aggR128 x src dst) Wl bl Wr := by
  funext i
  obtain ⟨r, j, rfl⟩ : ∃ (r : Fin 100000) (j : Fin 64), i = ix2 r j := ⟨i 0, i 1, eq_ix2 i⟩
  show Cert.KernelIdeal.KReg4.entry x (aggK128 x src dst) Wl Wr (shapeCast Cert.KernelIdeal.S1x64 bl hc) r j = _
  rw [Cert.KernelIdeal.KReg4.entry_eq, lin128_64_apply, agg_eq128, shapeCast_a_1a_apply]
  exact add_right_comm _ _ _

/-- Region 5, first output: the kernel's normalisation by the four statistics and parameters given as rows is the
    reference's batch normalisation. -/
theorem reg5_bn (h : FVec Ideal S100000x64 .f32) (g be : FVec Ideal S64 .f32)
    (hc : Cert.KernelIdeal.S64.ShapeCasts Cert.KernelIdeal.S1x64) :
    Cert.KernelIdeal.KReg5.bnArr h (shapeCast Cert.KernelIdeal.S1x64 (mu64 h) hc) (shapeCast Cert.KernelIdeal.S1x64 (var64 h) hc)
        (shapeCast Cert.KernelIdeal.S1x64 g hc) (shapeCast Cert.KernelIdeal.S1x64 be hc)
      = bn64 h g be := by
  funext i
  obtain ⟨r, j, rfl⟩ : ∃ (r : Fin 100000) (j : Fin 64), i = ix2 r j := ⟨i 0, i 1, eq_ix2 i⟩
  rw [bn64_apply]
  show Cert.Spec.bnAt (h (ix2 r j)) (shapeCast Cert.KernelIdeal.S1x64 (mu64 h) hc (ix2 0 j))
    (shapeCast Cert.KernelIdeal.S1x64 (var64 h) hc (ix2 0 j)) (shapeCast Cert.KernelIdeal.S1x64 g hc (ix2 0 j))
    (shapeCast Cert.KernelIdeal.S1x64 be hc (ix2 0 j)) = _
  rw [shapeCast_a_1a_apply, shapeCast_a_1a_apply, shapeCast_a_1a_apply, shapeCast_a_1a_apply]

/-- Region 5, second output: the kernel's activation of that array is the reference's exponential linear unit of its
    batch normalisation. -/
theorem reg5_act (h : FVec Ideal S100000x64 .f32) (g be : FVec Ideal S64 .f32)
    (hc : Cert.KernelIdeal.S64.ShapeCasts Cert.KernelIdeal.S1x64) :
    Cert.KernelIdeal.KReg5.actArr h (shapeCast Cert.KernelIdeal.S1x64 (mu64 h) hc) (shapeCast Cert.KernelIdeal.S1x64 (var64 h) hc)
        (shapeCast Cert.KernelIdeal.S1x64 g hc) (shapeCast Cert.KernelIdeal.S1x64 be hc)
      = elu64 (bn64 h g be) := by
  funext i
  rw [elu64_apply]
  exact congrArg Cert.Spec.eluAt (congrFun (reg5_bn h g be hc) i)

/-- Region 6: the kernel's layer, fed the mean over the in-neighbours in the kernel's spelling and the bias as one
    row, is the reference's affine map fed the mean in the reference's spelling. The two programs add the bias at
    different places in the sum of three terms; addition on the extended reals is commutative and associative. -/
theorem reg6 (x : FVec Ideal S100000x64 .f32) (src dst : IVec S1600000 32) (Wl Wr : FVec Ideal S32x64 .f32)
    (bl : FVec Ideal S32 .f32) (hc : Cert.KernelIdeal.S32.ShapeCasts Cert.KernelIdeal.S1x32) :
    Cert.KernelIdeal.KReg6.layer x (aggK64 x src dst) Wl Wr (shapeCast Cert.KernelIdeal.S1x32 bl hc)
      = lin64_32 x (aggR64 x src dst) Wl bl Wr := by
  funext i
  obtain ⟨r, j, rfl⟩ : ∃ (r : Fin 100000) (j : Fin 32), i = ix2 r j := ⟨i 0, i 1, eq_ix2 i⟩
  show Cert.KernelIdeal.KReg6.entry x (aggK64 x src dst) Wl Wr (shapeCast Cert.KernelIdeal.S1x32 bl hc) r j = _
  rw [Cert.KernelIdeal.KReg6.entry_eq, lin64_32_apply, agg_eq64, shapeCast_a_1a_apply]
  exact add_right_comm _ _ _

/-- Region 7, first output: the kernel's normalisation by the four statistics and parameters given as rows is the
    reference's batch normalisation. -/
theorem reg7_bn (h : FVec Ideal S100000x32 .f32) (g be : FVec Ideal S32 .f32)
    (hc : Cert.KernelIdeal.S32.ShapeCasts Cert.KernelIdeal.S1x32) :
    Cert.KernelIdeal.KReg7.bnArr h (shapeCast Cert.KernelIdeal.S1x32 (mu32 h) hc) (shapeCast Cert.KernelIdeal.S1x32 (var32 h) hc)
        (shapeCast Cert.KernelIdeal.S1x32 g hc) (shapeCast Cert.KernelIdeal.S1x32 be hc)
      = bn32 h g be := by
  funext i
  obtain ⟨r, j, rfl⟩ : ∃ (r : Fin 100000) (j : Fin 32), i = ix2 r j := ⟨i 0, i 1, eq_ix2 i⟩
  rw [bn32_apply]
  show Cert.Spec.bnAt (h (ix2 r j)) (shapeCast Cert.KernelIdeal.S1x32 (mu32 h) hc (ix2 0 j))
    (shapeCast Cert.KernelIdeal.S1x32 (var32 h) hc (ix2 0 j)) (shapeCast Cert.KernelIdeal.S1x32 g hc (ix2 0 j))
    (shapeCast Cert.KernelIdeal.S1x32 be hc (ix2 0 j)) = _
  rw [shapeCast_a_1a_apply, shapeCast_a_1a_apply, shapeCast_a_1a_apply, shapeCast_a_1a_apply]

/-- Region 7, second output: the kernel's activation of that array is the reference's exponential linear unit of its
    batch normalisation. -/
theorem reg7_act (h : FVec Ideal S100000x32 .f32) (g be : FVec Ideal S32 .f32)
    (hc : Cert.KernelIdeal.S32.ShapeCasts Cert.KernelIdeal.S1x32) :
    Cert.KernelIdeal.KReg7.actArr h (shapeCast Cert.KernelIdeal.S1x32 (mu32 h) hc) (shapeCast Cert.KernelIdeal.S1x32 (var32 h) hc)
        (shapeCast Cert.KernelIdeal.S1x32 g hc) (shapeCast Cert.KernelIdeal.S1x32 be hc)
      = elu32 (bn32 h g be) := by
  funext i
  rw [elu32_apply]
  exact congrArg Cert.Spec.eluAt (congrFun (reg7_bn h g be hc) i)

/-- Region 8: the kernel's final layer, fed the bias as one row, is the reference's classifier. -/
theorem reg8 (x : FVec Ideal S100000x32 .f32) (Wc : FVec Ideal S2x32 .f32) (bc : FVec Ideal S2 .f32)
    (hc : Cert.KernelIdeal.S2.ShapeCasts Cert.KernelIdeal.S1x2) :
    Cert.KernelIdeal.KReg8.layer x Wc (shapeCast Cert.KernelIdeal.S1x2 bc hc) = dense x Wc bc := by
  funext i
  obtain ⟨r, j, rfl⟩ : ∃ (r : Fin 100000) (j : Fin 2), i = ix2 r j := ⟨i 0, i 1, eq_ix2 i⟩
  show Cert.KernelIdeal.KReg8.entry x Wc (shapeCast Cert.KernelIdeal.S1x2 bc hc) r j = _
  rw [Cert.KernelIdeal.KReg8.entry_eq, dense_apply, shapeCast_a_1a_apply]

end Cert.RegionMath

end
-- ==== Proof.KLayers.lean ====
/-
  The idealized kernel's layers, read off the fold of its buffer contents.

  Every region's output array is, by the region's closed form, a function of the arrays the region finds; those
  are either arguments, or values the preceding host stretch computed, or outputs of earlier regions carried
  unchanged across the boundaries in between.  Substituting them, each layer's output becomes the reference's own
  term of the layer's input: the affine map (with the mean over the in-neighbours in its reciprocal spelling
  turned into the quotient), the batch normalisation, the exponential linear unit, and at the end the classifier.
-/
import proofs.«150843_j12429635355189_1_alg».proof.Proof.KChain
import proofs.«150843_j12429635355189_1_alg».proof.Proof.RegionMath

set_option maxRecDepth 16384

noncomputable section

namespace Cert.KernelIdeal.KLayers

open Cert.KernelIdeal Cert.KernelIdeal.Gen
open Idealize.ShloMosaic Idealize.ShloMosaic.TcCoe Idealize.ShloMosaic.StableHlo Idealize.SL.Sem
open Cert.ReferenceIdeal.Terms Cert.KernelIdeal.KChain Cert.RegionMath

variable (m : (ℓ : Loc nD τ sig) → Buf (Elt Ideal) ℓ) (ρ : Dev nD → PrngReg)

/-- The affine map of this layer: the region's output array is the reference's term of the layer's input. -/
theorem conv1 (c : Dev nD) :
    (W2 m ρ c (Proc.devRef .tc main_v26) : FVec Ideal S100000x64 .f32)
      = lin128_64 (m ((c : Thread nD τ).loc main_arg0)) (aggR128 (m ((c : Thread nD τ).loc main_arg0)) (srcV (m ((c : Thread nD τ).loc main_arg1))) (dstV (m ((c : Thread nD τ).loc main_arg1)))) (m ((c : Thread nD τ).loc main_arg2)) (m ((c : Thread nD τ).loc main_arg3)) (m ((c : Thread nD τ).loc main_arg4)) := by
  refine (W2_arr m ρ c 5).trans ((Cert.KernelIdeal.KReg0.whole (V1 m ρ) c).trans ?_)
  show Cert.KernelIdeal.KReg0.layer (W1 m ρ c (Proc.devRef .tc main_arg0)) (W1 m ρ c (Proc.devRef .tc main_v24)) (W1 m ρ c (Proc.devRef .tc main_arg2)) (W1 m ρ c (Proc.devRef .tc main_arg4)) (W1 m ρ c (Proc.devRef .tc main_v25)) = _
  rw [W1_arg0, W1_v24, W1_arg2, W1_arg4, W1_v25]
  exact reg0 _ _ _ _ _ _ _

/-- The normalised array of this layer is the reference's term of the layer's affine output. -/
theorem bn_1 (c : Dev nD) :
    (W4 m ρ c (Proc.devRef .tc main_v41_0) : FVec Ideal S100000x64 .f32) = bn64 (W2 m ρ c (Proc.devRef .tc main_v26)) (m ((c : Thread nD τ).loc main_arg5)) (m ((c : Thread nD τ).loc main_arg6)) := by
  refine (W4_arr m ρ c 5).trans ((Cert.KernelIdeal.KReg1.arr_bn (V3 m ρ) c).trans ?_)
  show Cert.KernelIdeal.KReg1.bnArr (W3 m ρ c (Proc.devRef .tc main_v26)) (W3 m ρ c (Proc.devRef .tc main_v37)) (W3 m ρ c (Proc.devRef .tc main_v38)) (W3 m ρ c (Proc.devRef .tc main_v39)) (W3 m ρ c (Proc.devRef .tc main_v40)) = _
  rw [W3_v26, W3_v37, W3_v38, W3_v39, W3_v40]
  exact reg1_bn _ _ _ _

/-- The activated array of this layer likewise. -/
theorem act_1 (c : Dev nD) :
    (W4 m ρ c (Proc.devRef .tc main_v41_1) : FVec Ideal S100000x64 .f32) = elu64 (bn64 (W2 m ρ c (Proc.devRef .tc main_v26)) (m ((c : Thread nD τ).loc main_arg5)) (m ((c : Thread nD τ).loc main_arg6))) := by
  refine (W4_arr m ρ c 6).trans ((Cert.KernelIdeal.KReg1.arr_act (V3 m ρ) c).trans ?_)
  show Cert.KernelIdeal.KReg1.actArr (W3 m ρ c (Proc.devRef .tc main_v26)) (W3 m ρ c (Proc.devRef .tc main_v37)) (W3 m ρ c (Proc.devRef .tc main_v38)) (W3 m ρ c (Proc.devRef .tc main_v39)) (W3 m ρ c (Proc.devRef .tc main_v40)) = _
  rw [W3_v26, W3_v37, W3_v38, W3_v39, W3_v40]
  exact reg1_act _ _ _ _

/-- The affine map of this layer: the region's output array is the reference's term of the layer's input. -/
theorem conv2 (c : Dev nD) :
    (W6 m ρ c (Proc.devRef .tc main_v56) : FVec Ideal S100000x128 .f32)
      = lin64_128 (W4 m ρ c (Proc.devRef .tc main_v41_1)) (aggR64 (W4 m ρ c (Proc.devRef .tc main_v41_1)) (srcV (m ((c : Thread nD τ).loc main_arg1))) (dstV (m ((c : Thread nD τ).loc main_arg1)))) (m ((c : Thread nD τ).loc main_arg7)) (m ((c : Thread nD τ).loc main_arg8)) (m ((c : Thread nD τ).loc main_arg9)) := by
  refine (W6_arr m ρ c 5).trans ((Cert.KernelIdeal.KReg2.whole (V5 m ρ) c).trans ?_)
  show Cert.KernelIdeal.KReg2.layer (W5 m ρ c (Proc.devRef .tc main_v41_1)) (W5 m ρ c (Proc.devRef .tc main_v54)) (W5 m ρ c (Proc.devRef .tc main_arg7)) (W5 m ρ c (Proc.devRef .tc main_arg9)) (W5 m ρ c (Proc.devRef .tc main_v55)) = _
  rw [W5_v41_1, W5_v54, W5_arg7, W5_arg9, W5_v55]
  exact reg2 _ _ _ _ _ _ _

/-- The normalised array of this layer is the reference's term of the layer's affine output. -/
theorem bn_3 (c : Dev nD) :
    (W8 m ρ c (Proc.devRef .tc main_v71_0) : FVec Ideal S100000x128 .f32) = bn128 (W6 m ρ c (Proc.devRef .tc main_v56)) (m ((c : Thread nD τ).loc main_arg10)) (m ((c : Thread nD τ).loc main_arg11)) := by
  refine (W8_arr m ρ c 5).trans ((Cert.KernelIdeal.KReg3.arr_bn (V7 m ρ) c).trans ?_)
  show Cert.KernelIdeal.KReg3.bnArr (W7 m ρ c (Proc.devRef .tc main_v56)) (W7 m ρ c (Proc.devRef .tc main_v67)) (W7 m ρ c (Proc.devRef .tc main_v68)) (W7 m ρ c (Proc.devRef .tc main_v69)) (W7 m ρ c (Proc.devRef .tc main_v70)) = _
  rw [W7_v56, W7_v67, W7_v68, W7_v69, W7_v70]
  exact reg3_bn _ _ _ _

/-- The activated array of this layer likewise. -/
theorem act_3 (c : Dev nD) :
    (W8 m ρ c (Proc.devRef .tc main_v71_1) : FVec Ideal S100000x128 .f32) = elu128 (bn128 (W6 m ρ c (Proc.devRef .tc main_v56)) (m ((c : Thread nD τ).loc main_arg10)) (m ((c : Thread nD τ).loc main_arg11))) := by
  refine (W8_arr m ρ c 6).trans ((Cert.KernelIdeal.KReg3.arr_act (V7 m ρ) c).trans ?_)
  show Cert.KernelIdeal.KReg3.actArr (W7 m ρ c (Proc.devRef .tc main_v56)) (W7 m ρ c (Proc.devRef .tc main_v67)) (W7 m ρ c (Proc.devRef .tc main_v68)) (W7 m ρ c (Proc.devRef .tc main_v69)) (W7 m ρ c (Proc.devRef .tc main_v70)) = _
  rw [W7_v56, W7_v67, W7_v68, W7_v69, W7_v70]
  exact reg3_act _ _ _ _

/-- The affine map of this layer: the region's output array is the reference's term of the layer's input. -/
theorem conv3 (c : Dev nD) :
    (W10 m ρ c (Proc.devRef .tc main_v86) : FVec Ideal S100000x64 .f32)
      = lin128_64 (W8 m ρ c (Proc.devRef .tc main_v71_1)) (aggR128 (W8 m ρ c (Proc.devRef .tc main_v71_1)) (srcV (m ((c : Thread nD τ).loc main_arg1))) (dstV (m ((c : Thread nD τ).loc main_arg1)))) (m ((c : Thread nD τ).loc main_arg12)) (m ((c : Thread nD τ).loc main_arg13)) (m ((c : Thread nD τ).loc main_arg14)) := by
  refine (W10_arr m ρ c 5).trans ((Cert.KernelIdeal.KReg4.whole (V9 m ρ) c).trans ?_)
  show Cert.KernelIdeal.KReg4.layer (W9 m ρ c (Proc.devRef .tc main_v71_1)) (W9 m ρ c (Proc.devRef .tc main_v84)) (W9 m ρ c (Proc.devRef .tc main_arg12)) (W9 m ρ c (Proc.devRef .tc main_arg14)) (W9 m ρ c (Proc.devRef .tc main_v85)) = _
  rw [W9_v71_1, W9_v84, W9_arg12, W9_arg14, W9_v85]
  exact reg4 _ _ _ _ _ _ _

/-- The normalised array of this layer is the reference's term of the layer's affine output. -/
theorem bn_5 (c : Dev nD) :
    (W12 m ρ c (Proc.devRef .tc main_v101_0) : FVec Ideal S100000x64 .f32) = bn64 (W10 m ρ c (Proc.devRef .tc main_v86)) (m ((c : Thread nD τ).loc main_arg15)) (m ((c : Thread nD τ).loc main_arg16)) := by
  refine (W12_arr m ρ c 5).trans ((Cert.KernelIdeal.KReg5.arr_bn (V11 m ρ) c).trans ?_)
  show Cert.KernelIdeal.KReg5.bnArr (W11 m ρ c (Proc.devRef .tc main_v86)) (W11 m ρ c (Proc.devRef .tc main_v97)) (W11 m ρ c (Proc.devRef .tc main_v98)) (W11 m ρ c (Proc.devRef .tc main_v99)) (W11 m ρ c (Proc.devRef .tc main_v100)) = _
  rw [W11_v86, W11_v97, W11_v98, W11_v99, W11_v100]
  exact reg5_bn _ _ _ _

/-- The activated array of this layer likewise. -/
theorem act_5 (c : Dev nD) :
    (W12 m ρ c (Proc.devRef .tc main_v101_1) : FVec Ideal S100000x64 .f32) = elu64 (bn64 (W10 m ρ c (Proc.devRef .tc main_v86)) (m ((c : Thread nD τ).loc main_arg15)) (m ((c : Thread nD τ).loc main_arg16))) := by
  refine (W12_arr m ρ c 6).trans ((Cert.KernelIdeal.KReg5.arr_act (V11 m ρ) c).trans ?_)
  show Cert.KernelIdeal.KReg5.actArr (W11 m ρ c (Proc.devRef .tc main_v86)) (W11 m ρ c (Proc.devRef .tc main_v97)) (W11 m ρ c (Proc.devRef .tc main_v98)) (W11 m ρ c (Proc.devRef .tc main_v99)) (W11 m ρ c (Proc.devRef .tc main_v100)) = _
  rw [W11_v86, W11_v97, W11_v98, W11_v99, W11_v100]
  exact reg5_act _ _ _ _

/-- The affine map of this layer: the region's output array is the reference's term of the layer's input. -/
theorem conv4 (c : Dev nD) :
    (W14 m ρ c (Proc.devRef .tc main_v117) : FVec Ideal S100000x32 .f32)
      = lin64_32 (addf (W12 m ρ c (Proc.devRef .tc main_v101_1)) (W4 m ρ c (Proc.devRef .tc main_v41_1))) (aggR64 (addf (W12 m ρ c (Proc.devRef .tc main_v101_1)) (W4 m ρ c (Proc.devRef .tc main_v41_1))) (srcV (m ((c : Thread nD τ).loc main_arg1))) (dstV (m ((c : Thread nD τ).loc main_arg1)))) (m ((c : Thread nD τ).loc main_arg17)) (m ((c : Thread nD τ).loc main_arg18)) (m ((c : Thread nD τ).loc main_arg19)) := by
  refine (W14_arr m ρ c 5).trans ((Cert.KernelIdeal.KReg6.whole (V13 m ρ) c).trans ?_)
  show Cert.KernelIdeal.KReg6.layer (W13 m ρ c (Proc.devRef .tc main_v102)) (W13 m ρ c (Proc.devRef .tc main_v115)) (W13 m ρ c (Proc.devRef .tc main_arg17)) (W13 m ρ c (Proc.devRef .tc main_arg19)) (W13 m ρ c (Proc.devRef .tc main_v116)) = _
  rw [W13_v102, W13_v115, W13_arg17, W13_arg19, W13_v116]
  exact reg6 _ _ _ _ _ _ _

/-- The normalised array of this layer is the reference's term of the layer's affine output. -/
theorem bn_7 (c : Dev nD) :
    (W16 m ρ c (Proc.devRef .tc main_v132_0) : FVec Ideal S100000x32 .f32) = bn32 (W14 m ρ c (Proc.devRef .tc main_v117)) (m ((c : Thread nD τ).loc main_arg20)) (m ((c : Thread nD τ).loc main_arg21)) := by
  refine (W16_arr m ρ c 5).trans ((Cert.KernelIdeal.KReg7.arr_bn (V15 m ρ) c).trans ?_)
  show Cert.KernelIdeal.KReg7.bnArr (W15 m ρ c (Proc.devRef .tc main_v117)) (W15 m ρ c (Proc.devRef .tc main_v128)) (W15 m ρ c (Proc.devRef .tc main_v129)) (W15 m ρ c (Proc.devRef .tc main_v130)) (W15 m ρ c (Proc.devRef .tc main_v131)) = _
  rw [W15_v117, W15_v128, W15_v129, W15_v130, W15_v131]
  exact reg7_bn _ _ _ _

/-- The activated array of this layer likewise. -/
theorem act_7 (c : Dev nD) :
    (W16 m ρ c (Proc.devRef .tc main_v132_1) : FVec Ideal S100000x32 .f32) = elu32 (bn32 (W14 m ρ c (Proc.devRef .tc main_v117)) (m ((c : Thread nD τ).loc main_arg20)) (m ((c : Thread nD τ).loc main_arg21))) := by
  refine (W16_arr m ρ c 6).trans ((Cert.KernelIdeal.KReg7.arr_act (V15 m ρ) c).trans ?_)
  show Cert.KernelIdeal.KReg7.actArr (W15 m ρ c (Proc.devRef .tc main_v117)) (W15 m ρ c (Proc.devRef .tc main_v128)) (W15 m ρ c (Proc.devRef .tc main_v129)) (W15 m ρ c (Proc.devRef .tc main_v130)) (W15 m ρ c (Proc.devRef .tc main_v131)) = _
  rw [W15_v117, W15_v128, W15_v129, W15_v130, W15_v131]
  exact reg7_act _ _ _ _

/-- The classifier: the last region's output array is the reference's term of the last activation. -/
theorem logits (c : Dev nD) :
    (W18 m ρ c (Proc.devRef .tc main_v134) : FVec Ideal S100000x2 .f32) = dense (W16 m ρ c (Proc.devRef .tc main_v132_1)) (m ((c : Thread nD τ).loc main_arg22)) (m ((c : Thread nD τ).loc main_arg23)) := by
  refine (W18_arr m ρ c 3).trans ((Cert.KernelIdeal.KReg8.whole (V17 m ρ) c).trans ?_)
  show Cert.KernelIdeal.KReg8.layer (W17 m ρ c (Proc.devRef .tc main_v132_1)) (W17 m ρ c (Proc.devRef .tc main_arg22)) (W17 m ρ c (Proc.devRef .tc main_v133)) = _
  rw [W17_v132_1, W17_arg22, W17_v133]
  exact reg8 _ _ _ _

end Cert.KernelIdeal.KLayers

end
-- ==== Proof.RefRun.lean ====
/- The reference program's @main as ONE list of host operations — each outlined function's operations listed inline
   at its call site over that call's buffers, the nested calls likewise — and its run: every weakly fair execution
   terminates, each result buffer holds the operations' fold over the launch contents, and the arguments are unchanged. -/
import proofs.«150843_j12429635355189_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, in order. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    StableHlo.unary main_arg2 main_v23 ((transpose S128x64 [1, 0] · transposes_S64x128_S128x64_1_0) : (⟨S64x128, .f32⟩ : BufTy).Contents (Elt F) → (⟨S128x64, .f32⟩ : BufTy).Contents (Elt F)),
    StableHlo.binary main_v22 main_v23 main_v24 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg3 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v26 main_v27 (addf : (⟨S100000x64, .f32⟩ : BufTy).Contents (Elt F) → (⟨S100000x64, .f32⟩ : BufTy).Contents (Elt F) → (⟨S100000x64, .f32⟩ : BufTy).Contents (Elt F)),
    StableHlo.unary main_arg4 main_v28 ((transpose S128x64 [1, 0] · transposes_S64x128_S128x64_1_0) : (⟨S64x128, .f32⟩ : BufTy).Contents (Elt F) → (⟨S128x64, .f32⟩ : BufTy).Contents (Elt F)),
    StableHlo.binary main_arg0 main_v28 main_v29 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x00000000#32),
    StableHlo.binary main_v30 main_cst_4 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_5 (constant S_ .f32 0x47C35000#32),
    StableHlo.unary main_cst_5 main_v32 (broadcastInDim S64 ![] bcast_S_S64 : (⟨S_, .f32⟩ : BufTy).Contents (Elt F) → (⟨S64, .f32⟩ : BufTy).Contents (Elt F)),
    StableHlo.binary main_v31 main_v32 main_v33 (Host.divf : (⟨S64, .f32⟩ : BufTy).Contents (Elt F) → (⟨S64, .f32⟩ : BufTy).Contents (Elt F) → (⟨S64, .f32⟩ : BufTy).Contents (Elt F)),
    StableHlo.unary main_v33 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v35 main_v36 (subf : (⟨S100000x64, .f32⟩ : BufTy).Contents (Elt F) → (⟨S100000x64, .f32⟩ : BufTy).Contents (Elt F) → (⟨S100000x64, .f32⟩ : BufTy).Contents (Elt F)),
    StableHlo.binary main_v36 main_v36 main_v37 (mulf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x00000000#32),
    StableHlo.binary main_v37 main_cst_6 main_v38 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_7 (constant S_ .f32 0x47C35000#32),
    StableHlo.unary main_cst_7 main_v39 (broadcastInDim S64 ![] bcast_S_S64 : (⟨S_, .f32⟩ : BufTy).Contents (Elt F) → (⟨S64, .f32⟩ : BufTy).Contents (Elt F)),
    StableHlo.binary main_v38 main_v39 main_v40 (Host.divf : (⟨S64, .f32⟩ : BufTy).Contents (Elt F) → (⟨S64, .f32⟩ : BufTy).Contents (Elt F) → (⟨S64, .f32⟩ : BufTy).Contents (Elt F)),
    StableHlo.unary main_v33 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v42 main_v43 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v44 (broadcastInDim S64 ![] bcast_S_S64 : (⟨S_, .f32⟩ : BufTy).Contents (Elt F) → (⟨S64, .f32⟩ : BufTy).Contents (Elt F)),
    StableHlo.binary main_v40 main_v44 main_v45 (addf : (⟨S64, .f32⟩ : BufTy).Contents (Elt F) → (⟨S64, .f32⟩ : BufTy).Contents (Elt F) → (⟨S64, .f32⟩ : BufTy).Contents (Elt F)),
    StableHlo.unary main_v45 main_v46 (Host.rsqrt : (⟨S64, .f32⟩ : BufTy).Contents (Elt F) → (⟨S64, .f32⟩ : BufTy).Contents (Elt F)),
    StableHlo.unary main_v46 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S100000x64 ![0, 1] bcast_S1x64_S100000x64_0_1 : (⟨S1x64, .f32⟩ : BufTy).Contents (Elt F) → (⟨S100000x64, .f32⟩ : BufTy).Contents (Elt F)) ]

/-- The operations of @main's statements 61 … 120 (the first call of the ELU function inline: fifteen operations), in order. -/
abbrev ops1 : List (HloOp τ sig (Elt F)) :=
  [ StableHlo.binary main_v43 main_v48 main_v49 (mulf : (⟨S100000x64, .f32⟩ : BufTy).Contents (Elt F) → (⟨S100000x64, .f32⟩ : BufTy).Contents (Elt F) → (⟨S100000x64, .f32⟩ : BufTy).Contents (Elt F)),
    StableHlo.unary main_arg5 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (mulf : (⟨S100000x64, .f32⟩ : BufTy).Contents (Elt F) → (⟨S100000x64, .f32⟩ : BufTy).Contents (Elt F) → (⟨S100000x64, .f32⟩ : BufTy).Contents (Elt F)),
    StableHlo.unary main_arg6 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v54 main_v55 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (StableHlo.TRef.of main_v55 : StableHlo.TRef sig ⟨S100000x64, .f32⟩) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (StableHlo.TRef.of main_v55 : StableHlo.TRef sig ⟨S100000x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (StableHlo.TRef.of main_v55 : StableHlo.TRef sig ⟨S100000x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (StableHlo.TRef.of main_v55 : StableHlo.TRef sig ⟨S100000x64, .f32⟩) main_call0.v7 main_call0.call1.v0 select,
    StableHlo.nullary main_c_9 (constantI S_ 32 0#32),
    StableHlo.unary main_c_9 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v56 main_v62 main_v63 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_11 (constant S_ .f32 0x00000000#32),
    StableHlo.unary main_cst_11 main_v64 (broadcastInDim S100000x64 ![] bcast_S_S100000x64 : (⟨S_, .f32⟩ : BufTy).Contents (Elt F) → (⟨S100000x64, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_12 (constant S_ .f32 0x3F800000#32),
    StableHlo.unary main_cst_12 main_v67 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v68 (broadcastInDim S100000 ![] bcast_S_S100000 : (⟨S_, .f32⟩ : BufTy).Contents (Elt F) → (⟨S100000, .f32⟩ : BufTy).Contents (Elt F)),
    StableHlo.unary main_v3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v71 (broadcastInDim S100000 ![] bcast_S_S100000 : (⟨S_, .f32⟩ : BufTy).Contents (Elt F) → (⟨S100000, .f32⟩ : BufTy).Contents (Elt F)),
    StableHlo.binary main_v70 main_v71 main_v72 (maximumf : (⟨S100000, .f32⟩ : BufTy).Contents (Elt F) → (⟨S100000, .f32⟩ : BufTy).Contents (Elt F) → (⟨S100000, .f32⟩ : BufTy).Contents (Elt F)),
    StableHlo.unary main_v72 main_v73 (broadcastInDim S100000x1 ![0] bcast_S100000_S100000x1_0 : (⟨S100000, .f32⟩ : BufTy).Contents (Elt F) → (⟨S100000x1, .f32⟩ : BufTy).Contents (Elt F)),
    StableHlo.unary main_v73 main_v74 (broadcastInDim S100000x64 ![0, 1] bcast_S100000x1_S100000x64_0_1 : (⟨S100000x1, .f32⟩ : BufTy).Contents (Elt F) → (⟨S100000x64, .f32⟩ : BufTy).Contents (Elt F)),
    StableHlo.binary main_v66 main_v74 main_v75 (Host.divf : (⟨S100000x64, .f32⟩ : BufTy).Contents (Elt F) → (⟨S100000x64, .f32⟩ : BufTy).Contents (Elt F) → (⟨S100000x64, .f32⟩ : BufTy).Contents (Elt F)),
    StableHlo.unary main_arg7 main_v76 ((transpose S64x128 [1, 0] · transposes_S128x64_S64x128_1_0) : (⟨S128x64, .f32⟩ : BufTy).Contents (Elt F) → (⟨S64x128, .f32⟩ : BufTy).Contents (Elt F)),
    StableHlo.binary main_v75 main_v76 main_v77 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg8 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)),
    StableHlo.unary main_arg9 main_v81 ((transpose S64x128 [1, 0] · transposes_S128x64_S64x128_1_0) : (⟨S128x64, .f32⟩ : BufTy).Contents (Elt F) → (⟨S64x128, .f32⟩ : BufTy).Contents (Elt F)),
    StableHlo.binary main_v56 main_v81 main_v82 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v83 main_cst_15 main_v84 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v88 main_v89 (subf : (⟨S100000x128, .f32⟩ : BufTy).Contents (Elt F) → (⟨S100000x128, .f32⟩ : BufTy).Contents (Elt F) → (⟨S100000x128, .f32⟩ : BufTy).Contents (Elt F)),
    StableHlo.binary main_v89 main_v89 main_v90 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v90 main_cst_17 main_v91 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v92 (broadcastInDim S128 ![] bcast_S_S128 : (⟨S_, .f32⟩ : BufTy).Contents (Elt F) → (⟨S128, .f32⟩ : BufTy).Contents (Elt F)),
    StableHlo.binary main_v91 main_v92 main_v93 (Host.divf : (⟨S128, .f32⟩ : BufTy).Contents (Elt F) → (⟨S128, .f32⟩ : BufTy).Contents (Elt F) → (⟨S128, .f32⟩ : BufTy).Contents (Elt F)),
    StableHlo.unary main_v86 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v95 main_v96 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v97 (broadcastInDim S128 ![] bcast_S_S128 : (⟨S_, .f32⟩ : BufTy).Contents (Elt F) → (⟨S128, .f32⟩ : BufTy).Contents (Elt F)) ]

/-- The operations of @main's statements 121 … 180 (the second call inline), in order. -/
abbrev ops2 : List (HloOp τ sig (Elt F)) :=
  [ StableHlo.binary main_v93 main_v97 main_v98 (addf : (⟨S128, .f32⟩ : BufTy).Contents (Elt F) → (⟨S128, .f32⟩ : BufTy).Contents (Elt F) → (⟨S128, .f32⟩ : BufTy).Contents (Elt F)),
    StableHlo.unary main_v98 main_v99 (Host.rsqrt : (⟨S128, .f32⟩ : BufTy).Contents (Elt F) → (⟨S128, .f32⟩ : BufTy).Contents (Elt F)),
    StableHlo.unary main_v99 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v101 main_v102 (mulf : (⟨S100000x128, .f32⟩ : BufTy).Contents (Elt F) → (⟨S100000x128, .f32⟩ : BufTy).Contents (Elt F) → (⟨S100000x128, .f32⟩ : BufTy).Contents (Elt F)),
    StableHlo.unary main_arg10 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v104 main_v105 (mulf : (⟨S100000x128, .f32⟩ : BufTy).Contents (Elt F) → (⟨S100000x128, .f32⟩ : BufTy).Contents (Elt F) → (⟨S100000x128, .f32⟩ : BufTy).Contents (Elt F)),
    StableHlo.unary main_arg11 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v108 : StableHlo.TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (StableHlo.TRef.of main_v108 : StableHlo.TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (StableHlo.TRef.of main_v108 : StableHlo.TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (StableHlo.TRef.of main_v108 : StableHlo.TRef sig ⟨S100000x128, .f32⟩) main_call1.v7 main_call1.call1.v0 select,
    StableHlo.nullary main_c_20 (constantI S_ 32 0#32),
    StableHlo.unary main_c_20 main_v110 (broadcastInDim S1600000 ![] bcast_S_S1600000 : (⟨S_, .i32⟩ : BufTy).Contents (Elt F) → (⟨S1600000, .i32⟩ : BufTy).Contents (Elt F)),
    StableHlo.binary main_v1 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v112 (broadcastInDim S1600000 ![] bcast_S_S1600000 : (⟨S_, .i32⟩ : BufTy).Contents (Elt F) → (⟨S1600000, .i32⟩ : BufTy).Contents (Elt F)),
    StableHlo.binary main_v1 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_v1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v109 main_v115 main_v116 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_22 (constant S_ .f32 0x00000000#32),
    StableHlo.unary main_cst_22 main_v117 (broadcastInDim S100000x128 ![] bcast_S_S100000x128 : (⟨S_, .f32⟩ : BufTy).Contents (Elt F) → (⟨S100000x128, .f32⟩ : BufTy).Contents (Elt F)),
    StableHlo.unary main_v3 main_v118 (broadcastInDim S1600000x1 ![0] bcast_S1600000_S1600000x1_0 : (⟨S1600000, .i32⟩ : BufTy).Contents (Elt F) → (⟨S1600000x1, .i32⟩ : BufTy).Contents (Elt F)),
    StableHlo.ternary main_v117 main_v118 main_v116 main_v119 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_23 (constant S_ .f32 0x3F800000#32),
    StableHlo.unary main_cst_23 main_v120 (broadcastInDim S1600000 ![] bcast_S_S1600000 : (⟨S_, .f32⟩ : BufTy).Contents (Elt F) → (⟨S1600000, .f32⟩ : BufTy).Contents (Elt F)),
    StableHlo.nullary main_cst_24 (constant S_ .f32 0x00000000#32),
    StableHlo.unary main_cst_24 main_v121 (broadcastInDim S100000 ![] bcast_S_S100000 : (⟨S_, .f32⟩ : BufTy).Contents (Elt F) → (⟨S100000, .f32⟩ : BufTy).Contents (Elt F)),
    StableHlo.unary main_v3 main_v122 (broadcastInDim S1600000x1 ![0] bcast_S1600000_S1600000x1_0 : (⟨S1600000, .i32⟩ : BufTy).Contents (Elt F) → (⟨S1600000x1, .i32⟩ : BufTy).Contents (Elt F)),
    StableHlo.ternary main_v121 main_v122 main_v120 main_v123 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_25 (constant S_ .f32 0x3F800000#32),
    StableHlo.unary main_cst_25 main_v124 (broadcastInDim S100000 ![] bcast_S_S100000 : (⟨S_, .f32⟩ : BufTy).Contents (Elt F) → (⟨S100000, .f32⟩ : BufTy).Contents (Elt F)),
    StableHlo.binary main_v123 main_v124 main_v125 (maximumf : (⟨S100000, .f32⟩ : BufTy).Contents (Elt F) → (⟨S100000, .f32⟩ : BufTy).Contents (Elt F) → (⟨S100000, .f32⟩ : BufTy).Contents (Elt F)),
    StableHlo.unary main_v125 main_v126 (broadcastInDim S100000x1 ![0] bcast_S100000_S100000x1_0 : (⟨S100000, .f32⟩ : BufTy).Contents (Elt F) → (⟨S100000x1, .f32⟩ : BufTy).Contents (Elt F)),
    StableHlo.unary main_v126 main_v127 (broadcastInDim S100000x128 ![0, 1] bcast_S100000x1_S100000x128_0_1 : (⟨S100000x1, .f32⟩ : BufTy).Contents (Elt F) → (⟨S100000x128, .f32⟩ : BufTy).Contents (Elt F)),
    StableHlo.binary main_v119 main_v127 main_v128 (Host.divf : (⟨S100000x128, .f32⟩ : BufTy).Contents (Elt F) → (⟨S100000x128, .f32⟩ : BufTy).Contents (Elt F) → (⟨S100000x128, .f32⟩ : BufTy).Contents (Elt F)),
    StableHlo.unary main_arg12 main_v129 ((transpose S128x64 [1, 0] · transposes_S64x128_S128x64_1_0) : (⟨S64x128, .f32⟩ : BufTy).Contents (Elt F) → (⟨S128x64, .f32⟩ : BufTy).Contents (Elt F)),
    StableHlo.binary main_v128 main_v129 main_v130 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg13 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S100000x64 ![0, 1] bcast_S1x64_S100000x64_0_1 : (⟨S1x64, .f32⟩ : BufTy).Contents (Elt F) → (⟨S100000x64, .f32⟩ : BufTy).Contents (Elt F)),
    StableHlo.binary main_v130 main_v132 main_v133 (addf : (⟨S100000x64, .f32⟩ : BufTy).Contents (Elt F) → (⟨S100000x64, .f32⟩ : BufTy).Contents (Elt F) → (⟨S100000x64, .f32⟩ : BufTy).Contents (Elt F)),
    StableHlo.unary main_arg14 main_v134 ((transpose S128x64 [1, 0] · transposes_S64x128_S128x64_1_0) : (⟨S64x128, .f32⟩ : BufTy).Contents (Elt F) → (⟨S128x64, .f32⟩ : BufTy).Contents (Elt F)),
    StableHlo.binary main_v109 main_v134 main_v135 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v133 main_v135 main_v136 (addf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x00000000#32),
    StableHlo.binary main_v136 main_cst_26 main_v137 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_27 (constant S_ .f32 0x47C35000#32),
    StableHlo.unary main_cst_27 main_v138 (broadcastInDim S64 ![] bcast_S_S64 : (⟨S_, .f32⟩ : BufTy).Contents (Elt F) → (⟨S64, .f32⟩ : BufTy).Contents (Elt F)),
    StableHlo.binary main_v137 main_v138 main_v139 (Host.divf : (⟨S64, .f32⟩ : BufTy).Contents (Elt F) → (⟨S64, .f32⟩ : BufTy).Contents (Elt F) → (⟨S64, .f32⟩ : BufTy).Contents (Elt F)),
    StableHlo.unary main_v139 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S100000x64 ![0, 1] bcast_S1x64_S100000x64_0_1 : (⟨S1x64, .f32⟩ : BufTy).Contents (Elt F) → (⟨S100000x64, .f32⟩ : BufTy).Contents (Elt F)),
    StableHlo.binary main_v136 main_v141 main_v142 (subf : (⟨S100000x64, .f32⟩ : BufTy).Contents (Elt F) → (⟨S100000x64, .f32⟩ : BufTy).Contents (Elt F) → (⟨S100000x64, .f32⟩ : BufTy).Contents (Elt F)),
    StableHlo.binary main_v142 main_v142 main_v143 (mulf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x00000000#32),
    StableHlo.binary main_v143 main_cst_28 main_v144 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_29 (constant S_ .f32 0x47C35000#32),
    StableHlo.unary main_cst_29 main_v145 (broadcastInDim S64 ![] bcast_S_S64 : (⟨S_, .f32⟩ : BufTy).Contents (Elt F) → (⟨S64, .f32⟩ : BufTy).Contents (Elt F)),
    StableHlo.binary main_v144 main_v145 main_v146 (Host.divf : (⟨S64, .f32⟩ : BufTy).Contents (Elt F) → (⟨S64, .f32⟩ : BufTy).Contents (Elt F) → (⟨S64, .f32⟩ : BufTy).Contents (Elt F)),
    StableHlo.unary main_v139 main_v147 (broadcastInDim S1x64 ![1] bcast_S64_S1x64_1 : (⟨S64, .f32⟩ : BufTy).Contents (Elt F) → (⟨S1x64, .f32⟩ : BufTy).Contents (Elt F)) ]

/-- The operations of @main's statements 181 … 240 (the third call inline), in order. -/
abbrev ops3 : List (HloOp τ sig (Elt F)) :=
  [ StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v136 main_v148 main_v149 (subf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3727C5AC#32),
    StableHlo.unary main_cst_30 main_v150 (broadcastInDim S64 ![] bcast_S_S64 : (⟨S_, .f32⟩ : BufTy).Contents (Elt F) → (⟨S64, .f32⟩ : BufTy).Contents (Elt F)),
    StableHlo.binary main_v146 main_v150 main_v151 (addf : (⟨S64, .f32⟩ : BufTy).Contents (Elt F) → (⟨S64, .f32⟩ : BufTy).Contents (Elt F) → (⟨S64, .f32⟩ : BufTy).Contents (Elt F)),
    StableHlo.unary main_v151 main_v152 (Host.rsqrt : (⟨S64, .f32⟩ : BufTy).Contents (Elt F) → (⟨S64, .f32⟩ : BufTy).Contents (Elt F)),
    StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v154 main_v155 (mulf : (⟨S100000x64, .f32⟩ : BufTy).Contents (Elt F) → (⟨S100000x64, .f32⟩ : BufTy).Contents (Elt F) → (⟨S100000x64, .f32⟩ : BufTy).Contents (Elt F)),
    StableHlo.unary main_arg15 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S100000x64 ![0, 1] bcast_S1x64_S100000x64_0_1 : (⟨S1x64, .f32⟩ : BufTy).Contents (Elt F) → (⟨S100000x64, .f32⟩ : BufTy).Contents (Elt F)),
    StableHlo.binary main_v155 main_v157 main_v158 (mulf : (⟨S100000x64, .f32⟩ : BufTy).Contents (Elt F) → (⟨S100000x64, .f32⟩ : BufTy).Contents (Elt F) → (⟨S100000x64, .f32⟩ : BufTy).Contents (Elt F)),
    StableHlo.unary main_arg16 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
    StableHlo.binary main_v158 main_v160 main_v161 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (StableHlo.TRef.of main_v161 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (StableHlo.TRef.of main_v161 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (StableHlo.TRef.of main_v161 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (StableHlo.TRef.of main_v161 : StableHlo.TRef sig ⟨S100000x64, .f32⟩) main_call2.v7 main_call2.call1.v0 select,
    StableHlo.binary main_v162 main_v56 main_v163 (addf : (⟨S100000x64, .f32⟩ : BufTy).Contents (Elt F) → (⟨S100000x64, .f32⟩ : BufTy).Contents (Elt F) → (⟨S100000x64, .f32⟩ : BufTy).Contents (Elt F)),
    StableHlo.nullary main_c_31 (constantI S_ 32 0#32),
    StableHlo.unary main_c_31 main_v164 (broadcastInDim S1600000 ![] bcast_S_S1600000 : (⟨S_, .i32⟩ : BufTy).Contents (Elt F) → (⟨S1600000, .i32⟩ : BufTy).Contents (Elt F)),
    StableHlo.binary main_v1 main_v164 main_v165 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v166 (broadcastInDim S1600000 ![] bcast_S_S1600000 : (⟨S_, .i32⟩ : BufTy).Contents (Elt F) → (⟨S1600000, .i32⟩ : BufTy).Contents (Elt F)),
    StableHlo.binary main_v1 main_v166 main_v167 (addi : (⟨S1600000, .i32⟩ : BufTy).Contents (Elt F) → (⟨S1600000, .i32⟩ : BufTy).Contents (Elt F) → (⟨S1600000, .i32⟩ : BufTy).Contents (Elt F)),
    StableHlo.ternary main_v165 main_v167 main_v1 main_v168 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v168 main_v169 (broadcastInDim S1600000x1 ![0] bcast_S1600000_S1600000x1_0 : (⟨S1600000, .i32⟩ : BufTy).Contents (Elt F) → (⟨S1600000x1, .i32⟩ : BufTy).Contents (Elt F)),
    StableHlo.binary main_v163 main_v169 main_v170 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_33 (constant S_ .f32 0x00000000#32),
    StableHlo.unary main_cst_33 main_v171 (broadcastInDim S100000x64 ![] bcast_S_S100000x64 : (⟨S_, .f32⟩ : BufTy).Contents (Elt F) → (⟨S100000x64, .f32⟩ : BufTy).Contents (Elt F)),
    StableHlo.unary main_v3 main_v172 (broadcastInDim S1600000x1 ![0] bcast_S1600000_S1600000x1_0 : (⟨S1600000, .i32⟩ : BufTy).Contents (Elt F) → (⟨S1600000x1, .i32⟩ : BufTy).Contents (Elt F)),
    StableHlo.ternary main_v171 main_v172 main_v170 main_v173 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_34 (constant S_ .f32 0x3F800000#32),
    StableHlo.unary main_cst_34 main_v174 (broadcastInDim S1600000 ![] bcast_S_S1600000 : (⟨S_, .f32⟩ : BufTy).Contents (Elt F) → (⟨S1600000, .f32⟩ : BufTy).Contents (Elt F)),
    StableHlo.nullary main_cst_35 (constant S_ .f32 0x00000000#32),
    StableHlo.unary main_cst_35 main_v175 (broadcastInDim S100000 ![] bcast_S_S100000 : (⟨S_, .f32⟩ : BufTy).Contents (Elt F) → (⟨S100000, .f32⟩ : BufTy).Contents (Elt F)),
    StableHlo.unary main_v3 main_v176 (broadcastInDim S1600000x1 ![0] bcast_S1600000_S1600000x1_0 : (⟨S1600000, .i32⟩ : BufTy).Contents (Elt F) → (⟨S1600000x1, .i32⟩ : BufTy).Contents (Elt F)),
    StableHlo.ternary main_v175 main_v176 main_v174 main_v177 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_36 (constant S_ .f32 0x3F800000#32),
    StableHlo.unary main_cst_36 main_v178 (broadcastInDim S100000 ![] bcast_S_S100000 : (⟨S_, .f32⟩ : BufTy).Contents (Elt F) → (⟨S100000, .f32⟩ : BufTy).Contents (Elt F)),
    StableHlo.binary main_v177 main_v178 main_v179 (maximumf : (⟨S100000, .f32⟩ : BufTy).Contents (Elt F) → (⟨S100000, .f32⟩ : BufTy).Contents (Elt F) → (⟨S100000, .f32⟩ : BufTy).Contents (Elt F)),
    StableHlo.unary main_v179 main_v180 (broadcastInDim S100000x1 ![0] bcast_S100000_S100000x1_0 : (⟨S100000, .f32⟩ : BufTy).Contents (Elt F) → (⟨S100000x1, .f32⟩ : BufTy).Contents (Elt F)),
    StableHlo.unary main_v180 main_v181 (broadcastInDim S100000x64 ![0, 1] bcast_S100000x1_S100000x64_0_1 : (⟨S100000x1, .f32⟩ : BufTy).Contents (Elt F) → (⟨S100000x64, .f32⟩ : BufTy).Contents (Elt F)),
    StableHlo.binary main_v173 main_v181 main_v182 (Host.divf : (⟨S100000x64, .f32⟩ : BufTy).Contents (Elt F) → (⟨S100000x64, .f32⟩ : BufTy).Contents (Elt F) → (⟨S100000x64, .f32⟩ : BufTy).Contents (Elt F)),
    StableHlo.unary main_arg17 main_v183 ((transpose S64x32 [1, 0] · transposes_S32x64_S64x32_1_0) : (⟨S32x64, .f32⟩ : BufTy).Contents (Elt F) → (⟨S64x32, .f32⟩ : BufTy).Contents (Elt F)),
    StableHlo.binary main_v182 main_v183 main_v184 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v185 (broadcastInDim S1x32 ![1] bcast_S32_S1x32_1 : (⟨S32, .f32⟩ : BufTy).Contents (Elt F) → (⟨S1x32, .f32⟩ : BufTy).Contents (Elt F)),
    StableHlo.unary main_v185 main_v186 (broadcastInDim S100000x32 ![0, 1] bcast_S1x32_S100000x32_0_1 : (⟨S1x32, .f32⟩ : BufTy).Contents (Elt F) → (⟨S100000x32, .f32⟩ : BufTy).Contents (Elt F)),
    StableHlo.binary main_v184 main_v186 main_v187 (addf : (⟨S100000x32, .f32⟩ : BufTy).Contents (Elt F) → (⟨S100000x32, .f32⟩ : BufTy).Contents (Elt F) → (⟨S100000x32, .f32⟩ : BufTy).Contents (Elt F)),
    StableHlo.unary main_arg19 main_v188 ((transpose S64x32 [1, 0] · transposes_S32x64_S64x32_1_0) : (⟨S32x64, .f32⟩ : BufTy).Contents (Elt F) → (⟨S64x32, .f32⟩ : BufTy).Contents (Elt F)),
    StableHlo.binary main_v163 main_v188 main_v189 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v187 main_v189 main_v190 (addf : (⟨S100000x32, .f32⟩ : BufTy).Contents (Elt F) → (⟨S100000x32, .f32⟩ : BufTy).Contents (Elt F) → (⟨S100000x32, .f32⟩ : BufTy).Contents (Elt F)),
    StableHlo.nullary main_cst_37 (constant S_ .f32 0x00000000#32),
    StableHlo.binary main_v190 main_cst_37 main_v191 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_38 (constant S_ .f32 0x47C35000#32),
    StableHlo.unary main_cst_38 main_v192 (broadcastInDim S32 ![] bcast_S_S32 : (⟨S_, .f32⟩ : BufTy).Contents (Elt F) → (⟨S32, .f32⟩ : BufTy).Contents (Elt F)),
    StableHlo.binary main_v191 main_v192 main_v193 (Host.divf : (⟨S32, .f32⟩ : BufTy).Contents (Elt F) → (⟨S32, .f32⟩ : BufTy).Contents (Elt F) → (⟨S32, .f32⟩ : BufTy).Contents (Elt F)),
    StableHlo.unary main_v193 main_v194 (broadcastInDim S1x32 ![1] bcast_S32_S1x32_1 : (⟨S32, .f32⟩ : BufTy).Contents (Elt F) → (⟨S1x32, .f32⟩ : BufTy).Contents (Elt F)),
    StableHlo.unary main_v194 main_v195 (broadcastInDim S100000x32 ![0, 1] bcast_S1x32_S100000x32_0_1 : (⟨S1x32, .f32⟩ : BufTy).Contents (Elt F) → (⟨S100000x32, .f32⟩ : BufTy).Contents (Elt F)),
    StableHlo.binary main_v190 main_v195 main_v196 (subf : (⟨S100000x32, .f32⟩ : BufTy).Contents (Elt F) → (⟨S100000x32, .f32⟩ : BufTy).Contents (Elt F) → (⟨S100000x32, .f32⟩ : BufTy).Contents (Elt F)),
    StableHlo.binary main_v196 main_v196 main_v197 (mulf : (⟨S100000x32, .f32⟩ : BufTy).Contents (Elt F) → (⟨S100000x32, .f32⟩ : BufTy).Contents (Elt F) → (⟨S100000x32, .f32⟩ : BufTy).Contents (Elt F)),
    StableHlo.nullary main_cst_39 (constant S_ .f32 0x00000000#32) ]

/-- The operations of @main's statements 241 … 267 (the fourth call inline), in order. -/
abbrev ops4 : List (HloOp τ sig (Elt F)) :=
  [ StableHlo.binary main_v197 main_cst_39 main_v198 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_40 (constant S_ .f32 0x47C35000#32),
    StableHlo.unary main_cst_40 main_v199 (broadcastInDim S32 ![] bcast_S_S32 : (⟨S_, .f32⟩ : BufTy).Contents (Elt F) → (⟨S32, .f32⟩ : BufTy).Contents (Elt F)),
    StableHlo.binary main_v198 main_v199 main_v200 (Host.divf : (⟨S32, .f32⟩ : BufTy).Contents (Elt F) → (⟨S32, .f32⟩ : BufTy).Contents (Elt F) → (⟨S32, .f32⟩ : BufTy).Contents (Elt F)),
    StableHlo.unary main_v193 main_v201 (broadcastInDim S1x32 ![1] bcast_S32_S1x32_1 : (⟨S32, .f32⟩ : BufTy).Contents (Elt F) → (⟨S1x32, .f32⟩ : BufTy).Contents (Elt F)),
    StableHlo.unary main_v201 main_v202 (broadcastInDim S100000x32 ![0, 1] bcast_S1x32_S100000x32_0_1 : (⟨S1x32, .f32⟩ : BufTy).Contents (Elt F) → (⟨S100000x32, .f32⟩ : BufTy).Contents (Elt F)),
    StableHlo.binary main_v190 main_v202 main_v203 (subf : (⟨S100000x32, .f32⟩ : BufTy).Contents (Elt F) → (⟨S100000x32, .f32⟩ : BufTy).Contents (Elt F) → (⟨S100000x32, .f32⟩ : BufTy).Contents (Elt F)),
    StableHlo.nullary main_cst_41 (constant S_ .f32 0x3727C5AC#32),
    StableHlo.unary main_cst_41 main_v204 (broadcastInDim S32 ![] bcast_S_S32 : (⟨S_, .f32⟩ : BufTy).Contents (Elt F) → (⟨S32, .f32⟩ : BufTy).Contents (Elt F)),
    StableHlo.binary main_v200 main_v204 main_v205 (addf : (⟨S32, .f32⟩ : BufTy).Contents (Elt F) → (⟨S32, .f32⟩ : BufTy).Contents (Elt F) → (⟨S32, .f32⟩ : BufTy).Contents (Elt F)),
    StableHlo.unary main_v205 main_v206 (Host.rsqrt : (⟨S32, .f32⟩ : BufTy).Contents (Elt F) → (⟨S32, .f32⟩ : BufTy).Contents (Elt F)),
    StableHlo.unary main_v206 main_v207 (broadcastInDim S1x32 ![1] bcast_S32_S1x32_1 : (⟨S32, .f32⟩ : BufTy).Contents (Elt F) → (⟨S1x32, .f32⟩ : BufTy).Contents (Elt F)),
    StableHlo.unary main_v207 main_v208 (broadcastInDim S100000x32 ![0, 1] bcast_S1x32_S100000x32_0_1 : (⟨S1x32, .f32⟩ : BufTy).Contents (Elt F) → (⟨S100000x32, .f32⟩ : BufTy).Contents (Elt F)),
    StableHlo.binary main_v203 main_v208 main_v209 (mulf : (⟨S100000x32, .f32⟩ : BufTy).Contents (Elt F) → (⟨S100000x32, .f32⟩ : BufTy).Contents (Elt F) → (⟨S100000x32, .f32⟩ : BufTy).Contents (Elt F)),
    StableHlo.unary main_arg20 main_v210 (broadcastInDim S1x32 ![1] bcast_S32_S1x32_1 : (⟨S32, .f32⟩ : BufTy).Contents (Elt F) → (⟨S1x32, .f32⟩ : BufTy).Contents (Elt F)),
    StableHlo.unary main_v210 main_v211 (broadcastInDim S100000x32 ![0, 1] bcast_S1x32_S100000x32_0_1 : (⟨S1x32, .f32⟩ : BufTy).Contents (Elt F) → (⟨S100000x32, .f32⟩ : BufTy).Contents (Elt F)),
    StableHlo.binary main_v209 main_v211 main_v212 (mulf : (⟨S100000x32, .f32⟩ : BufTy).Contents (Elt F) → (⟨S100000x32, .f32⟩ : BufTy).Contents (Elt F) → (⟨S100000x32, .f32⟩ : BufTy).Contents (Elt F)),
    StableHlo.unary main_arg21 main_v213 (broadcastInDim S1x32 ![1] bcast_S32_S1x32_1 : (⟨S32, .f32⟩ : BufTy).Contents (Elt F) → (⟨S1x32, .f32⟩ : BufTy).Contents (Elt F)),
    StableHlo.unary main_v213 main_v214 (broadcastInDim S100000x32 ![0, 1] bcast_S1x32_S100000x32_0_1 : (⟨S1x32, .f32⟩ : BufTy).Contents (Elt F) → (⟨S100000x32, .f32⟩ : BufTy).Contents (Elt F)),
    StableHlo.binary main_v212 main_v214 main_v215 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (StableHlo.TRef.of main_v215 : StableHlo.TRef sig ⟨S100000x32, .f32⟩) main_call3.v0 main_call3.v1 (cmpf .ogt),
    StableHlo.TRef.nullary main_call3.cst_0 (constant S_ .f32 0x00000000#32),
    StableHlo.TRef.unary main_call3.cst_0 main_call3.v2 (broadcastInDim S100000x32 ![] bcast_S_S100000x32),
    StableHlo.TRef.binary (StableHlo.TRef.of main_v215 : StableHlo.TRef sig ⟨S100000x32, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x32 ![] bcast_S_S100000x32),
    StableHlo.TRef.ternary main_call3.v3 main_call3.call0.v1 (StableHlo.TRef.of main_v215 : StableHlo.TRef sig ⟨S100000x32, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x32 ![] bcast_S_S100000x32),
    StableHlo.TRef.binary main_call3.v6 main_call3.v5 main_call3.v7 mulf,
    StableHlo.TRef.ternary main_call3.v1 (StableHlo.TRef.of main_v215 : StableHlo.TRef sig ⟨S100000x32, .f32⟩) main_call3.v7 main_call3.call1.v0 select,
    StableHlo.unary main_arg22 main_v217 ((transpose S32x2 [1, 0] · transposes_S2x32_S32x2_1_0) : (⟨S2x32, .f32⟩ : BufTy).Contents (Elt F) → (⟨S32x2, .f32⟩ : BufTy).Contents (Elt F)),
    StableHlo.binary main_v216 main_v217 main_v218 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    StableHlo.unary main_arg23 main_v219 (broadcastInDim S1x2 ![1] bcast_S2_S1x2_1 : (⟨S2, .f32⟩ : BufTy).Contents (Elt F) → (⟨S1x2, .f32⟩ : BufTy).Contents (Elt F)),
    StableHlo.unary main_v219 main_v220 (broadcastInDim S100000x2 ![0, 1] bcast_S1x2_S100000x2_0_1 : (⟨S1x2, .f32⟩ : BufTy).Contents (Elt F) → (⟨S100000x2, .f32⟩ : BufTy).Contents (Elt F)),
    StableHlo.binary main_v218 main_v220 main_v221 (addf : (⟨S100000x2, .f32⟩ : BufTy).Contents (Elt F) → (⟨S100000x2, .f32⟩ : BufTy).Contents (Elt F) → (⟨S100000x2, .f32⟩ : BufTy).Contents (Elt F)) ]

/-- @main's 322 operations, in order: the five windows one after the other. -/
abbrev ops : List (HloOp τ sig (Elt F)) := ops0 ++ (ops1 ++ (ops2 ++ (ops3 ++ ops4)))

set_option maxRecDepth 8192 in
/-- Window 0 is the straight line of its operations: the outlined functions' definitions unfold at their calls and the
    records at their fields. -/
theorem main_part0_eq (c : Dev nD) : main_part0 (F := F) c = seq ops0 := rfl

set_option maxRecDepth 8192 in
/-- Window 1 is the straight line of its operations: the outlined functions' definitions unfold at their calls and the
    records at their fields. -/
theorem main_part1_eq (c : Dev nD) : main_part1 (F := F) c = seq ops1 := rfl

set_option maxRecDepth 8192 in
/-- Window 2 is the straight line of its operations: the outlined functions' definitions unfold at their calls and the
    records at their fields. -/
theorem main_part2_eq (c : Dev nD) : main_part2 (F := F) c = seq ops2 := rfl

set_option maxRecDepth 8192 in
/-- Window 3 is the straight line of its operations: the outlined functions' definitions unfold at their calls and the
    records at their fields. -/
theorem main_part3_eq (c : Dev nD) : main_part3 (F := F) c = seq ops3 := rfl

set_option maxRecDepth 8192 in
/-- Window 4 is the straight line of its operations: the outlined functions' definitions unfold at their calls and the
    records at their fields. -/
theorem main_part4_eq (c : Dev nD) : main_part4 (F := F) c = seq ops4 := rfl

set_option maxRecDepth 8192 in
/-- @main is the straight line of all the operations: the windows run in order are their concatenation run as one. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..⟩

set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., unary_bufs_sub ..⟩

set_option maxRecDepth 8192 in
theorem ops2_sub : (ops2 : List (HloOp τ sig (Elt F))).Forall fun op => op.bufs ⊆ tcRefs τ sig :=
  ⟨binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub ..⟩

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub ..⟩

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over all the operations, window by window. -/
theorem after_ops (V : Valuation τ sig (Elt F)) :
    after ops V = after ops4 (after ops3 (after ops2 (after ops1 (after ops0 V)))) := by
  simp only [ops, after_app]

/-- The buffers that window 0's operations write. -/
abbrev ops0_W : List (Ref sig .tc) :=
  [ main_v0, main_v1, main_v2, main_v3, main_c, main_v4, main_v5, main_c_0, main_v6, main_v7,
    main_v8, main_v9, main_v10, main_cst, main_v11, main_v12, main_v13, main_cst_1, main_v14, main_cst_2,
    main_v15, main_v16, main_v17, main_cst_3, main_v18, main_v19, main_v20, main_v21, main_v22, main_v23,
    main_v24, main_v25, main_v26, main_v27, main_v28, main_v29, main_v30, main_cst_4, main_v31, main_cst_5,
    main_v32, main_v33, main_v34, main_v35, main_v36, main_v37, main_cst_6, main_v38, main_cst_7, main_v39,
    main_v40, main_v41, main_v42, main_v43, main_cst_8, main_v44, main_v45, main_v46, main_v47, main_v48 ]
set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window 1's operations write. -/
abbrev ops1_W : List (Ref sig .tc) :=
  [ main_v49, main_v50, main_v51, main_v52, main_v53, main_v54, main_v55, main_call0_cst, main_call0_v0, main_call0_v1,
    main_call0_cst_0, main_call0_v2, main_call0_v3, main_call0_cst_1, main_call0_call0_v0, main_call0_call0_v1, main_call0_v4, main_call0_v5, main_call0_cst_2, main_call0_v6,
    main_call0_v7, main_v56, main_c_9, main_v57, main_v58, main_c_10, main_v59, main_v60, main_v61, main_v62,
    main_v63, main_cst_11, main_v64, main_v65, main_v66, main_cst_12, main_v67, main_cst_13, main_v68, main_v69,
    main_v70, main_cst_14, main_v71, main_v72, main_v73, main_v74, main_v75, main_v76, main_v77, main_v78,
    main_v79, main_v80, main_v81, main_v82, main_v83, main_cst_15, main_v84, main_cst_16, main_v85, main_v86,
    main_v87, main_v88, main_v89, main_v90, main_cst_17, main_v91, main_cst_18, main_v92, main_v93, main_v94,
    main_v95, main_v96, main_cst_19, main_v97 ]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window 2's operations write. -/
abbrev ops2_W : List (Ref sig .tc) :=
  [ main_v98, main_v99, main_v100, main_v101, main_v102, main_v103, main_v104, main_v105, main_v106, main_v107,
    main_v108, main_call1_cst, main_call1_v0, main_call1_v1, main_call1_cst_0, main_call1_v2, main_call1_v3, main_call1_cst_1, main_call1_call0_v0, main_call1_call0_v1,
    main_call1_v4, main_call1_v5, main_call1_cst_2, main_call1_v6, main_call1_v7, main_v109, main_c_20, main_v110, main_v111, main_c_21,
    main_v112, main_v113, main_v114, main_v115, main_v116, main_cst_22, main_v117, main_v118, main_v119, main_cst_23,
    main_v120, main_cst_24, main_v121, main_v122, main_v123, main_cst_25, main_v124, main_v125, main_v126, main_v127,
    main_v128, main_v129, main_v130, main_v131, main_v132, main_v133, main_v134, main_v135, main_v136, main_cst_26,
    main_v137, main_cst_27, main_v138, main_v139, main_v140, main_v141, main_v142, main_v143, main_cst_28, main_v144,
    main_cst_29, main_v145, main_v146, main_v147 ]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window 3's operations write. -/
abbrev ops3_W : List (Ref sig .tc) :=
  [ main_v148, main_v149, main_cst_30, main_v150, main_v151, main_v152, main_v153, main_v154, main_v155, main_v156,
    main_v157, main_v158, main_v159, main_v160, main_v161, main_call2_cst, main_call2_v0, main_call2_v1, main_call2_cst_0, main_call2_v2,
    main_call2_v3, main_call2_cst_1, main_call2_call0_v0, main_call2_call0_v1, main_call2_v4, main_call2_v5, main_call2_cst_2, main_call2_v6, main_call2_v7, main_v162,
    main_v163, main_c_31, main_v164, main_v165, main_c_32, main_v166, main_v167, main_v168, main_v169, main_v170,
    main_cst_33, main_v171, main_v172, main_v173, main_cst_34, main_v174, main_cst_35, main_v175, main_v176, main_v177,
    main_cst_36, main_v178, main_v179, main_v180, main_v181, main_v182, main_v183, main_v184, main_v185, main_v186,
    main_v187, main_v188, main_v189, main_v190, main_cst_37, main_v191, main_cst_38, main_v192, main_v193, main_v194,
    main_v195, main_v196, main_v197, main_cst_39 ]
set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window 4's operations write. -/
abbrev ops4_W : List (Ref sig .tc) :=
  [ main_v198, main_cst_40, main_v199, main_v200, main_v201, main_v202, main_v203, main_cst_41, main_v204, main_v205,
    main_v206, main_v207, main_v208, main_v209, main_v210, main_v211, main_v212, main_v213, main_v214, main_v215,
    main_call3_cst, main_call3_v0, main_call3_v1, main_call3_cst_0, main_call3_v2, main_call3_v3, main_call3_cst_1, main_call3_call0_v0, main_call3_call0_v1, main_call3_v4,
    main_call3_v5, main_call3_cst_2, main_call3_v6, main_call3_v7, main_v216, main_v217, main_v218, main_v219, main_v220, main_v221 ]
set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that no window writes keeps its contents through all the operations. -/
theorem after_keep (V : Valuation τ sig (Elt F)) (r : Ref sig .tc) (h0 : r ∉ ops0_W) (h1 : r ∉ ops1_W) (h2 : r ∉ ops2_W) (h3 : r ∉ ops3_W)
    (h4 : r ∉ ops4_W) : after ops V (Proc.devRef .tc r) = V (Proc.devRef .tc r) := by
  rw [after_ops, after_of_writes_sub ops4 _ ops4_writes h4, after_of_writes_sub ops3 _ ops3_writes h3,
    after_of_writes_sub ops2 _ ops2_writes h2, after_of_writes_sub ops1 _ ops1_writes h1, after_of_writes_sub ops0 _ ops0_writes h0]

/-- On every device, for any float values, from any memory with zero counters: every weakly fair execution of @main
    terminates with each of the three results at the operations' fold over the launch contents and the twenty-four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v221) = after ops (launchContents m c) (Proc.devRef .tc main_v221)
        ∧ r.2.mem ((c.tc : Thread nD τ).loc main_v190) = after ops (launchContents m c) (Proc.devRef .tc main_v190)
        ∧ r.2.mem ((c.tc : Thread nD τ).loc main_v215) = after ops (launchContents m c) (Proc.devRef .tc main_v215))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)) :=
  (θ_run defs _ _).mono (fun _ h c => ⟨⟨h c main_v221, h c main_v190, h c main_v215⟩,
      (h c main_arg0).trans (after_keep _ main_arg0 (by decide) (by decide) (by decide) (by decide) (by decide)),
      (h c main_arg1).trans (after_keep _ main_arg1 (by decide) (by decide) (by decide) (by decide) (by decide)),
      (h c main_arg2).trans (after_keep _ main_arg2 (by decide) (by decide) (by decide) (by decide) (by decide)),
      (h c main_arg3).trans (after_keep _ main_arg3 (by decide) (by decide) (by decide) (by decide) (by decide)),
      (h c main_arg4).trans (after_keep _ main_arg4 (by decide) (by decide) (by decide) (by decide) (by decide)),
      (h c main_arg5).trans (after_keep _ main_arg5 (by decide) (by decide) (by decide) (by decide) (by decide)),
      (h c main_arg6).trans (after_keep _ main_arg6 (by decide) (by decide) (by decide) (by decide) (by decide)),
      (h c main_arg7).trans (after_keep _ main_arg7 (by decide) (by decide) (by decide) (by decide) (by decide)),
      (h c main_arg8).trans (after_keep _ main_arg8 (by decide) (by decide) (by decide) (by decide) (by decide)),
      (h c main_arg9).trans (after_keep _ main_arg9 (by decide) (by decide) (by decide) (by decide) (by decide)),
      (h c main_arg10).trans (after_keep _ main_arg10 (by decide) (by decide) (by decide) (by decide) (by decide)),
      (h c main_arg11).trans (after_keep _ main_arg11 (by decide) (by decide) (by decide) (by decide) (by decide)),
      (h c main_arg12).trans (after_keep _ main_arg12 (by decide) (by decide) (by decide) (by decide) (by decide)),
      (h c main_arg13).trans (after_keep _ main_arg13 (by decide) (by decide) (by decide) (by decide) (by decide)),
      (h c main_arg14).trans (after_keep _ main_arg14 (by decide) (by decide) (by decide) (by decide) (by decide)),
      (h c main_arg15).trans (after_keep _ main_arg15 (by decide) (by decide) (by decide) (by decide) (by decide)),
      (h c main_arg16).trans (after_keep _ main_arg16 (by decide) (by decide) (by decide) (by decide) (by decide)),
      (h c main_arg17).trans (after_keep _ main_arg17 (by decide) (by decide) (by decide) (by decide) (by decide)),
      (h c main_arg18).trans (after_keep _ main_arg18 (by decide) (by decide) (by decide) (by decide) (by decide)),
      (h c main_arg19).trans (after_keep _ main_arg19 (by decide) (by decide) (by decide) (by decide) (by decide)),
      (h c main_arg20).trans (after_keep _ main_arg20 (by decide) (by decide) (by decide) (by decide) (by decide)),
      (h c main_arg21).trans (after_keep _ main_arg21 (by decide) (by decide) (by decide) (by decide) (by decide)),
      (h c main_arg22).trans (after_keep _ main_arg22 (by decide) (by decide) (by decide) (by decide) (by decide)),
      (h c main_arg23).trans (after_keep _ main_arg23 (by decide) (by decide) (by decide) (by decide) (by decide))⟩)
    (run_seq scopedRefs_eq scopedSems_eq defs main (fun _ => ops) main_eq (fun _ => ops_sub) m ρ)

end Cert.ReferenceIdeal.RefRun

end
-- ==== Proof.RefVals.lean ====
/-
  The reference's values, window by window.

  The reference network is four layers — neighbourhood mean, affine map, batch normalisation, exponential linear
  unit —, the last layer fed by the sum of the third and first layers' outputs, and a dense classifier.  Its run is
  one fold of host operations over the launch contents, cut into five windows in the middle of layers.  Here the
  buffers that are live across each cut, and the three results at the end, are identified with the layer pieces
  named in the vocabulary of layer terms: nothing is evaluated, every step unfolds one window of operations over
  the previous cut's values.
-/
import proofs.«150843_j12429635355189_1_alg».proof.Proof.Gen.ReferenceIdeal
import proofs.«150843_j12429635355189_1_alg».proof.Proof.RefTerms
import proofs.«150843_j12429635355189_1_alg».proof.Proof.RefRun
import Idealize.ShloMosaic.Lib.StableHlo.Run

noncomputable section

namespace Cert.ReferenceIdeal.RefVals

open Cert.ReferenceIdeal Cert.ReferenceIdeal.Gen Cert.ReferenceIdeal.RefRun Cert.ReferenceIdeal.Terms
open Idealize.ShloMosaic Idealize.ShloMosaic.TcCoe Idealize.SL.Sem Idealize.ShloMosaic.StableHlo

variable [Cert.ReferenceIdeal.Facts]
open Cert.ReferenceIdeal.Facts₀ Cert.ReferenceIdeal.Facts

variable (W : Valuation τ sig (Elt Ideal))

/-! ## The fold at the four cuts and at the end -/

/-- The buffer contents after the first window. -/
def R1 : Valuation τ sig (Elt Ideal) := after (ops0 (F := Ideal)) W
/-- After the second window. -/
def R2 : Valuation τ sig (Elt Ideal) := after (ops1 (F := Ideal)) (R1 W)
/-- After the third window. -/
def R3 : Valuation τ sig (Elt Ideal) := after (ops2 (F := Ideal)) (R2 W)
/-- After the fourth window. -/
def R4 : Valuation τ sig (Elt Ideal) := after (ops3 (F := Ideal)) (R3 W)
/-- After the last window. -/
def R5 : Valuation τ sig (Elt Ideal) := after (ops4 (F := Ideal)) (R4 W)

/-- The fold over all the operations is the fold window by window. -/
theorem after_ops : after (ops (F := Ideal)) W = R5 W := RefRun.after_ops W

/-- A buffer the first window does not write keeps its launch contents. -/
theorem keep1 (r : Ref sig .tc) (h0 : r ∉ ops0_W) : R1 W (Proc.devRef .tc r) = W (Proc.devRef .tc r) :=
  after_of_writes_sub ops0 _ ops0_writes h0
/-- A buffer the first two windows do not write keeps its launch contents. -/
theorem keep2 (r : Ref sig .tc) (h0 : r ∉ ops0_W) (h1 : r ∉ ops1_W) : R2 W (Proc.devRef .tc r) = W (Proc.devRef .tc r) :=
  (after_of_writes_sub ops1 _ ops1_writes h1).trans (keep1 W r h0)
/-- Likewise for the first three. -/
theorem keep3 (r : Ref sig .tc) (h0 : r ∉ ops0_W) (h1 : r ∉ ops1_W) (h2 : r ∉ ops2_W) :
    R3 W (Proc.devRef .tc r) = W (Proc.devRef .tc r) :=
  (after_of_writes_sub ops2 _ ops2_writes h2).trans (keep2 W r h0 h1)
/-- Likewise for the first four. -/
theorem keep4 (r : Ref sig .tc) (h0 : r ∉ ops0_W) (h1 : r ∉ ops1_W) (h2 : r ∉ ops2_W) (h3 : r ∉ ops3_W) :
    R4 W (Proc.devRef .tc r) = W (Proc.devRef .tc r) :=
  (after_of_writes_sub ops3 _ ops3_writes h3).trans (keep3 W r h0 h1 h2)

/-! ## The arguments and the layers -/

/-- The node features. -/
abbrev aX : FVec Ideal S100000x128 .f32 := W (Proc.devRef .tc main_arg0)
/-- The edge list. -/
abbrev aE : IVec S2x1600000 32 := W (Proc.devRef .tc main_arg1)
abbrev W1l : FVec Ideal S64x128 .f32 := W (Proc.devRef .tc main_arg2)
abbrev b1l : FVec Ideal S64 .f32 := W (Proc.devRef .tc main_arg3)
abbrev W1r : FVec Ideal S64x128 .f32 := W (Proc.devRef .tc main_arg4)
abbrev g1 : FVec Ideal S64 .f32 := W (Proc.devRef .tc main_arg5)
abbrev be1 : FVec Ideal S64 .f32 := W (Proc.devRef .tc main_arg6)
abbrev W2l : FVec Ideal S128x64 .f32 := W (Proc.devRef .tc main_arg7)
abbrev b2l : FVec Ideal S128 .f32 := W (Proc.devRef .tc main_arg8)
abbrev W2r : FVec Ideal S128x64 .f32 := W (Proc.devRef .tc main_arg9)
abbrev g2 : FVec Ideal S128 .f32 := W (Proc.devRef .tc main_arg10)
abbrev be2 : FVec Ideal S128 .f32 := W (Proc.devRef .tc main_arg11)
abbrev W3l : FVec Ideal S64x128 .f32 := W (Proc.devRef .tc main_arg12)
abbrev b3l : FVec Ideal S64 .f32 := W (Proc.devRef .tc main_arg13)
abbrev W3r : FVec Ideal S64x128 .f32 := W (Proc.devRef .tc main_arg14)
abbrev g3 : FVec Ideal S64 .f32 := W (Proc.devRef .tc main_arg15)
abbrev be3 : FVec Ideal S64 .f32 := W (Proc.devRef .tc main_arg16)
abbrev W4l : FVec Ideal S32x64 .f32 := W (Proc.devRef .tc main_arg17)
abbrev b4l : FVec Ideal S32 .f32 := W (Proc.devRef .tc main_arg18)
abbrev W4r : FVec Ideal S32x64 .f32 := W (Proc.devRef .tc main_arg19)
abbrev g4 : FVec Ideal S32 .f32 := W (Proc.devRef .tc main_arg20)
abbrev be4 : FVec Ideal S32 .f32 := W (Proc.devRef .tc main_arg21)
abbrev Wc : FVec Ideal S2x32 .f32 := W (Proc.devRef .tc main_arg22)
abbrev bc : FVec Ideal S2 .f32 := W (Proc.devRef .tc main_arg23)

/-- The edge sources. -/
def src : IVec S1600000 32 := srcV (aE W)
/-- The edge targets. -/
def dst : IVec S1600000 32 := dstV (aE W)

/-- The first layer before normalisation. -/
def C1 : FVec Ideal S100000x64 .f32 := lin128_64 (aX W) (aggR128 (aX W) (src W) (dst W)) (W1l W) (b1l W) (W1r W)
/-- The first layer's output. -/
def H1 : FVec Ideal S100000x64 .f32 := elu64 (bn64 (C1 W) (g1 W) (be1 W))
/-- The second layer before normalisation. -/
def C2 : FVec Ideal S100000x128 .f32 := lin64_128 (H1 W) (aggR64 (H1 W) (src W) (dst W)) (W2l W) (b2l W) (W2r W)
/-- The second layer's output. -/
def H2 : FVec Ideal S100000x128 .f32 := elu128 (bn128 (C2 W) (g2 W) (be2 W))
/-- The third layer before normalisation. -/
def C3 : FVec Ideal S100000x64 .f32 := lin128_64 (H2 W) (aggR128 (H2 W) (src W) (dst W)) (W3l W) (b3l W) (W3r W)
/-- The third layer's output. -/
def H3 : FVec Ideal S100000x64 .f32 := elu64 (bn64 (C3 W) (g3 W) (be3 W))
/-- The fourth layer's input: the third layer's output plus the first's. -/
def HS : FVec Ideal S100000x64 .f32 := addf (H3 W) (H1 W)
/-- The fourth layer before normalisation. -/
def C4 : FVec Ideal S100000x32 .f32 := lin64_32 (HS W) (aggR64 (HS W) (src W) (dst W)) (W4l W) (b4l W) (W4r W)
/-- The fourth layer normalised. -/
def B4 : FVec Ideal S100000x32 .f32 := bn32 (C4 W) (g4 W) (be4 W)
/-- The class scores. -/
def LG : FVec Ideal S100000x2 .f32 := dense (elu32 (B4 W)) (Wc W) (bc W)

/-! ## Typed references read and written at their own type

  An outlined function's operations move values between a buffer's own type and the type the function states; for a
  literal buffer the two are one type and the move is the identity. -/

theorem ofBuf_toBuf {Val : EltTy → Type} {T : BufTy} (x : TRef sig T) (v : T.Contents Val) : x.ofBuf (x.toBuf v) = v := by
  obtain ⟨r, h, hd, hu⟩ := x
  subst h
  rfl

theorem ofBuf_v55 (p1 : main_v55.ty = (⟨S100000x64, .f32⟩ : BufTy)) (p2 : (main_v55 : Ref sig .tc).space ≠ .host)
    (p3 : (main_v55 : Ref sig .tc).isScoped = false) (v : FVec Ideal S100000x64 .f32) :
    (TRef.of main_v55 p1 p2 p3).ofBuf (Val := Elt Ideal) v = v := rfl

theorem toBuf_v55 (p1 : main_v55.ty = (⟨S100000x64, .f32⟩ : BufTy)) (p2 : (main_v55 : Ref sig .tc).space ≠ .host)
    (p3 : (main_v55 : Ref sig .tc).isScoped = false) (v : FVec Ideal S100000x64 .f32) :
    (TRef.of main_v55 p1 p2 p3).toBuf (Val := Elt Ideal) v = v := rfl

theorem ofBuf_v56 (p1 : main_v56.ty = (⟨S100000x64, .f32⟩ : BufTy)) (p2 : (main_v56 : Ref sig .tc).space ≠ .host)
    (p3 : (main_v56 : Ref sig .tc).isScoped = false) (v : FVec Ideal S100000x64 .f32) :
    (TRef.of main_v56 p1 p2 p3).ofBuf (Val := Elt Ideal) v = v := rfl

theorem toBuf_v56 (p1 : main_v56.ty = (⟨S100000x64, .f32⟩ : BufTy)) (p2 : (main_v56 : Ref sig .tc).space ≠ .host)
    (p3 : (main_v56 : Ref sig .tc).isScoped = false) (v : FVec Ideal S100000x64 .f32) :
    (TRef.of main_v56 p1 p2 p3).toBuf (Val := Elt Ideal) v = v := rfl

theorem ofBuf_v108 (p1 : main_v108.ty = (⟨S100000x128, .f32⟩ : BufTy)) (p2 : (main_v108 : Ref sig .tc).space ≠ .host)
    (p3 : (main_v108 : Ref sig .tc).isScoped = false) (v : FVec Ideal S100000x128 .f32) :
    (TRef.of main_v108 p1 p2 p3).ofBuf (Val := Elt Ideal) v = v := rfl

theorem toBuf_v108 (p1 : main_v108.ty = (⟨S100000x128, .f32⟩ : BufTy)) (p2 : (main_v108 : Ref sig .tc).space ≠ .host)
    (p3 : (main_v108 : Ref sig .tc).isScoped = false) (v : FVec Ideal S100000x128 .f32) :
    (TRef.of main_v108 p1 p2 p3).toBuf (Val := Elt Ideal) v = v := rfl

theorem ofBuf_v109 (p1 : main_v109.ty = (⟨S100000x128, .f32⟩ : BufTy)) (p2 : (main_v109 : Ref sig .tc).space ≠ .host)
    (p3 : (main_v109 : Ref sig .tc).isScoped = false) (v : FVec Ideal S100000x128 .f32) :
    (TRef.of main_v109 p1 p2 p3).ofBuf (Val := Elt Ideal) v = v := rfl

theorem toBuf_v109 (p1 : main_v109.ty = (⟨S100000x128, .f32⟩ : BufTy)) (p2 : (main_v109 : Ref sig .tc).space ≠ .host)
    (p3 : (main_v109 : Ref sig .tc).isScoped = false) (v : FVec Ideal S100000x128 .f32) :
    (TRef.of main_v109 p1 p2 p3).toBuf (Val := Elt Ideal) v = v := rfl

theorem ofBuf_v161 (p1 : main_v161.ty = (⟨S100000x64, .f32⟩ : BufTy)) (p2 : (main_v161 : Ref sig .tc).space ≠ .host)
    (p3 : (main_v161 : Ref sig .tc).isScoped = false) (v : FVec Ideal S100000x64 .f32) :
    (TRef.of main_v161 p1 p2 p3).ofBuf (Val := Elt Ideal) v = v := rfl

theorem toBuf_v161 (p1 : main_v161.ty = (⟨S100000x64, .f32⟩ : BufTy)) (p2 : (main_v161 : Ref sig .tc).space ≠ .host)
    (p3 : (main_v161 : Ref sig .tc).isScoped = false) (v : FVec Ideal S100000x64 .f32) :
    (TRef.of main_v161 p1 p2 p3).toBuf (Val := Elt Ideal) v = v := rfl

theorem ofBuf_v162 (p1 : main_v162.ty = (⟨S100000x64, .f32⟩ : BufTy)) (p2 : (main_v162 : Ref sig .tc).space ≠ .host)
    (p3 : (main_v162 : Ref sig .tc).isScoped = false) (v : FVec Ideal S100000x64 .f32) :
    (TRef.of main_v162 p1 p2 p3).ofBuf (Val := Elt Ideal) v = v := rfl

theorem toBuf_v162 (p1 : main_v162.ty = (⟨S100000x64, .f32⟩ : BufTy)) (p2 : (main_v162 : Ref sig .tc).space ≠ .host)
    (p3 : (main_v162 : Ref sig .tc).isScoped = false) (v : FVec Ideal S100000x64 .f32) :
    (TRef.of main_v162 p1 p2 p3).toBuf (Val := Elt Ideal) v = v := rfl

theorem ofBuf_v215 (p1 : main_v215.ty = (⟨S100000x32, .f32⟩ : BufTy)) (p2 : (main_v215 : Ref sig .tc).space ≠ .host)
    (p3 : (main_v215 : Ref sig .tc).isScoped = false) (v : FVec Ideal S100000x32 .f32) :
    (TRef.of main_v215 p1 p2 p3).ofBuf (Val := Elt Ideal) v = v := rfl

theorem toBuf_v215 (p1 : main_v215.ty = (⟨S100000x32, .f32⟩ : BufTy)) (p2 : (main_v215 : Ref sig .tc).space ≠ .host)
    (p3 : (main_v215 : Ref sig .tc).isScoped = false) (v : FVec Ideal S100000x32 .f32) :
    (TRef.of main_v215 p1 p2 p3).toBuf (Val := Elt Ideal) v = v := rfl

theorem ofBuf_v216 (p1 : main_v216.ty = (⟨S100000x32, .f32⟩ : BufTy)) (p2 : (main_v216 : Ref sig .tc).space ≠ .host)
    (p3 : (main_v216 : Ref sig .tc).isScoped = false) (v : FVec Ideal S100000x32 .f32) :
    (TRef.of main_v216 p1 p2 p3).ofBuf (Val := Elt Ideal) v = v := rfl

theorem toBuf_v216 (p1 : main_v216.ty = (⟨S100000x32, .f32⟩ : BufTy)) (p2 : (main_v216 : Ref sig .tc).space ≠ .host)
    (p3 : (main_v216 : Ref sig .tc).isScoped = false) (v : FVec Ideal S100000x32 .f32) :
    (TRef.of main_v216 p1 p2 p3).toBuf (Val := Elt Ideal) v = v := rfl

/-! ## The first cut -/

theorem r1_src : (R1 W (Proc.devRef .tc main_v1) : IVec S1600000 32) = src W := by
  show after (ops0 (F := Ideal)) W (Proc.devRef .tc main_v1) = _
  after_results_simp
  rfl

theorem r1_dst : (R1 W (Proc.devRef .tc main_v3) : IVec S1600000 32) = dst W := by
  show after (ops0 (F := Ideal)) W (Proc.devRef .tc main_v3) = _
  after_results_simp
  rfl

theorem r1_cen : (R1 W (Proc.devRef .tc main_v43) : FVec Ideal S100000x64 .f32) = cen64 (C1 W) := by
  show after (ops0 (F := Ideal)) W (Proc.devRef .tc main_v43) = _
  after_results_simp
  rfl

theorem r1_rstd : (R1 W (Proc.devRef .tc main_v48) : FVec Ideal S100000x64 .f32) = row64 (rstd64 (C1 W)) := by
  show after (ops0 (F := Ideal)) W (Proc.devRef .tc main_v48) = _
  after_results_simp
  rfl

/-! ## The second cut -/

theorem r2_src : (R2 W (Proc.devRef .tc main_v1) : IVec S1600000 32) = src W :=
  (after_of_writes_sub ops1 _ ops1_writes (by decide)).trans (r1_src W)

theorem r2_dst : (R2 W (Proc.devRef .tc main_v3) : IVec S1600000 32) = dst W :=
  (after_of_writes_sub ops1 _ ops1_writes (by decide)).trans (r1_dst W)

/-- The first layer's output. -/
theorem r2_H1 : (R2 W (Proc.devRef .tc main_v56) : FVec Ideal S100000x64 .f32) = H1 W := by
  show after (ops1 (F := Ideal)) (R1 W) (Proc.devRef .tc main_v56) = _
  after_results_simp
  try simp only [ofBuf_toBuf, ofBuf_v55, toBuf_v56, ofBuf_v108, toBuf_v109, ofBuf_v161, toBuf_v162, ofBuf_v215, toBuf_v216]
  try simp only [r1_src W, r1_dst W, r1_cen W, r1_rstd W, keep1 W main_arg5 (by decide), keep1 W main_arg6 (by decide), keep1 W main_arg7 (by decide), keep1 W main_arg8 (by decide), keep1 W main_arg9 (by decide)]
  try rfl

/-- The second layer centred. -/
theorem r2_cen : (R2 W (Proc.devRef .tc main_v96) : FVec Ideal S100000x128 .f32) = cen128 (C2 W) := by
  show after (ops1 (F := Ideal)) (R1 W) (Proc.devRef .tc main_v96) = _
  after_results_simp
  try simp only [ofBuf_toBuf, ofBuf_v55, toBuf_v56, ofBuf_v108, toBuf_v109, ofBuf_v161, toBuf_v162, ofBuf_v215, toBuf_v216]
  try simp only [r1_src W, r1_dst W, r1_cen W, r1_rstd W, keep1 W main_arg5 (by decide), keep1 W main_arg6 (by decide), keep1 W main_arg7 (by decide), keep1 W main_arg8 (by decide), keep1 W main_arg9 (by decide)]
  try rfl

/-- The second layer's column variances. -/
theorem r2_var : (R2 W (Proc.devRef .tc main_v93) : FVec Ideal S128 .f32) = var128 (C2 W) := by
  show after (ops1 (F := Ideal)) (R1 W) (Proc.devRef .tc main_v93) = _
  after_results_simp
  try simp only [ofBuf_toBuf, ofBuf_v55, toBuf_v56, ofBuf_v108, toBuf_v109, ofBuf_v161, toBuf_v162, ofBuf_v215, toBuf_v216]
  try simp only [r1_src W, r1_dst W, r1_cen W, r1_rstd W, keep1 W main_arg5 (by decide), keep1 W main_arg6 (by decide), keep1 W main_arg7 (by decide), keep1 W main_arg8 (by decide), keep1 W main_arg9 (by decide)]
  try rfl

/-- The stabiliser as a vector of width 128. -/
theorem r2_eps : (R2 W (Proc.devRef .tc main_v97) : FVec Ideal S128 .f32)
    = broadcastInDim S128 ![] Facts₀.bcast_S_S128 (constant (F := Ideal) S_ .f32 0x3727C5AC#32) := by
  show after (ops1 (F := Ideal)) (R1 W) (Proc.devRef .tc main_v97) = _
  after_results_simp
  try simp only [ofBuf_toBuf, ofBuf_v55, toBuf_v56, ofBuf_v108, toBuf_v109, ofBuf_v161, toBuf_v162, ofBuf_v215, toBuf_v216]
  try simp only [r1_src W, r1_dst W, r1_cen W, r1_rstd W, keep1 W main_arg5 (by decide), keep1 W main_arg6 (by decide), keep1 W main_arg7 (by decide), keep1 W main_arg8 (by decide), keep1 W main_arg9 (by decide)]
  try rfl

/-! ## The third cut -/

theorem r3_src : (R3 W (Proc.devRef .tc main_v1) : IVec S1600000 32) = src W :=
  (after_of_writes_sub ops2 _ ops2_writes (by decide)).trans (r2_src W)

theorem r3_dst : (R3 W (Proc.devRef .tc main_v3) : IVec S1600000 32) = dst W :=
  (after_of_writes_sub ops2 _ ops2_writes (by decide)).trans (r2_dst W)

theorem r3_H1 : (R3 W (Proc.devRef .tc main_v56) : FVec Ideal S100000x64 .f32) = H1 W :=
  (after_of_writes_sub ops2 _ ops2_writes (by decide)).trans (r2_H1 W)

/-- The third layer before normalisation. -/
theorem r3_C3 : (R3 W (Proc.devRef .tc main_v136) : FVec Ideal S100000x64 .f32) = C3 W := by
  show after (ops2 (F := Ideal)) (R2 W) (Proc.devRef .tc main_v136) = _
  after_results_simp
  try simp only [ofBuf_toBuf, ofBuf_v55, toBuf_v56, ofBuf_v108, toBuf_v109, ofBuf_v161, toBuf_v162, ofBuf_v215, toBuf_v216]
  try simp only [r2_src W, r2_dst W, r2_H1 W, r2_cen W, r2_var W, r2_eps W, keep2 W main_arg10 (by decide) (by decide), keep2 W main_arg11 (by decide) (by decide), keep2 W main_arg12 (by decide) (by decide), keep2 W main_arg13 (by decide) (by decide), keep2 W main_arg14 (by decide) (by decide)]
  try rfl

/-- Its column variances. -/
theorem r3_var : (R3 W (Proc.devRef .tc main_v146) : FVec Ideal S64 .f32) = var64 (C3 W) := by
  show after (ops2 (F := Ideal)) (R2 W) (Proc.devRef .tc main_v146) = _
  after_results_simp
  try simp only [ofBuf_toBuf, ofBuf_v55, toBuf_v56, ofBuf_v108, toBuf_v109, ofBuf_v161, toBuf_v162, ofBuf_v215, toBuf_v216]
  try simp only [r2_src W, r2_dst W, r2_H1 W, r2_cen W, r2_var W, r2_eps W, keep2 W main_arg10 (by decide) (by decide), keep2 W main_arg11 (by decide) (by decide), keep2 W main_arg12 (by decide) (by decide), keep2 W main_arg13 (by decide) (by decide), keep2 W main_arg14 (by decide) (by decide)]
  try rfl

/-- Its column means, as a row. -/
theorem r3_mu : (R3 W (Proc.devRef .tc main_v147) : FVec Ideal S1x64 .f32)
    = broadcastInDim S1x64 ![1] Facts₀.bcast_S64_S1x64_1 (mu64 (C3 W)) := by
  show after (ops2 (F := Ideal)) (R2 W) (Proc.devRef .tc main_v147) = _
  after_results_simp
  try simp only [ofBuf_toBuf, ofBuf_v55, toBuf_v56, ofBuf_v108, toBuf_v109, ofBuf_v161, toBuf_v162, ofBuf_v215, toBuf_v216]
  try simp only [r2_src W, r2_dst W, r2_H1 W, r2_cen W, r2_var W, r2_eps W, keep2 W main_arg10 (by decide) (by decide), keep2 W main_arg11 (by decide) (by decide), keep2 W main_arg12 (by decide) (by decide), keep2 W main_arg13 (by decide) (by decide), keep2 W main_arg14 (by decide) (by decide)]
  try rfl

/-! ## The fourth cut -/

/-- The fourth layer before normalisation. -/
theorem r4_C4 : (R4 W (Proc.devRef .tc main_v190) : FVec Ideal S100000x32 .f32) = C4 W := by
  show after (ops3 (F := Ideal)) (R3 W) (Proc.devRef .tc main_v190) = _
  after_results_simp
  try simp only [ofBuf_toBuf, ofBuf_v55, toBuf_v56, ofBuf_v108, toBuf_v109, ofBuf_v161, toBuf_v162, ofBuf_v215, toBuf_v216]
  try simp only [r3_src W, r3_dst W, r3_H1 W, r3_C3 W, r3_var W, r3_mu W, keep3 W main_arg15 (by decide) (by decide) (by decide), keep3 W main_arg16 (by decide) (by decide) (by decide), keep3 W main_arg17 (by decide) (by decide) (by decide), keep3 W main_arg18 (by decide) (by decide) (by decide), keep3 W main_arg19 (by decide) (by decide) (by decide)]
  try rfl

/-- Its column means. -/
theorem r4_mu : (R4 W (Proc.devRef .tc main_v193) : FVec Ideal S32 .f32) = mu32 (C4 W) := by
  show after (ops3 (F := Ideal)) (R3 W) (Proc.devRef .tc main_v193) = _
  after_results_simp
  try simp only [ofBuf_toBuf, ofBuf_v55, toBuf_v56, ofBuf_v108, toBuf_v109, ofBuf_v161, toBuf_v162, ofBuf_v215, toBuf_v216]
  try simp only [r3_src W, r3_dst W, r3_H1 W, r3_C3 W, r3_var W, r3_mu W, keep3 W main_arg15 (by decide) (by decide) (by decide), keep3 W main_arg16 (by decide) (by decide) (by decide), keep3 W main_arg17 (by decide) (by decide) (by decide), keep3 W main_arg18 (by decide) (by decide) (by decide), keep3 W main_arg19 (by decide) (by decide) (by decide)]
  try rfl

/-- Its centred entries squared. -/
theorem r4_sq : (R4 W (Proc.devRef .tc main_v197) : FVec Ideal S100000x32 .f32) = mulf (cen32 (C4 W)) (cen32 (C4 W)) := by
  show after (ops3 (F := Ideal)) (R3 W) (Proc.devRef .tc main_v197) = _
  after_results_simp
  try simp only [ofBuf_toBuf, ofBuf_v55, toBuf_v56, ofBuf_v108, toBuf_v109, ofBuf_v161, toBuf_v162, ofBuf_v215, toBuf_v216]
  try simp only [r3_src W, r3_dst W, r3_H1 W, r3_C3 W, r3_var W, r3_mu W, keep3 W main_arg15 (by decide) (by decide) (by decide), keep3 W main_arg16 (by decide) (by decide) (by decide), keep3 W main_arg17 (by decide) (by decide) (by decide), keep3 W main_arg18 (by decide) (by decide) (by decide), keep3 W main_arg19 (by decide) (by decide) (by decide)]
  try rfl

/-- The zero the column sums start from. -/
theorem r4_zero : (R4 W (Proc.devRef .tc main_cst_39) : FVec Ideal S_ .f32) = constant (F := Ideal) S_ .f32 0x00000000#32 := by
  show after (ops3 (F := Ideal)) (R3 W) (Proc.devRef .tc main_cst_39) = _
  after_results_simp
  try simp only [ofBuf_toBuf, ofBuf_v55, toBuf_v56, ofBuf_v108, toBuf_v109, ofBuf_v161, toBuf_v162, ofBuf_v215, toBuf_v216]
  try simp only [r3_src W, r3_dst W, r3_H1 W, r3_C3 W, r3_var W, r3_mu W, keep3 W main_arg15 (by decide) (by decide) (by decide), keep3 W main_arg16 (by decide) (by decide) (by decide), keep3 W main_arg17 (by decide) (by decide) (by decide), keep3 W main_arg18 (by decide) (by decide) (by decide), keep3 W main_arg19 (by decide) (by decide) (by decide)]
  try rfl

/-! ## The three results -/

/-- The second result: the fourth layer before normalisation. -/
theorem end_C4 : (R5 W (Proc.devRef .tc main_v190) : FVec Ideal S100000x32 .f32) = C4 W :=
  (after_of_writes_sub ops4 _ ops4_writes (by decide)).trans (r4_C4 W)

/-- The third result: the fourth layer normalised. -/
theorem end_B4 : (R5 W (Proc.devRef .tc main_v215) : FVec Ideal S100000x32 .f32) = B4 W := by
  show after (ops4 (F := Ideal)) (R4 W) (Proc.devRef .tc main_v215) = _
  after_results_simp
  try simp only [ofBuf_toBuf, ofBuf_v55, toBuf_v56, ofBuf_v108, toBuf_v109, ofBuf_v161, toBuf_v162, ofBuf_v215, toBuf_v216]
  try simp only [r4_C4 W, r4_mu W, r4_sq W, r4_zero W, keep4 W main_arg20 (by decide) (by decide) (by decide) (by decide), keep4 W main_arg21 (by decide) (by decide) (by decide) (by decide), keep4 W main_arg22 (by decide) (by decide) (by decide) (by decide), keep4 W main_arg23 (by decide) (by decide) (by decide) (by decide)]
  try rfl

/-- The first result: the class scores. -/
theorem end_LG : (R5 W (Proc.devRef .tc main_v221) : FVec Ideal S100000x2 .f32) = LG W := by
  show after (ops4 (F := Ideal)) (R4 W) (Proc.devRef .tc main_v221) = _
  after_results_simp
  try simp only [ofBuf_toBuf, ofBuf_v55, toBuf_v56, ofBuf_v108, toBuf_v109, ofBuf_v161, toBuf_v162, ofBuf_v215, toBuf_v216]
  try simp only [r4_C4 W, r4_mu W, r4_sq W, r4_zero W, keep4 W main_arg20 (by decide) (by decide) (by decide) (by decide), keep4 W main_arg21 (by decide) (by decide) (by decide) (by decide), keep4 W main_arg22 (by decide) (by decide) (by decide) (by decide), keep4 W main_arg23 (by decide) (by decide) (by decide) (by decide)]
  try rfl

end Cert.ReferenceIdeal.RefVals

end
-- ==== Proof.lean ====
/-
  The certificate of a four-layer graph network against its reference.

  The kernel program interleaves host operations (the gather of every edge's source row, the scatter-add onto its
  target row, the column statistics) with nine pipelined regions (the affine map of each layer, its batch normalisation
  and exponential linear unit, the classifier); the reference does everything with host operations.  At the exact
  reading of the floats the two compute the same arrays:

  * the mean over the in-neighbours is the neighbourhood sum times the reciprocal of the in-degree clipped below at one
    in the kernel program, the sum divided by that number in the reference; the in-degree is a finite sum of ones, a real
    number, so the clipped value is a nonzero real and the two agree on every extended real;
  * the affine map adds its three terms in two different orders; addition on the extended reals is commutative and
    associative;
  * the kernel's matrix product into a zero accumulator and the reference's product are the same sum over the contracted index; the narrowing
    of the operands is the identity at this reading;
  * the exponential linear unit is spelled exp(b) - 1 in the kernel and, in the reference, as one times the
    exponential-minus-one of an exponent guarded by a second selection, which is the same function.

  No step needs the inputs to be finite.  The three frames are the generated frame certificates (for the reference,
  its run with the results dropped); nothing was rewritten by the idealization, so there is nothing to preserve.
  For the equivalence the kernel's own final values are the witnesses: the kernel's run names its results at the
  last boundary of the fold of its buffer contents, the reference's run names its results at the fold of its
  operations, and the two folds are walked layer by layer to the same terms of arguments that agree.
-/
import proofs.«150843_j12429635355189_1_alg».proof.Defs
import proofs.«150843_j12429635355189_1_alg».proof.Proof.Gen.Kernel
import proofs.«150843_j12429635355189_1_alg».proof.Proof.Gen.Kernel.Frame
import proofs.«150843_j12429635355189_1_alg».proof.Proof.Gen.KernelIdeal
import proofs.«150843_j12429635355189_1_alg».proof.Proof.Gen.KernelIdeal.Frame
import proofs.«150843_j12429635355189_1_alg».proof.Proof.Gen.ReferenceIdeal
import proofs.«150843_j12429635355189_1_alg».proof.Proof.Gen.Pre_finite_inputs
import proofs.«150843_j12429635355189_1_alg».proof.Proof.KFinal
import proofs.«150843_j12429635355189_1_alg».proof.Proof.KLayers
import proofs.«150843_j12429635355189_1_alg».proof.Proof.RefRun
import proofs.«150843_j12429635355189_1_alg».proof.Proof.RefVals
import Idealize.ShloMosaic.Adequacy
import Idealize.ShloMosaic.Init

set_option maxRecDepth 16384

noncomputable section

namespace Cert.Proof

open Idealize.ShloMosaic Idealize.SL.Sem Idealize.ShloMosaic.TcCoe
open Cert.ReferenceIdeal.Terms

/-! ## The two folds meet -/

/-- From launch memories that agree on the arguments, the reference's three result terms are the kernel's three
    final arrays: layer by layer, the reference's term of a layer is the kernel's array after that layer. -/
theorem bridge (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.RefVals.LG (StableHlo.launchContents m' c) = Cert.KernelIdeal.Gen.W18 m ρ c (Proc.devRef .tc Cert.KernelIdeal.main_v134)
    ∧ Cert.ReferenceIdeal.RefVals.C4 (StableHlo.launchContents m' c) = Cert.KernelIdeal.Gen.W18 m ρ c (Proc.devRef .tc Cert.KernelIdeal.main_v117)
    ∧ Cert.ReferenceIdeal.RefVals.B4 (StableHlo.launchContents m' c) = Cert.KernelIdeal.Gen.W18 m ρ c (Proc.devRef .tc Cert.KernelIdeal.main_v132_0) := by
  have a0 : Cert.ReferenceIdeal.RefVals.aX (StableHlo.launchContents m' c) = m ((c.tc : Thread Cert.KernelIdeal.nD Cert.KernelIdeal.τ).loc Cert.KernelIdeal.main_arg0) := e0
  have a1 : Cert.ReferenceIdeal.RefVals.aE (StableHlo.launchContents m' c) = m ((c.tc : Thread Cert.KernelIdeal.nD Cert.KernelIdeal.τ).loc Cert.KernelIdeal.main_arg1) := e1
  have a2 : Cert.ReferenceIdeal.RefVals.W1l (StableHlo.launchContents m' c) = m ((c.tc : Thread Cert.KernelIdeal.nD Cert.KernelIdeal.τ).loc Cert.KernelIdeal.main_arg2) := e2
  have a3 : Cert.ReferenceIdeal.RefVals.b1l (StableHlo.launchContents m' c) = m ((c.tc : Thread Cert.KernelIdeal.nD Cert.KernelIdeal.τ).loc Cert.KernelIdeal.main_arg3) := e3
  have a4 : Cert.ReferenceIdeal.RefVals.W1r (StableHlo.launchContents m' c) = m ((c.tc : Thread Cert.KernelIdeal.nD Cert.KernelIdeal.τ).loc Cert.KernelIdeal.main_arg4) := e4
  have a5 : Cert.ReferenceIdeal.RefVals.g1 (StableHlo.launchContents m' c) = m ((c.tc : Thread Cert.KernelIdeal.nD Cert.KernelIdeal.τ).loc Cert.KernelIdeal.main_arg5) := e5
  have a6 : Cert.ReferenceIdeal.RefVals.be1 (StableHlo.launchContents m' c) = m ((c.tc : Thread Cert.KernelIdeal.nD Cert.KernelIdeal.τ).loc Cert.KernelIdeal.main_arg6) := e6
  have a7 : Cert.ReferenceIdeal.RefVals.W2l (StableHlo.launchContents m' c) = m ((c.tc : Thread Cert.KernelIdeal.nD Cert.KernelIdeal.τ).loc Cert.KernelIdeal.main_arg7) := e7
  have a8 : Cert.ReferenceIdeal.RefVals.b2l (StableHlo.launchContents m' c) = m ((c.tc : Thread Cert.KernelIdeal.nD Cert.KernelIdeal.τ).loc Cert.KernelIdeal.main_arg8) := e8
  have a9 : Cert.ReferenceIdeal.RefVals.W2r (StableHlo.launchContents m' c) = m ((c.tc : Thread Cert.KernelIdeal.nD Cert.KernelIdeal.τ).loc Cert.KernelIdeal.main_arg9) := e9
  have a10 : Cert.ReferenceIdeal.RefVals.g2 (StableHlo.launchContents m' c) = m ((c.tc : Thread Cert.KernelIdeal.nD Cert.KernelIdeal.τ).loc Cert.KernelIdeal.main_arg10) := e10
  have a11 : Cert.ReferenceIdeal.RefVals.be2 (StableHlo.launchContents m' c) = m ((c.tc : Thread Cert.KernelIdeal.nD Cert.KernelIdeal.τ).loc Cert.KernelIdeal.main_arg11) := e11
  have a12 : Cert.ReferenceIdeal.RefVals.W3l (StableHlo.launchContents m' c) = m ((c.tc : Thread Cert.KernelIdeal.nD Cert.KernelIdeal.τ).loc Cert.KernelIdeal.main_arg12) := e12
  have a13 : Cert.ReferenceIdeal.RefVals.b3l (StableHlo.launchContents m' c) = m ((c.tc : Thread Cert.KernelIdeal.nD Cert.KernelIdeal.τ).loc Cert.KernelIdeal.main_arg13) := e13
  have a14 : Cert.ReferenceIdeal.RefVals.W3r (StableHlo.launchContents m' c) = m ((c.tc : Thread Cert.KernelIdeal.nD Cert.KernelIdeal.τ).loc Cert.KernelIdeal.main_arg14) := e14
  have a15 : Cert.ReferenceIdeal.RefVals.g3 (StableHlo.launchContents m' c) = m ((c.tc : Thread Cert.KernelIdeal.nD Cert.KernelIdeal.τ).loc Cert.KernelIdeal.main_arg15) := e15
  have a16 : Cert.ReferenceIdeal.RefVals.be3 (StableHlo.launchContents m' c) = m ((c.tc : Thread Cert.KernelIdeal.nD Cert.KernelIdeal.τ).loc Cert.KernelIdeal.main_arg16) := e16
  have a17 : Cert.ReferenceIdeal.RefVals.W4l (StableHlo.launchContents m' c) = m ((c.tc : Thread Cert.KernelIdeal.nD Cert.KernelIdeal.τ).loc Cert.KernelIdeal.main_arg17) := e17
  have a18 : Cert.ReferenceIdeal.RefVals.b4l (StableHlo.launchContents m' c) = m ((c.tc : Thread Cert.KernelIdeal.nD Cert.KernelIdeal.τ).loc Cert.KernelIdeal.main_arg18) := e18
  have a19 : Cert.ReferenceIdeal.RefVals.W4r (StableHlo.launchContents m' c) = m ((c.tc : Thread Cert.KernelIdeal.nD Cert.KernelIdeal.τ).loc Cert.KernelIdeal.main_arg19) := e19
  have a20 : Cert.ReferenceIdeal.RefVals.g4 (StableHlo.launchContents m' c) = m ((c.tc : Thread Cert.KernelIdeal.nD Cert.KernelIdeal.τ).loc Cert.KernelIdeal.main_arg20) := e20
  have a21 : Cert.ReferenceIdeal.RefVals.be4 (StableHlo.launchContents m' c) = m ((c.tc : Thread Cert.KernelIdeal.nD Cert.KernelIdeal.τ).loc Cert.KernelIdeal.main_arg21) := e21
  have a22 : Cert.ReferenceIdeal.RefVals.Wc (StableHlo.launchContents m' c) = m ((c.tc : Thread Cert.KernelIdeal.nD Cert.KernelIdeal.τ).loc Cert.KernelIdeal.main_arg22) := e22
  have a23 : Cert.ReferenceIdeal.RefVals.bc (StableHlo.launchContents m' c) = m ((c.tc : Thread Cert.KernelIdeal.nD Cert.KernelIdeal.τ).loc Cert.KernelIdeal.main_arg23) := e23
  have hsrc : Cert.ReferenceIdeal.RefVals.src (StableHlo.launchContents m' c) = srcV (m ((c.tc : Thread Cert.KernelIdeal.nD Cert.KernelIdeal.τ).loc Cert.KernelIdeal.main_arg1)) := by unfold Cert.ReferenceIdeal.RefVals.src; rw [a1]
  have hdst : Cert.ReferenceIdeal.RefVals.dst (StableHlo.launchContents m' c) = dstV (m ((c.tc : Thread Cert.KernelIdeal.nD Cert.KernelIdeal.τ).loc Cert.KernelIdeal.main_arg1)) := by unfold Cert.ReferenceIdeal.RefVals.dst; rw [a1]
  have hC1 : Cert.ReferenceIdeal.RefVals.C1 (StableHlo.launchContents m' c) = Cert.KernelIdeal.Gen.W2 m ρ c (Proc.devRef .tc Cert.KernelIdeal.main_v26) := by
    rw [Cert.KernelIdeal.KLayers.conv1 m ρ c]; unfold Cert.ReferenceIdeal.RefVals.C1; rw [a0, hsrc, hdst, a2, a3, a4]
  have hH1 : Cert.ReferenceIdeal.RefVals.H1 (StableHlo.launchContents m' c) = Cert.KernelIdeal.Gen.W4 m ρ c (Proc.devRef .tc Cert.KernelIdeal.main_v41_1) := by
    rw [Cert.KernelIdeal.KLayers.act_1 m ρ c, ← hC1]; unfold Cert.ReferenceIdeal.RefVals.H1; rw [a5, a6]
  have hC2 : Cert.ReferenceIdeal.RefVals.C2 (StableHlo.launchContents m' c) = Cert.KernelIdeal.Gen.W6 m ρ c (Proc.devRef .tc Cert.KernelIdeal.main_v56) := by
    rw [Cert.KernelIdeal.KLayers.conv2 m ρ c, ← hH1]; unfold Cert.ReferenceIdeal.RefVals.C2; rw [hsrc, hdst, a7, a8, a9]
  have hH2 : Cert.ReferenceIdeal.RefVals.H2 (StableHlo.launchContents m' c) = Cert.KernelIdeal.Gen.W8 m ρ c (Proc.devRef .tc Cert.KernelIdeal.main_v71_1) := by
    rw [Cert.KernelIdeal.KLayers.act_3 m ρ c, ← hC2]; unfold Cert.ReferenceIdeal.RefVals.H2; rw [a10, a11]
  have hC3 : Cert.ReferenceIdeal.RefVals.C3 (StableHlo.launchContents m' c) = Cert.KernelIdeal.Gen.W10 m ρ c (Proc.devRef .tc Cert.KernelIdeal.main_v86) := by
    rw [Cert.KernelIdeal.KLayers.conv3 m ρ c, ← hH2]; unfold Cert.ReferenceIdeal.RefVals.C3; rw [hsrc, hdst, a12, a13, a14]
  have hH3 : Cert.ReferenceIdeal.RefVals.H3 (StableHlo.launchContents m' c) = Cert.KernelIdeal.Gen.W12 m ρ c (Proc.devRef .tc Cert.KernelIdeal.main_v101_1) := by
    rw [Cert.KernelIdeal.KLayers.act_5 m ρ c, ← hC3]; unfold Cert.ReferenceIdeal.RefVals.H3; rw [a15, a16]
  have hC4 : Cert.ReferenceIdeal.RefVals.C4 (StableHlo.launchContents m' c) = Cert.KernelIdeal.Gen.W14 m ρ c (Proc.devRef .tc Cert.KernelIdeal.main_v117) := by
    rw [Cert.KernelIdeal.KLayers.conv4 m ρ c, ← hH3, ← hH1]; unfold Cert.ReferenceIdeal.RefVals.C4 Cert.ReferenceIdeal.RefVals.HS
    rw [hsrc, hdst, a17, a18, a19]
  have hB4 : Cert.ReferenceIdeal.RefVals.B4 (StableHlo.launchContents m' c) = Cert.KernelIdeal.Gen.W16 m ρ c (Proc.devRef .tc Cert.KernelIdeal.main_v132_0) := by
    rw [Cert.KernelIdeal.KLayers.bn_7 m ρ c, ← hC4]; unfold Cert.ReferenceIdeal.RefVals.B4; rw [a20, a21]
  have hH4 : elu32 (Cert.ReferenceIdeal.RefVals.B4 (StableHlo.launchContents m' c)) = Cert.KernelIdeal.Gen.W16 m ρ c (Proc.devRef .tc Cert.KernelIdeal.main_v132_1) := by
    rw [Cert.KernelIdeal.KLayers.act_7 m ρ c, ← hC4]; unfold Cert.ReferenceIdeal.RefVals.B4; rw [a20, a21]
  have hLG : Cert.ReferenceIdeal.RefVals.LG (StableHlo.launchContents m' c) = Cert.KernelIdeal.Gen.W18 m ρ c (Proc.devRef .tc Cert.KernelIdeal.main_v134) := by
    rw [Cert.KernelIdeal.KLayers.logits m ρ c, ← hH4]; unfold Cert.ReferenceIdeal.RefVals.LG; rw [a22, a23]
  exact ⟨hLG, hC4.trans (Cert.KernelIdeal.KChain.W18_v117 m ρ c).symm,
    hB4.trans (Cert.KernelIdeal.KChain.W18_v132_0 m ρ c).symm⟩

/-! ## The claims -/

theorem frame_p : Cert.frame_Kernel := fun m ρ _ => Cert.Kernel.Gen.frame m ρ

theorem frame_pi : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The two idealized programs, from memories agreeing on the arguments, both run and end with equal results: the
    kernel's final arrays are the witnesses, and the reference's results are those arrays by the bridge. -/
theorem algebraic : Cert.algebraic_KernelIdeal_ReferenceIdeal := by
  intro m ρ m' ρ' _ hagree
  refine ⟨fun c => Cert.KernelIdeal.Gen.W18 m ρ c (Proc.devRef .tc Cert.KernelIdeal.main_v134), fun c => Cert.KernelIdeal.Gen.W18 m ρ c (Proc.devRef .tc Cert.KernelIdeal.main_v117), fun c => Cert.KernelIdeal.Gen.W18 m ρ c (Proc.devRef .tc Cert.KernelIdeal.main_v132_0),
    Cert.KernelIdeal.KFinal.run (F := Ideal) m ρ, ?_⟩
  refine (θ_run Cert.ReferenceIdeal.defs _ _).mono (fun r h c => ?_) (Cert.ReferenceIdeal.RefRun.run (F := Ideal) m' ρ')
  obtain ⟨⟨h1, h2, h3⟩, hargs⟩ := h c
  obtain ⟨E0, E1, E2, E3, E4, E5, E6, E7, E8, E9, E10, E11, E12, E13, E14, E15, E16, E17, E18, E19, E20, E21, E22, E23⟩ := hagree c
  obtain ⟨b1, b2, b3⟩ := bridge m ρ m' c E0 E1 E2 E3 E4 E5 E6 E7 E8 E9 E10 E11 E12 E13 E14 E15 E16 E17 E18 E19 E20 E21 E22 E23
  refine ⟨h1.trans ?_, h2.trans ?_, h3.trans ?_, hargs⟩
  · rw [Cert.ReferenceIdeal.RefVals.after_ops, Cert.ReferenceIdeal.RefVals.end_LG]; exact b1
  · rw [Cert.ReferenceIdeal.RefVals.after_ops, Cert.ReferenceIdeal.RefVals.end_C4]; exact b2
  · rw [Cert.ReferenceIdeal.RefVals.after_ops, Cert.ReferenceIdeal.RefVals.end_B4]; exact b3

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
